-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v112)) (v1 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_v137) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_v215) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x1000000 : Shape := ⟨2, ![2, 1000000]⟩
abbrev S1000000x16 : Shape := ⟨2, ![1000000, 16]⟩
abbrev S32x64 : Shape := ⟨2, ![32, 64]⟩
abbrev S64 : Shape := ⟨1, ![64]⟩
abbrev S16x64 : Shape := ⟨2, ![16, 64]⟩
abbrev S2x64x64 : Shape := ⟨3, ![2, 64, 64]⟩
abbrev S2x64 : Shape := ⟨2, ![2, 64]⟩
abbrev S2x192x64 : Shape := ⟨3, ![2, 192, 64]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S2x192x64 : S_.BroadcastsInDim S2x192x64 (![] : Fin 0 → Fin S2x192x64.rank)
  reducesTo_S2x192x64_S_d0_1_2 : S2x192x64.ReducesTo [0, 1, 2] S_

variable [Facts]

def fn_part5 {F : FTy → Type} [FloatOps F] (main_v83 : IVec S_ 1) (main_v84 : FVec F S2x64 .f32) (main_cst_32 : FVec F S_ .f32) : IVec S_ 1 :=
  let main_v85 : FVec F S2x64 .f32 := broadcastInDim S2x64 ![] bcast_S_S2x64 main_cst_32
  let main_v86 : IVec S2x64 1 := cmpf .olt main_v84 main_v85
  let main_c_33 : IVec S_ 1 := constantI S_ 1 1#1
  let main_v87 : IVec S_ 1 := (fun x v => Host.reduce IntOp.andi x v reducesTo_S2x64_S_d0_1 h_S_) main_v86 main_c_33
  let main_v88 : IVec S_ 1 := andi main_v83 main_v87
  main_v88

def fn_part4 {F : FTy → Type} [FloatOps F] (main_arg15 : FVec F S2x64x64 .f32) (main_arg16 : FVec F S2x64 .f32) (main_arg17 : FVec F S2x64 .f32) (main_arg18 : FVec F S2x64 .f32) (main_v63 : IVec S_ 1) (main_v67 : IVec S_ 1) : IVec S_ 1 :=
  let main_v68 : IVec S_ 1 := andi main_v63 main_v67
  let main_v69 : FVec F S2x64x64 .f32 := Host.absf main_arg15
  let main_cst_26 : FVec F S_ .f32 := constant S_ .f32 0x7F800000#32
  let main_v70 : FVec F S2x64x64 .f32 := broadcastInDim S2x64x64 ![] bcast_S_S2x64x64 main_cst_26
  let main_v71 : IVec S2x64x64 1 := cmpf .olt main_v69 main_v70
  let main_c_27 : IVec S_ 1 := constantI S_ 1 1#1
  let main_v72 : IVec S_ 1 := (fun x v => Host.reduce IntOp.andi x v reducesTo_S2x64x64_S_d0_1_2 h_S_) main_v71 main_c_27
  let main_v73 : IVec S_ 1 := andi main_v68 main_v72
  let main_v74 : FVec F S2x64 .f32 := Host.absf main_arg16
  let main_cst_28 : FVec F S_ .f32 := constant S_ .f32 0x7F800000#32
  let main_v75 : FVec F S2x64 .f32 := broadcastInDim S2x64 ![] bcast_S_S2x64 main_cst_28
  let main_v76 : IVec S2x64 1 := cmpf .olt main_v74 main_v75
  let main_c_29 : IVec S_ 1 := constantI S_ 1 1#1
  let main_v77 : IVec S_ 1 := (fun x v => Host.reduce IntOp.andi x v reducesTo_S2x64_S_d0_1 h_S_) main_v76 main_c_29
  let main_v78 : IVec S_ 1 := andi main_v73 main_v77
  let main_v79 : FVec F S2x64 .f32 := Host.absf main_arg17
  let main_cst_30 : FVec F S_ .f32 := constant S_ .f32 0x7F800000#32
  let main_v80 : FVec F S2x64 .f32 := broadcastInDim S2x64 ![] bcast_S_S2x64 main_cst_30
  let main_v81 : IVec S2x64 1 := cmpf .olt main_v79 main_v80
  let main_c_31 : IVec S_ 1 := constantI S_ 1 1#1
  let main_v82 : IVec S_ 1 := (fun x v => Host.reduce IntOp.andi x v reducesTo_S2x64_S_d0_1 h_S_) main_v81 main_c_31
  let main_v83 : IVec S_ 1 := andi main_v78 main_v82
  let main_v84 : FVec F S2x64 .f32 := Host.absf main_arg18
  let main_cst_32 : FVec F S_ .f32 := constant S_ .f32 0x7F800000#32
  fn_part5 (F := F) main_v83 main_v84 main_cst_32

def fn_part3 {F : FTy → Type} [FloatOps F] (main_arg12 : FVec F S2x64 .f32) (main_arg13 : FVec F S2x192x64 .f32) (main_arg14 : FVec F S2x64 .f32) (main_arg15 : FVec F S2x64x64 .f32) (main_arg16 : FVec F S2x64 .f32) (main_arg17 : FVec F S2x64 .f32) (main_arg18 : FVec F S2x64 .f32) (main_v48 : IVec S_ 1) (main_v49 : FVec F S2x64x64 .f32) (main_v50 : FVec F S2x64x64 .f32) : IVec S_ 1 :=
  let main_v51 : IVec S2x64x64 1 := cmpf .olt main_v49 main_v50
  let main_c_19 : IVec S_ 1 := constantI S_ 1 1#1
  let main_v52 : IVec S_ 1 := (fun x v => Host.reduce IntOp.andi x v reducesTo_S2x64x64_S_d0_1_2 h_S_) main_v51 main_c_19
  let main_v53 : IVec S_ 1 := andi main_v48 main_v52
  let main_v54 : FVec F S2x64 .f32 := Host.absf main_arg12
  let main_cst_20 : FVec F S_ .f32 := constant S_ .f32 0x7F800000#32
  let main_v55 : FVec F S2x64 .f32 := broadcastInDim S2x64 ![] bcast_S_S2x64 main_cst_20
  let main_v56 : IVec S2x64 1 := cmpf .olt main_v54 main_v55
  let main_c_21 : IVec S_ 1 := constantI S_ 1 1#1
  let main_v57 : IVec S_ 1 := (fun x v => Host.reduce IntOp.andi x v reducesTo_S2x64_S_d0_1 h_S_) main_v56 main_c_21
  let main_v58 : IVec S_ 1 := andi main_v53 main_v57
  let main_v59 : FVec F S2x192x64 .f32 := Host.absf main_arg13
  let main_cst_22 : FVec F S_ .f32 := constant S_ .f32 0x7F800000#32
  let main_v60 : FVec F S2x192x64 .f32 := broadcastInDim S2x192x64 ![] bcast_S_S2x192x64 main_cst_22
  let main_v61 : IVec S2x192x64 1 := cmpf .olt main_v59 main_v60
  let main_c_23 : IVec S_ 1 := constantI S_ 1 1#1
  let main_v62 : IVec S_ 1 := (fun x v => Host.reduce IntOp.andi x v reducesTo_S2x192x64_S_d0_1_2 h_S_) main_v61 main_c_23
  let main_v63 : IVec S_ 1 := andi main_v58 main_v62
  let main_v64 : FVec F S2x64 .f32 := Host.absf main_arg14
  let main_cst_24 : FVec F S_ .f32 := constant S_ .f32 0x7F800000#32
  let main_v65 : FVec F S2x64 .f32 := broadcastInDim S2x64 ![] bcast_S_S2x64 main_cst_24
  let main_v66 : IVec S2x64 1 := cmpf .olt main_v64 main_v65
  let main_c_25 : IVec S_ 1 := constantI S_ 1 1#1
  let main_v67 : IVec S_ 1 := (fun x v => Host.reduce IntOp.andi x v reducesTo_S2x64_S_d0_1 h_S_) main_v66 main_c_25
  fn_part4 (F := F) main_arg15 main_arg16 main_arg17 main_arg18 main_v63 main_v67

def fn_part2 {F : FTy → Type} [FloatOps F] (main_arg8 : FVec F S2x64 .f32) (main_arg9 : FVec F S2x64x64 .f32) (main_arg10 : FVec F S2x64 .f32) (main_arg11 : FVec F S2x64x64 .f32) (main_arg12 : FVec F S2x64 .f32) (main_arg13 : FVec F S2x192x64 .f32) (main_arg14 : FVec F S2x64 .f32) (main_arg15 : FVec F S2x64x64 .f32) (main_arg16 : FVec F S2x64 .f32) (main_arg17 : FVec F S2x64 .f32) (main_arg18 : FVec F S2x64 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64x64 .f32 := Host.absf main_arg9
  let main_cst_14 : FVec F S_ .f32 := constant S_ .f32 0x7F800000#32
  let main_v40 : FVec F S2x64x64 .f32 := broadcastInDim S2x64x64 ![] bcast_S_S2x64x64 main_cst_14
  let main_v41 : IVec S2x64x64 1 := cmpf .olt main_v39 main_v40
  let main_c_15 : IVec S_ 1 := constantI S_ 1 1#1
  let main_v42 : IVec S_ 1 := (fun x v => Host.reduce IntOp.andi x v reducesTo_S2x64x64_S_d0_1_2 h_S_) main_v41 main_c_15
  let main_v43 : IVec S_ 1 := andi main_v38 main_v42
  let main_v44 : FVec F S2x64 .f32 := Host.absf main_arg10
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x64x64 .f32 := Host.absf main_arg11
  let main_cst_18 : FVec F S_ .f32 := constant S_ .f32 0x7F800000#32
  let main_v50 : FVec F S2x64x64 .f32 := broadcastInDim S2x64x64 ![] bcast_S_S2x64x64 main_cst_18
  fn_part3 (F := F) main_arg12 main_arg13 main_arg14 main_arg15 main_arg16 main_arg17 main_arg18 main_v48 main_v49 main_v50

def fn_part1 {F : FTy → Type} [FloatOps F] (main_arg5 : FVec F S16x64 .f32) (main_arg6 : FVec F S64 .f32) (main_arg7 : FVec F S2x64x64 .f32) (main_arg8 : FVec F S2x64 .f32) (main_arg9 : FVec F S2x64x64 .f32) (main_arg10 : FVec F S2x64 .f32) (main_arg11 : FVec F S2x64x64 .f32) (main_arg12 : FVec F S2x64 .f32) (main_arg13 : FVec F S2x192x64 .f32) (main_arg14 : FVec F S2x64 .f32) (main_arg15 : FVec F S2x64x64 .f32) (main_arg16 : FVec F S2x64 .f32) (main_arg17 : FVec F S2x64 .f32) (main_arg18 : FVec F S2x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg5
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64x64 .f32 := Host.absf main_arg7
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x32 .f32) (main_arg1 : IVec S2x1000000 32) (main_arg2 : FVec F S1000000x16 .f32) (main_arg3 : FVec F S32x64 .f32) (main_arg4 : FVec F S64 .f32) (main_arg5 : FVec F S16x64 .f32) (main_arg6 : FVec F S64 .f32) (main_arg7 : FVec F S2x64x64 .f32) (main_arg8 : FVec F S2x64 .f32) (main_arg9 : FVec F S2x64x64 .f32) (main_arg10 : FVec F S2x64 .f32) (main_arg11 : FVec F S2x64x64 .f32) (main_arg12 : FVec F S2x64 .f32) (main_arg13 : FVec F S2x192x64 .f32) (main_arg14 : FVec F S2x64 .f32) (main_arg15 : FVec F S2x64x64 .f32) (main_arg16 : FVec F S2x64 .f32) (main_arg17 : FVec F S2x64 .f32) (main_arg18 : FVec F S2x64 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S1000000x16 .f32 := Host.absf main_arg2
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S32x64 .f32 := Host.absf main_arg3
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x32 : Shape := ⟨2, ![50000, 32]⟩
abbrev S2x1000000 : Shape := ⟨2, ![2, 1000000]⟩
abbrev S1000000x16 : Shape := ⟨2, ![1000000, 16]⟩
abbrev S32x64 : Shape := ⟨2, ![32, 64]⟩
abbrev S64 : Shape := ⟨1, ![64]⟩
abbrev S16x64 : Shape := ⟨2, ![16, 64]⟩
abbrev S2x64x64 : Shape := ⟨3, ![2, 64, 64]⟩
abbrev S2x64 : Shape := ⟨2, ![2, 64]⟩
abbrev S2x192x64 : Shape := ⟨3, ![2, 192, 64]⟩
abbrev S1x1000000 : Shape := ⟨2, ![1, 1000000]⟩
abbrev S1000000 : Shape := ⟨1, ![1000000]⟩
abbrev S1x64 : Shape := ⟨2, ![1, 64]⟩
abbrev S50000x64 : Shape := ⟨2, ![50000, 64]⟩
abbrev S5000x32 : Shape := ⟨2, ![5000, 32]⟩
abbrev S5000x64 : Shape := ⟨2, ![5000, 64]⟩
abbrev S1000000x64 : Shape := ⟨2, ![1000000, 64]⟩
abbrev S8000x16 : Shape := ⟨2, ![8000, 16]⟩
abbrev S8000x64 : Shape := ⟨2, ![8000, 64]⟩
abbrev S_ : Shape := ⟨0, ![]⟩
abbrev S1000000x1 : Shape := ⟨2, ![1000000, 1]⟩
abbrev S1x64x64 : Shape := ⟨3, ![1, 64, 64]⟩
abbrev S64x64 : Shape := ⟨2, ![64, 64]⟩
abbrev S1x192x64 : Shape := ⟨3, ![1, 192, 64]⟩
abbrev S192x64 : Shape := ⟨2, ![192, 64]⟩
abbrev S8000x192 : Shape := ⟨2, ![8000, 192]⟩

abbrev nBuf : Space → Nat
  | .hbm => 179
  | .vmem => 96
  | .smem => 0
  | _ => 0

abbrev hbmTy0_0 (i : Nat) : BufTy := match i % 128 with
  | 0 => ⟨S50000x32, .f32⟩
  | 1 => ⟨S2x1000000, .i32⟩
  | 2 => ⟨S1000000x16, .f32⟩
  | 3 => ⟨S32x64, .f32⟩
  | 4 => ⟨S64, .f32⟩
  | 5 => ⟨S16x64, .f32⟩
  | 6 => ⟨S64, .f32⟩
  | 7 => ⟨S2x64x64, .f32⟩
  | 8 => ⟨S2x64, .f32⟩
  | 9 => ⟨S2x64x64, .f32⟩
  | 10 => ⟨S2x64, .f32⟩
  | 11 => ⟨S2x64x64, .f32⟩
  | 12 => ⟨S2x64, .f32⟩
  | 13 => ⟨S2x192x64, .f32⟩
  | 14 => ⟨S2x64, .f32⟩
  | 15 => ⟨S2x64x64, .f32⟩
  | 16 => ⟨S2x64, .f32⟩
  | 17 => ⟨S2x64, .f32⟩
  | 18 => ⟨S2x64, .f32⟩
  | 19 => ⟨S1x1000000, .i32⟩
  | 20 => ⟨S1000000, .i32⟩
  | 21 => ⟨S1x1000000, .i32⟩
  | 22 => ⟨S1000000, .i32⟩
  | 23 => ⟨S1x64, .f32⟩
  | 24 => ⟨S50000x64, .f32⟩
  | 25 => ⟨S1x64, .f32⟩
  | 26 => ⟨S1000000x64, .f32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S1000000x1, .i32⟩
  | 35 => ⟨S1000000x64, .f32⟩
  | 36 => ⟨S1x64x64, .f32⟩
  | 37 => ⟨S64x64, .f32⟩
  | 38 => ⟨S1x64, .f32⟩
  | 39 => ⟨S64, .f32⟩
  | 40 => ⟨S1x64, .f32⟩
  | 41 => ⟨S1000000x64, .f32⟩
  | 42 => ⟨S_, .f32⟩
  | 43 => ⟨S50000x64, .f32⟩
  | 44 => ⟨S1000000x1, .i32⟩
  | 45 => ⟨S50000x64, .f32⟩
  | 46 => ⟨S1x64x64, .f32⟩
  | 47 => ⟨S64x64, .f32⟩
  | 48 => ⟨S1x64, .f32⟩
  | 49 => ⟨S64, .f32⟩
  | 50 => ⟨S1x64x64, .f32⟩
  | 51 => ⟨S64x64, .f32⟩
  | 52 => ⟨S1x64, .f32⟩
  | 53 => ⟨S64, .f32⟩
  | 54 => ⟨S1x64, .f32⟩
  | 55 => ⟨S1x64, .f32⟩
  | 56 => ⟨S50000x64, .f32⟩
  | 57 => ⟨S1x64, .f32⟩
  | 58 => ⟨S1x64, .f32⟩
  | 59 => ⟨S_, .f32⟩
  | 60 => ⟨S1x64, .f32⟩
  | 61 => ⟨S1x64, .f32⟩
  | 62 => ⟨S_, .f32⟩
  | 63 => ⟨S1x64, .f32⟩
  | 64 => ⟨S1x64, .f32⟩
  | 65 => ⟨S1x64, .f32⟩
  | 66 => ⟨S1x64, .f32⟩
  | 67 => ⟨S1x64, .f32⟩
  | 68 => ⟨S64, .f32⟩
  | 69 => ⟨S1x64, .f32⟩
  | 70 => ⟨S1x64, .f32⟩
  | 71 => ⟨S64, .f32⟩
  | 72 => ⟨S1x64, .f32⟩
  | 73 => ⟨S50000x64, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S1000000x64, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1000000x64, .f32⟩
  | 92 => ⟨S1x192x64, .f32⟩
  | 93 => ⟨S192x64, .f32⟩
  | 94 => ⟨S1x64, .f32⟩
  | 95 => ⟨S64, .f32⟩
  | 96 => ⟨S1x64x64, .f32⟩
  | 97 => ⟨S64x64, .f32⟩
  | 98 => ⟨S1x64, .f32⟩
  | 99 => ⟨S64, .f32⟩
  | 100 => ⟨S1x64, .f32⟩
  | 101 => ⟨S1x64, .f32⟩
  | 102 => ⟨S1000000x64, .f32⟩
  | 103 => ⟨S_, .i32⟩
  | 104 => ⟨S1000000, .i32⟩
  | 105 => ⟨S1000000, .i1⟩
  | 106 => ⟨S_, .i32⟩
  | 107 => ⟨S1000000, .i32⟩
  | 108 => ⟨S1000000, .i32⟩
  | 109 => ⟨S1000000, .i32⟩
  | 110 => ⟨S1000000x1, .i32⟩
  | 111 => ⟨S1000000x64, .f32⟩
  | 112 => ⟨S1x64x64, .f32⟩
  | 113 => ⟨S64x64, .f32⟩
  | 114 => ⟨S1x64, .f32⟩
  | 115 => ⟨S64, .f32⟩
  | 116 => ⟨S1x64, .f32⟩
  | 117 => ⟨S1000000x64, .f32⟩
  | 118 => ⟨S_, .f32⟩
  | 119 => ⟨S50000x64, .f32⟩
  | 120 => ⟨S1000000x1, .i32⟩
  | 121 => ⟨S50000x64, .f32⟩
  | 122 => ⟨S1x64x64, .f32⟩
  | 123 => ⟨S64x64, .f32⟩
  | 124 => ⟨S1x64, .f32⟩
  | 125 => ⟨S64, .f32⟩
  | 126 => ⟨S1x64x64, .f32⟩
  | 127 => ⟨S64x64, .f32⟩
  | _ => ⟨S50000x32, .f32⟩

abbrev hbmTy0_1 (i : Nat) : BufTy := match i % 128 with
  | 0 => ⟨S1x64, .f32⟩
  | 1 => ⟨S64, .f32⟩
  | 2 => ⟨S1x64, .f32⟩
  | 3 => ⟨S1x64, .f32⟩
  | 4 => ⟨S50000x64, .f32⟩
  | 5 => ⟨S1x64, .f32⟩
  | 6 => ⟨S1x64, .f32⟩
  | 7 => ⟨S_, .f32⟩
  | 8 => ⟨S1x64, .f32⟩
  | 9 => ⟨S1x64, .f32⟩
  | 10 => ⟨S_, .f32⟩
  | 11 => ⟨S1x64, .f32⟩
  | 12 => ⟨S1x64, .f32⟩
  | 13 => ⟨S1x64, .f32⟩
  | 14 => ⟨S1x64, .f32⟩
  | 15 => ⟨S1x64, .f32⟩
  | 16 => ⟨S64, .f32⟩
  | 17 => ⟨S1x64, .f32⟩
  | 18 => ⟨S1x64, .f32⟩
  | 19 => ⟨S64, .f32⟩
  | 20 => ⟨S1x64, .f32⟩
  | 21 => ⟨S50000x64, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x64, .f32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000x64, .f32⟩
  | 40 => ⟨S1x192x64, .f32⟩
  | 41 => ⟨S192x64, .f32⟩
  | 42 => ⟨S1x64, .f32⟩
  | 43 => ⟨S64, .f32⟩
  | 44 => ⟨S1x64x64, .f32⟩
  | 45 => ⟨S64x64, .f32⟩
  | 46 => ⟨S1x64, .f32⟩
  | 47 => ⟨S64, .f32⟩
  | 48 => ⟨S1x64, .f32⟩
  | 49 => ⟨S1x64, .f32⟩
  | 50 => ⟨S1000000x64, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S8000x16, .f32⟩
  | .local _ .vmem, ⟨7, _⟩ => ⟨S8000x16, .f32⟩
  | .local _ .vmem, ⟨8, _⟩ => ⟨S16x64, .f32⟩
  | .local _ .vmem, ⟨9, _⟩ => ⟨S1x64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S8000x64, .f32⟩
  | .local _ .vmem, ⟨15, _⟩ => ⟨S8000x64, .f32⟩
  | .local _ .vmem, ⟨16, _⟩ => ⟨S64x64, .f32⟩
  | .local _ .vmem, ⟨17, _⟩ => ⟨S1x64, .f32⟩
  | .local _ .vmem, ⟨18, _⟩ => ⟨S8000x64, .f32⟩
  | .local _ .vmem, ⟨19, _⟩ => ⟨S8000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S8000x64, .f32⟩
  | .local _ .vmem, ⟨43, _⟩ => ⟨S8000x64, .f32⟩
  | .local _ .vmem, ⟨44, _⟩ => ⟨S8000x64, .f32⟩
  | .local _ .vmem, ⟨45, _⟩ => ⟨S8000x64, .f32⟩
  | .local _ .vmem, ⟨46, _⟩ => ⟨S8000x64, .f32⟩
  | .local _ .vmem, ⟨47, _⟩ => ⟨S8000x64, .f32⟩
  | .local _ .vmem, ⟨48, _⟩ => ⟨S192x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S8000x64, .f32⟩
  | .local _ .vmem, ⟨53, _⟩ => ⟨S8000x64, .f32⟩
  | .local _ .vmem, ⟨54, _⟩ => ⟨S8000x64, .f32⟩
  | .local _ .vmem, ⟨55, _⟩ => ⟨S8000x64, .f32⟩
  | .local _ .vmem, ⟨56, _⟩ => ⟨S8000x64, .f32⟩
  | .local _ .vmem, ⟨57, _⟩ => ⟨S8000x64, .f32⟩
  | .local _ .vmem, ⟨58, _⟩ => ⟨S64x64, .f32⟩
  | .local _ .vmem, ⟨59, _⟩ => ⟨S1x64, .f32⟩
  | .local _ .vmem, ⟨60, _⟩ => ⟨S8000x64, .f32⟩
  | .local _ .vmem, ⟨61, _⟩ => ⟨S8000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S64x64, .f32⟩
  | .local _ .vmem, ⟨67, _⟩ => ⟨S1x64, .f32⟩
  | .local _ .vmem, ⟨68, _⟩ => ⟨S64x64, .f32⟩
  | .local _ .vmem, ⟨69, _⟩ => ⟨S1x64, .f32⟩
  | .local _ .vmem, ⟨70, _⟩ => ⟨S5000x64, .f32⟩
  | .local _ .vmem, ⟨71, _⟩ => ⟨S5000x64, .f32⟩
  | .local _ .vmem, ⟨72, _⟩ => ⟨S1x64, .f32⟩
  | .local _ .vmem, ⟨73, _⟩ => ⟨S1x64, .f32⟩
  | .local _ .vmem, ⟨74, _⟩ => ⟨S5000x64, .f32⟩
  | .local _ .vmem, ⟨75, _⟩ => ⟨S5000x64, .f32⟩
  | .local _ .vmem, ⟨76, _⟩ => ⟨S5000x64, .f32⟩
  | .local _ .vmem, ⟨77, _⟩ => ⟨S5000x64, .f32⟩
  | .local _ .vmem, ⟨78, _⟩ => ⟨S1x64, .f32⟩
  | .local _ .vmem, ⟨79, _⟩ => ⟨S1x64, .f32⟩
  | .local _ .vmem, ⟨80, _⟩ => ⟨S1x64, .f32⟩
  | .local _ .vmem, ⟨81, _⟩ => ⟨S1x64, .f32⟩
  | .local _ .vmem, ⟨82, _⟩ => ⟨S5000x64, .f32⟩
  | .local _ .vmem, ⟨83, _⟩ => ⟨S5000x64, .f32⟩
  | .local _ .vmem, ⟨84, _⟩ => ⟨S8000x64, .f32⟩
  | .local _ .vmem, ⟨85, _⟩ => ⟨S8000x64, .f32⟩
  | .local _ .vmem, ⟨86, _⟩ => ⟨S8000x64, .f32⟩
  | .local _ .vmem, ⟨87, _⟩ => ⟨S8000x64, .f32⟩
  | .local _ .vmem, ⟨88, _⟩ => ⟨S8000x64, .f32⟩
  | .local _ .vmem, ⟨89, _⟩ => ⟨S8000x64, .f32⟩
  | .local _ .vmem, ⟨90, _⟩ => ⟨S192x64, .f32⟩
  | .local _ .vmem, ⟨91, _⟩ => ⟨S1x64, .f32⟩
  | .local _ .vmem, ⟨92, _⟩ => ⟨S64x64, .f32⟩
  | .local _ .vmem, ⟨93, _⟩ => ⟨S1x64, .f32⟩
  | .local _ .vmem, ⟨94, _⟩ => ⟨S8000x64, .f32⟩
  | .local _ .vmem, ⟨95, _⟩ => ⟨S8000x64, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34_0 : Ref sig .tc := ⟨.hbm, 56, rfl⟩
abbrev main_v34_1 : Ref sig .tc := ⟨.hbm, 57, rfl⟩
abbrev main_v34_2 : Ref sig .tc := ⟨.hbm, 58, rfl⟩
abbrev main_cst_1 : Ref sig .tc := ⟨.hbm, 59, rfl⟩
abbrev main_v35 : Ref sig .tc := ⟨.hbm, 60, rfl⟩
abbrev main_v36 : Ref sig .tc := ⟨.hbm, 61, rfl⟩
abbrev main_cst_2 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_3 : Ref sig .tc := ⟨.hbm, 74, rfl⟩
abbrev main_v48 : Ref sig .tc := ⟨.hbm, 75, rfl⟩
abbrev main_v49 : Ref sig .tc := ⟨.hbm, 76, rfl⟩
abbrev main_c_4 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_5 : Ref sig .tc := ⟨.hbm, 83, rfl⟩
abbrev main_v55 : Ref sig .tc := ⟨.hbm, 84, rfl⟩
abbrev main_v56 : Ref sig .tc := ⟨.hbm, 85, rfl⟩
abbrev main_c_6 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_7 : Ref sig .tc := ⟨.hbm, 103, rfl⟩
abbrev main_v73 : Ref sig .tc := ⟨.hbm, 104, rfl⟩
abbrev main_v74 : Ref sig .tc := ⟨.hbm, 105, rfl⟩
abbrev main_c_8 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_9 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99_0 : Ref sig .tc := ⟨.hbm, 132, rfl⟩
abbrev main_v99_1 : Ref sig .tc := ⟨.hbm, 133, rfl⟩
abbrev main_v99_2 : Ref sig .tc := ⟨.hbm, 134, rfl⟩
abbrev main_cst_10 : Ref sig .tc := ⟨.hbm, 135, rfl⟩
abbrev main_v100 : Ref sig .tc := ⟨.hbm, 136, rfl⟩
abbrev main_v101 : Ref sig .tc := ⟨.hbm, 137, rfl⟩
abbrev main_cst_11 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_c_12 : Ref sig .tc := ⟨.hbm, 150, rfl⟩
abbrev main_v113 : Ref sig .tc := ⟨.hbm, 151, rfl⟩
abbrev main_v114 : Ref sig .tc := ⟨.hbm, 152, rfl⟩
abbrev main_c_13 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_c_14 : Ref sig .tc := ⟨.hbm, 159, rfl⟩
abbrev main_v120 : Ref sig .tc := ⟨.hbm, 160, rfl⟩
abbrev main_v121 : Ref sig .tc := ⟨.hbm, 161, rfl⟩
abbrev main_c_15 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc3_stg7_0 : Ref sig .tc := ⟨.vmem, 30, rfl⟩
abbrev cc3_stg8_0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg7_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg4_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg3_0 : Ref sig .tc := ⟨.vmem, 67, rfl⟩
abbrev cc7_stg4_0 : Ref sig .tc := ⟨.vmem, 68, rfl⟩
abbrev cc7_stg5_0 : Ref sig .tc := ⟨.vmem, 69, rfl⟩
abbrev cc7_stg6_0 : Ref sig .tc := ⟨.vmem, 70, rfl⟩
abbrev cc7_stg6_1 : Ref sig .tc := ⟨.vmem, 71, rfl⟩
abbrev cc7_stg7_0 : Ref sig .tc := ⟨.vmem, 72, rfl⟩
abbrev cc7_stg8_0 : Ref sig .tc := ⟨.vmem, 73, rfl⟩
abbrev cc8_stg0_0 : Ref sig .tc := ⟨.vmem, 74, rfl⟩
abbrev cc8_stg0_1 : Ref sig .tc := ⟨.vmem, 75, rfl⟩
abbrev cc8_stg1_0 : Ref sig .tc := ⟨.vmem, 76, rfl⟩
abbrev cc8_stg1_1 : Ref sig .tc := ⟨.vmem, 77, rfl⟩
abbrev cc8_stg2_0 : Ref sig .tc := ⟨.vmem, 78, rfl⟩
abbrev cc8_stg3_0 : Ref sig .tc := ⟨.vmem, 79, rfl⟩
abbrev cc8_stg4_0 : Ref sig .tc := ⟨.vmem, 80, rfl⟩
abbrev cc8_stg5_0 : Ref sig .tc := ⟨.vmem, 81, rfl⟩
abbrev cc8_stg6_0 : Ref sig .tc := ⟨.vmem, 82, rfl⟩
abbrev cc8_stg6_1 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg1_1 : Ref sig .tc := ⟨.vmem, 87, rfl⟩
abbrev cc9_stg2_0 : Ref sig .tc := ⟨.vmem, 88, rfl⟩
abbrev cc9_stg2_1 : Ref sig .tc := ⟨.vmem, 89, rfl⟩
abbrev cc9_stg3_0 : Ref sig .tc := ⟨.vmem, 90, rfl⟩
abbrev cc9_stg4_0 : Ref sig .tc := ⟨.vmem, 91, rfl⟩
abbrev cc9_stg5_0 : Ref sig .tc := ⟨.vmem, 92, rfl⟩
abbrev cc9_stg6_0 : Ref sig .tc := ⟨.vmem, 93, rfl⟩
abbrev cc9_stg7_0 : Ref sig .tc := ⟨.vmem, 94, rfl⟩
abbrev cc9_stg7_1 : Ref sig .tc := ⟨.vmem, 95, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc3_sem7_0 : DmaSem sig := 30
abbrev cc3_sem8_0 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem7_0 : DmaSem sig := 52
abbrev cc5_sem7_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem4_1 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem3_0 : DmaSem sig := 67
abbrev cc7_sem4_0 : DmaSem sig := 68
abbrev cc7_sem5_0 : DmaSem sig := 69
abbrev cc7_sem6_0 : DmaSem sig := 70
abbrev cc7_sem6_1 : DmaSem sig := 71
abbrev cc7_sem7_0 : DmaSem sig := 72
abbrev cc7_sem8_0 : DmaSem sig := 73
abbrev cc8_sem0_0 : DmaSem sig := 74
abbrev cc8_sem0_1 : DmaSem sig := 75
abbrev cc8_sem1_0 : DmaSem sig := 76
abbrev cc8_sem1_1 : DmaSem sig := 77
abbrev cc8_sem2_0 : DmaSem sig := 78
abbrev cc8_sem3_0 : DmaSem sig := 79
abbrev cc8_sem4_0 : DmaSem sig := 80
abbrev cc8_sem5_0 : DmaSem sig := 81
abbrev cc8_sem6_0 : DmaSem sig := 82
abbrev cc8_sem6_1 : DmaSem sig := 83
abbrev cc9_sem0_0 : DmaSem sig := 84
abbrev cc9_sem0_1 : DmaSem sig := 85
abbrev cc9_sem1_0 : DmaSem sig := 86
abbrev cc9_sem1_1 : DmaSem sig := 87
abbrev cc9_sem2_0 : DmaSem sig := 88
abbrev cc9_sem2_1 : DmaSem sig := 89
abbrev cc9_sem3_0 : DmaSem sig := 90
abbrev cc9_sem4_0 : DmaSem sig := 91
abbrev cc9_sem5_0 : DmaSem sig := 92
abbrev cc9_sem6_0 : DmaSem sig := 93
abbrev cc9_sem7_0 : DmaSem sig := 94
abbrev cc9_sem7_1 : DmaSem sig := 95

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![125], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S192x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S8000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S8000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 1 → Memref sig .tc .vmem S1x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x64 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![125], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S8000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S192x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x64 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S8000x64 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S8000x16_S8000x16_0_0 : ∀ a, (![0, 0] : Fin 2 → Nat) a + S8000x16.size a ≤ S8000x16.size a
  h_S8000x16 : 0 < S8000x16.numel
  inb_S16x64_S16x64_0_0 : ∀ a, (![0, 0] : Fin 2 → Nat) a + S16x64.size a ≤ S16x64.size a
  h_S16x64 : 0 < S16x64.numel
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S50000x64 : S_.BroadcastsInDim S50000x64 (![] : Fin 0 → Fin S50000x64.rank)
  shapeCasts_S5000x64_S5000x64 : S5000x64.ShapeCasts S5000x64
  reduces_S5000x64_S64 : S5000x64.Reduces [0] S64
  bcast_S_S1x64 : S_.BroadcastsInDim S1x64 (![] : Fin 0 → Fin S1x64.rank)
  slices_S2x192x64_S1x192x64_0_0_0 : S2x192x64.Slices ![0, 0, 0] S1x192x64
  shapeCasts_S1x192x64_S192x64 : S1x192x64.ShapeCasts S192x64
  concatenates_S8000x64_S8000x64_S8000x64_S8000x192_d1 : Shape.Concatenates [S8000x64, S8000x64, S8000x64] S8000x192 1
  inb_S192x64_S192x64_0_0 : ∀ a, (![0, 0] : Fin 2 → Nat) a + S192x64.size a ≤ S192x64.size a
  h_S192x64 : 0 < S192x64.numel
  shapeCasts_S192x64_S192x64 : S192x64.ShapeCasts S192x64
  slices_S2x64x64_S1x64x64_1_0_0 : S2x64x64.Slices ![1, 0, 0] S1x64x64
  slices_S2x64_S1x64_1_0 : S2x64.Slices ![1, 0] S1x64
  slices_S2x192x64_S1x192x64_1_0_0 : S2x192x64.Slices ![1, 0, 0] S1x192x64
  dot_S5000x32_S32x64_S5000x64_1_0_0_1_n_n_wf : DotDims.WF S5000x32 S32x64 S5000x64 [1] [0] [0] [1] [] []
  dot_S8000x16_S16x64_S8000x64_1_0_0_1_n_n_wf : DotDims.WF S8000x16 S16x64 S8000x64 [1] [0] [0] [1] [] []
  gather_S50000x64_S1000000x1_S1000000x64_1_0_n_n_0_1_164_wf : GatherDims.WF S50000x64 S1000000x1 S1000000x64 [1] [0] [] [0] [] 1 ![1, 64]
  dot_S8000x64_S64x64_S8000x64_1_0_0_1_n_n_wf : DotDims.WF S8000x64 S64x64 S8000x64 [1] [0] [0] [1] [] []
  scatter_S50000x64_S1000000x1_S1000000x64_1_0_0_1_wf : ScatterDims.WF S50000x64 S1000000x1 S1000000x64 [1] [0] [0] 1
  dot_S5000x64_S64x64_S5000x64_1_0_0_1_n_n_wf : DotDims.WF S5000x64 S64x64 S5000x64 [1] [0] [0] [1] [] []
  dot_S8000x192_S192x64_S8000x64_1_0_0_1_n_n_wf : DotDims.WF S8000x192 S192x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S1000000x16.size a
  hwx1_0 : ∀ i : grid1.Coords, EltTy.bits .f32 = 32 ∨ (Rect.block (s := S1000000x16) S8000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S1000000x64.size a
  hwx1_3 : ∀ i : grid1.Coords, EltTy.bits .f32 = 32 ∨ (Rect.block (s := S1000000x64) S8000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1000000x64.size a
  hwx2_0 : ∀ i : grid2.Coords, EltTy.bits .f32 = 32 ∨ (Rect.block (s := S1000000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1000000x64.size a
  hwx2_1 : ∀ i : grid2.Coords, EltTy.bits .f32 = 32 ∨ (Rect.block (s := S1000000x64) S8000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x64.size a ≤ S1000000x64.size a
  hwx2_4 : ∀ i : grid2.Coords, EltTy.bits .f32 = 32 ∨ (Rect.block (s := S1000000x64) S8000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S1000000x64.size a
  hwx5_0 : ∀ i : grid5.Coords, EltTy.bits .f32 = 32 ∨ (Rect.block (s := S1000000x64) S8000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x64.size a ≤ S1000000x64.size a
  hwx5_1 : ∀ i : grid5.Coords, EltTy.bits .f32 = 32 ∨ (Rect.block (s := S1000000x64) S8000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x64.size a ≤ S1000000x64.size a
  hwx5_2 : ∀ i : grid5.Coords, EltTy.bits .f32 = 32 ∨ (Rect.block (s := S1000000x64) S8000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S192x64.size a ≤ S192x64.size a
  hwx5_3 : ∀ i : grid5.Coords, EltTy.bits .f32 = 32 ∨ (Rect.block (s := S192x64) S192x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S8000x64.size a ≤ S1000000x64.size a
  hwx5_7 : ∀ i : grid5.Coords, EltTy.bits .f32 = 32 ∨ (Rect.block (s := S1000000x64) S8000x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x64.size a ≤ S1000000x64.size a
  hwx6_0 : ∀ i : grid6.Coords, EltTy.bits .f32 = 32 ∨ (Rect.block (s := S1000000x64) S8000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x64.size a ≤ S1000000x64.size a
  hwx6_1 : ∀ i : grid6.Coords, EltTy.bits .f32 = 32 ∨ (Rect.block (s := S1000000x64) S8000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S8000x64.size a ≤ S1000000x64.size a
  hwx6_4 : ∀ i : grid6.Coords, EltTy.bits .f32 = 32 ∨ (Rect.block (s := S1000000x64) S8000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x64.size a ≤ S50000x64.size a
  hwx7_6 : ∀ i : grid7.Coords, EltTy.bits .f32 = 32 ∨ (Rect.block (s := S50000x64) S5000x64.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x64.size a ≤ S1x64.size a
  hwx7_7 : ∀ i : grid7.Coords, EltTy.bits .f32 = 32 ∨ (Rect.block (s := S1x64) S1x64.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x64.size a ≤ S1x64.size a
  hwx7_8 : ∀ i : grid7.Coords, EltTy.bits .f32 = 32 ∨ (Rect.block (s := S1x64) S1x64.size (cc7_transform_8 i) (hinb7_8 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S50000x64.size a
  hwx8_1 : ∀ i : grid8.Coords, EltTy.bits .f32 = 32 ∨ (Rect.block (s := S50000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x64.size a ≤ S1x64.size a
  hwx8_5 : ∀ i : grid8.Coords, EltTy.bits .f32 = 32 ∨ (Rect.block (s := S1x64) S1x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x64.size a ≤ S50000x64.size a
  hwx8_6 : ∀ i : grid8.Coords, EltTy.bits .f32 = 32 ∨ (Rect.block (s := S50000x64) S5000x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8000x64.size a ≤ S1000000x64.size a
  hwx9_0 : ∀ i : grid9.Coords, EltTy.bits .f32 = 32 ∨ (Rect.block (s := S1000000x64) S8000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8000x64.size a ≤ S1000000x64.size a
  hwx9_1 : ∀ i : grid9.Coords, EltTy.bits .f32 = 32 ∨ (Rect.block (s := S1000000x64) S8000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S8000x64.size a ≤ S1000000x64.size a
  hwx9_2 : ∀ i : grid9.Coords, EltTy.bits .f32 = 32 ∨ (Rect.block (s := S1000000x64) S8000x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S192x64.size a ≤ S192x64.size a
  hwx9_3 : ∀ i : grid9.Coords, EltTy.bits .f32 = 32 ∨ (Rect.block (s := S192x64) S192x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x64.size a ≤ S64x64.size a
  hwx9_5 : ∀ i : grid9.Coords, EltTy.bits .f32 = 32 ∨ (Rect.block (s := S64x64) S64x64.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x64.size a ≤ S1x64.size a
  hwx9_6 : ∀ i : grid9.Coords, EltTy.bits .f32 = 32 ∨ (Rect.block (s := S1x64) S1x64.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S8000x64.size a ≤ S1000000x64.size a
  hwx9_7 : ∀ i : grid9.Coords, EltTy.bits .f32 = 32 ∨ (Rect.block (s := S1000000x64) S8000x64.size (cc9_transform_7 i) (hinb9_7 i)).WholeWords (EltTy.packing .f32)

variable [Facts₀]

def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S8000x192_S192x64_S8000x64_1_0_0_1_n_n : DotDims S8000x192 S192x64 S8000x64 where
  lhsContracting := [1]
  rhsContracting := [0]
  lhsNonContracting := [0]
  rhsNonContracting := [1]
  lhsBatch := []
  rhsBatch := []
  wf := dot_S8000x192_S192x64_S8000x64_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S8000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v5) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v33) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v34_0) S5000x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v34_1) S1x64.size cc3_transform_7 reads3_7 true true 1 stage3_7 sem3_7
    hrank3 hreads3_7 hinb3_7 nbuf3_7 (Memref.isWhole_whole _) hwx3_7 hstage3_7

abbrev win3_8 : Pipeline.Window sig grid3 :=
  Pipeline.Window.ofSpec (Memref.whole main_v34_2) S1x64.size cc3_transform_8 reads3_8 true true 1 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v34_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v36) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v40) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v43) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v46) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v47) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v54) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S8000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v7) S8000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v63) S192x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v67) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v71) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v72) S8000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v79) S8000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v72) S8000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v81) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v84) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v85) S8000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v47) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v88) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v90) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v97) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v94) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v98) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v99_0) S5000x64.size cc7_transform_6 reads7_6 true false 2 stage7_6 sem7_6
    hrank7 hreads7_6 hinb7_6 nbuf7_6 (Memref.isWhole_whole _) hwx7_6 hstage7_6

abbrev win7_7 : Pipeline.Window sig grid7 :=
  Pipeline.Window.ofSpec (Memref.whole main_v99_1) S1x64.size cc7_transform_7 reads7_7 true true 1 stage7_7 sem7_7
    hrank7 hreads7_7 hinb7_7 nbuf7_7 (Memref.isWhole_whole _) hwx7_7 hstage7_7

abbrev win7_8 : Pipeline.Window sig grid7 :=
  Pipeline.Window.ofSpec (Memref.whole main_v99_2) S1x64.size cc7_transform_8 reads7_8 true true 1 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

abbrev win8_0 : Pipeline.Window sig grid8 :=
  Pipeline.Window.ofSpec (Memref.whole main_v99_0) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v47) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v101) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v105) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v108) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v111) S1x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v112) S5000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v119) S8000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v126) S8000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v72) S8000x64.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v128) S192x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v135) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v132) S64x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v136) S1x64.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v137) S8000x64.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

class Facts : Prop extends Facts₀ where

variable [Facts]
-- ==== ReferenceIdeal.lean ====
abbrev S50000x32 : Shape := ⟨2, ![50000, 32]⟩
abbrev S2x1000000 : Shape := ⟨2, ![2, 1000000]⟩
abbrev S1000000x16 : Shape := ⟨2, ![1000000, 16]⟩
abbrev S32x64 : Shape := ⟨2, ![32, 64]⟩
abbrev S64 : Shape := ⟨1, ![64]⟩
abbrev S16x64 : Shape := ⟨2, ![16, 64]⟩
abbrev S2x64x64 : Shape := ⟨3, ![2, 64, 64]⟩
abbrev S2x64 : Shape := ⟨2, ![2, 64]⟩
abbrev S2x192x64 : Shape := ⟨3, ![2, 192, 64]⟩
abbrev S1x1000000 : Shape := ⟨2, ![1, 1000000]⟩
abbrev S1000000 : Shape := ⟨1, ![1000000]⟩
abbrev S50000x64 : Shape := ⟨2, ![50000, 64]⟩
abbrev S1x64 : Shape := ⟨2, ![1, 64]⟩
abbrev S1000000x64 : Shape := ⟨2, ![1000000, 64]⟩
abbrev S_ : Shape := ⟨0, ![]⟩
abbrev S1000000x1 : Shape := ⟨2, ![1000000, 1]⟩
abbrev S1x64x64 : Shape := ⟨3, ![1, 64, 64]⟩
abbrev S64x64 : Shape := ⟨2, ![64, 64]⟩
abbrev S1000000x192 : Shape := ⟨2, ![1000000, 192]⟩
abbrev S1x192x64 : Shape := ⟨3, ![1, 192, 64]⟩
abbrev S192x64 : Shape := ⟨2, ![192, 64]⟩

abbrev nBuf : Space → Nat
  | .hbm => 321
  | .vmem => 0
  | .smem => 0
  | _ => 0

abbrev hbmTy0_0 (i : Nat) : BufTy := match i % 128 with
  | 0 => ⟨S50000x32, .f32⟩
  | 1 => ⟨S2x1000000, .i32⟩
  | 2 => ⟨S1000000x16, .f32⟩
  | 3 => ⟨S32x64, .f32⟩
  | 4 => ⟨S64, .f32⟩
  | 5 => ⟨S16x64, .f32⟩
  | 6 => ⟨S64, .f32⟩
  | 7 => ⟨S2x64x64, .f32⟩
  | 8 => ⟨S2x64, .f32⟩
  | 9 => ⟨S2x64x64, .f32⟩
  | 10 => ⟨S2x64, .f32⟩
  | 11 => ⟨S2x64x64, .f32⟩
  | 12 => ⟨S2x64, .f32⟩
  | 13 => ⟨S2x192x64, .f32⟩
  | 14 => ⟨S2x64, .f32⟩
  | 15 => ⟨S2x64x64, .f32⟩
  | 16 => ⟨S2x64, .f32⟩
  | 17 => ⟨S2x64, .f32⟩
  | 18 => ⟨S2x64, .f32⟩
  | 19 => ⟨S1x1000000, .i32⟩
  | 20 => ⟨S1000000, .i32⟩
  | 21 => ⟨S1x1000000, .i32⟩
  | 22 => ⟨S1000000, .i32⟩
  | 23 => ⟨S50000x64, .f32⟩
  | 24 => ⟨S1x64, .f32⟩
  | 25 => ⟨S50000x64, .f32⟩
  | 26 => ⟨S50000x64, .f32⟩
  | 27 => ⟨S1000000x64, .f32⟩
  | 28 => ⟨S1x64, .f32⟩
  | 29 => ⟨S1000000x64, .f32⟩
  | 30 => ⟨S1000000x64, .f32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000x64, .f32⟩
  | 40 => ⟨S1x64x64, .f32⟩
  | 41 => ⟨S64x64, .f32⟩
  | 42 => ⟨S1000000x64, .f32⟩
  | 43 => ⟨S1000000x64, .f32⟩
  | 44 => ⟨S1x64, .f32⟩
  | 45 => ⟨S64, .f32⟩
  | 46 => ⟨S1x64, .f32⟩
  | 47 => ⟨S1000000x64, .f32⟩
  | 48 => ⟨S1000000x64, .f32⟩
  | 49 => ⟨S_, .f32⟩
  | 50 => ⟨S1000000x64, .f32⟩
  | 51 => ⟨S1000000x64, .f32⟩
  | 52 => ⟨S_, .f32⟩
  | 53 => ⟨S50000x64, .f32⟩
  | 54 => ⟨S1000000x1, .i32⟩
  | 55 => ⟨S50000x64, .f32⟩
  | 56 => ⟨S_, .f32⟩
  | 57 => ⟨S50000x64, .f32⟩
  | 58 => ⟨S50000x64, .f32⟩
  | 59 => ⟨S50000x64, .f32⟩
  | 60 => ⟨S1x64x64, .f32⟩
  | 61 => ⟨S64x64, .f32⟩
  | 62 => ⟨S50000x64, .f32⟩
  | 63 => ⟨S1x64, .f32⟩
  | 64 => ⟨S64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S1x64x64, .f32⟩
  | 72 => ⟨S64x64, .f32⟩
  | 73 => ⟨S50000x64, .f32⟩
  | 74 => ⟨S1x64, .f32⟩
  | 75 => ⟨S64, .f32⟩
  | 76 => ⟨S1x64, .f32⟩
  | 77 => ⟨S50000x64, .f32⟩
  | 78 => ⟨S50000x64, .f32⟩
  | 79 => ⟨S_, .f32⟩
  | 80 => ⟨S64, .f32⟩
  | 81 => ⟨S_, .f32⟩
  | 82 => ⟨S64, .f32⟩
  | 83 => ⟨S64, .f32⟩
  | 84 => ⟨S_, .i32⟩
  | 85 => ⟨S_, .f32⟩
  | 86 => ⟨S64, .f32⟩
  | 87 => ⟨S1x64, .f32⟩
  | 88 => ⟨S_, .f32⟩
  | 89 => ⟨S1x64, .f32⟩
  | 90 => ⟨S1x64, .f32⟩
  | 91 => ⟨S50000x64, .f32⟩
  | 92 => ⟨S50000x64, .f32⟩
  | 93 => ⟨S50000x64, .f32⟩
  | 94 => ⟨S_, .f32⟩
  | 95 => ⟨S_, .f32⟩
  | 96 => ⟨S_, .f32⟩
  | 97 => ⟨S_, .f32⟩
  | 98 => ⟨S64, .f32⟩
  | 99 => ⟨S64, .f32⟩
  | 100 => ⟨S64, .f32⟩
  | 101 => ⟨S_, .f32⟩
  | 102 => ⟨S_, .i1⟩
  | 103 => ⟨S_, .f32⟩
  | 104 => ⟨S_, .f32⟩
  | 105 => ⟨S64, .f32⟩
  | 106 => ⟨S64, .f32⟩
  | 107 => ⟨S1x64, .f32⟩
  | 108 => ⟨S50000x64, .f32⟩
  | 109 => ⟨S50000x64, .f32⟩
  | 110 => ⟨S_, .f32⟩
  | 111 => ⟨S64, .f32⟩
  | 112 => ⟨S64, .f32⟩
  | 113 => ⟨S64, .f32⟩
  | 114 => ⟨S1x64, .f32⟩
  | 115 => ⟨S50000x64, .f32⟩
  | 116 => ⟨S50000x64, .f32⟩
  | 117 => ⟨S1x64, .f32⟩
  | 118 => ⟨S64, .f32⟩
  | 119 => ⟨S1x64, .f32⟩
  | 120 => ⟨S50000x64, .f32⟩
  | 121 => ⟨S50000x64, .f32⟩
  | 122 => ⟨S1x64, .f32⟩
  | 123 => ⟨S64, .f32⟩
  | 124 => ⟨S1x64, .f32⟩
  | 125 => ⟨S50000x64, .f32⟩
  | 126 => ⟨S50000x64, .f32⟩
  | 127 => ⟨S_, .f32⟩
  | _ => ⟨S50000x32, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S50000x64, .f32⟩
  | 5 => ⟨S50000x64, .f32⟩
  | 6 => ⟨S_, .i32⟩
  | 7 => ⟨S1000000, .i32⟩
  | 8 => ⟨S1000000, .i1⟩
  | 9 => ⟨S_, .i32⟩
  | 10 => ⟨S1000000, .i32⟩
  | 11 => ⟨S1000000, .i32⟩
  | 12 => ⟨S1000000, .i32⟩
  | 13 => ⟨S1000000x1, .i32⟩
  | 14 => ⟨S1000000x64, .f32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x64, .f32⟩
  | 24 => ⟨S1000000x192, .f32⟩
  | 25 => ⟨S1x192x64, .f32⟩
  | 26 => ⟨S192x64, .f32⟩
  | 27 => ⟨S1000000x64, .f32⟩
  | 28 => ⟨S1x64, .f32⟩
  | 29 => ⟨S64, .f32⟩
  | 30 => ⟨S1x64, .f32⟩
  | 31 => ⟨S1000000x64, .f32⟩
  | 32 => ⟨S1000000x64, .f32⟩
  | 33 => ⟨S_, .f32⟩
  | 34 => ⟨S1000000x64, .f32⟩
  | 35 => ⟨S1000000x64, .f32⟩
  | 36 => ⟨S1x64x64, .f32⟩
  | 37 => ⟨S64x64, .f32⟩
  | 38 => ⟨S1000000x64, .f32⟩
  | 39 => ⟨S1x64, .f32⟩
  | 40 => ⟨S64, .f32⟩
  | 41 => ⟨S1x64, .f32⟩
  | 42 => ⟨S1000000x64, .f32⟩
  | 43 => ⟨S1000000x64, .f32⟩
  | 44 => ⟨S_, .f32⟩
  | 45 => ⟨S1000000x64, .f32⟩
  | 46 => ⟨S1000000x64, .f32⟩
  | 47 => ⟨S1000000x64, .f32⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i32⟩
  | 54 => ⟨S1000000, .i32⟩
  | 55 => ⟨S1000000x1, .i32⟩
  | 56 => ⟨S1000000x64, .f32⟩
  | 57 => ⟨S1x64x64, .f32⟩
  | 58 => ⟨S64x64, .f32⟩
  | 59 => ⟨S1000000x64, .f32⟩
  | 60 => ⟨S1000000x64, .f32⟩
  | 61 => ⟨S1x64, .f32⟩
  | 62 => ⟨S64, .f32⟩
  | 63 => ⟨S1x64, .f32⟩
  | 64 => ⟨S1000000x64, .f32⟩
  | 65 => ⟨S1000000x64, .f32⟩
  | 66 => ⟨S_, .f32⟩
  | 67 => ⟨S1000000x64, .f32⟩
  | 68 => ⟨S1000000x64, .f32⟩
  | 69 => ⟨S_, .f32⟩
  | 70 => ⟨S50000x64, .f32⟩
  | 71 => ⟨S1000000x1, .i32⟩
  | 72 => ⟨S50000x64, .f32⟩
  | 73 => ⟨S_, .f32⟩
  | 74 => ⟨S50000x64, .f32⟩
  | 75 => ⟨S50000x64, .f32⟩
  | 76 => ⟨S50000x64, .f32⟩
  | 77 => ⟨S1x64x64, .f32⟩
  | 78 => ⟨S64x64, .f32⟩
  | 79 => ⟨S50000x64, .f32⟩
  | 80 => ⟨S1x64, .f32⟩
  | 81 => ⟨S64, .f32⟩
  | 82 => ⟨S1x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S1x64x64, .f32⟩
  | 89 => ⟨S64x64, .f32⟩
  | 90 => ⟨S50000x64, .f32⟩
  | 91 => ⟨S1x64, .f32⟩
  | 92 => ⟨S64, .f32⟩
  | 93 => ⟨S1x64, .f32⟩
  | 94 => ⟨S50000x64, .f32⟩
  | 95 => ⟨S50000x64, .f32⟩
  | 96 => ⟨S_, .f32⟩
  | 97 => ⟨S64, .f32⟩
  | 98 => ⟨S_, .f32⟩
  | 99 => ⟨S64, .f32⟩
  | 100 => ⟨S64, .f32⟩
  | 101 => ⟨S_, .i32⟩
  | 102 => ⟨S_, .f32⟩
  | 103 => ⟨S64, .f32⟩
  | 104 => ⟨S1x64, .f32⟩
  | 105 => ⟨S_, .f32⟩
  | 106 => ⟨S1x64, .f32⟩
  | 107 => ⟨S1x64, .f32⟩
  | 108 => ⟨S50000x64, .f32⟩
  | 109 => ⟨S50000x64, .f32⟩
  | 110 => ⟨S50000x64, .f32⟩
  | 111 => ⟨S_, .f32⟩
  | 112 => ⟨S_, .f32⟩
  | 113 => ⟨S_, .f32⟩
  | 114 => ⟨S_, .f32⟩
  | 115 => ⟨S64, .f32⟩
  | 116 => ⟨S64, .f32⟩
  | 117 => ⟨S64, .f32⟩
  | 118 => ⟨S_, .f32⟩
  | 119 => ⟨S_, .i1⟩
  | 120 => ⟨S_, .f32⟩
  | 121 => ⟨S_, .f32⟩
  | 122 => ⟨S64, .f32⟩
  | 123 => ⟨S64, .f32⟩
  | 124 => ⟨S1x64, .f32⟩
  | 125 => ⟨S50000x64, .f32⟩
  | 126 => ⟨S50000x64, .f32⟩
  | 127 => ⟨S_, .f32⟩
  | _ => ⟨S50000x32, .f32⟩

abbrev hbmTy0_2 (i : Nat) : BufTy := match i % 128 with
  | 0 => ⟨S64, .f32⟩
  | 1 => ⟨S64, .f32⟩
  | 2 => ⟨S64, .f32⟩
  | 3 => ⟨S1x64, .f32⟩
  | 4 => ⟨S50000x64, .f32⟩
  | 5 => ⟨S50000x64, .f32⟩
  | 6 => ⟨S1x64, .f32⟩
  | 7 => ⟨S64, .f32⟩
  | 8 => ⟨S1x64, .f32⟩
  | 9 => ⟨S50000x64, .f32⟩
  | 10 => ⟨S50000x64, .f32⟩
  | 11 => ⟨S1x64, .f32⟩
  | 12 => ⟨S64, .f32⟩
  | 13 => ⟨S1x64, .f32⟩
  | 14 => ⟨S50000x64, .f32⟩
  | 15 => ⟨S50000x64, .f32⟩
  | 16 => ⟨S_, .f32⟩
  | 17 => ⟨S50000x64, .f32⟩
  | 18 => ⟨S50000x64, .f32⟩
  | 19 => ⟨S50000x64, .f32⟩
  | 20 => ⟨S_, .f32⟩
  | 21 => ⟨S50000x64, .f32⟩
  | 22 => ⟨S50000x64, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x64, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x64, .f32⟩
  | 41 => ⟨S1000000x192, .f32⟩
  | 42 => ⟨S1x192x64, .f32⟩
  | 43 => ⟨S192x64, .f32⟩
  | 44 => ⟨S1000000x64, .f32⟩
  | 45 => ⟨S1x64, .f32⟩
  | 46 => ⟨S64, .f32⟩
  | 47 => ⟨S1x64, .f32⟩
  | 48 => ⟨S1000000x64, .f32⟩
  | 49 => ⟨S1000000x64, .f32⟩
  | 50 => ⟨S_, .f32⟩
  | 51 => ⟨S1000000x64, .f32⟩
  | 52 => ⟨S1000000x64, .f32⟩
  | 53 => ⟨S1x64x64, .f32⟩
  | 54 => ⟨S64x64, .f32⟩
  | 55 => ⟨S1000000x64, .f32⟩
  | 56 => ⟨S1x64, .f32⟩
  | 57 => ⟨S64, .f32⟩
  | 58 => ⟨S1x64, .f32⟩
  | 59 => ⟨S1000000x64, .f32⟩
  | 60 => ⟨S1000000x64, .f32⟩
  | 61 => ⟨S_, .f32⟩
  | 62 => ⟨S1000000x64, .f32⟩
  | 63 => ⟨S1000000x64, .f32⟩
  | 64 => ⟨S1000000x64, .f32⟩
  | _ => ⟨S50000x32, .f32⟩

abbrev hbmTy (i : Nat) : BufTy := match i / 128 with
  | 0 => hbmTy0_0 i
  | 1 => hbmTy0_1 i
  | 2 => hbmTy0_2 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call0_cst : Ref sig .tc := ⟨.hbm, 49, rfl⟩
abbrev main_call0_v0 : Ref sig .tc := ⟨.hbm, 50, rfl⟩
abbrev main_v28 : Ref sig .tc := ⟨.hbm, 51, rfl⟩
abbrev main_cst : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_1 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call1_cst : Ref sig .tc := ⟨.hbm, 68, rfl⟩
abbrev main_call1_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_2 : Ref sig .tc := ⟨.hbm, 79, rfl⟩
abbrev main_v52 : Ref sig .tc := ⟨.hbm, 80, rfl⟩
abbrev main_cst_3 : Ref sig .tc := ⟨.hbm, 81, rfl⟩
abbrev main_v53 : Ref sig .tc := ⟨.hbm, 82, rfl⟩
abbrev main_v54 : Ref sig .tc := ⟨.hbm, 83, rfl⟩
abbrev main_c_4 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_cst_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_cst_1 : Ref sig .tc := ⟨.hbm, 95, rfl⟩
abbrev main_call2_v8 : Ref sig .tc := ⟨.hbm, 96, rfl⟩
abbrev main_call2_cst_2 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_cst_3 : Ref sig .tc := ⟨.hbm, 101, rfl⟩
abbrev main_call2_v12 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_5 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_call3_cst : Ref sig .tc := ⟨.hbm, 127, rfl⟩
abbrev main_call3_v0 : Ref sig .tc := ⟨.hbm, 128, rfl⟩
abbrev main_v75 : Ref sig .tc := ⟨.hbm, 129, rfl⟩
abbrev main_v76 : Ref sig .tc := ⟨.hbm, 130, rfl⟩
abbrev main_cst_6 : Ref sig .tc := ⟨.hbm, 131, rfl⟩
abbrev main_v77 : Ref sig .tc := ⟨.hbm, 132, rfl⟩
abbrev main_v78 : Ref sig .tc := ⟨.hbm, 133, rfl⟩
abbrev main_c_7 : Ref sig .tc := ⟨.hbm, 134, rfl⟩
abbrev main_v79 : Ref sig .tc := ⟨.hbm, 135, rfl⟩
abbrev main_v80 : Ref sig .tc := ⟨.hbm, 136, rfl⟩
abbrev main_c_8 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_c_9 : Ref sig .tc := ⟨.hbm, 143, rfl⟩
abbrev main_v86 : Ref sig .tc := ⟨.hbm, 144, rfl⟩
abbrev main_v87 : Ref sig .tc := ⟨.hbm, 145, rfl⟩
abbrev main_c_10 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_call4_cst : Ref sig .tc := ⟨.hbm, 161, rfl⟩
abbrev main_call4_v0 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_cst_11 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_c_12 : Ref sig .tc := ⟨.hbm, 176, rfl⟩
abbrev main_v114 : Ref sig .tc := ⟨.hbm, 177, rfl⟩
abbrev main_v115 : Ref sig .tc := ⟨.hbm, 178, rfl⟩
abbrev main_c_13 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_call5_cst : Ref sig .tc := ⟨.hbm, 194, rfl⟩
abbrev main_call5_v0 : Ref sig .tc := ⟨.hbm, 195, rfl⟩
abbrev main_v130 : Ref sig .tc := ⟨.hbm, 196, rfl⟩
abbrev main_cst_14 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_cst_15 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_call6_cst : Ref sig .tc := ⟨.hbm, 213, rfl⟩
abbrev main_call6_v0 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_cst_16 : Ref sig .tc := ⟨.hbm, 224, rfl⟩
abbrev main_v154 : Ref sig .tc := ⟨.hbm, 225, rfl⟩
abbrev main_cst_17 : Ref sig .tc := ⟨.hbm, 226, rfl⟩
abbrev main_v155 : Ref sig .tc := ⟨.hbm, 227, rfl⟩
abbrev main_v156 : Ref sig .tc := ⟨.hbm, 228, rfl⟩
abbrev main_c_18 : Ref sig .tc := ⟨.hbm, 229, rfl⟩
abbrev main_call7_cst : Ref sig .tc := ⟨.hbm, 230, rfl⟩
abbrev main_call7_v0 : Ref sig .tc := ⟨.hbm, 231, rfl⟩
abbrev main_call7_v1 : Ref sig .tc := ⟨.hbm, 232, rfl⟩
abbrev main_call7_cst_0 : Ref sig .tc := ⟨.hbm, 233, rfl⟩
abbrev main_call7_v2 : Ref sig .tc := ⟨.hbm, 234, rfl⟩
abbrev main_call7_v3 : Ref sig .tc := ⟨.hbm, 235, rfl⟩
abbrev main_call7_v4 : Ref sig .tc := ⟨.hbm, 236, rfl⟩
abbrev main_call7_v5 : Ref sig .tc := ⟨.hbm, 237, rfl⟩
abbrev main_call7_v6 : Ref sig .tc := ⟨.hbm, 238, rfl⟩
abbrev main_call7_v7 : Ref sig .tc := ⟨.hbm, 239, rfl⟩
abbrev main_call7_cst_1 : Ref sig .tc := ⟨.hbm, 240, rfl⟩
abbrev main_call7_v8 : Ref sig .tc := ⟨.hbm, 241, rfl⟩
abbrev main_call7_cst_2 : Ref sig .tc := ⟨.hbm, 242, rfl⟩
abbrev main_call7_v9 : Ref sig .tc := ⟨.hbm, 243, rfl⟩
abbrev main_call7_v10 : Ref sig .tc := ⟨.hbm, 244, rfl⟩
abbrev main_call7_v11 : Ref sig .tc := ⟨.hbm, 245, rfl⟩
abbrev main_call7_cst_3 : Ref sig .tc := ⟨.hbm, 246, rfl⟩
abbrev main_call7_v12 : Ref sig .tc := ⟨.hbm, 247, rfl⟩
abbrev main_call7_cst_4 : Ref sig .tc := ⟨.hbm, 248, rfl⟩
abbrev main_call7_call0_v0 : Ref sig .tc := ⟨.hbm, 249, rfl⟩
abbrev main_call7_call0_v1 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_cst_19 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_call8_cst : Ref sig .tc := ⟨.hbm, 272, rfl⟩
abbrev main_call8_v0 : Ref sig .tc := ⟨.hbm, 273, rfl⟩
abbrev main_v177 : Ref sig .tc := ⟨.hbm, 274, rfl⟩
abbrev main_v178 : Ref sig .tc := ⟨.hbm, 275, rfl⟩
abbrev main_cst_20 : Ref sig .tc := ⟨.hbm, 276, rfl⟩
abbrev main_v179 : Ref sig .tc := ⟨.hbm, 277, rfl⟩
abbrev main_v180 : Ref sig .tc := ⟨.hbm, 278, rfl⟩
abbrev main_c_21 : Ref sig .tc := ⟨.hbm, 279, rfl⟩
abbrev main_v181 : Ref sig .tc := ⟨.hbm, 280, rfl⟩
abbrev main_v182 : Ref sig .tc := ⟨.hbm, 281, rfl⟩
abbrev main_c_22 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_c_23 : Ref sig .tc := ⟨.hbm, 288, rfl⟩
abbrev main_v188 : Ref sig .tc := ⟨.hbm, 289, rfl⟩
abbrev main_v189 : Ref sig .tc := ⟨.hbm, 290, rfl⟩
abbrev main_c_24 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_v200 : Ref sig .tc := ⟨.hbm, 302, rfl⟩
abbrev main_v201 : Ref sig .tc := ⟨.hbm, 303, rfl⟩
abbrev main_v202 : Ref sig .tc := ⟨.hbm, 304, rfl⟩
abbrev main_v203 : Ref sig .tc := ⟨.hbm, 305, rfl⟩
abbrev main_call9_cst : Ref sig .tc := ⟨.hbm, 306, rfl⟩
abbrev main_call9_v0 : Ref sig .tc := ⟨.hbm, 307, rfl⟩
abbrev main_v204 : Ref sig .tc := ⟨.hbm, 308, rfl⟩
abbrev main_v205 : Ref sig .tc := ⟨.hbm, 309, rfl⟩
abbrev main_v206 : Ref sig .tc := ⟨.hbm, 310, rfl⟩
abbrev main_v207 : Ref sig .tc := ⟨.hbm, 311, rfl⟩
abbrev main_v208 : Ref sig .tc := ⟨.hbm, 312, rfl⟩
abbrev main_v209 : Ref sig .tc := ⟨.hbm, 313, rfl⟩
abbrev main_v210 : Ref sig .tc := ⟨.hbm, 314, rfl⟩
abbrev main_v211 : Ref sig .tc := ⟨.hbm, 315, rfl⟩
abbrev main_v212 : Ref sig .tc := ⟨.hbm, 316, rfl⟩
abbrev main_cst_25 : Ref sig .tc := ⟨.hbm, 317, rfl⟩
abbrev main_v213 : Ref sig .tc := ⟨.hbm, 318, rfl⟩
abbrev main_v214 : Ref sig .tc := ⟨.hbm, 319, rfl⟩
abbrev main_v215 : Ref sig .tc := ⟨.hbm, 320, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S1000000x64_0_1 : S1x64.BroadcastsInDim S1000000x64 (![0, 1] : Fin 2 → Fin S1000000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S_S1000000x64 : S_.BroadcastsInDim S1000000x64 (![] : Fin 0 → Fin S1000000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  concatenates_S1000000x64_S1000000x64_S1000000x64_S1000000x192_d1 : Shape.Concatenates [S1000000x64, S1000000x64, S1000000x64] S1000000x192 1
  slices_S2x192x64_S1x192x64_0_0_0 : S2x192x64.Slices ![0, 0, 0] S1x192x64
  shapeCasts_S1x192x64_S192x64 : S1x192x64.ShapeCasts S192x64
  slices_S2x64x64_S1x64x64_1_0_0 : S2x64x64.Slices ![1, 0, 0] S1x64x64
  slices_S2x64_S1x64_1_0 : S2x64.Slices ![1, 0] S1x64
  slices_S2x192x64_S1x192x64_1_0_0 : S2x192x64.Slices ![1, 0, 0] S1x192x64
  dot_S50000x32_S32x64_S50000x64_1_0_0_1_n_n_wf : DotDims.WF S50000x32 S32x64 S50000x64 [1] [0] [0] [1] [] []
  dot_S1000000x16_S16x64_S1000000x64_1_0_0_1_n_n_wf : DotDims.WF S1000000x16 S16x64 S1000000x64 [1] [0] [0] [1] [] []
  gather_S50000x64_S1000000x1_S1000000x64_1_0_n_n_0_1_164_wf : GatherDims.WF S50000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S50000x64_S1000000x1_S1000000x64_1_0_0_1_wf : ScatterDims.WF S50000x64 S1000000x1 S1000000x64 [1] [0] [0] 1
  dot_S50000x64_S64x64_S50000x64_1_0_0_1_n_n_wf : DotDims.WF S50000x64 S64x64 S50000x64 [1] [0] [0] [1] [] []
  dot_S1000000x192_S192x64_S1000000x64_1_0_0_1_n_n_wf : DotDims.WF S1000000x192 S192x64 S1000000x64 [1] [0] [0] [1] [] []

variable [Facts₀]

def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S1000000x16_S16x64_S1000000x64_1_0_0_1_n_n : DotDims S1000000x16 S16x64 S1000000x64 where
  lhsContracting := [1]
  rhsContracting := [0]
  lhsNonContracting := [0]
  rhsNonContracting := [1]
  lhsBatch := []
  rhsBatch := []
  wf := dot_S1000000x16_S16x64_S1000000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1000000x192_S192x64_S1000000x64_1_0_0_1_n_n : DotDims S1000000x192 S192x64 S1000000x64 where
  lhsContracting := [1]
  rhsContracting := [0]
  lhsNonContracting := [0]
  rhsNonContracting := [1]
  lhsBatch := []
  rhsBatch := []
  wf := dot_S1000000x192_S192x64_S1000000x64_1_0_0_1_n_n_wf

class Facts : Prop extends Facts₀ where

variable [Facts]
-- ==== Proof.KSteps.lean ====
/- One step back across each of the kernel program's twenty segments.

  The contents of core `c`'s buffers at the segment boundaries are `Gen.W0` (the launch memory), `Gen.W1`, …, `Gen.W20`
  (the end): an odd boundary `W(2k+1)` is host stretch `k` folded over `W(2k)`, an even one `W(2k+2)` is `W(2k+1)`
  with region `k`'s arrays replaced by what its write-backs leave. A host stretch changes only the buffers its
  operations write (`hkeepK`); a region changes only its OUTPUT arrays — an input window's array ends as it was
  entered, and a buffer that is no array of the region is not touched (`keepK`). Every value in the program is
  written once, so these steps carry a buffer's contents from where it is produced to where it is read.
-/
import proofs.«133695_j30227979829590_2_alg».proof.Proof.Gen.KernelIdeal.Frame

set_option maxRecDepth 16384

noncomputable section

namespace Cert.KernelIdeal.Steps

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- A buffer none of a stretch's operations writes is the same before and after it: the side condition, one
    inequality of references per operation, decided. -/
macro "not_written" ops:ident : tactic => `(tactic| exact List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- Host stretch 0 keeps a buffer it does not write. -/
theorem hkeep0 (b : Ref sig .tc) (h : ∀ op ∈ (hostOps0 : List (HloOp τ sig (Elt F))), (Proc.devRef .tc b : DevRef τ sig) ∉ op.writes) :
    W1 m ρ c (Proc.devRef .tc b) = W0 m ρ c (Proc.devRef .tc b) :=
  StableHlo.after_of_forall_not_mem (b := Proc.devRef .tc b) _ _ h

/-- Region 0 keeps every buffer that is not one of its output arrays. -/
theorem keep0 (b : Ref sig .tc) (hb : ∀ w : Fin cfg0.W, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut
      · rfl
      · exact absurd rfl (hb w hw)
    exact (W2_arr m ρ c w).trans (((dat0 (V1 m ρ) c).arrAt_in w hin _).trans (A_eq0 (V1 m ρ) c w))
  · exact W2_of_ne m ρ c b fun w e => h ⟨w, e⟩

/-- Host stretch 1 keeps a buffer it does not write. -/
theorem hkeep1 (b : Ref sig .tc) (h : ∀ op ∈ (hostOps1 : List (HloOp τ sig (Elt F))), (Proc.devRef .tc b : DevRef τ sig) ∉ op.writes) :
    W3 m ρ c (Proc.devRef .tc b) = W2 m ρ c (Proc.devRef .tc b) :=
  StableHlo.after_of_forall_not_mem (b := Proc.devRef .tc b) _ _ h

/-- Region 1 keeps every buffer that is not one of its output arrays. -/
theorem keep1 (b : Ref sig .tc) (hb : ∀ w : Fin cfg1.W, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hw : (cfg1.win w).isOut
      · rfl
      · exact absurd rfl (hb w hw)
    exact (W4_arr m ρ c w).trans (((dat1 (V3 m ρ) c).arrAt_in w hin _).trans (A_eq1 (V3 m ρ) c w))
  · exact W4_of_ne m ρ c b fun w e => h ⟨w, e⟩

/-- Host stretch 2 keeps a buffer it does not write. -/
theorem hkeep2 (b : Ref sig .tc) (h : ∀ op ∈ (hostOps2 : List (HloOp τ sig (Elt F))), (Proc.devRef .tc b : DevRef τ sig) ∉ op.writes) :
    W5 m ρ c (Proc.devRef .tc b) = W4 m ρ c (Proc.devRef .tc b) :=
  StableHlo.after_of_forall_not_mem (b := Proc.devRef .tc b) _ _ h

/-- Region 2 keeps every buffer that is not one of its output arrays. -/
theorem keep2 (b : Ref sig .tc) (hb : ∀ w : Fin cfg2.W, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases hw : (cfg2.win w).isOut
      · rfl
      · exact absurd rfl (hb w hw)
    exact (W6_arr m ρ c w).trans (((dat2 (V5 m ρ) c).arrAt_in w hin _).trans (A_eq2 (V5 m ρ) c w))
  · exact W6_of_ne m ρ c b fun w e => h ⟨w, e⟩

/-- Host stretch 3 keeps a buffer it does not write. -/
theorem hkeep3 (b : Ref sig .tc) (h : ∀ op ∈ (hostOps3 : List (HloOp τ sig (Elt F))), (Proc.devRef .tc b : DevRef τ sig) ∉ op.writes) :
    W7 m ρ c (Proc.devRef .tc b) = W6 m ρ c (Proc.devRef .tc b) :=
  StableHlo.after_of_forall_not_mem (b := Proc.devRef .tc b) _ _ h

/-- Region 3 keeps every buffer that is not one of its output arrays. -/
theorem keep3 (b : Ref sig .tc) (hb : ∀ w : Fin cfg3.W, (cfg3.win w).isOut = true → Pipeline.arrRef spec3 w ≠ b) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      cases hw : (cfg3.win w).isOut
      · rfl
      · exact absurd rfl (hb w hw)
    exact (W8_arr m ρ c w).trans (((dat3 (V7 m ρ) c).arrAt_in w hin _).trans (A_eq3 (V7 m ρ) c w))
  · exact W8_of_ne m ρ c b fun w e => h ⟨w, e⟩

/-- Host stretch 4 keeps a buffer it does not write. -/
theorem hkeep4 (b : Ref sig .tc) (h : ∀ op ∈ (hostOps4 : List (HloOp τ sig (Elt F))), (Proc.devRef .tc b : DevRef τ sig) ∉ op.writes) :
    W9 m ρ c (Proc.devRef .tc b) = W8 m ρ c (Proc.devRef .tc b) :=
  StableHlo.after_of_forall_not_mem (b := Proc.devRef .tc b) _ _ h

/-- Region 4 keeps every buffer that is not one of its output arrays. -/
theorem keep4 (b : Ref sig .tc) (hb : ∀ w : Fin cfg4.W, (cfg4.win w).isOut = true → Pipeline.arrRef spec4 w ≠ b) :
    W10 m ρ c (Proc.devRef .tc b) = W9 m ρ c (Proc.devRef .tc b) := by
  by_cases h : ∃ w, Pipeline.arrRef spec4 w = b
  · obtain ⟨w, rfl⟩ := h
    have hin : (cfg4.win w).isOut = false := by
      cases hw : (cfg4.win w).isOut
      · rfl
      · exact absurd rfl (hb w hw)
    exact (W10_arr m ρ c w).trans (((dat4 (V9 m ρ) c).arrAt_in w hin _).trans (A_eq4 (V9 m ρ) c w))
  · exact W10_of_ne m ρ c b fun w e => h ⟨w, e⟩

/-- Host stretch 5 keeps a buffer it does not write. -/
theorem hkeep5 (b : Ref sig .tc) (h : ∀ op ∈ (hostOps5 : List (HloOp τ sig (Elt F))), (Proc.devRef .tc b : DevRef τ sig) ∉ op.writes) :
    W11 m ρ c (Proc.devRef .tc b) = W10 m ρ c (Proc.devRef .tc b) :=
  StableHlo.after_of_forall_not_mem (b := Proc.devRef .tc b) _ _ h

/-- Region 5 keeps every buffer that is not one of its output arrays. -/
theorem keep5 (b : Ref sig .tc) (hb : ∀ w : Fin cfg5.W, (cfg5.win w).isOut = true → Pipeline.arrRef spec5 w ≠ b) :
    W12 m ρ c (Proc.devRef .tc b) = W11 m ρ c (Proc.devRef .tc b) := by
  by_cases h : ∃ w, Pipeline.arrRef spec5 w = b
  · obtain ⟨w, rfl⟩ := h
    have hin : (cfg5.win w).isOut = false := by
      cases hw : (cfg5.win w).isOut
      · rfl
      · exact absurd rfl (hb w hw)
    exact (W12_arr m ρ c w).trans (((dat5 (V11 m ρ) c).arrAt_in w hin _).trans (A_eq5 (V11 m ρ) c w))
  · exact W12_of_ne m ρ c b fun w e => h ⟨w, e⟩

/-- Host stretch 6 keeps a buffer it does not write. -/
theorem hkeep6 (b : Ref sig .tc) (h : ∀ op ∈ (hostOps6 : List (HloOp τ sig (Elt F))), (Proc.devRef .tc b : DevRef τ sig) ∉ op.writes) :
    W13 m ρ c (Proc.devRef .tc b) = W12 m ρ c (Proc.devRef .tc b) :=
  StableHlo.after_of_forall_not_mem (b := Proc.devRef .tc b) _ _ h

/-- Region 6 keeps every buffer that is not one of its output arrays. -/
theorem keep6 (b : Ref sig .tc) (hb : ∀ w : Fin cfg6.W, (cfg6.win w).isOut = true → Pipeline.arrRef spec6 w ≠ b) :
    W14 m ρ c (Proc.devRef .tc b) = W13 m ρ c (Proc.devRef .tc b) := by
  by_cases h : ∃ w, Pipeline.arrRef spec6 w = b
  · obtain ⟨w, rfl⟩ := h
    have hin : (cfg6.win w).isOut = false := by
      cases hw : (cfg6.win w).isOut
      · rfl
      · exact absurd rfl (hb w hw)
    exact (W14_arr m ρ c w).trans (((dat6 (V13 m ρ) c).arrAt_in w hin _).trans (A_eq6 (V13 m ρ) c w))
  · exact W14_of_ne m ρ c b fun w e => h ⟨w, e⟩

/-- Host stretch 7 keeps a buffer it does not write. -/
theorem hkeep7 (b : Ref sig .tc) (h : ∀ op ∈ (hostOps7 : List (HloOp τ sig (Elt F))), (Proc.devRef .tc b : DevRef τ sig) ∉ op.writes) :
    W15 m ρ c (Proc.devRef .tc b) = W14 m ρ c (Proc.devRef .tc b) :=
  StableHlo.after_of_forall_not_mem (b := Proc.devRef .tc b) _ _ h

/-- Region 7 keeps every buffer that is not one of its output arrays. -/
theorem keep7 (b : Ref sig .tc) (hb : ∀ w : Fin cfg7.W, (cfg7.win w).isOut = true → Pipeline.arrRef spec7 w ≠ b) :
    W16 m ρ c (Proc.devRef .tc b) = W15 m ρ c (Proc.devRef .tc b) := by
  by_cases h : ∃ w, Pipeline.arrRef spec7 w = b
  · obtain ⟨w, rfl⟩ := h
    have hin : (cfg7.win w).isOut = false := by
      cases hw : (cfg7.win w).isOut
      · rfl
      · exact absurd rfl (hb w hw)
    exact (W16_arr m ρ c w).trans (((dat7 (V15 m ρ) c).arrAt_in w hin _).trans (A_eq7 (V15 m ρ) c w))
  · exact W16_of_ne m ρ c b fun w e => h ⟨w, e⟩

/-- Host stretch 8 keeps a buffer it does not write. -/
theorem hkeep8 (b : Ref sig .tc) (h : ∀ op ∈ (hostOps8 : List (HloOp τ sig (Elt F))), (Proc.devRef .tc b : DevRef τ sig) ∉ op.writes) :
    W17 m ρ c (Proc.devRef .tc b) = W16 m ρ c (Proc.devRef .tc b) :=
  StableHlo.after_of_forall_not_mem (b := Proc.devRef .tc b) _ _ h

/-- Region 8 keeps every buffer that is not one of its output arrays. -/
theorem keep8 (b : Ref sig .tc) (hb : ∀ w : Fin cfg8.W, (cfg8.win w).isOut = true → Pipeline.arrRef spec8 w ≠ b) :
    W18 m ρ c (Proc.devRef .tc b) = W17 m ρ c (Proc.devRef .tc b) := by
  by_cases h : ∃ w, Pipeline.arrRef spec8 w = b
  · obtain ⟨w, rfl⟩ := h
    have hin : (cfg8.win w).isOut = false := by
      cases hw : (cfg8.win w).isOut
      · rfl
      · exact absurd rfl (hb w hw)
    exact (W18_arr m ρ c w).trans (((dat8 (V17 m ρ) c).arrAt_in w hin _).trans (A_eq8 (V17 m ρ) c w))
  · exact W18_of_ne m ρ c b fun w e => h ⟨w, e⟩

/-- Host stretch 9 keeps a buffer it does not write. -/
theorem hkeep9 (b : Ref sig .tc) (h : ∀ op ∈ (hostOps9 : List (HloOp τ sig (Elt F))), (Proc.devRef .tc b : DevRef τ sig) ∉ op.writes) :
    W19 m ρ c (Proc.devRef .tc b) = W18 m ρ c (Proc.devRef .tc b) :=
  StableHlo.after_of_forall_not_mem (b := Proc.devRef .tc b) _ _ h

/-- Region 9 keeps every buffer that is not one of its output arrays. -/
theorem keep9 (b : Ref sig .tc) (hb : ∀ w : Fin cfg9.W, (cfg9.win w).isOut = true → Pipeline.arrRef spec9 w ≠ b) :
    W20 m ρ c (Proc.devRef .tc b) = W19 m ρ c (Proc.devRef .tc b) := by
  by_cases h : ∃ w, Pipeline.arrRef spec9 w = b
  · obtain ⟨w, rfl⟩ := h
    have hin : (cfg9.win w).isOut = false := by
      cases hw : (cfg9.win w).isOut
      · rfl
      · exact absurd rfl (hb w hw)
    exact (W20_arr m ρ c w).trans (((dat9 (V19 m ρ) c).arrAt_in w hin _).trans (A_eq9 (V19 m ρ) c w))
  · exact W20_of_ne m ρ c b fun w e => h ⟨w, e⟩

end Cert.KernelIdeal.Steps

end
-- ==== Proof.KPersist.lean ====
/- Where each buffer the kernel program reads was produced, carried to where it is read.

  Every value of the program is written once. `p_b_j_i` says that buffer `b` holds at segment boundary `j` what it held at
  boundary `i ≤ j`: one step per segment in between, a host stretch that does not write `b` or a region of which `b` is no
  output array. The rows are the reads the value proof needs: an argument read by a later stretch or region, a
  region's result read some segments after it. -/
import proofs.«133695_j30227979829590_2_alg».proof.Proof.KSteps

set_option maxRecDepth 16384

noncomputable section

namespace Cert.KernelIdeal.Persist

open Cert.KernelIdeal Cert.KernelIdeal.Gen Cert.KernelIdeal.Steps
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem p_arg0_1_0 : W1 m ρ c (Proc.devRef .tc main_arg0) = W0 m ρ c (Proc.devRef .tc main_arg0) :=
  (hkeep0 m ρ c main_arg0 (by not_written hostOps0))

theorem p_arg3_1_0 : W1 m ρ c (Proc.devRef .tc main_arg3) = W0 m ρ c (Proc.devRef .tc main_arg3) :=
  (hkeep0 m ρ c main_arg3 (by not_written hostOps0))

theorem p_arg6_2_0 : W2 m ρ c (Proc.devRef .tc main_arg6) = W0 m ρ c (Proc.devRef .tc main_arg6) :=
  ((keep0 m ρ c main_arg6 (by decide)).trans
    (hkeep0 m ρ c main_arg6 (by not_written hostOps0)))

theorem p_arg2_3_0 : W3 m ρ c (Proc.devRef .tc main_arg2) = W0 m ρ c (Proc.devRef .tc main_arg2) :=
  ((hkeep1 m ρ c main_arg2 (by not_written hostOps1)).trans
    ((keep0 m ρ c main_arg2 (by decide)).trans
    (hkeep0 m ρ c main_arg2 (by not_written hostOps0))))

theorem p_arg5_3_0 : W3 m ρ c (Proc.devRef .tc main_arg5) = W0 m ρ c (Proc.devRef .tc main_arg5) :=
  ((hkeep1 m ρ c main_arg5 (by not_written hostOps1)).trans
    ((keep0 m ρ c main_arg5 (by decide)).trans
    (hkeep0 m ρ c main_arg5 (by not_written hostOps0))))

theorem p_v1_4_1 : W4 m ρ c (Proc.devRef .tc main_v1) = W1 m ρ c (Proc.devRef .tc main_v1) :=
  ((keep1 m ρ c main_v1 (by decide)).trans
    ((hkeep1 m ρ c main_v1 (by not_written hostOps1)).trans
    (keep0 m ρ c main_v1 (by decide))))

theorem p_v5_4_2 : W4 m ρ c (Proc.devRef .tc main_v5) = W2 m ρ c (Proc.devRef .tc main_v5) :=
  ((keep1 m ρ c main_v5 (by decide)).trans
    (hkeep1 m ρ c main_v5 (by not_written hostOps1)))

theorem p_arg7_4_0 : W4 m ρ c (Proc.devRef .tc main_arg7) = W0 m ρ c (Proc.devRef .tc main_arg7) :=
  ((keep1 m ρ c main_arg7 (by decide)).trans
    ((hkeep1 m ρ c main_arg7 (by not_written hostOps1)).trans
    ((keep0 m ρ c main_arg7 (by decide)).trans
    (hkeep0 m ρ c main_arg7 (by not_written hostOps0)))))

theorem p_arg8_4_0 : W4 m ρ c (Proc.devRef .tc main_arg8) = W0 m ρ c (Proc.devRef .tc main_arg8) :=
  ((keep1 m ρ c main_arg8 (by decide)).trans
    ((hkeep1 m ρ c main_arg8 (by not_written hostOps1)).trans
    ((keep0 m ρ c main_arg8 (by decide)).trans
    (hkeep0 m ρ c main_arg8 (by not_written hostOps0)))))

theorem p_v7_5_4 : W5 m ρ c (Proc.devRef .tc main_v7) = W4 m ρ c (Proc.devRef .tc main_v7) :=
  (hkeep2 m ρ c main_v7 (by not_written hostOps2))

theorem p_v3_6_1 : W6 m ρ c (Proc.devRef .tc main_v3) = W1 m ρ c (Proc.devRef .tc main_v3) :=
  ((keep2 m ρ c main_v3 (by decide)).trans
    ((hkeep2 m ρ c main_v3 (by not_written hostOps2)).trans
    ((keep1 m ρ c main_v3 (by decide)).trans
    ((hkeep1 m ρ c main_v3 (by not_written hostOps1)).trans
    (keep0 m ρ c main_v3 (by decide))))))

theorem p_arg9_6_0 : W6 m ρ c (Proc.devRef .tc main_arg9) = W0 m ρ c (Proc.devRef .tc main_arg9) :=
  ((keep2 m ρ c main_arg9 (by decide)).trans
    ((hkeep2 m ρ c main_arg9 (by not_written hostOps2)).trans
    ((keep1 m ρ c main_arg9 (by decide)).trans
    ((hkeep1 m ρ c main_arg9 (by not_written hostOps1)).trans
    ((keep0 m ρ c main_arg9 (by decide)).trans
    (hkeep0 m ρ c main_arg9 (by not_written hostOps0)))))))

theorem p_arg10_6_0 : W6 m ρ c (Proc.devRef .tc main_arg10) = W0 m ρ c (Proc.devRef .tc main_arg10) :=
  ((keep2 m ρ c main_arg10 (by decide)).trans
    ((hkeep2 m ρ c main_arg10 (by not_written hostOps2)).trans
    ((keep1 m ρ c main_arg10 (by decide)).trans
    ((hkeep1 m ρ c main_arg10 (by not_written hostOps1)).trans
    ((keep0 m ρ c main_arg10 (by decide)).trans
    (hkeep0 m ρ c main_arg10 (by not_written hostOps0)))))))

theorem p_arg11_6_0 : W6 m ρ c (Proc.devRef .tc main_arg11) = W0 m ρ c (Proc.devRef .tc main_arg11) :=
  ((keep2 m ρ c main_arg11 (by decide)).trans
    ((hkeep2 m ρ c main_arg11 (by not_written hostOps2)).trans
    ((keep1 m ρ c main_arg11 (by decide)).trans
    ((hkeep1 m ρ c main_arg11 (by not_written hostOps1)).trans
    ((keep0 m ρ c main_arg11 (by decide)).trans
    (hkeep0 m ρ c main_arg11 (by not_written hostOps0)))))))

theorem p_arg12_6_0 : W6 m ρ c (Proc.devRef .tc main_arg12) = W0 m ρ c (Proc.devRef .tc main_arg12) :=
  ((keep2 m ρ c main_arg12 (by decide)).trans
    ((hkeep2 m ρ c main_arg12 (by not_written hostOps2)).trans
    ((keep1 m ρ c main_arg12 (by decide)).trans
    ((hkeep1 m ρ c main_arg12 (by not_written hostOps1)).trans
    ((keep0 m ρ c main_arg12 (by decide)).trans
    (hkeep0 m ρ c main_arg12 (by not_written hostOps0)))))))

theorem p_v5_7_2 : W7 m ρ c (Proc.devRef .tc main_v5) = W2 m ρ c (Proc.devRef .tc main_v5) :=
  ((hkeep3 m ρ c main_v5 (by not_written hostOps3)).trans
    ((keep2 m ρ c main_v5 (by decide)).trans
    ((hkeep2 m ρ c main_v5 (by not_written hostOps2)).trans
    ((keep1 m ρ c main_v5 (by decide)).trans
    (hkeep1 m ρ c main_v5 (by not_written hostOps1))))))

theorem p_arg17_8_0 : W8 m ρ c (Proc.devRef .tc main_arg17) = W0 m ρ c (Proc.devRef .tc main_arg17) :=
  ((keep3 m ρ c main_arg17 (by decide)).trans
    ((hkeep3 m ρ c main_arg17 (by not_written hostOps3)).trans
    ((keep2 m ρ c main_arg17 (by decide)).trans
    ((hkeep2 m ρ c main_arg17 (by not_written hostOps2)).trans
    ((keep1 m ρ c main_arg17 (by decide)).trans
    ((hkeep1 m ρ c main_arg17 (by not_written hostOps1)).trans
    ((keep0 m ρ c main_arg17 (by decide)).trans
    (hkeep0 m ρ c main_arg17 (by not_written hostOps0)))))))))

theorem p_arg18_8_0 : W8 m ρ c (Proc.devRef .tc main_arg18) = W0 m ρ c (Proc.devRef .tc main_arg18) :=
  ((keep3 m ρ c main_arg18 (by decide)).trans
    ((hkeep3 m ρ c main_arg18 (by not_written hostOps3)).trans
    ((keep2 m ρ c main_arg18 (by decide)).trans
    ((hkeep2 m ρ c main_arg18 (by not_written hostOps2)).trans
    ((keep1 m ρ c main_arg18 (by decide)).trans
    ((hkeep1 m ρ c main_arg18 (by not_written hostOps1)).trans
    ((keep0 m ρ c main_arg18 (by decide)).trans
    (hkeep0 m ρ c main_arg18 (by not_written hostOps0)))))))))

theorem p_v34_0_9_8 : W9 m ρ c (Proc.devRef .tc main_v34_0) = W8 m ρ c (Proc.devRef .tc main_v34_0) :=
  (hkeep4 m ρ c main_v34_0 (by not_written hostOps4))

theorem p_v5_9_2 : W9 m ρ c (Proc.devRef .tc main_v5) = W2 m ρ c (Proc.devRef .tc main_v5) :=
  ((hkeep4 m ρ c main_v5 (by not_written hostOps4)).trans
    ((keep3 m ρ c main_v5 (by decide)).trans
    ((hkeep3 m ρ c main_v5 (by not_written hostOps3)).trans
    ((keep2 m ρ c main_v5 (by decide)).trans
    ((hkeep2 m ρ c main_v5 (by not_written hostOps2)).trans
    ((keep1 m ρ c main_v5 (by decide)).trans
    (hkeep1 m ρ c main_v5 (by not_written hostOps1))))))))

theorem p_v1_10_1 : W10 m ρ c (Proc.devRef .tc main_v1) = W1 m ρ c (Proc.devRef .tc main_v1) :=
  ((keep4 m ρ c main_v1 (by decide)).trans
    ((hkeep4 m ρ c main_v1 (by not_written hostOps4)).trans
    ((keep3 m ρ c main_v1 (by decide)).trans
    ((hkeep3 m ρ c main_v1 (by not_written hostOps3)).trans
    ((keep2 m ρ c main_v1 (by decide)).trans
    ((hkeep2 m ρ c main_v1 (by not_written hostOps2)).trans
    ((keep1 m ρ c main_v1 (by decide)).trans
    ((hkeep1 m ρ c main_v1 (by not_written hostOps1)).trans
    (keep0 m ρ c main_v1 (by decide))))))))))

theorem p_v3_10_1 : W10 m ρ c (Proc.devRef .tc main_v3) = W1 m ρ c (Proc.devRef .tc main_v3) :=
  ((keep4 m ρ c main_v3 (by decide)).trans
    ((hkeep4 m ρ c main_v3 (by not_written hostOps4)).trans
    ((keep3 m ρ c main_v3 (by decide)).trans
    ((hkeep3 m ρ c main_v3 (by not_written hostOps3)).trans
    ((keep2 m ρ c main_v3 (by decide)).trans
    ((hkeep2 m ρ c main_v3 (by not_written hostOps2)).trans
    ((keep1 m ρ c main_v3 (by decide)).trans
    ((hkeep1 m ρ c main_v3 (by not_written hostOps1)).trans
    (keep0 m ρ c main_v3 (by decide))))))))))

theorem p_arg13_10_0 : W10 m ρ c (Proc.devRef .tc main_arg13) = W0 m ρ c (Proc.devRef .tc main_arg13) :=
  ((keep4 m ρ c main_arg13 (by decide)).trans
    ((hkeep4 m ρ c main_arg13 (by not_written hostOps4)).trans
    ((keep3 m ρ c main_arg13 (by decide)).trans
    ((hkeep3 m ρ c main_arg13 (by not_written hostOps3)).trans
    ((keep2 m ρ c main_arg13 (by decide)).trans
    ((hkeep2 m ρ c main_arg13 (by not_written hostOps2)).trans
    ((keep1 m ρ c main_arg13 (by decide)).trans
    ((hkeep1 m ρ c main_arg13 (by not_written hostOps1)).trans
    ((keep0 m ρ c main_arg13 (by decide)).trans
    (hkeep0 m ρ c main_arg13 (by not_written hostOps0)))))))))))

theorem p_arg14_10_0 : W10 m ρ c (Proc.devRef .tc main_arg14) = W0 m ρ c (Proc.devRef .tc main_arg14) :=
  ((keep4 m ρ c main_arg14 (by decide)).trans
    ((hkeep4 m ρ c main_arg14 (by not_written hostOps4)).trans
    ((keep3 m ρ c main_arg14 (by decide)).trans
    ((hkeep3 m ρ c main_arg14 (by not_written hostOps3)).trans
    ((keep2 m ρ c main_arg14 (by decide)).trans
    ((hkeep2 m ρ c main_arg14 (by not_written hostOps2)).trans
    ((keep1 m ρ c main_arg14 (by decide)).trans
    ((hkeep1 m ρ c main_arg14 (by not_written hostOps1)).trans
    ((keep0 m ρ c main_arg14 (by decide)).trans
    (hkeep0 m ρ c main_arg14 (by not_written hostOps0)))))))))))

theorem p_arg15_10_0 : W10 m ρ c (Proc.devRef .tc main_arg15) = W0 m ρ c (Proc.devRef .tc main_arg15) :=
  ((keep4 m ρ c main_arg15 (by decide)).trans
    ((hkeep4 m ρ c main_arg15 (by not_written hostOps4)).trans
    ((keep3 m ρ c main_arg15 (by decide)).trans
    ((hkeep3 m ρ c main_arg15 (by not_written hostOps3)).trans
    ((keep2 m ρ c main_arg15 (by decide)).trans
    ((hkeep2 m ρ c main_arg15 (by not_written hostOps2)).trans
    ((keep1 m ρ c main_arg15 (by decide)).trans
    ((hkeep1 m ρ c main_arg15 (by not_written hostOps1)).trans
    ((keep0 m ρ c main_arg15 (by decide)).trans
    (hkeep0 m ρ c main_arg15 (by not_written hostOps0)))))))))))

theorem p_arg16_10_0 : W10 m ρ c (Proc.devRef .tc main_arg16) = W0 m ρ c (Proc.devRef .tc main_arg16) :=
  ((keep4 m ρ c main_arg16 (by decide)).trans
    ((hkeep4 m ρ c main_arg16 (by not_written hostOps4)).trans
    ((keep3 m ρ c main_arg16 (by decide)).trans
    ((hkeep3 m ρ c main_arg16 (by not_written hostOps3)).trans
    ((keep2 m ρ c main_arg16 (by decide)).trans
    ((hkeep2 m ρ c main_arg16 (by not_written hostOps2)).trans
    ((keep1 m ρ c main_arg16 (by decide)).trans
    ((hkeep1 m ρ c main_arg16 (by not_written hostOps1)).trans
    ((keep0 m ρ c main_arg16 (by decide)).trans
    (hkeep0 m ρ c main_arg16 (by not_written hostOps0)))))))))))

theorem p_v7_11_4 : W11 m ρ c (Proc.devRef .tc main_v7) = W4 m ρ c (Proc.devRef .tc main_v7) :=
  ((hkeep5 m ρ c main_v7 (by not_written hostOps5)).trans
    ((keep4 m ρ c main_v7 (by decide)).trans
    ((hkeep4 m ρ c main_v7 (by not_written hostOps4)).trans
    ((keep3 m ρ c main_v7 (by decide)).trans
    ((hkeep3 m ρ c main_v7 (by not_written hostOps3)).trans
    ((keep2 m ρ c main_v7 (by decide)).trans
    (hkeep2 m ρ c main_v7 (by not_written hostOps2))))))))

theorem p_v47_12_10 : W12 m ρ c (Proc.devRef .tc main_v47) = W10 m ρ c (Proc.devRef .tc main_v47) :=
  ((keep5 m ρ c main_v47 (by decide)).trans
    (hkeep5 m ρ c main_v47 (by not_written hostOps5)))

theorem p_v1_12_1 : W12 m ρ c (Proc.devRef .tc main_v1) = W1 m ρ c (Proc.devRef .tc main_v1) :=
  ((keep5 m ρ c main_v1 (by decide)).trans
    ((hkeep5 m ρ c main_v1 (by not_written hostOps5)).trans
    ((keep4 m ρ c main_v1 (by decide)).trans
    ((hkeep4 m ρ c main_v1 (by not_written hostOps4)).trans
    ((keep3 m ρ c main_v1 (by decide)).trans
    ((hkeep3 m ρ c main_v1 (by not_written hostOps3)).trans
    ((keep2 m ρ c main_v1 (by decide)).trans
    ((hkeep2 m ρ c main_v1 (by not_written hostOps2)).trans
    ((keep1 m ρ c main_v1 (by decide)).trans
    ((hkeep1 m ρ c main_v1 (by not_written hostOps1)).trans
    (keep0 m ρ c main_v1 (by decide))))))))))))

theorem p_arg7_12_0 : W12 m ρ c (Proc.devRef .tc main_arg7) = W0 m ρ c (Proc.devRef .tc main_arg7) :=
  ((keep5 m ρ c main_arg7 (by decide)).trans
    ((hkeep5 m ρ c main_arg7 (by not_written hostOps5)).trans
    ((keep4 m ρ c main_arg7 (by decide)).trans
    ((hkeep4 m ρ c main_arg7 (by not_written hostOps4)).trans
    ((keep3 m ρ c main_arg7 (by decide)).trans
    ((hkeep3 m ρ c main_arg7 (by not_written hostOps3)).trans
    ((keep2 m ρ c main_arg7 (by decide)).trans
    ((hkeep2 m ρ c main_arg7 (by not_written hostOps2)).trans
    ((keep1 m ρ c main_arg7 (by decide)).trans
    ((hkeep1 m ρ c main_arg7 (by not_written hostOps1)).trans
    ((keep0 m ρ c main_arg7 (by decide)).trans
    (hkeep0 m ρ c main_arg7 (by not_written hostOps0)))))))))))))

theorem p_arg8_12_0 : W12 m ρ c (Proc.devRef .tc main_arg8) = W0 m ρ c (Proc.devRef .tc main_arg8) :=
  ((keep5 m ρ c main_arg8 (by decide)).trans
    ((hkeep5 m ρ c main_arg8 (by not_written hostOps5)).trans
    ((keep4 m ρ c main_arg8 (by decide)).trans
    ((hkeep4 m ρ c main_arg8 (by not_written hostOps4)).trans
    ((keep3 m ρ c main_arg8 (by decide)).trans
    ((hkeep3 m ρ c main_arg8 (by not_written hostOps3)).trans
    ((keep2 m ρ c main_arg8 (by decide)).trans
    ((hkeep2 m ρ c main_arg8 (by not_written hostOps2)).trans
    ((keep1 m ρ c main_arg8 (by decide)).trans
    ((hkeep1 m ρ c main_arg8 (by not_written hostOps1)).trans
    ((keep0 m ρ c main_arg8 (by decide)).trans
    (hkeep0 m ρ c main_arg8 (by not_written hostOps0)))))))))))))

theorem p_v72_13_12 : W13 m ρ c (Proc.devRef .tc main_v72) = W12 m ρ c (Proc.devRef .tc main_v72) :=
  (hkeep6 m ρ c main_v72 (by not_written hostOps6))

theorem p_v3_14_1 : W14 m ρ c (Proc.devRef .tc main_v3) = W1 m ρ c (Proc.devRef .tc main_v3) :=
  ((keep6 m ρ c main_v3 (by decide)).trans
    ((hkeep6 m ρ c main_v3 (by not_written hostOps6)).trans
    ((keep5 m ρ c main_v3 (by decide)).trans
    ((hkeep5 m ρ c main_v3 (by not_written hostOps5)).trans
    ((keep4 m ρ c main_v3 (by decide)).trans
    ((hkeep4 m ρ c main_v3 (by not_written hostOps4)).trans
    ((keep3 m ρ c main_v3 (by decide)).trans
    ((hkeep3 m ρ c main_v3 (by not_written hostOps3)).trans
    ((keep2 m ρ c main_v3 (by decide)).trans
    ((hkeep2 m ρ c main_v3 (by not_written hostOps2)).trans
    ((keep1 m ρ c main_v3 (by decide)).trans
    ((hkeep1 m ρ c main_v3 (by not_written hostOps1)).trans
    (keep0 m ρ c main_v3 (by decide))))))))))))))

theorem p_arg9_14_0 : W14 m ρ c (Proc.devRef .tc main_arg9) = W0 m ρ c (Proc.devRef .tc main_arg9) :=
  ((keep6 m ρ c main_arg9 (by decide)).trans
    ((hkeep6 m ρ c main_arg9 (by not_written hostOps6)).trans
    ((keep5 m ρ c main_arg9 (by decide)).trans
    ((hkeep5 m ρ c main_arg9 (by not_written hostOps5)).trans
    ((keep4 m ρ c main_arg9 (by decide)).trans
    ((hkeep4 m ρ c main_arg9 (by not_written hostOps4)).trans
    ((keep3 m ρ c main_arg9 (by decide)).trans
    ((hkeep3 m ρ c main_arg9 (by not_written hostOps3)).trans
    ((keep2 m ρ c main_arg9 (by decide)).trans
    ((hkeep2 m ρ c main_arg9 (by not_written hostOps2)).trans
    ((keep1 m ρ c main_arg9 (by decide)).trans
    ((hkeep1 m ρ c main_arg9 (by not_written hostOps1)).trans
    ((keep0 m ρ c main_arg9 (by decide)).trans
    (hkeep0 m ρ c main_arg9 (by not_written hostOps0)))))))))))))))

theorem p_arg10_14_0 : W14 m ρ c (Proc.devRef .tc main_arg10) = W0 m ρ c (Proc.devRef .tc main_arg10) :=
  ((keep6 m ρ c main_arg10 (by decide)).trans
    ((hkeep6 m ρ c main_arg10 (by not_written hostOps6)).trans
    ((keep5 m ρ c main_arg10 (by decide)).trans
    ((hkeep5 m ρ c main_arg10 (by not_written hostOps5)).trans
    ((keep4 m ρ c main_arg10 (by decide)).trans
    ((hkeep4 m ρ c main_arg10 (by not_written hostOps4)).trans
    ((keep3 m ρ c main_arg10 (by decide)).trans
    ((hkeep3 m ρ c main_arg10 (by not_written hostOps3)).trans
    ((keep2 m ρ c main_arg10 (by decide)).trans
    ((hkeep2 m ρ c main_arg10 (by not_written hostOps2)).trans
    ((keep1 m ρ c main_arg10 (by decide)).trans
    ((hkeep1 m ρ c main_arg10 (by not_written hostOps1)).trans
    ((keep0 m ρ c main_arg10 (by decide)).trans
    (hkeep0 m ρ c main_arg10 (by not_written hostOps0)))))))))))))))

theorem p_arg11_14_0 : W14 m ρ c (Proc.devRef .tc main_arg11) = W0 m ρ c (Proc.devRef .tc main_arg11) :=
  ((keep6 m ρ c main_arg11 (by decide)).trans
    ((hkeep6 m ρ c main_arg11 (by not_written hostOps6)).trans
    ((keep5 m ρ c main_arg11 (by decide)).trans
    ((hkeep5 m ρ c main_arg11 (by not_written hostOps5)).trans
    ((keep4 m ρ c main_arg11 (by decide)).trans
    ((hkeep4 m ρ c main_arg11 (by not_written hostOps4)).trans
    ((keep3 m ρ c main_arg11 (by decide)).trans
    ((hkeep3 m ρ c main_arg11 (by not_written hostOps3)).trans
    ((keep2 m ρ c main_arg11 (by decide)).trans
    ((hkeep2 m ρ c main_arg11 (by not_written hostOps2)).trans
    ((keep1 m ρ c main_arg11 (by decide)).trans
    ((hkeep1 m ρ c main_arg11 (by not_written hostOps1)).trans
    ((keep0 m ρ c main_arg11 (by decide)).trans
    (hkeep0 m ρ c main_arg11 (by not_written hostOps0)))))))))))))))

theorem p_arg12_14_0 : W14 m ρ c (Proc.devRef .tc main_arg12) = W0 m ρ c (Proc.devRef .tc main_arg12) :=
  ((keep6 m ρ c main_arg12 (by decide)).trans
    ((hkeep6 m ρ c main_arg12 (by not_written hostOps6)).trans
    ((keep5 m ρ c main_arg12 (by decide)).trans
    ((hkeep5 m ρ c main_arg12 (by not_written hostOps5)).trans
    ((keep4 m ρ c main_arg12 (by decide)).trans
    ((hkeep4 m ρ c main_arg12 (by not_written hostOps4)).trans
    ((keep3 m ρ c main_arg12 (by decide)).trans
    ((hkeep3 m ρ c main_arg12 (by not_written hostOps3)).trans
    ((keep2 m ρ c main_arg12 (by decide)).trans
    ((hkeep2 m ρ c main_arg12 (by not_written hostOps2)).trans
    ((keep1 m ρ c main_arg12 (by decide)).trans
    ((hkeep1 m ρ c main_arg12 (by not_written hostOps1)).trans
    ((keep0 m ρ c main_arg12 (by decide)).trans
    (hkeep0 m ρ c main_arg12 (by not_written hostOps0)))))))))))))))

theorem p_v47_15_10 : W15 m ρ c (Proc.devRef .tc main_v47) = W10 m ρ c (Proc.devRef .tc main_v47) :=
  ((hkeep7 m ρ c main_v47 (by not_written hostOps7)).trans
    ((keep6 m ρ c main_v47 (by decide)).trans
    ((hkeep6 m ρ c main_v47 (by not_written hostOps6)).trans
    ((keep5 m ρ c main_v47 (by decide)).trans
    (hkeep5 m ρ c main_v47 (by not_written hostOps5))))))

theorem p_arg17_16_0 : W16 m ρ c (Proc.devRef .tc main_arg17) = W0 m ρ c (Proc.devRef .tc main_arg17) :=
  ((keep7 m ρ c main_arg17 (by decide)).trans
    ((hkeep7 m ρ c main_arg17 (by not_written hostOps7)).trans
    ((keep6 m ρ c main_arg17 (by decide)).trans
    ((hkeep6 m ρ c main_arg17 (by not_written hostOps6)).trans
    ((keep5 m ρ c main_arg17 (by decide)).trans
    ((hkeep5 m ρ c main_arg17 (by not_written hostOps5)).trans
    ((keep4 m ρ c main_arg17 (by decide)).trans
    ((hkeep4 m ρ c main_arg17 (by not_written hostOps4)).trans
    ((keep3 m ρ c main_arg17 (by decide)).trans
    ((hkeep3 m ρ c main_arg17 (by not_written hostOps3)).trans
    ((keep2 m ρ c main_arg17 (by decide)).trans
    ((hkeep2 m ρ c main_arg17 (by not_written hostOps2)).trans
    ((keep1 m ρ c main_arg17 (by decide)).trans
    ((hkeep1 m ρ c main_arg17 (by not_written hostOps1)).trans
    ((keep0 m ρ c main_arg17 (by decide)).trans
    (hkeep0 m ρ c main_arg17 (by not_written hostOps0)))))))))))))))))

theorem p_arg18_16_0 : W16 m ρ c (Proc.devRef .tc main_arg18) = W0 m ρ c (Proc.devRef .tc main_arg18) :=
  ((keep7 m ρ c main_arg18 (by decide)).trans
    ((hkeep7 m ρ c main_arg18 (by not_written hostOps7)).trans
    ((keep6 m ρ c main_arg18 (by decide)).trans
    ((hkeep6 m ρ c main_arg18 (by not_written hostOps6)).trans
    ((keep5 m ρ c main_arg18 (by decide)).trans
    ((hkeep5 m ρ c main_arg18 (by not_written hostOps5)).trans
    ((keep4 m ρ c main_arg18 (by decide)).trans
    ((hkeep4 m ρ c main_arg18 (by not_written hostOps4)).trans
    ((keep3 m ρ c main_arg18 (by decide)).trans
    ((hkeep3 m ρ c main_arg18 (by not_written hostOps3)).trans
    ((keep2 m ρ c main_arg18 (by decide)).trans
    ((hkeep2 m ρ c main_arg18 (by not_written hostOps2)).trans
    ((keep1 m ρ c main_arg18 (by decide)).trans
    ((hkeep1 m ρ c main_arg18 (by not_written hostOps1)).trans
    ((keep0 m ρ c main_arg18 (by decide)).trans
    (hkeep0 m ρ c main_arg18 (by not_written hostOps0)))))))))))))))))

theorem p_v99_0_17_16 : W17 m ρ c (Proc.devRef .tc main_v99_0) = W16 m ρ c (Proc.devRef .tc main_v99_0) :=
  (hkeep8 m ρ c main_v99_0 (by not_written hostOps8))

theorem p_v47_17_10 : W17 m ρ c (Proc.devRef .tc main_v47) = W10 m ρ c (Proc.devRef .tc main_v47) :=
  ((hkeep8 m ρ c main_v47 (by not_written hostOps8)).trans
    ((keep7 m ρ c main_v47 (by decide)).trans
    ((hkeep7 m ρ c main_v47 (by not_written hostOps7)).trans
    ((keep6 m ρ c main_v47 (by decide)).trans
    ((hkeep6 m ρ c main_v47 (by not_written hostOps6)).trans
    ((keep5 m ρ c main_v47 (by decide)).trans
    (hkeep5 m ρ c main_v47 (by not_written hostOps5))))))))

theorem p_v1_18_1 : W18 m ρ c (Proc.devRef .tc main_v1) = W1 m ρ c (Proc.devRef .tc main_v1) :=
  ((keep8 m ρ c main_v1 (by decide)).trans
    ((hkeep8 m ρ c main_v1 (by not_written hostOps8)).trans
    ((keep7 m ρ c main_v1 (by decide)).trans
    ((hkeep7 m ρ c main_v1 (by not_written hostOps7)).trans
    ((keep6 m ρ c main_v1 (by decide)).trans
    ((hkeep6 m ρ c main_v1 (by not_written hostOps6)).trans
    ((keep5 m ρ c main_v1 (by decide)).trans
    ((hkeep5 m ρ c main_v1 (by not_written hostOps5)).trans
    ((keep4 m ρ c main_v1 (by decide)).trans
    ((hkeep4 m ρ c main_v1 (by not_written hostOps4)).trans
    ((keep3 m ρ c main_v1 (by decide)).trans
    ((hkeep3 m ρ c main_v1 (by not_written hostOps3)).trans
    ((keep2 m ρ c main_v1 (by decide)).trans
    ((hkeep2 m ρ c main_v1 (by not_written hostOps2)).trans
    ((keep1 m ρ c main_v1 (by decide)).trans
    ((hkeep1 m ρ c main_v1 (by not_written hostOps1)).trans
    (keep0 m ρ c main_v1 (by decide))))))))))))))))))

theorem p_v3_18_1 : W18 m ρ c (Proc.devRef .tc main_v3) = W1 m ρ c (Proc.devRef .tc main_v3) :=
  ((keep8 m ρ c main_v3 (by decide)).trans
    ((hkeep8 m ρ c main_v3 (by not_written hostOps8)).trans
    ((keep7 m ρ c main_v3 (by decide)).trans
    ((hkeep7 m ρ c main_v3 (by not_written hostOps7)).trans
    ((keep6 m ρ c main_v3 (by decide)).trans
    ((hkeep6 m ρ c main_v3 (by not_written hostOps6)).trans
    ((keep5 m ρ c main_v3 (by decide)).trans
    ((hkeep5 m ρ c main_v3 (by not_written hostOps5)).trans
    ((keep4 m ρ c main_v3 (by decide)).trans
    ((hkeep4 m ρ c main_v3 (by not_written hostOps4)).trans
    ((keep3 m ρ c main_v3 (by decide)).trans
    ((hkeep3 m ρ c main_v3 (by not_written hostOps3)).trans
    ((keep2 m ρ c main_v3 (by decide)).trans
    ((hkeep2 m ρ c main_v3 (by not_written hostOps2)).trans
    ((keep1 m ρ c main_v3 (by decide)).trans
    ((hkeep1 m ρ c main_v3 (by not_written hostOps1)).trans
    (keep0 m ρ c main_v3 (by decide))))))))))))))))))

theorem p_arg13_18_0 : W18 m ρ c (Proc.devRef .tc main_arg13) = W0 m ρ c (Proc.devRef .tc main_arg13) :=
  ((keep8 m ρ c main_arg13 (by decide)).trans
    ((hkeep8 m ρ c main_arg13 (by not_written hostOps8)).trans
    ((keep7 m ρ c main_arg13 (by decide)).trans
    ((hkeep7 m ρ c main_arg13 (by not_written hostOps7)).trans
    ((keep6 m ρ c main_arg13 (by decide)).trans
    ((hkeep6 m ρ c main_arg13 (by not_written hostOps6)).trans
    ((keep5 m ρ c main_arg13 (by decide)).trans
    ((hkeep5 m ρ c main_arg13 (by not_written hostOps5)).trans
    ((keep4 m ρ c main_arg13 (by decide)).trans
    ((hkeep4 m ρ c main_arg13 (by not_written hostOps4)).trans
    ((keep3 m ρ c main_arg13 (by decide)).trans
    ((hkeep3 m ρ c main_arg13 (by not_written hostOps3)).trans
    ((keep2 m ρ c main_arg13 (by decide)).trans
    ((hkeep2 m ρ c main_arg13 (by not_written hostOps2)).trans
    ((keep1 m ρ c main_arg13 (by decide)).trans
    ((hkeep1 m ρ c main_arg13 (by not_written hostOps1)).trans
    ((keep0 m ρ c main_arg13 (by decide)).trans
    (hkeep0 m ρ c main_arg13 (by not_written hostOps0)))))))))))))))))))

theorem p_arg14_18_0 : W18 m ρ c (Proc.devRef .tc main_arg14) = W0 m ρ c (Proc.devRef .tc main_arg14) :=
  ((keep8 m ρ c main_arg14 (by decide)).trans
    ((hkeep8 m ρ c main_arg14 (by not_written hostOps8)).trans
    ((keep7 m ρ c main_arg14 (by decide)).trans
    ((hkeep7 m ρ c main_arg14 (by not_written hostOps7)).trans
    ((keep6 m ρ c main_arg14 (by decide)).trans
    ((hkeep6 m ρ c main_arg14 (by not_written hostOps6)).trans
    ((keep5 m ρ c main_arg14 (by decide)).trans
    ((hkeep5 m ρ c main_arg14 (by not_written hostOps5)).trans
    ((keep4 m ρ c main_arg14 (by decide)).trans
    ((hkeep4 m ρ c main_arg14 (by not_written hostOps4)).trans
    ((keep3 m ρ c main_arg14 (by decide)).trans
    ((hkeep3 m ρ c main_arg14 (by not_written hostOps3)).trans
    ((keep2 m ρ c main_arg14 (by decide)).trans
    ((hkeep2 m ρ c main_arg14 (by not_written hostOps2)).trans
    ((keep1 m ρ c main_arg14 (by decide)).trans
    ((hkeep1 m ρ c main_arg14 (by not_written hostOps1)).trans
    ((keep0 m ρ c main_arg14 (by decide)).trans
    (hkeep0 m ρ c main_arg14 (by not_written hostOps0)))))))))))))))))))

theorem p_arg15_18_0 : W18 m ρ c (Proc.devRef .tc main_arg15) = W0 m ρ c (Proc.devRef .tc main_arg15) :=
  ((keep8 m ρ c main_arg15 (by decide)).trans
    ((hkeep8 m ρ c main_arg15 (by not_written hostOps8)).trans
    ((keep7 m ρ c main_arg15 (by decide)).trans
    ((hkeep7 m ρ c main_arg15 (by not_written hostOps7)).trans
    ((keep6 m ρ c main_arg15 (by decide)).trans
    ((hkeep6 m ρ c main_arg15 (by not_written hostOps6)).trans
    ((keep5 m ρ c main_arg15 (by decide)).trans
    ((hkeep5 m ρ c main_arg15 (by not_written hostOps5)).trans
    ((keep4 m ρ c main_arg15 (by decide)).trans
    ((hkeep4 m ρ c main_arg15 (by not_written hostOps4)).trans
    ((keep3 m ρ c main_arg15 (by decide)).trans
    ((hkeep3 m ρ c main_arg15 (by not_written hostOps3)).trans
    ((keep2 m ρ c main_arg15 (by decide)).trans
    ((hkeep2 m ρ c main_arg15 (by not_written hostOps2)).trans
    ((keep1 m ρ c main_arg15 (by decide)).trans
    ((hkeep1 m ρ c main_arg15 (by not_written hostOps1)).trans
    ((keep0 m ρ c main_arg15 (by decide)).trans
    (hkeep0 m ρ c main_arg15 (by not_written hostOps0)))))))))))))))))))

theorem p_arg16_18_0 : W18 m ρ c (Proc.devRef .tc main_arg16) = W0 m ρ c (Proc.devRef .tc main_arg16) :=
  ((keep8 m ρ c main_arg16 (by decide)).trans
    ((hkeep8 m ρ c main_arg16 (by not_written hostOps8)).trans
    ((keep7 m ρ c main_arg16 (by decide)).trans
    ((hkeep7 m ρ c main_arg16 (by not_written hostOps7)).trans
    ((keep6 m ρ c main_arg16 (by decide)).trans
    ((hkeep6 m ρ c main_arg16 (by not_written hostOps6)).trans
    ((keep5 m ρ c main_arg16 (by decide)).trans
    ((hkeep5 m ρ c main_arg16 (by not_written hostOps5)).trans
    ((keep4 m ρ c main_arg16 (by decide)).trans
    ((hkeep4 m ρ c main_arg16 (by not_written hostOps4)).trans
    ((keep3 m ρ c main_arg16 (by decide)).trans
    ((hkeep3 m ρ c main_arg16 (by not_written hostOps3)).trans
    ((keep2 m ρ c main_arg16 (by decide)).trans
    ((hkeep2 m ρ c main_arg16 (by not_written hostOps2)).trans
    ((keep1 m ρ c main_arg16 (by decide)).trans
    ((hkeep1 m ρ c main_arg16 (by not_written hostOps1)).trans
    ((keep0 m ρ c main_arg16 (by decide)).trans
    (hkeep0 m ρ c main_arg16 (by not_written hostOps0)))))))))))))))))))

theorem p_v72_19_12 : W19 m ρ c (Proc.devRef .tc main_v72) = W12 m ρ c (Proc.devRef .tc main_v72) :=
  ((hkeep9 m ρ c main_v72 (by not_written hostOps9)).trans
    ((keep8 m ρ c main_v72 (by decide)).trans
    ((hkeep8 m ρ c main_v72 (by not_written hostOps8)).trans
    ((keep7 m ρ c main_v72 (by decide)).trans
    ((hkeep7 m ρ c main_v72 (by not_written hostOps7)).trans
    ((keep6 m ρ c main_v72 (by decide)).trans
    (hkeep6 m ρ c main_v72 (by not_written hostOps6))))))))

theorem p_v112_20_18 : W20 m ρ c (Proc.devRef .tc main_v112) = W18 m ρ c (Proc.devRef .tc main_v112) :=
  ((keep9 m ρ c main_v112 (by decide)).trans
    (hkeep9 m ρ c main_v112 (by not_written hostOps9)))

end Cert.KernelIdeal.Persist

end
-- ==== Proof.Spec.lean ====
/-
  The mathematics both programs compute, stated once over rows of extended reals.

  A node array is a matrix `Fin 50000 → Fin 64 → EReal`, an edge array `Fin 1000000 → Fin 64 → EReal`. Every stage but
  three acts row by row: an affine map of a row (`lin`), the positive part (`relu`), the message of an edge
  (`msg`), the two-layer perceptron of a node (`nodeOut`), the normalisation and residual of a node (`bnUpd`) and the
  residual update of an edge from the concatenation of three rows (`edgeUpd`). The three that mix rows are the two
  gathers and the accumulating scatter — kept abstract here, as maps of matrices — and the column statistics
  `mean` and the variance, the latter in the two forms the two programs use: the mean of the squares minus the
  square of the mean (`varK`) and the mean of the squared deviations (`varR`).
-/
import Idealize.ShloMosaic.PureOps.Ideal

noncomputable section

namespace Cert.Gine

open Idealize.ShloMosaic

abbrev Row (n : Nat) := Fin n → EReal
abbrev Mat (m n : Nat) := Fin m → Fin n → EReal

/-- The four float literals of the two programs, as the words both print. -/
def cOne : EReal := Ideal.ofBits .f32 0x3F800000#32
def cHalf : EReal := Ideal.ofBits .f32 0x3F000000#32
def cEps : EReal := Ideal.ofBits .f32 0x3727C5AC#32
def cN : EReal := Ideal.ofBits .f32 0x47435000#32

/-- `x ↦ x · W + b` on a row. -/
def lin {K N : Nat} (W : Mat K N) (b : Row N) (x : Row K) : Row N := fun q => (∑ k : Fin K, x k * W k q) + b q

/-- The positive part of a row. -/
def relu {N : Nat} (v : Row N) : Row N := fun q => max (v q) 0

/-- An edge's message: the positive part of the source's row plus the affine image of the edge's row. -/
def msg (W : Mat 64 64) (b : Row 64) (hs ea : Row 64) : Row 64 := relu fun q => hs q + lin W b ea q

/-- A node's perceptron output from its row and its aggregated messages. -/
def nodeOut (W1 : Mat 64 64) (b1 : Row 64) (W2 : Mat 64 64) (b2 : Row 64) (h agg : Row 64) : Row 64 :=
  lin W2 b2 (relu (lin W1 b1 fun q => cOne * h q + agg q))

/-- Column sums, and the column mean over the 50000 nodes. -/
def colSum {M N : Nat} (A : Mat M N) : Row N := fun q => ∑ r : Fin M, A r q
def mean {M N : Nat} (A : Mat M N) : Row N := fun q => Ideal.div (colSum A q) cN

/-- The variance as mean of squares minus squared mean, and as mean of squared deviations. -/
def varK {M N : Nat} (A : Mat M N) : Row N := fun q => Ideal.div (∑ r : Fin M, A r q * A r q) cN - mean A q * mean A q
def varR {M N : Nat} (A : Mat M N) : Row N :=
  fun q => Ideal.div (∑ r : Fin M, (A r q - mean A q) * (A r q - mean A q)) cN

/-- Normalise a node's perceptron output by the column statistics, scale and shift, take the positive part, add to
    the node's row and halve. -/
def bnUpd (mu var γ β : Row 64) (out h : Row 64) : Row 64 :=
  fun q => (h q + max ((out q - mu q) * Ideal.rsqrt (var q + cEps) * γ q + β q) 0) * cHalf

/-- Three rows of 64 side by side. -/
def cat3 (a b c : Row 64) : Row 192 := fun j =>
  if h : j.val < 64 then a ⟨j.val, h⟩
  else if h2 : j.val < 128 then b ⟨j.val - 64, by omega⟩
  else c ⟨j.val - 128, by omega⟩

/-- An edge's update: its row plus half the perceptron image of (source row, target row, edge row). -/
def edgeUpd (W1 : Mat 192 64) (b1 : Row 64) (W2 : Mat 64 64) (b2 : Row 64) (hs hd ea : Row 64) : Row 64 :=
  fun q => ea q + lin W2 b2 (relu (lin W1 b1 (cat3 hs hd ea))) q * cHalf

/-- One layer's weights. -/
structure LayerW where
  elinW : Mat 64 64
  elinb : Row 64
  W1 : Mat 64 64
  b1 : Row 64
  W2 : Mat 64 64
  b2 : Row 64
  eW1 : Mat 192 64
  eb1 : Row 64
  eW2 : Mat 64 64
  eb2 : Row 64
  γ : Row 64
  β : Row 64

abbrev NodeArr := Mat 50000 64
abbrev EdgeArr := Mat 1000000 64

/-- The perceptron outputs of all nodes in a layer: messages along the edges (`Gs`: rows gathered at the sources),
    summed at the targets (`Sc`), through the perceptron. -/
def layerOut (Gs : NodeArr → EdgeArr) (Sc : EdgeArr → NodeArr) (w : LayerW) (h : NodeArr) (ea : EdgeArr) : NodeArr :=
  fun r => nodeOut w.W1 w.b1 w.W2 w.b2 (h r) (Sc (fun e => msg w.elinW w.elinb (Gs h e) (ea e)) r)

/-- The new node rows of a layer, for a choice `var` of the variance formula. -/
def layerH (var : NodeArr → Row 64) (Gs : NodeArr → EdgeArr) (Sc : EdgeArr → NodeArr) (w : LayerW) (h : NodeArr) (ea : EdgeArr) :
    NodeArr :=
  fun r => bnUpd (mean (layerOut Gs Sc w h ea)) (var (layerOut Gs Sc w h ea)) w.γ w.β (layerOut Gs Sc w h ea r) (h r)

/-- The new edge rows of a layer from the NEW node rows `h'`. -/
def layerE (Gs Gd : NodeArr → EdgeArr) (w : LayerW) (h' : NodeArr) (ea : EdgeArr) : EdgeArr :=
  fun e => edgeUpd w.eW1 w.eb1 w.eW2 w.eb2 (Gs h' e) (Gd h' e) (ea e)

end Cert.Gine

end
-- ==== Proof.Conv.lean ====
/-
  Reading a program's arrays as the matrices and rows of the specification: the rows of a rank-2 array, a rank-1 array
  as a row, slab `a` of a rank-3 array as a matrix, row `a` of a rank-2 array as a row, and back from a matrix to an array.
-/
import Idealize.ShloMosaic.Lib.ValueIdx
import proofs.«133695_j30227979829590_2_alg».proof.Proof.Spec

noncomputable section

namespace Cert.Gine

open Idealize.ShloMosaic Idealize.ShloMosaic.ValueIdx

/-- The rows of a rank-2 array. -/
def rowsOf {M N : Nat} (X : (⟨2, ![M, N]⟩ : Shape).Idx → EReal) : Mat M N := fun p q => X (ix2 p q)

/-- A matrix as a rank-2 array. -/
def arrOf {M N : Nat} (A : Mat M N) : (⟨2, ![M, N]⟩ : Shape).Idx → EReal := fun i => A (i 0) (i 1)

/-- A rank-1 array as a row. -/
def vecRow {N : Nat} (b : (⟨1, ![N]⟩ : Shape).Idx → EReal) : Row N := fun q => b (ix1 q)

/-- Slab `a` of a rank-3 array, as a matrix. -/
def slab {A M N : Nat} (X : (⟨3, ![A, M, N]⟩ : Shape).Idx → EReal) (a : Fin A) : Mat M N := fun p q => X (ix3 a p q)

/-- Row `a` of a rank-2 array. -/
def rowAt {A N : Nat} (X : (⟨2, ![A, N]⟩ : Shape).Idx → EReal) (a : Fin A) : Row N := fun q => X (ix2 a q)

theorem rowsOf_arrOf {M N : Nat} (A : Mat M N) : rowsOf (arrOf A) = A := rfl

theorem arrOf_rowsOf {M N : Nat} (X : (⟨2, ![M, N]⟩ : Shape).Idx → EReal) : arrOf (rowsOf X) = X := by
  funext i
  exact congrArg X (eq_ix2 i).symm

end Cert.Gine

end
-- ==== Proof.Net.lean ====
/-
  The whole network as one function of the argument arrays.

  `Args` holds the eighteen float arguments at their literal shapes (the index argument enters only through the
  gathers and the scatter, which stay parameters: `Gs` gathers node rows at the edges' sources, `Gd` at their
  targets, `Sc` sums edge rows at the targets). Layer `i` takes its weights from slab / row `i` of the stacked
  arguments. `H0`, `E0` are the two input projections; `H1`, `E1` and `H2`, `E2` the node and edge arrays after
  the first and the second layer, for a choice `var` of the variance formula. The programs' two results are `H2` and `E2`.
-/
import proofs.«133695_j30227979829590_2_alg».proof.Proof.Spec
import proofs.«133695_j30227979829590_2_alg».proof.Proof.Conv

noncomputable section

namespace Cert.Gine

open Idealize.ShloMosaic

/-- The float arguments, in the programs' order. -/
structure Args where
  x : (⟨2, ![50000, 32]⟩ : Shape).Idx → EReal
  edgeAttr : (⟨2, ![1000000, 16]⟩ : Shape).Idx → EReal
  nodeW : (⟨2, ![32, 64]⟩ : Shape).Idx → EReal
  nodeb : (⟨1, ![64]⟩ : Shape).Idx → EReal
  edgeW : (⟨2, ![16, 64]⟩ : Shape).Idx → EReal
  edgeb : (⟨1, ![64]⟩ : Shape).Idx → EReal
  elinW : (⟨3, ![2, 64, 64]⟩ : Shape).Idx → EReal
  elinb : (⟨2, ![2, 64]⟩ : Shape).Idx → EReal
  mlp1W : (⟨3, ![2, 64, 64]⟩ : Shape).Idx → EReal
  mlp1b : (⟨2, ![2, 64]⟩ : Shape).Idx → EReal
  mlp2W : (⟨3, ![2, 64, 64]⟩ : Shape).Idx → EReal
  mlp2b : (⟨2, ![2, 64]⟩ : Shape).Idx → EReal
  emlp1W : (⟨3, ![2, 192, 64]⟩ : Shape).Idx → EReal
  emlp1b : (⟨2, ![2, 64]⟩ : Shape).Idx → EReal
  emlp2W : (⟨3, ![2, 64, 64]⟩ : Shape).Idx → EReal
  emlp2b : (⟨2, ![2, 64]⟩ : Shape).Idx → EReal
  gamma : (⟨2, ![2, 64]⟩ : Shape).Idx → EReal
  beta : (⟨2, ![2, 64]⟩ : Shape).Idx → EReal

/-- Layer `i`'s weights: slab `i` of each stacked matrix, row `i` of each stacked vector. -/
def Args.w (a : Args) (i : Fin 2) : LayerW where
  elinW := slab a.elinW i
  elinb := rowAt a.elinb i
  W1 := slab a.mlp1W i
  b1 := rowAt a.mlp1b i
  W2 := slab a.mlp2W i
  b2 := rowAt a.mlp2b i
  eW1 := slab a.emlp1W i
  eb1 := rowAt a.emlp1b i
  eW2 := slab a.emlp2W i
  eb2 := rowAt a.emlp2b i
  γ := rowAt a.gamma i
  β := rowAt a.beta i

/-- The node and edge input projections. -/
def H0 (a : Args) : NodeArr := fun r => lin (rowsOf a.nodeW) (vecRow a.nodeb) (rowsOf a.x r)
def E0 (a : Args) : EdgeArr := fun e => lin (rowsOf a.edgeW) (vecRow a.edgeb) (rowsOf a.edgeAttr e)

section
variable (var : NodeArr → Row 64) (Gs Gd : NodeArr → EdgeArr) (Sc : EdgeArr → NodeArr) (a : Args)

/-- After the first layer. -/
def H1 : NodeArr := layerH var Gs Sc (a.w 0) (H0 a) (E0 a)
def E1 : EdgeArr := layerE Gs Gd (a.w 0) (H1 var Gs Sc a) (E0 a)

/-- After the second layer: the two results. -/
def H2 : NodeArr := layerH var Gs Sc (a.w 1) (H1 var Gs Sc a) (E1 var Gs Gd Sc a)
def E2 : EdgeArr := layerE Gs Gd (a.w 1) (H2 var Gs Gd Sc a) (E1 var Gs Gd Sc a)
end

end Cert.Gine

end
-- ==== Proof.LibSlices.lean ====
/-
  One layer's weights out of the stacked ones.

  Both programs keep the two layers' weights stacked: a `[2, K, N]` array of matrices, a `[2, N]` array of vectors.
  Layer `a`'s matrix is taken by slicing the unit slab `[a : a + 1, 0 : K, 0 : N]` off the stack and reshaping the
  `[1, K, N]` result to `[K, N]`; layer `a`'s vector by slicing the row `[a : a + 1, 0 : N]` and reshaping `[1, N]`
  to `[N]`. A reshape keeps the row-major order of the elements, so dropping a leading unit axis reads the one slab
  there is, and a unit slice at offset `a` reads slab `a`: the matrix is `slab · a` and the vector `rowAt · a` of the
  specification. The converse reshape, a vector made a one-row matrix, has that vector as its row `0`.

  The lemmas take the slice and reshape side conditions as hypotheses and any element type's contents as extended
  reals, so they read either program's operations; the offsets are a variable with its three coordinates given, and
  the two literal offsets the programs write (`![0, 0, 0]`, `![1, 0, 0]`) follow as instances.
-/
import Idealize.ShloMosaic.Lib.ValueLayout
import proofs.«133695_j30227979829590_2_alg».proof.Proof.Conv

noncomputable section

namespace Cert.Slices

open Idealize.ShloMosaic Idealize.ShloMosaic.ValueIdx Cert.Gine

/-- Slab `a` of a stack of matrices, sliced off as a one-slab stack and reshaped to a matrix, is the matrix `slab · a`:
    the reshape reads `(p, q)` at `(0, p, q)` of the slice, and the slice reads that at `(a, p, q)` of the stack. -/
theorem rows_slab {A K N : Nat} (Wst : (⟨3, ![A, K, N]⟩ : Shape).Idx → EReal) (a : Fin A) (off : Fin 3 → Nat)
    (o0 : off 0 = a.val) (o1 : off 1 = 0) (o2 : off 2 = 0)
    (hs : (⟨3, ![A, K, N]⟩ : Shape).Slices off ⟨3, ![1, K, N]⟩) (hc : (⟨3, ![1, K, N]⟩ : Shape).ShapeCasts ⟨2, ![K, N]⟩) :
    rowsOf (shapeCast ⟨2, ![K, N]⟩ (extractStridedSlice ⟨3, ![1, K, N]⟩ off Wst hs) hc) = slab Wst a := by
  funext p q
  show shapeCast ⟨2, ![K, N]⟩ _ hc (ix2 p q) = Wst (ix3 a p q)
  rw [shapeCast_1ab_ab_apply]
  exact extractStridedSlice_apply off Wst hs (ix3 (0 : Fin 1) p q) (ix3 a p q) (fun c => by
    match c with
    | ⟨0, _⟩ => show a.val = off 0 + 0; omega
    | ⟨1, _⟩ => show p.val = off 1 + p.val; omega
    | ⟨2, _⟩ => show q.val = off 2 + q.val; omega)

/-- Row `a` of a stack of vectors, sliced off as a one-row matrix and reshaped to a vector, is the row `rowAt · a`. -/
theorem vec_rowAt {A N : Nat} (B : (⟨2, ![A, N]⟩ : Shape).Idx → EReal) (a : Fin A) (off : Fin 2 → Nat)
    (o0 : off 0 = a.val) (o1 : off 1 = 0)
    (hs : (⟨2, ![A, N]⟩ : Shape).Slices off ⟨2, ![1, N]⟩) (hc : (⟨2, ![1, N]⟩ : Shape).ShapeCasts ⟨1, ![N]⟩) :
    vecRow (shapeCast ⟨1, ![N]⟩ (extractStridedSlice ⟨2, ![1, N]⟩ off B hs) hc) = rowAt B a := by
  funext q
  show shapeCast ⟨1, ![N]⟩ _ hc (ix1 q) = B (ix2 a q)
  rw [shapeCast_1a_a_apply]
  exact extractStridedSlice_apply off B hs (ix2 (0 : Fin 1) q) (ix2 a q) (fun c => by
    match c with
    | ⟨0, _⟩ => show a.val = off 0 + 0; omega
    | ⟨1, _⟩ => show q.val = off 1 + q.val; omega)

/-- A vector reshaped to a one-row matrix has the vector as its row `0`. -/
theorem rowAt_oneRow {N : Nat} (v : (⟨1, ![N]⟩ : Shape).Idx → EReal) (hc : (⟨1, ![N]⟩ : Shape).ShapeCasts ⟨2, ![1, N]⟩) :
    rowAt (shapeCast ⟨2, ![1, N]⟩ v hc) (0 : Fin 1) = vecRow v := by
  funext q
  show shapeCast ⟨2, ![1, N]⟩ v hc (ix2 (0 : Fin 1) q) = v (ix1 q)
  rw [shapeCast_a_1a_apply]

/-! The two layers of a stack of two, at the offsets as the programs write them. -/

variable {K N : Nat}

theorem rows_slab_0 (Wst : (⟨3, ![2, K, N]⟩ : Shape).Idx → EReal)
    (hs : (⟨3, ![2, K, N]⟩ : Shape).Slices ![0, 0, 0] ⟨3, ![1, K, N]⟩) (hc : (⟨3, ![1, K, N]⟩ : Shape).ShapeCasts ⟨2, ![K, N]⟩) :
    rowsOf (shapeCast ⟨2, ![K, N]⟩ (extractStridedSlice ⟨3, ![1, K, N]⟩ ![0, 0, 0] Wst hs) hc) = slab Wst 0 :=
  rows_slab Wst 0 ![0, 0, 0] rfl rfl rfl hs hc

theorem rows_slab_1 (Wst : (⟨3, ![2, K, N]⟩ : Shape).Idx → EReal)
    (hs : (⟨3, ![2, K, N]⟩ : Shape).Slices ![1, 0, 0] ⟨3, ![1, K, N]⟩) (hc : (⟨3, ![1, K, N]⟩ : Shape).ShapeCasts ⟨2, ![K, N]⟩) :
    rowsOf (shapeCast ⟨2, ![K, N]⟩ (extractStridedSlice ⟨3, ![1, K, N]⟩ ![1, 0, 0] Wst hs) hc) = slab Wst 1 :=
  rows_slab Wst 1 ![1, 0, 0] rfl rfl rfl hs hc

theorem vec_rowAt_0 (B : (⟨2, ![2, N]⟩ : Shape).Idx → EReal)
    (hs : (⟨2, ![2, N]⟩ : Shape).Slices ![0, 0] ⟨2, ![1, N]⟩) (hc : (⟨2, ![1, N]⟩ : Shape).ShapeCasts ⟨1, ![N]⟩) :
    vecRow (shapeCast ⟨1, ![N]⟩ (extractStridedSlice ⟨2, ![1, N]⟩ ![0, 0] B hs) hc) = rowAt B 0 :=
  vec_rowAt B 0 ![0, 0] rfl rfl hs hc

theorem vec_rowAt_1 (B : (⟨2, ![2, N]⟩ : Shape).Idx → EReal)
    (hs : (⟨2, ![2, N]⟩ : Shape).Slices ![1, 0] ⟨2, ![1, N]⟩) (hc : (⟨2, ![1, N]⟩ : Shape).ShapeCasts ⟨1, ![N]⟩) :
    vecRow (shapeCast ⟨1, ![N]⟩ (extractStridedSlice ⟨2, ![1, N]⟩ ![1, 0] B hs) hc) = rowAt B 1 :=
  vec_rowAt B 1 ![1, 0] rfl rfl hs hc

end Cert.Slices

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.RefRows.lean ====
/-
  The reference program's stages, read row by row.

  Between its two gathers and its accumulating scatter, the reference program is a chain of host operations on whole
  arrays: plain matrix products, biases spread over the rows, rectifiers against a repeated zero, products with a
  repeated scalar, one three-way concatenation, and the column statistics of the normalisation (the slices that take
  one layer's weights out of the stacked ones are read in LibSlices). This module says what each such chain MEANS, in the words of the specification (Spec.lean): a row of
  the chain's result is the specification's row function of the corresponding rows of the chain's operands. Every
  lemma is stated over variable arrays of variable height, so one statement serves both layers and both the node
  and the edge arrays; none mentions a run of the program.
-/
import proofs.«133695_j30227979829590_2_alg».proof.ReferenceIdeal
import proofs.«133695_j30227979829590_2_alg».proof.Proof.Spec
import proofs.«133695_j30227979829590_2_alg».proof.Proof.Conv
import proofs.«133695_j30227979829590_2_alg».proof.Proof.LibPlainDot
import Idealize.ShloMosaic.Lib.ValueLayout

noncomputable section

open scoped BigOperators

namespace Cert.ReferenceIdeal.Rows

open Idealize.ShloMosaic Idealize.ShloMosaic.ValueIdx Cert.Gine

/-! ## The pieces: a scalar repeated over an array, a vector repeated over the rows -/

section Pieces
variable {M K N : Nat}

/-- A scalar constant repeated over a matrix reads, everywhere, the extended real its word denotes. -/
theorem splat2_apply (w : BitVec 32) (h0 : (⟨0, ![]⟩ : Shape).BroadcastsInDim ⟨2, ![M, N]⟩ ![]) (p : Fin M) (q : Fin N) :
    broadcastInDim ⟨2, ![M, N]⟩ ![] h0 (constant (F := Ideal) ⟨0, ![]⟩ .f32 w) (ix2 p q) = Ideal.ofBits .f32 w := by
  rw [broadcastInDim_apply ![] h0 _ (ix2 p q) ix0 (fun a => a.elim0), constant_apply]

/-- A scalar constant repeated over a vector likewise. -/
theorem splat1_apply (w : BitVec 32) (h0 : (⟨0, ![]⟩ : Shape).BroadcastsInDim ⟨1, ![N]⟩ ![]) (q : Fin N) :
    broadcastInDim ⟨1, ![N]⟩ ![] h0 (constant (F := Ideal) ⟨0, ![]⟩ .f32 w) (ix1 q) = Ideal.ofBits .f32 w := by
  rw [broadcastInDim_apply ![] h0 _ (ix1 q) ix0 (fun a => a.elim0), constant_apply]

/-- The host's quotient and reciprocal square root at an index, at the ideal values. -/
theorem hostDivf_apply {s : Shape} (a b : FVec Ideal s .f32) (i : s.Idx) :
    Host.divf (F := Ideal) a b i = Ideal.div (a i) (b i) := rfl
theorem hostRsqrt_apply {s : Shape} (a : FVec Ideal s .f32) (i : s.Idx) :
    Host.rsqrt (F := Ideal) a i = Ideal.rsqrt (a i) := rfl

/-- Anything of rank zero repeated over a vector reads, everywhere, its one element. -/
theorem scalar1_apply {α : Type} (x : (⟨0, ![]⟩ : Shape).Idx → α) (h0 : (⟨0, ![]⟩ : Shape).BroadcastsInDim ⟨1, ![N]⟩ ![]) (q : Fin N) :
    broadcastInDim ⟨1, ![N]⟩ ![] h0 x (ix1 q) = x ix0 :=
  broadcastInDim_apply ![] h0 x (ix1 q) ix0 (fun a => a.elim0)

/-- A vector made a one-row matrix reads, at `(0, q)`, the vector at `q`. -/
theorem oneRow_apply {α : Type} (b : (⟨1, ![N]⟩ : Shape).Idx → α)
    (h1 : (⟨1, ![N]⟩ : Shape).BroadcastsInDim ⟨2, ![1, N]⟩ ![1]) (q : Fin N) :
    broadcastInDim ⟨2, ![1, N]⟩ ![1] h1 b (ix2 (0 : Fin 1) q) = b (ix1 q) :=
  broadcastInDim_apply ![1] h1 b (ix2 (0 : Fin 1) q) (ix1 q) (fun a => by
    match a with
    | ⟨0, _⟩ =>
      show q.val = if N = 1 then 0 else q.val
      split
      · have := q.isLt; omega
      · rfl)

/-- A one-row matrix repeated over `M` rows reads, at `(p, q)`, the one row at `q`. -/
theorem repeat_apply {α : Type} (y : (⟨2, ![1, N]⟩ : Shape).Idx → α)
    (h2 : (⟨2, ![1, N]⟩ : Shape).BroadcastsInDim ⟨2, ![M, N]⟩ ![0, 1]) (p : Fin M) (q : Fin N) :
    broadcastInDim ⟨2, ![M, N]⟩ ![0, 1] h2 y (ix2 p q) = y (ix2 (0 : Fin 1) q) :=
  broadcastInDim_apply ![0, 1] h2 y (ix2 p q) (ix2 (0 : Fin 1) q) (fun a => by
    match a with
    | ⟨0, _⟩ => rfl
    | ⟨1, _⟩ =>
      show q.val = if N = 1 then 0 else q.val
      split
      · have := q.isLt; omega
      · rfl)

/-- A vector made a one-row matrix and repeated over the rows reads, at `(p, q)`, the vector at `q`. -/
theorem spread_apply {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [repeat_apply, oneRow_apply]

end Pieces

/-! ## R1. A linear layer: product, then the bias spread over the rows -/

section Linear
variable {M K N : Nat}

/-- Row `p` of `X · W + b` (the host's plain product, then the bias made a one-row matrix and repeated) is the affine
    image `lin` of row `p` of `X`. -/
theorem rows_lin (d : DotDims ⟨2, ![M, K]⟩ ⟨2, ![K, N]⟩ ⟨2, ![M, N]⟩) (hd : Cert.PlainDot.IsPlain d)
    (prec : Option ContractPrecision) (X : FVec Ideal ⟨2, ![M, K]⟩ .f32) (W : FVec Ideal ⟨2, ![K, N]⟩ .f32)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) :
    rowsOf (addf (Host.dotGeneral (F := Ideal) d prec X W)
        (broadcastInDim ⟨2, ![M, N]⟩ ![0, 1] h2 (broadcastInDim ⟨2, ![1, N]⟩ ![1] h1 b))) p
      = lin (rowsOf W) (vecRow b) (rowsOf X p) := by
  funext q
  show addf _ _ (ix2 p q) = (∑ k : Fin K, X (ix2 p k) * W (ix2 k q)) + b (ix1 q)
  rw [addf_apply, spread_apply, Cert.PlainDot.dotGeneral_apply d hd prec X W p q]

/-- Row `p` of the rectifier against the repeated zero constant is the positive part of row `p`. -/
theorem rows_relu (Y : FVec Ideal ⟨2, ![M, N]⟩ .f32) (h0 : (⟨0, ![]⟩ : Shape).BroadcastsInDim ⟨2, ![M, N]⟩ ![]) (p : Fin M) :
    rowsOf (maximumf Y (broadcastInDim ⟨2, ![M, N]⟩ ![] h0 (constant (F := Ideal) ⟨0, ![]⟩ .f32 0x00000000#32))) p
      = relu (rowsOf Y p) := by
  funext q
  show maximumf _ _ (ix2 p q) = max (Y (ix2 p q)) 0
  rw [maximumf_apply, splat2_apply, Ideal.ofBits_zero_f32]

/-- The five plain products of the reference program are plain. -/
theorem isPlain_node_in [Facts₀] : Cert.PlainDot.IsPlain dot_S50000x32_S32x64_S50000x64_1_0_0_1_n_n := ⟨rfl, rfl, rfl, rfl, rfl, rfl⟩
theorem isPlain_edge_in [Facts₀] : Cert.PlainDot.IsPlain dot_S1000000x16_S16x64_S1000000x64_1_0_0_1_n_n := ⟨rfl, rfl, rfl, rfl, rfl, rfl⟩
theorem isPlain_edge [Facts₀] : Cert.PlainDot.IsPlain dot_S1000000x64_S64x64_S1000000x64_1_0_0_1_n_n := ⟨rfl, rfl, rfl, rfl, rfl, rfl⟩
theorem isPlain_node [Facts₀] : Cert.PlainDot.IsPlain dot_S50000x64_S64x64_S50000x64_1_0_0_1_n_n := ⟨rfl, rfl, rfl, rfl, rfl, rfl⟩
theorem isPlain_edge_cat [Facts₀] : Cert.PlainDot.IsPlain dot_S1000000x192_S192x64_S1000000x64_1_0_0_1_n_n := ⟨rfl, rfl, rfl, rfl, rfl, rfl⟩

end Linear

/-! ## R3. An edge's message -/

section Message
variable {M : Nat}

/-- Row `e` of the rectified `(Hs + EA · W) + b` is the message `msg` of the gathered source row and the edge's row.
    The program adds the bias last, the specification adds it to the product first: addition of extended reals is
    associative, so the two agree. -/
theorem rows_msg (d : DotDims ⟨2, ![M, 64]⟩ ⟨2, ![64, 64]⟩ ⟨2, ![M, 64]⟩) (hd : Cert.PlainDot.IsPlain d)
    (prec : Option ContractPrecision) (Hs EA : FVec Ideal ⟨2, ![M, 64]⟩ .f32) (W : FVec Ideal ⟨2, ![64, 64]⟩ .f32)
    (b : FVec Ideal ⟨1, ![64]⟩ .f32)
    (h1 : (⟨1, ![64]⟩ : Shape).BroadcastsInDim ⟨2, ![1, 64]⟩ ![1]) (h2 : (⟨2, ![1, 64]⟩ : Shape).BroadcastsInDim ⟨2, ![M, 64]⟩ ![0, 1])
    (h0 : (⟨0, ![]⟩ : Shape).BroadcastsInDim ⟨2, ![M, 64]⟩ ![]) (e : Fin M) :
    rowsOf (maximumf
        (addf (addf Hs (Host.dotGeneral (F := Ideal) d prec EA W))
          (broadcastInDim ⟨2, ![M, 64]⟩ ![0, 1] h2 (broadcastInDim ⟨2, ![1, 64]⟩ ![1] h1 b)))
        (broadcastInDim ⟨2, ![M, 64]⟩ ![] h0 (constant (F := Ideal) ⟨0, ![]⟩ .f32 0x00000000#32))) e
      = msg (rowsOf W) (vecRow b) (rowsOf Hs e) (rowsOf EA e) := by
  rw [rows_relu]
  funext q
  show max (addf (addf Hs _) _ (ix2 e q)) 0 = max (Hs (ix2 e q) + ((∑ k : Fin 64, EA (ix2 e k) * W (ix2 k q)) + b (ix1 q))) 0
  rw [addf_apply, addf_apply, spread_apply, Cert.PlainDot.dotGeneral_apply d hd prec EA W e q, add_assoc]

end Message

/-! ## R4. A node's perceptron -/

section Node
variable {M : Nat}

/-- Row `r` of `1 · H + AGG`, the unit scalar repeated over the array. -/
theorem rows_one_mul_add (H AGG : FVec Ideal ⟨2, ![M, 64]⟩ .f32) (h0 : (⟨0, ![]⟩ : Shape).BroadcastsInDim ⟨2, ![M, 64]⟩ ![])
    (r : Fin M) :
    rowsOf (addf (mulf (broadcastInDim ⟨2, ![M, 64]⟩ ![] h0 (constant (F := Ideal) ⟨0, ![]⟩ .f32 0x3F800000#32)) H) AGG) r
      = fun q => cOne * rowsOf H r q + rowsOf AGG r q := by
  funext q
  show addf (mulf _ H) AGG (ix2 r q) = cOne * H (ix2 r q) + AGG (ix2 r q)
  rw [addf_apply, mulf_apply, splat2_apply]
  rfl

/-- Row `r` of the two-layer perceptron applied to `1 · H + AGG` is `nodeOut` of the node's row and its aggregated
    messages: the inner sum, a linear layer, the rectifier, a second linear layer, each read row by row. -/
theorem rows_nodeOut (d : DotDims ⟨2, ![M, 64]⟩ ⟨2, ![64, 64]⟩ ⟨2, ![M, 64]⟩) (hd : Cert.PlainDot.IsPlain d)
    (prec : Option ContractPrecision) (H AGG : FVec Ideal ⟨2, ![M, 64]⟩ .f32) (W1 W2 : FVec Ideal ⟨2, ![64, 64]⟩ .f32)
    (b1 b2 : FVec Ideal ⟨1, ![64]⟩ .f32)
    (h1 : (⟨1, ![64]⟩ : Shape).BroadcastsInDim ⟨2, ![1, 64]⟩ ![1]) (h2 : (⟨2, ![1, 64]⟩ : Shape).BroadcastsInDim ⟨2, ![M, 64]⟩ ![0, 1])
    (h0 : (⟨0, ![]⟩ : Shape).BroadcastsInDim ⟨2, ![M, 64]⟩ ![]) (r : Fin M) :
    rowsOf (addf
        (Host.dotGeneral (F := Ideal) d prec
          (maximumf
            (addf
              (Host.dotGeneral (F := Ideal) d prec
                (addf (mulf (broadcastInDim ⟨2, ![M, 64]⟩ ![] h0 (constant (F := Ideal) ⟨0, ![]⟩ .f32 0x3F800000#32)) H) AGG) W1)
              (broadcastInDim ⟨2, ![M, 64]⟩ ![0, 1] h2 (broadcastInDim ⟨2, ![1, 64]⟩ ![1] h1 b1)))
            (broadcastInDim ⟨2, ![M, 64]⟩ ![] h0 (constant (F := Ideal) ⟨0, ![]⟩ .f32 0x00000000#32)))
          W2)
        (broadcastInDim ⟨2, ![M, 64]⟩ ![0, 1] h2 (broadcastInDim ⟨2, ![1, 64]⟩ ![1] h1 b2))) r
      = nodeOut (rowsOf W1) (vecRow b1) (rowsOf W2) (vecRow b2) (rowsOf H r) (rowsOf AGG r) := by
  rw [rows_lin d hd, rows_relu, rows_lin d hd, rows_one_mul_add]
  rfl

end Node

/-! ## R8. An edge's update: three rows side by side through a perceptron, halved, added to the edge's row -/

section Edge
variable {M : Nat}

/-- Row `e` of the concatenation of three `[M, 64]` arrays along the columns is the three rows side by side: column
    `j` falls in the first, second or third piece as `j` is below `64`, below `128`, or neither. -/
theorem rows_cat3 (A B C : FVec Ideal ⟨2, ![M, 64]⟩ .f32)
    (h : Shape.Concatenates [(⟨2, ![M, 64]⟩ : Shape), ⟨2, ![M, 64]⟩, ⟨2, ![M, 64]⟩] ⟨2, ![M, 192]⟩ (1 : Fin 2)) (e : Fin M) :
    rowsOf (concatenate ⟨2, ![M, 192]⟩ (1 : Fin 2)
        [⟨(⟨2, ![M, 64]⟩ : Shape), A⟩, ⟨(⟨2, ![M, 64]⟩ : Shape), B⟩, ⟨(⟨2, ![M, 64]⟩ : Shape), C⟩] h) e
      = cat3 (rowsOf A e) (rowsOf B e) (rowsOf C e) := by
  funext j
  unfold cat3
  by_cases hj : j.val < 64
  · rw [dif_pos hj]
    exact concatenate_apply_piece (t := ⟨2, ![M, 192]⟩) (1 : Fin 2)
      [⟨(⟨2, ![M, 64]⟩ : Shape), A⟩, ⟨(⟨2, ![M, 64]⟩ : Shape), B⟩, ⟨(⟨2, ![M, 64]⟩ : Shape), C⟩] h (ix2 e j)
      0 (by show (0 : Nat) < 3; omega) ⟨2, ![M, 64]⟩ A rfl rfl 0 rfl
      (ix2 e ⟨j.val, hj⟩)
      (fun b hb => by match b with | ⟨0, _⟩ => rfl | ⟨1, _⟩ => exact absurd rfl hb)
      (by show 0 + j.val = j.val; omega)
  · rw [dif_neg hj]
    by_cases hj2 : j.val < 128
    · rw [dif_pos hj2]
      exact concatenate_apply_piece (t := ⟨2, ![M, 192]⟩) (1 : Fin 2)
        [⟨(⟨2, ![M, 64]⟩ : Shape), A⟩, ⟨(⟨2, ![M, 64]⟩ : Shape), B⟩, ⟨(⟨2, ![M, 64]⟩ : Shape), C⟩] h (ix2 e j)
        1 (by show (1 : Nat) < 3; omega) ⟨2, ![M, 64]⟩ B rfl rfl 64 rfl
        (ix2 e ⟨j.val - 64, by omega⟩)
        (fun b hb => by match b with | ⟨0, _⟩ => rfl | ⟨1, _⟩ => exact absurd rfl hb)
        (by show 64 + (j.val - 64) = j.val; omega)
    · rw [dif_neg hj2]
      exact concatenate_apply_piece (t := ⟨2, ![M, 192]⟩) (1 : Fin 2)
        [⟨(⟨2, ![M, 64]⟩ : Shape), A⟩, ⟨(⟨2, ![M, 64]⟩ : Shape), B⟩, ⟨(⟨2, ![M, 64]⟩ : Shape), C⟩] h (ix2 e j)
        2 (by show (2 : Nat) < 3; omega) ⟨2, ![M, 64]⟩ C rfl rfl 128 rfl
        (ix2 e ⟨j.val - 128, by have := j.isLt; omega⟩)
        (fun b hb => by match b with | ⟨0, _⟩ => rfl | ⟨1, _⟩ => exact absurd rfl hb)
        (by show 128 + (j.val - 128) = j.val; have := j.isLt; omega)

/-- Row `e` of `EA + (perceptron of the concatenation) · ½` is `edgeUpd` of the three rows. -/
theorem rows_edgeUpd (d1 : DotDims ⟨2, ![M, 192]⟩ ⟨2, ![192, 64]⟩ ⟨2, ![M, 64]⟩) (hd1 : Cert.PlainDot.IsPlain d1)
    (d2 : DotDims ⟨2, ![M, 64]⟩ ⟨2, ![64, 64]⟩ ⟨2, ![M, 64]⟩) (hd2 : Cert.PlainDot.IsPlain d2)
    (prec : Option ContractPrecision) (A B C : FVec Ideal ⟨2, ![M, 64]⟩ .f32)
    (W1 : FVec Ideal ⟨2, ![192, 64]⟩ .f32) (W2 : FVec Ideal ⟨2, ![64, 64]⟩ .f32) (b1 b2 : FVec Ideal ⟨1, ![64]⟩ .f32)
    (h : Shape.Concatenates [(⟨2, ![M, 64]⟩ : Shape), ⟨2, ![M, 64]⟩, ⟨2, ![M, 64]⟩] ⟨2, ![M, 192]⟩ (1 : Fin 2))
    (h1 : (⟨1, ![64]⟩ : Shape).BroadcastsInDim ⟨2, ![1, 64]⟩ ![1]) (h2 : (⟨2, ![1, 64]⟩ : Shape).BroadcastsInDim ⟨2, ![M, 64]⟩ ![0, 1])
    (h0 : (⟨0, ![]⟩ : Shape).BroadcastsInDim ⟨2, ![M, 64]⟩ ![]) (e : Fin M) :
    rowsOf (addf C
        (mulf
          (addf
            (Host.dotGeneral (F := Ideal) d2 prec
              (maximumf
                (addf
                  (Host.dotGeneral (F := Ideal) d1 prec
                    (concatenate ⟨2, ![M, 192]⟩ (1 : Fin 2)
                      [⟨(⟨2, ![M, 64]⟩ : Shape), A⟩, ⟨(⟨2, ![M, 64]⟩ : Shape), B⟩, ⟨(⟨2, ![M, 64]⟩ : Shape), C⟩] h) W1)
                  (broadcastInDim ⟨2, ![M, 64]⟩ ![0, 1] h2 (broadcastInDim ⟨2, ![1, 64]⟩ ![1] h1 b1)))
                (broadcastInDim ⟨2, ![M, 64]⟩ ![] h0 (constant (F := Ideal) ⟨0, ![]⟩ .f32 0x00000000#32)))
              W2)
            (broadcastInDim ⟨2, ![M, 64]⟩ ![0, 1] h2 (broadcastInDim ⟨2, ![1, 64]⟩ ![1] h1 b2)))
          (broadcastInDim ⟨2, ![M, 64]⟩ ![] h0 (constant (F := Ideal) ⟨0, ![]⟩ .f32 0x3F000000#32)))) e
      = edgeUpd (rowsOf W1) (vecRow b1) (rowsOf W2) (vecRow b2) (rowsOf A e) (rowsOf B e) (rowsOf C e) := by
  funext q
  show addf C (mulf _ _) (ix2 e q) = rowsOf C e q + lin _ _ (relu (lin _ _ (cat3 _ _ _))) q * cHalf
  rw [addf_apply, mulf_apply, splat2_apply]
  refine congrArg (fun x => C (ix2 e q) + x * Ideal.ofBits .f32 0x3F000000#32) ?_
  show rowsOf (addf (Host.dotGeneral (F := Ideal) d2 prec _ W2) _) e q = _
  rw [rows_lin d2 hd2, rows_relu, rows_lin d1 hd1, rows_cat3]

end Edge

/-! ## R7. Normalise, scale and shift, rectify, add to the node's row, halve -/

section Norm
variable {M : Nat}

/-- Row `r` of `(H + max ((OUT − mean) · rsqrt (var + ε) · γ + β) 0) · ½`, the four vectors each spread over the rows, is
    `bnUpd` of the node's perceptron row and its own row. The operations come in the specification's own order, so
    once each is read at `(r, q)` the two sides are the same expression. -/
theorem rows_bnUpd (OUT H : FVec Ideal ⟨2, ![M, 64]⟩ .f32) (MEAN VAR γ β : FVec Ideal ⟨1, ![64]⟩ .f32)
    (h1 : (⟨1, ![64]⟩ : Shape).BroadcastsInDim ⟨2, ![1, 64]⟩ ![1]) (h2 : (⟨2, ![1, 64]⟩ : Shape).BroadcastsInDim ⟨2, ![M, 64]⟩ ![0, 1])
    (h0 : (⟨0, ![]⟩ : Shape).BroadcastsInDim ⟨2, ![M, 64]⟩ ![]) (h01 : (⟨0, ![]⟩ : Shape).BroadcastsInDim ⟨1, ![64]⟩ ![])
    (r : Fin M) :
    rowsOf (mulf
        (addf H
          (maximumf
            (addf
              (mulf
                (mulf
                  (subf OUT (broadcastInDim ⟨2, ![M, 64]⟩ ![0, 1] h2 (broadcastInDim ⟨2, ![1, 64]⟩ ![1] h1 MEAN)))
                  (broadcastInDim ⟨2, ![M, 64]⟩ ![0, 1] h2 (broadcastInDim ⟨2, ![1, 64]⟩ ![1] h1
                    (Host.rsqrt (F := Ideal)
                      (addf VAR (broadcastInDim ⟨1, ![64]⟩ ![] h01 (constant (F := Ideal) ⟨0, ![]⟩ .f32 0x3727C5AC#32)))))))
                (broadcastInDim ⟨2, ![M, 64]⟩ ![0, 1] h2 (broadcastInDim ⟨2, ![1, 64]⟩ ![1] h1 γ)))
              (broadcastInDim ⟨2, ![M, 64]⟩ ![0, 1] h2 (broadcastInDim ⟨2, ![1, 64]⟩ ![1] h1 β)))
            (broadcastInDim ⟨2, ![M, 64]⟩ ![] h0 (constant (F := Ideal) ⟨0, ![]⟩ .f32 0x00000000#32))))
        (broadcastInDim ⟨2, ![M, 64]⟩ ![] h0 (constant (F := Ideal) ⟨0, ![]⟩ .f32 0x3F000000#32))) r
      = bnUpd (vecRow MEAN) (vecRow VAR) (vecRow γ) (vecRow β) (rowsOf OUT r) (rowsOf H r) := by
  funext q
  show mulf (addf H _) _ (ix2 r q)
    = (H (ix2 r q) + max ((OUT (ix2 r q) - MEAN (ix1 q)) * Ideal.rsqrt (VAR (ix1 q) + cEps) * γ (ix1 q) + β (ix1 q)) 0) * cHalf
  rw [mulf_apply, splat2_apply, addf_apply, maximumf_apply, splat2_apply, Ideal.ofBits_zero_f32, addf_apply, spread_apply,
    mulf_apply, spread_apply, mulf_apply, spread_apply, subf_apply, spread_apply, hostRsqrt_apply, addf_apply, splat1_apply]
  rfl

end Norm

/-! ## R5. The column mean -/

section Mean
variable {M N : Nat}

/-- The host's sum over the rows from the zero constant, read at column `q`: the sum of the column. At the ideal values
    a host sum is its initial value plus the sum over the reduced axis; the initial value is `0`, and the index over
    column `q` with row coordinate `k` inserted is `(k, q)`. -/
theorem colsum_apply (X : FVec Ideal ⟨2, ![M, N]⟩ .f32) (hr : (⟨2, ![M, N]⟩ : Shape).ReducesTo [0] ⟨1, ![N]⟩)
    (hu : 0 < (⟨0, ![]⟩ : Shape).numel) (q : Fin N) :
    Host.reduceAdd (F := Ideal) X (constant (F := Ideal) ⟨0, ![]⟩ .f32 0x00000000#32) hr hu (ix1 q) = ∑ r : Fin M, X (ix2 r q) := by
  have h : (⟨2, ![M, N]⟩ : Shape).Reduces [0] ⟨1, ![N]⟩ := hr.elim fun e he => ⟨e, Nat.one_pos, he⟩
  show Ideal.hostReduceAdd hr X (Ideal.ofBits .f32 0x00000000#32) (ix1 q) = _
  rw [Ideal.hostReduceAdd_single hr h X _ (ix1 q), Ideal.ofBits_zero_f32, zero_add]
  show ∑ k : Fin M, X (h.lift (ix1 q) k) = _
  refine Finset.sum_congr rfl fun k _ => congrArg X ?_
  funext c
  apply Fin.ext
  match c with
  | ⟨0, _⟩ => rfl
  | ⟨1, _⟩ => rfl

/-- The column sums divided by the repeated constant `50000`, read at column `q`: the column mean. -/
theorem vec_mean (OUT : FVec Ideal ⟨2, ![M, N]⟩ .f32) (hr : (⟨2, ![M, N]⟩ : Shape).ReducesTo [0] ⟨1, ![N]⟩)
    (hu : 0 < (⟨0, ![]⟩ : Shape).numel) (h01 : (⟨0, ![]⟩ : Shape).BroadcastsInDim ⟨1, ![N]⟩ ![]) :
    vecRow (Host.divf (F := Ideal)
        (Host.reduceAdd (F := Ideal) OUT (constant (F := Ideal) ⟨0, ![]⟩ .f32 0x00000000#32) hr hu)
        (broadcastInDim ⟨1, ![N]⟩ ![] h01 (constant (F := Ideal) ⟨0, ![]⟩ .f32 0x47435000#32)))
      = mean (rowsOf OUT) := by
  funext q
  show Host.divf (F := Ideal) _ _ (ix1 q) = Ideal.div (∑ r : Fin M, OUT (ix2 r q)) cN
  rw [hostDivf_apply, colsum_apply, splat1_apply]
  rfl

end Mean

/-! ## R6. The variance as the mean of the squared deviations -/

section Variance
variable {M N : Nat}

/-- The word `0x47435000` denotes the real `50000`: exponent field `142`, significand `2²³ + 4411392 = 12800000`, and
    `12800000 · 2⁻⁸ = 50000`. -/
theorem cN_eq : cN = ((50000 : ℝ) : EReal) := by
  unfold cN
  simp [Ideal.ofBits, Ideal.ieee, -EReal.coe_mul]; norm_num

/-- The divisor the variance is taken with, `50000 − (0 converted to a float)`, is `50000`: the signed integer word `0`
    converts to the real `0`. -/
theorem den_apply (i : (⟨0, ![]⟩ : Shape).Idx) :
    subf (constant (F := Ideal) ⟨0, ![]⟩ .f32 0x47435000#32)
      (sitofp (F := Ideal) .f32 (constantI ⟨0, ![]⟩ 32 0#32)) i = cN := by
  show Ideal.ofBits .f32 0x47435000#32 - (((0#32 : BitVec 32).toInt : ℝ) : EReal) = cN
  rw [BitVec.toInt_zero, Int.cast_zero, EReal.coe_zero, sub_zero]
  rfl

/-- `50000 > 0`, as the one-bit word the ordered comparison returns. -/
theorem den_pos_bit : FloatOps.cmpf (F := Ideal) (φ := .f32) .ogt cN (Ideal.ofBits .f32 0x00000000#32) = 1#1 := by
  show BitVec.ofBool (decide (Ideal.ofBits .f32 0x00000000#32 < cN)) = 1#1
  rw [Ideal.ofBits_zero_f32, cN_eq, decide_eq_true (EReal.coe_pos.mpr (by norm_num))]
  rfl

/-- The reference's variance, read at column `q`: the column's deviations from the column mean, squared, summed over
    the rows and divided by `50000 − 0`; the guard "divisor positive" holds, so the select takes the quotient and its
    other operand `w` (a repeated not-a-number) is never read. -/
theorem vec_varR (OUT : FVec Ideal ⟨2, ![M, N]⟩ .f32) (w : FVec Ideal ⟨1, ![N]⟩ .f32)
    (hr : (⟨2, ![M, N]⟩ : Shape).ReducesTo [0] ⟨1, ![N]⟩) (hu : 0 < (⟨0, ![]⟩ : Shape).numel)
    (h1 : (⟨1, ![N]⟩ : Shape).BroadcastsInDim ⟨2, ![1, N]⟩ ![1]) (h2 : (⟨2, ![1, N]⟩ : Shape).BroadcastsInDim ⟨2, ![M, N]⟩ ![0, 1])
    (h0r : (⟨0, ![]⟩ : Shape).BroadcastsInDim ⟨2, ![1, N]⟩ ![]) (h01 : (⟨0, ![]⟩ : Shape).BroadcastsInDim ⟨1, ![N]⟩ ![]) :
    vecRow (select
        (broadcastInDim ⟨1, ![N]⟩ ![] h01
          (cmpf .ogt
            (subf (constant (F := Ideal) ⟨0, ![]⟩ .f32 0x47435000#32) (sitofp (F := Ideal) .f32 (constantI ⟨0, ![]⟩ 32 0#32)))
            (constant (F := Ideal) ⟨0, ![]⟩ .f32 0x00000000#32)))
        (Host.divf (F := Ideal)
          (Host.reduceAdd (F := Ideal)
            (mulf
              (subf OUT (broadcastInDim ⟨2, ![M, N]⟩ ![0, 1] h2
                (Host.divf (F := Ideal)
                  (broadcastInDim ⟨2, ![1, N]⟩ ![1] h1
                    (Host.reduceAdd (F := Ideal) OUT (constant (F := Ideal) ⟨0, ![]⟩ .f32 0x00000000#32) hr hu))
                  (broadcastInDim ⟨2, ![1, N]⟩ ![] h0r (constant (F := Ideal) ⟨0, ![]⟩ .f32 0x47435000#32)))))
              (subf OUT (broadcastInDim ⟨2, ![M, N]⟩ ![0, 1] h2
                (Host.divf (F := Ideal)
                  (broadcastInDim ⟨2, ![1, N]⟩ ![1] h1
                    (Host.reduceAdd (F := Ideal) OUT (constant (F := Ideal) ⟨0, ![]⟩ .f32 0x00000000#32) hr hu))
                  (broadcastInDim ⟨2, ![1, N]⟩ ![] h0r (constant (F := Ideal) ⟨0, ![]⟩ .f32 0x47435000#32))))))
            (constant (F := Ideal) ⟨0, ![]⟩ .f32 0x00000000#32) hr hu)
          (broadcastInDim ⟨1, ![N]⟩ ![] h01
            (subf (constant (F := Ideal) ⟨0, ![]⟩ .f32 0x47435000#32) (sitofp (F := Ideal) .f32 (constantI ⟨0, ![]⟩ 32 0#32)))))
        w)
      = varR (rowsOf OUT) := by
  funext q
  -- the deviation of `(r, q)` from the column mean
  have hdev : ∀ r : Fin M,
      subf OUT (broadcastInDim ⟨2, ![M, N]⟩ ![0, 1] h2
        (Host.divf (F := Ideal)
          (broadcastInDim ⟨2, ![1, N]⟩ ![1] h1
            (Host.reduceAdd (F := Ideal) OUT (constant (F := Ideal) ⟨0, ![]⟩ .f32 0x00000000#32) hr hu))
          (broadcastInDim ⟨2, ![1, N]⟩ ![] h0r (constant (F := Ideal) ⟨0, ![]⟩ .f32 0x47435000#32)))) (ix2 r q)
        = rowsOf OUT r q - mean (rowsOf OUT) q := fun r => by
    rw [subf_apply, repeat_apply, hostDivf_apply, oneRow_apply, colsum_apply, splat2_apply]
    rfl
  show vecRow (select _ _ w) q = _
  unfold vecRow
  rw [select_apply, scalar1_apply, cmpf_apply, den_apply, constant_apply, den_pos_bit, select_one]
  rw [hostDivf_apply, colsum_apply, scalar1_apply, den_apply]
  show _ = Ideal.div (∑ r : Fin M, (rowsOf OUT r q - mean (rowsOf OUT) q) * (rowsOf OUT r q - mean (rowsOf OUT) q)) cN
  refine congrArg (fun s => Ideal.div s cN) (Finset.sum_congr rfl fun r _ => ?_)
  rw [mulf_apply, hdev r]

end Variance

end Cert.ReferenceIdeal.Rows

end
-- ==== Proof.KChain.lean ====
/-
  The kernel program's two results as the network of the specification.

  Segment by segment, from the launch memory `m` of core `c`: each host stretch's results are read off its fold
  (slices of the stacked weights, the index rows, the gathers and the scatter-add as the operations they are), each
  region's output array row by row as the specification's row function of its input arrays (the region lemmas), and
  a buffer read some segments after it was written by the persistence table. The end of the chain: the node array
  after the second normalisation region is `H2` and the edge array after the last region is `E2`, with the variance in
  the kernel's form (mean of squares minus squared mean) and the gathers / scatter-add the program's own terms over
  the two rows of the index argument.
-/
import proofs.«133695_j30227979829590_2_alg».proof.Proof.KPersist
import proofs.«133695_j30227979829590_2_alg».proof.Proof.Net
import proofs.«133695_j30227979829590_2_alg».proof.Proof.LibSlices
import proofs.«133695_j30227979829590_2_alg».proof.Proof.RefRows

set_option maxRecDepth 16384
set_option maxHeartbeats 1000000

noncomputable section

namespace Cert.KernelIdeal.Chain

open Cert.KernelIdeal Cert.KernelIdeal.Gen Cert.KernelIdeal.Steps Cert.KernelIdeal.Persist Cert.Gine Cert.Slices
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-! ## The arguments, the index rows, the gathers and the scatter-add -/

/-- The float arguments as launched on core `c`. -/
def kargs : Args where
  x := m ((c.tc : Thread nD τ).loc main_arg0)
  edgeAttr := m ((c.tc : Thread nD τ).loc main_arg2)
  nodeW := m ((c.tc : Thread nD τ).loc main_arg3)
  nodeb := m ((c.tc : Thread nD τ).loc main_arg4)
  edgeW := m ((c.tc : Thread nD τ).loc main_arg5)
  edgeb := m ((c.tc : Thread nD τ).loc main_arg6)
  elinW := m ((c.tc : Thread nD τ).loc main_arg7)
  elinb := m ((c.tc : Thread nD τ).loc main_arg8)
  mlp1W := m ((c.tc : Thread nD τ).loc main_arg9)
  mlp1b := m ((c.tc : Thread nD τ).loc main_arg10)
  mlp2W := m ((c.tc : Thread nD τ).loc main_arg11)
  mlp2b := m ((c.tc : Thread nD τ).loc main_arg12)
  emlp1W := m ((c.tc : Thread nD τ).loc main_arg13)
  emlp1b := m ((c.tc : Thread nD τ).loc main_arg14)
  emlp2W := m ((c.tc : Thread nD τ).loc main_arg15)
  emlp2b := m ((c.tc : Thread nD τ).loc main_arg16)
  gamma := m ((c.tc : Thread nD τ).loc main_arg17)
  beta := m ((c.tc : Thread nD τ).loc main_arg18)

/-- Row `a` of the index argument, as a flat array of 1000000 indices. -/
def idxRow0 (ei : (⟨S2x1000000, .i32⟩ : BufTy).Contents (Elt Ideal)) : (⟨S1000000, .i32⟩ : BufTy).Contents (Elt Ideal) :=
  shapeCast S1000000 (extractStridedSlice S1x1000000 ![0, 0] ei slices_S2x1000000_S1x1000000_0_0) shapeCasts_S1x1000000_S1000000
def idxRow1 (ei : (⟨S2x1000000, .i32⟩ : BufTy).Contents (Elt Ideal)) : (⟨S1000000, .i32⟩ : BufTy).Contents (Elt Ideal) :=
  shapeCast S1000000 (extractStridedSlice S1x1000000 ![1, 0] ei slices_S2x1000000_S1x1000000_1_0) shapeCasts_S1x1000000_S1000000

/-- A flat index array as the gather takes it: a negative index moved up by 50000, then laid out as a column. -/
def wrapIdx (v : (⟨S1000000, .i32⟩ : BufTy).Contents (Elt Ideal)) : (⟨S1000000x1, .i32⟩ : BufTy).Contents (Elt Ideal) :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 50000#32))) v)

/-- Node rows gathered at the edges' sources, at their targets; edge rows summed at the targets onto zero. -/
def KGs (h : NodeArr) : EdgeArr :=
  rowsOf (Host.gather gather_S50000x64_S1000000x1_S1000000x64_1_0_n_n_0_1_164 (arrOf h) (wrapIdx (idxRow0 (m ((c.tc : Thread nD τ).loc main_arg1)))))
def KGd (h : NodeArr) : EdgeArr :=
  rowsOf (Host.gather gather_S50000x64_S1000000x1_S1000000x64_1_0_n_n_0_1_164 (arrOf h) (wrapIdx (idxRow1 (m ((c.tc : Thread nD τ).loc main_arg1)))))
def KSc (u : EdgeArr) : NodeArr :=
  rowsOf (Host.scatterAdd (F := Ideal) scatter_S50000x64_S1000000x1_S1000000x64_1_0_0_1
    (broadcastInDim S50000x64 ![] bcast_S_S50000x64 (constant (F := Ideal) S_ .f32 0x00000000#32))
    (broadcastInDim S1000000x1 ![0] bcast_S1000000_S1000000x1_0 (idxRow1 (m ((c.tc : Thread nD τ).loc main_arg1)))) (arrOf u))

/-! ## The host stretches: each result read off its stretch's fold -/

theorem w0_val (b : Ref sig .tc) : W0 m ρ c (Proc.devRef .tc b) = m ((c.tc : Thread nD τ).loc b) := rfl

theorem v1_val : W1 m ρ c (Proc.devRef .tc main_v1) = idxRow0 (m ((c.tc : Thread nD τ).loc main_arg1)) := by
  show StableHlo.after hostOps0 (W0 m ρ c) (Proc.devRef .tc main_v1) = _
  dsimp only [hostOps0]; after_results; try rfl

theorem v3_val : W1 m ρ c (Proc.devRef .tc main_v3) = idxRow1 (m ((c.tc : Thread nD τ).loc main_arg1)) := by
  show StableHlo.after hostOps0 (W0 m ρ c) (Proc.devRef .tc main_v3) = _
  dsimp only [hostOps0]; after_results; try rfl

theorem v4_val : W1 m ρ c (Proc.devRef .tc main_v4) = shapeCast S1x64 (m ((c.tc : Thread nD τ).loc main_arg4)) shapeCasts_S64_S1x64 := by
  show StableHlo.after hostOps0 (W0 m ρ c) (Proc.devRef .tc main_v4) = _
  dsimp only [hostOps0]; after_results; try rfl

theorem v6_val : W3 m ρ c (Proc.devRef .tc main_v6) = shapeCast S1x64 (W2 m ρ c (Proc.devRef .tc main_arg6)) shapeCasts_S64_S1x64 := by
  show StableHlo.after hostOps1 (W2 m ρ c) (Proc.devRef .tc main_v6) = _
  dsimp only [hostOps1]; after_results; try rfl

theorem div_cN_at (S : S1x64.Idx → EReal) (q : Fin 64) : Host.divf (F := Ideal) S (broadcastInDim S1x64 ![] bcast_S_S1x64 (constant (F := Ideal) S_ .f32 0x47435000#32)) (ix2 (0 : Fin 1) q) = Ideal.div (S (ix2 (0 : Fin 1) q)) cN := by
  rw [Cert.ReferenceIdeal.Rows.hostDivf_apply, Cert.ReferenceIdeal.Rows.splat2_apply]
  rfl

theorem v14_val : W5 m ρ c (Proc.devRef .tc main_v14) = Host.gather gather_S50000x64_S1000000x1_S1000000x64_1_0_n_n_0_1_164 (W4 m ρ c (Proc.devRef .tc main_v5)) (wrapIdx (W4 m ρ c (Proc.devRef .tc main_v1))) := by
  show StableHlo.after hostOps2 (W4 m ρ c) (Proc.devRef .tc main_v14) = _
  dsimp only [hostOps2]; after_results; try rfl

theorem v16_val : W5 m ρ c (Proc.devRef .tc main_v16) = shapeCast S64x64 (extractStridedSlice S1x64x64 ![0, 0, 0] (W4 m ρ c (Proc.devRef .tc main_arg7)) slices_S2x64x64_S1x64x64_0_0_0) shapeCasts_S1x64x64_S64x64 := by
  show StableHlo.after hostOps2 (W4 m ρ c) (Proc.devRef .tc main_v16) = _
  dsimp only [hostOps2]; after_results; try rfl

theorem v19_val : W5 m ρ c (Proc.devRef .tc main_v19) = shapeCast S1x64 (shapeCast S64 (extractStridedSlice S1x64 ![0, 0] (W4 m ρ c (Proc.devRef .tc main_arg8)) slices_S2x64_S1x64_0_0) shapeCasts_S1x64_S64) shapeCasts_S64_S1x64 := by
  show StableHlo.after hostOps2 (W4 m ρ c) (Proc.devRef .tc main_v19) = _
  dsimp only [hostOps2]; after_results; try rfl

theorem v23_val : W7 m ρ c (Proc.devRef .tc main_v23) = Host.scatterAdd (F := Ideal) scatter_S50000x64_S1000000x1_S1000000x64_1_0_0_1
    (broadcastInDim S50000x64 ![] bcast_S_S50000x64 (constant (F := Ideal) S_ .f32 0x00000000#32))
    (broadcastInDim S1000000x1 ![0] bcast_S1000000_S1000000x1_0 (W6 m ρ c (Proc.devRef .tc main_v3))) (W6 m ρ c (Proc.devRef .tc main_v20)) := by
  show StableHlo.after hostOps3 (W6 m ρ c) (Proc.devRef .tc main_v23) = _
  dsimp only [hostOps3]; after_results; try rfl

theorem v25_val : W7 m ρ c (Proc.devRef .tc main_v25) = shapeCast S64x64 (extractStridedSlice S1x64x64 ![0, 0, 0] (W6 m ρ c (Proc.devRef .tc main_arg9)) slices_S2x64x64_S1x64x64_0_0_0) shapeCasts_S1x64x64_S64x64 := by
  show StableHlo.after hostOps3 (W6 m ρ c) (Proc.devRef .tc main_v25) = _
  dsimp only [hostOps3]; after_results; try rfl

theorem v32_val : W7 m ρ c (Proc.devRef .tc main_v32) = shapeCast S1x64 (shapeCast S64 (extractStridedSlice S1x64 ![0, 0] (W6 m ρ c (Proc.devRef .tc main_arg10)) slices_S2x64_S1x64_0_0) shapeCasts_S1x64_S64) shapeCasts_S64_S1x64 := by
  show StableHlo.after hostOps3 (W6 m ρ c) (Proc.devRef .tc main_v32) = _
  dsimp only [hostOps3]; after_results; try rfl

theorem v29_val : W7 m ρ c (Proc.devRef .tc main_v29) = shapeCast S64x64 (extractStridedSlice S1x64x64 ![0, 0, 0] (W6 m ρ c (Proc.devRef .tc main_arg11)) slices_S2x64x64_S1x64x64_0_0_0) shapeCasts_S1x64x64_S64x64 := by
  show StableHlo.after hostOps3 (W6 m ρ c) (Proc.devRef .tc main_v29) = _
  dsimp only [hostOps3]; after_results; try rfl

theorem v33_val : W7 m ρ c (Proc.devRef .tc main_v33) = shapeCast S1x64 (shapeCast S64 (extractStridedSlice S1x64 ![0, 0] (W6 m ρ c (Proc.devRef .tc main_arg12)) slices_S2x64_S1x64_0_0) shapeCasts_S1x64_S64) shapeCasts_S64_S1x64 := by
  show StableHlo.after hostOps3 (W6 m ρ c) (Proc.devRef .tc main_v33) = _
  dsimp only [hostOps3]; after_results; try rfl

theorem v36_val : W9 m ρ c (Proc.devRef .tc main_v36) = Host.divf (F := Ideal) (W8 m ρ c (Proc.devRef .tc main_v34_1)) (broadcastInDim S1x64 ![] bcast_S_S1x64 (constant (F := Ideal) S_ .f32 0x47435000#32)) := by
  show StableHlo.after hostOps4 (W8 m ρ c) (Proc.devRef .tc main_v36) = _
  dsimp only [hostOps4]; after_results; try rfl

theorem v40_val : W9 m ρ c (Proc.devRef .tc main_v40) = subf (Host.divf (F := Ideal) (W8 m ρ c (Proc.devRef .tc main_v34_2)) (broadcastInDim S1x64 ![] bcast_S_S1x64 (constant (F := Ideal) S_ .f32 0x47435000#32)))
    (mulf (Host.divf (F := Ideal) (W8 m ρ c (Proc.devRef .tc main_v34_1)) (broadcastInDim S1x64 ![] bcast_S_S1x64 (constant (F := Ideal) S_ .f32 0x47435000#32))) (Host.divf (F := Ideal) (W8 m ρ c (Proc.devRef .tc main_v34_1)) (broadcastInDim S1x64 ![] bcast_S_S1x64 (constant (F := Ideal) S_ .f32 0x47435000#32)))) := by
  show StableHlo.after hostOps4 (W8 m ρ c) (Proc.devRef .tc main_v40) = _
  dsimp only [hostOps4]; after_results; try rfl

theorem v43_val : W9 m ρ c (Proc.devRef .tc main_v43) = shapeCast S1x64 (shapeCast S64 (extractStridedSlice S1x64 ![0, 0] (W8 m ρ c (Proc.devRef .tc main_arg17)) slices_S2x64_S1x64_0_0) shapeCasts_S1x64_S64) shapeCasts_S64_S1x64 := by
  show StableHlo.after hostOps4 (W8 m ρ c) (Proc.devRef .tc main_v43) = _
  dsimp only [hostOps4]; after_results; try rfl

theorem v46_val : W9 m ρ c (Proc.devRef .tc main_v46) = shapeCast S1x64 (shapeCast S64 (extractStridedSlice S1x64 ![0, 0] (W8 m ρ c (Proc.devRef .tc main_arg18)) slices_S2x64_S1x64_0_0) shapeCasts_S1x64_S64) shapeCasts_S64_S1x64 := by
  show StableHlo.after hostOps4 (W8 m ρ c) (Proc.devRef .tc main_v46) = _
  dsimp only [hostOps4]; after_results; try rfl

theorem v54_val : W11 m ρ c (Proc.devRef .tc main_v54) = Host.gather gather_S50000x64_S1000000x1_S1000000x64_1_0_n_n_0_1_164 (W10 m ρ c (Proc.devRef .tc main_v47)) (wrapIdx (W10 m ρ c (Proc.devRef .tc main_v1))) := by
  show StableHlo.after hostOps5 (W10 m ρ c) (Proc.devRef .tc main_v54) = _
  dsimp only [hostOps5]; after_results; try rfl

theorem v61_val : W11 m ρ c (Proc.devRef .tc main_v61) = Host.gather gather_S50000x64_S1000000x1_S1000000x64_1_0_n_n_0_1_164 (W10 m ρ c (Proc.devRef .tc main_v47)) (wrapIdx (W10 m ρ c (Proc.devRef .tc main_v3))) := by
  show StableHlo.after hostOps5 (W10 m ρ c) (Proc.devRef .tc main_v61) = _
  dsimp only [hostOps5]; after_results; try rfl

theorem v63_val : W11 m ρ c (Proc.devRef .tc main_v63) = shapeCast S192x64 (extractStridedSlice S1x192x64 ![0, 0, 0] (W10 m ρ c (Proc.devRef .tc main_arg13)) slices_S2x192x64_S1x192x64_0_0_0) shapeCasts_S1x192x64_S192x64 := by
  show StableHlo.after hostOps5 (W10 m ρ c) (Proc.devRef .tc main_v63) = _
  dsimp only [hostOps5]; after_results; try rfl

theorem v70_val : W11 m ρ c (Proc.devRef .tc main_v70) = shapeCast S1x64 (shapeCast S64 (extractStridedSlice S1x64 ![0, 0] (W10 m ρ c (Proc.devRef .tc main_arg14)) slices_S2x64_S1x64_0_0) shapeCasts_S1x64_S64) shapeCasts_S64_S1x64 := by
  show StableHlo.after hostOps5 (W10 m ρ c) (Proc.devRef .tc main_v70) = _
  dsimp only [hostOps5]; after_results; try rfl

theorem v67_val : W11 m ρ c (Proc.devRef .tc main_v67) = shapeCast S64x64 (extractStridedSlice S1x64x64 ![0, 0, 0] (W10 m ρ c (Proc.devRef .tc main_arg15)) slices_S2x64x64_S1x64x64_0_0_0) shapeCasts_S1x64x64_S64x64 := by
  show StableHlo.after hostOps5 (W10 m ρ c) (Proc.devRef .tc main_v67) = _
  dsimp only [hostOps5]; after_results; try rfl

theorem v71_val : W11 m ρ c (Proc.devRef .tc main_v71) = shapeCast S1x64 (shapeCast S64 (extractStridedSlice S1x64 ![0, 0] (W10 m ρ c (Proc.devRef .tc main_arg16)) slices_S2x64_S1x64_0_0) shapeCasts_S1x64_S64) shapeCasts_S64_S1x64 := by
  show StableHlo.after hostOps5 (W10 m ρ c) (Proc.devRef .tc main_v71) = _
  dsimp only [hostOps5]; after_results; try rfl

theorem v79_val : W13 m ρ c (Proc.devRef .tc main_v79) = Host.gather gather_S50000x64_S1000000x1_S1000000x64_1_0_n_n_0_1_164 (W12 m ρ c (Proc.devRef .tc main_v47)) (wrapIdx (W12 m ρ c (Proc.devRef .tc main_v1))) := by
  show StableHlo.after hostOps6 (W12 m ρ c) (Proc.devRef .tc main_v79) = _
  dsimp only [hostOps6]; after_results; try rfl

theorem v81_val : W13 m ρ c (Proc.devRef .tc main_v81) = shapeCast S64x64 (extractStridedSlice S1x64x64 ![1, 0, 0] (W12 m ρ c (Proc.devRef .tc main_arg7)) slices_S2x64x64_S1x64x64_1_0_0) shapeCasts_S1x64x64_S64x64 := by
  show StableHlo.after hostOps6 (W12 m ρ c) (Proc.devRef .tc main_v81) = _
  dsimp only [hostOps6]; after_results; try rfl

theorem v84_val : W13 m ρ c (Proc.devRef .tc main_v84) = shapeCast S1x64 (shapeCast S64 (extractStridedSlice S1x64 ![1, 0] (W12 m ρ c (Proc.devRef .tc main_arg8)) slices_S2x64_S1x64_1_0) shapeCasts_S1x64_S64) shapeCasts_S64_S1x64 := by
  show StableHlo.after hostOps6 (W12 m ρ c) (Proc.devRef .tc main_v84) = _
  dsimp only [hostOps6]; after_results; try rfl

theorem v88_val : W15 m ρ c (Proc.devRef .tc main_v88) = Host.scatterAdd (F := Ideal) scatter_S50000x64_S1000000x1_S1000000x64_1_0_0_1
    (broadcastInDim S50000x64 ![] bcast_S_S50000x64 (constant (F := Ideal) S_ .f32 0x00000000#32))
    (broadcastInDim S1000000x1 ![0] bcast_S1000000_S1000000x1_0 (W14 m ρ c (Proc.devRef .tc main_v3))) (W14 m ρ c (Proc.devRef .tc main_v85)) := by
  show StableHlo.after hostOps7 (W14 m ρ c) (Proc.devRef .tc main_v88) = _
  dsimp only [hostOps7]; after_results; try rfl

theorem v90_val : W15 m ρ c (Proc.devRef .tc main_v90) = shapeCast S64x64 (extractStridedSlice S1x64x64 ![1, 0, 0] (W14 m ρ c (Proc.devRef .tc main_arg9)) slices_S2x64x64_S1x64x64_1_0_0) shapeCasts_S1x64x64_S64x64 := by
  show StableHlo.after hostOps7 (W14 m ρ c) (Proc.devRef .tc main_v90) = _
  dsimp only [hostOps7]; after_results; try rfl

theorem v97_val : W15 m ρ c (Proc.devRef .tc main_v97) = shapeCast S1x64 (shapeCast S64 (extractStridedSlice S1x64 ![1, 0] (W14 m ρ c (Proc.devRef .tc main_arg10)) slices_S2x64_S1x64_1_0) shapeCasts_S1x64_S64) shapeCasts_S64_S1x64 := by
  show StableHlo.after hostOps7 (W14 m ρ c) (Proc.devRef .tc main_v97) = _
  dsimp only [hostOps7]; after_results; try rfl

theorem v94_val : W15 m ρ c (Proc.devRef .tc main_v94) = shapeCast S64x64 (extractStridedSlice S1x64x64 ![1, 0, 0] (W14 m ρ c (Proc.devRef .tc main_arg11)) slices_S2x64x64_S1x64x64_1_0_0) shapeCasts_S1x64x64_S64x64 := by
  show StableHlo.after hostOps7 (W14 m ρ c) (Proc.devRef .tc main_v94) = _
  dsimp only [hostOps7]; after_results; try rfl

theorem v98_val : W15 m ρ c (Proc.devRef .tc main_v98) = shapeCast S1x64 (shapeCast S64 (extractStridedSlice S1x64 ![1, 0] (W14 m ρ c (Proc.devRef .tc main_arg12)) slices_S2x64_S1x64_1_0) shapeCasts_S1x64_S64) shapeCasts_S64_S1x64 := by
  show StableHlo.after hostOps7 (W14 m ρ c) (Proc.devRef .tc main_v98) = _
  dsimp only [hostOps7]; after_results; try rfl

theorem v101_val : W17 m ρ c (Proc.devRef .tc main_v101) = Host.divf (F := Ideal) (W16 m ρ c (Proc.devRef .tc main_v99_1)) (broadcastInDim S1x64 ![] bcast_S_S1x64 (constant (F := Ideal) S_ .f32 0x47435000#32)) := by
  show StableHlo.after hostOps8 (W16 m ρ c) (Proc.devRef .tc main_v101) = _
  dsimp only [hostOps8]; after_results; try rfl

theorem v105_val : W17 m ρ c (Proc.devRef .tc main_v105) = subf (Host.divf (F := Ideal) (W16 m ρ c (Proc.devRef .tc main_v99_2)) (broadcastInDim S1x64 ![] bcast_S_S1x64 (constant (F := Ideal) S_ .f32 0x47435000#32)))
    (mulf (Host.divf (F := Ideal) (W16 m ρ c (Proc.devRef .tc main_v99_1)) (broadcastInDim S1x64 ![] bcast_S_S1x64 (constant (F := Ideal) S_ .f32 0x47435000#32))) (Host.divf (F := Ideal) (W16 m ρ c (Proc.devRef .tc main_v99_1)) (broadcastInDim S1x64 ![] bcast_S_S1x64 (constant (F := Ideal) S_ .f32 0x47435000#32)))) := by
  show StableHlo.after hostOps8 (W16 m ρ c) (Proc.devRef .tc main_v105) = _
  dsimp only [hostOps8]; after_results; try rfl

theorem v108_val : W17 m ρ c (Proc.devRef .tc main_v108) = shapeCast S1x64 (shapeCast S64 (extractStridedSlice S1x64 ![1, 0] (W16 m ρ c (Proc.devRef .tc main_arg17)) slices_S2x64_S1x64_1_0) shapeCasts_S1x64_S64) shapeCasts_S64_S1x64 := by
  show StableHlo.after hostOps8 (W16 m ρ c) (Proc.devRef .tc main_v108) = _
  dsimp only [hostOps8]; after_results; try rfl

theorem v111_val : W17 m ρ c (Proc.devRef .tc main_v111) = shapeCast S1x64 (shapeCast S64 (extractStridedSlice S1x64 ![1, 0] (W16 m ρ c (Proc.devRef .tc main_arg18)) slices_S2x64_S1x64_1_0) shapeCasts_S1x64_S64) shapeCasts_S64_S1x64 := by
  show StableHlo.after hostOps8 (W16 m ρ c) (Proc.devRef .tc main_v111) = _
  dsimp only [hostOps8]; after_results; try rfl

theorem v119_val : W19 m ρ c (Proc.devRef .tc main_v119) = Host.gather gather_S50000x64_S1000000x1_S1000000x64_1_0_n_n_0_1_164 (W18 m ρ c (Proc.devRef .tc main_v112)) (wrapIdx (W18 m ρ c (Proc.devRef .tc main_v1))) := by
  show StableHlo.after hostOps9 (W18 m ρ c) (Proc.devRef .tc main_v119) = _
  dsimp only [hostOps9]; after_results; try rfl

theorem v126_val : W19 m ρ c (Proc.devRef .tc main_v126) = Host.gather gather_S50000x64_S1000000x1_S1000000x64_1_0_n_n_0_1_164 (W18 m ρ c (Proc.devRef .tc main_v112)) (wrapIdx (W18 m ρ c (Proc.devRef .tc main_v3))) := by
  show StableHlo.after hostOps9 (W18 m ρ c) (Proc.devRef .tc main_v126) = _
  dsimp only [hostOps9]; after_results; try rfl

theorem v128_val : W19 m ρ c (Proc.devRef .tc main_v128) = shapeCast S192x64 (extractStridedSlice S1x192x64 ![1, 0, 0] (W18 m ρ c (Proc.devRef .tc main_arg13)) slices_S2x192x64_S1x192x64_1_0_0) shapeCasts_S1x192x64_S192x64 := by
  show StableHlo.after hostOps9 (W18 m ρ c) (Proc.devRef .tc main_v128) = _
  dsimp only [hostOps9]; after_results; try rfl

theorem v135_val : W19 m ρ c (Proc.devRef .tc main_v135) = shapeCast S1x64 (shapeCast S64 (extractStridedSlice S1x64 ![1, 0] (W18 m ρ c (Proc.devRef .tc main_arg14)) slices_S2x64_S1x64_1_0) shapeCasts_S1x64_S64) shapeCasts_S64_S1x64 := by
  show StableHlo.after hostOps9 (W18 m ρ c) (Proc.devRef .tc main_v135) = _
  dsimp only [hostOps9]; after_results; try rfl

theorem v132_val : W19 m ρ c (Proc.devRef .tc main_v132) = shapeCast S64x64 (extractStridedSlice S1x64x64 ![1, 0, 0] (W18 m ρ c (Proc.devRef .tc main_arg15)) slices_S2x64x64_S1x64x64_1_0_0) shapeCasts_S1x64x64_S64x64 := by
  show StableHlo.after hostOps9 (W18 m ρ c) (Proc.devRef .tc main_v132) = _
  dsimp only [hostOps9]; after_results; try rfl

theorem v136_val : W19 m ρ c (Proc.devRef .tc main_v136) = shapeCast S1x64 (shapeCast S64 (extractStridedSlice S1x64 ![1, 0] (W18 m ρ c (Proc.devRef .tc main_arg16)) slices_S2x64_S1x64_1_0) shapeCasts_S1x64_S64) shapeCasts_S64_S1x64 := by
  show StableHlo.after hostOps9 (W18 m ρ c) (Proc.devRef .tc main_v136) = _
  dsimp only [hostOps9]; after_results; try rfl

/-! ## What the ten regions leave, row by row (proved region by region from the kernels' bodies) -/

set_option maxHeartbeats 8000000 in
/-- Each region's output array after the region, read row by row as the specification's row function of the rows of
    its input arrays, at any entry contents `V`; the two accumulated outputs of the statistics regions as column sums. -/
structure RegionFacts : Prop where
  r0 : ∀ (V : (c : Dev nD) → (b : Ref sig .tc) → Buf (Elt Ideal) ((c : Thread nD τ).loc b)) (c : Dev nD) (p : Fin 50000) (q : Fin 64),
    ((dat0 V c).arrAt 3 cfg0.N : S50000x64.Idx → EReal) (ix2 p q) = lin (rowsOf ((dat0 V c).A 1 : S32x64.Idx → EReal)) (rowAt ((dat0 V c).A 2 : S1x64.Idx → EReal) 0) (rowsOf ((dat0 V c).A 0 : S50000x32.Idx → EReal) p) q
  r1 : ∀ (V : (c : Dev nD) → (b : Ref sig .tc) → Buf (Elt Ideal) ((c : Thread nD τ).loc b)) (c : Dev nD) (p : Fin 1000000) (q : Fin 64),
    ((dat1 V c).arrAt 3 cfg1.N : S1000000x64.Idx → EReal) (ix2 p q) = lin (rowsOf ((dat1 V c).A 1 : S16x64.Idx → EReal)) (rowAt ((dat1 V c).A 2 : S1x64.Idx → EReal) 0) (rowsOf ((dat1 V c).A 0 : S1000000x16.Idx → EReal) p) q
  r2 : ∀ (V : (c : Dev nD) → (b : Ref sig .tc) → Buf (Elt Ideal) ((c : Thread nD τ).loc b)) (c : Dev nD) (e : Fin 1000000) (q : Fin 64),
    ((dat2 V c).arrAt 4 cfg2.N : S1000000x64.Idx → EReal) (ix2 e q) = msg (rowsOf ((dat2 V c).A 2 : S64x64.Idx → EReal)) (rowAt ((dat2 V c).A 3 : S1x64.Idx → EReal) 0) (rowsOf ((dat2 V c).A 0 : S1000000x64.Idx → EReal) e) (rowsOf ((dat2 V c).A 1 : S1000000x64.Idx → EReal) e) q
  r3a : ∀ (V : (c : Dev nD) → (b : Ref sig .tc) → Buf (Elt Ideal) ((c : Thread nD τ).loc b)) (c : Dev nD) (r : Fin 50000) (q : Fin 64),
    ((dat3 V c).arrAt 6 cfg3.N : S50000x64.Idx → EReal) (ix2 r q) = nodeOut (rowsOf ((dat3 V c).A 2 : S64x64.Idx → EReal)) (rowAt ((dat3 V c).A 3 : S1x64.Idx → EReal) 0) (rowsOf ((dat3 V c).A 4 : S64x64.Idx → EReal)) (rowAt ((dat3 V c).A 5 : S1x64.Idx → EReal) 0) (rowsOf ((dat3 V c).A 0 : S50000x64.Idx → EReal) r) (rowsOf ((dat3 V c).A 1 : S50000x64.Idx → EReal) r) q
  r3b : ∀ (V : (c : Dev nD) → (b : Ref sig .tc) → Buf (Elt Ideal) ((c : Thread nD τ).loc b)) (c : Dev nD) (q : Fin 64),
    ((dat3 V c).arrAt 7 cfg3.N : S1x64.Idx → EReal) (ix2 (0 : Fin 1) q) = ∑ r : Fin 50000, nodeOut (rowsOf ((dat3 V c).A 2 : S64x64.Idx → EReal)) (rowAt ((dat3 V c).A 3 : S1x64.Idx → EReal) 0) (rowsOf ((dat3 V c).A 4 : S64x64.Idx → EReal)) (rowAt ((dat3 V c).A 5 : S1x64.Idx → EReal) 0) (rowsOf ((dat3 V c).A 0 : S50000x64.Idx → EReal) r) (rowsOf ((dat3 V c).A 1 : S50000x64.Idx → EReal) r) q
  r3c : ∀ (V : (c : Dev nD) → (b : Ref sig .tc) → Buf (Elt Ideal) ((c : Thread nD τ).loc b)) (c : Dev nD) (q : Fin 64),
    ((dat3 V c).arrAt 8 cfg3.N : S1x64.Idx → EReal) (ix2 (0 : Fin 1) q) = ∑ r : Fin 50000, (nodeOut (rowsOf ((dat3 V c).A 2 : S64x64.Idx → EReal)) (rowAt ((dat3 V c).A 3 : S1x64.Idx → EReal) 0) (rowsOf ((dat3 V c).A 4 : S64x64.Idx → EReal)) (rowAt ((dat3 V c).A 5 : S1x64.Idx → EReal) 0) (rowsOf ((dat3 V c).A 0 : S50000x64.Idx → EReal) r) (rowsOf ((dat3 V c).A 1 : S50000x64.Idx → EReal) r) q) * (nodeOut (rowsOf ((dat3 V c).A 2 : S64x64.Idx → EReal)) (rowAt ((dat3 V c).A 3 : S1x64.Idx → EReal) 0) (rowsOf ((dat3 V c).A 4 : S64x64.Idx → EReal)) (rowAt ((dat3 V c).A 5 : S1x64.Idx → EReal) 0) (rowsOf ((dat3 V c).A 0 : S50000x64.Idx → EReal) r) (rowsOf ((dat3 V c).A 1 : S50000x64.Idx → EReal) r) q)
  r4 : ∀ (V : (c : Dev nD) → (b : Ref sig .tc) → Buf (Elt Ideal) ((c : Thread nD τ).loc b)) (c : Dev nD) (r : Fin 50000) (q : Fin 64),
    ((dat4 V c).arrAt 6 cfg4.N : S50000x64.Idx → EReal) (ix2 r q) = bnUpd (rowAt ((dat4 V c).A 2 : S1x64.Idx → EReal) 0) (rowAt ((dat4 V c).A 3 : S1x64.Idx → EReal) 0) (rowAt ((dat4 V c).A 4 : S1x64.Idx → EReal) 0) (rowAt ((dat4 V c).A 5 : S1x64.Idx → EReal) 0) (rowsOf ((dat4 V c).A 0 : S50000x64.Idx → EReal) r) (rowsOf ((dat4 V c).A 1 : S50000x64.Idx → EReal) r) q
  r5 : ∀ (V : (c : Dev nD) → (b : Ref sig .tc) → Buf (Elt Ideal) ((c : Thread nD τ).loc b)) (c : Dev nD) (e : Fin 1000000) (q : Fin 64),
    ((dat5 V c).arrAt 7 cfg5.N : S1000000x64.Idx → EReal) (ix2 e q) = edgeUpd (rowsOf ((dat5 V c).A 3 : S192x64.Idx → EReal)) (rowAt ((dat5 V c).A 4 : S1x64.Idx → EReal) 0) (rowsOf ((dat5 V c).A 5 : S64x64.Idx → EReal)) (rowAt ((dat5 V c).A 6 : S1x64.Idx → EReal) 0) (rowsOf ((dat5 V c).A 0 : S1000000x64.Idx → EReal) e) (rowsOf ((dat5 V c).A 1 : S1000000x64.Idx → EReal) e) (rowsOf ((dat5 V c).A 2 : S1000000x64.Idx → EReal) e) q
  r6 : ∀ (V : (c : Dev nD) → (b : Ref sig .tc) → Buf (Elt Ideal) ((c : Thread nD τ).loc b)) (c : Dev nD) (e : Fin 1000000) (q : Fin 64),
    ((dat6 V c).arrAt 4 cfg6.N : S1000000x64.Idx → EReal) (ix2 e q) = msg (rowsOf ((dat6 V c).A 2 : S64x64.Idx → EReal)) (rowAt ((dat6 V c).A 3 : S1x64.Idx → EReal) 0) (rowsOf ((dat6 V c).A 0 : S1000000x64.Idx → EReal) e) (rowsOf ((dat6 V c).A 1 : S1000000x64.Idx → EReal) e) q
  r7a : ∀ (V : (c : Dev nD) → (b : Ref sig .tc) → Buf (Elt Ideal) ((c : Thread nD τ).loc b)) (c : Dev nD) (r : Fin 50000) (q : Fin 64),
    ((dat7 V c).arrAt 6 cfg7.N : S50000x64.Idx → EReal) (ix2 r q) = nodeOut (rowsOf ((dat7 V c).A 2 : S64x64.Idx → EReal)) (rowAt ((dat7 V c).A 3 : S1x64.Idx → EReal) 0) (rowsOf ((dat7 V c).A 4 : S64x64.Idx → EReal)) (rowAt ((dat7 V c).A 5 : S1x64.Idx → EReal) 0) (rowsOf ((dat7 V c).A 0 : S50000x64.Idx → EReal) r) (rowsOf ((dat7 V c).A 1 : S50000x64.Idx → EReal) r) q
  r7b : ∀ (V : (c : Dev nD) → (b : Ref sig .tc) → Buf (Elt Ideal) ((c : Thread nD τ).loc b)) (c : Dev nD) (q : Fin 64),
    ((dat7 V c).arrAt 7 cfg7.N : S1x64.Idx → EReal) (ix2 (0 : Fin 1) q) = ∑ r : Fin 50000, nodeOut (rowsOf ((dat7 V c).A 2 : S64x64.Idx → EReal)) (rowAt ((dat7 V c).A 3 : S1x64.Idx → EReal) 0) (rowsOf ((dat7 V c).A 4 : S64x64.Idx → EReal)) (rowAt ((dat7 V c).A 5 : S1x64.Idx → EReal) 0) (rowsOf ((dat7 V c).A 0 : S50000x64.Idx → EReal) r) (rowsOf ((dat7 V c).A 1 : S50000x64.Idx → EReal) r) q
  r7c : ∀ (V : (c : Dev nD) → (b : Ref sig .tc) → Buf (Elt Ideal) ((c : Thread nD τ).loc b)) (c : Dev nD) (q : Fin 64),
    ((dat7 V c).arrAt 8 cfg7.N : S1x64.Idx → EReal) (ix2 (0 : Fin 1) q) = ∑ r : Fin 50000, (nodeOut (rowsOf ((dat7 V c).A 2 : S64x64.Idx → EReal)) (rowAt ((dat7 V c).A 3 : S1x64.Idx → EReal) 0) (rowsOf ((dat7 V c).A 4 : S64x64.Idx → EReal)) (rowAt ((dat7 V c).A 5 : S1x64.Idx → EReal) 0) (rowsOf ((dat7 V c).A 0 : S50000x64.Idx → EReal) r) (rowsOf ((dat7 V c).A 1 : S50000x64.Idx → EReal) r) q) * (nodeOut (rowsOf ((dat7 V c).A 2 : S64x64.Idx → EReal)) (rowAt ((dat7 V c).A 3 : S1x64.Idx → EReal) 0) (rowsOf ((dat7 V c).A 4 : S64x64.Idx → EReal)) (rowAt ((dat7 V c).A 5 : S1x64.Idx → EReal) 0) (rowsOf ((dat7 V c).A 0 : S50000x64.Idx → EReal) r) (rowsOf ((dat7 V c).A 1 : S50000x64.Idx → EReal) r) q)
  r8 : ∀ (V : (c : Dev nD) → (b : Ref sig .tc) → Buf (Elt Ideal) ((c : Thread nD τ).loc b)) (c : Dev nD) (r : Fin 50000) (q : Fin 64),
    ((dat8 V c).arrAt 6 cfg8.N : S50000x64.Idx → EReal) (ix2 r q) = bnUpd (rowAt ((dat8 V c).A 2 : S1x64.Idx → EReal) 0) (rowAt ((dat8 V c).A 3 : S1x64.Idx → EReal) 0) (rowAt ((dat8 V c).A 4 : S1x64.Idx → EReal) 0) (rowAt ((dat8 V c).A 5 : S1x64.Idx → EReal) 0) (rowsOf ((dat8 V c).A 0 : S50000x64.Idx → EReal) r) (rowsOf ((dat8 V c).A 1 : S50000x64.Idx → EReal) r) q
  r9 : ∀ (V : (c : Dev nD) → (b : Ref sig .tc) → Buf (Elt Ideal) ((c : Thread nD τ).loc b)) (c : Dev nD) (e : Fin 1000000) (q : Fin 64),
    ((dat9 V c).arrAt 7 cfg9.N : S1000000x64.Idx → EReal) (ix2 e q) = edgeUpd (rowsOf ((dat9 V c).A 3 : S192x64.Idx → EReal)) (rowAt ((dat9 V c).A 4 : S1x64.Idx → EReal) 0) (rowsOf ((dat9 V c).A 5 : S64x64.Idx → EReal)) (rowAt ((dat9 V c).A 6 : S1x64.Idx → EReal) 0) (rowsOf ((dat9 V c).A 0 : S1000000x64.Idx → EReal) e) (rowsOf ((dat9 V c).A 1 : S1000000x64.Idx → EReal) e) (rowsOf ((dat9 V c).A 2 : S1000000x64.Idx → EReal) e) q

variable (R : RegionFacts)
include R

/-! ## Region by region: the stage arrays as the specification's -/

/-- Region 0 leaves the node projection in its output array. -/
theorem h0_rows : rowsOf (W2 m ρ c (Proc.devRef .tc main_v5)) = H0 (kargs m c) := by
  funext p q
  show W2 m ρ c (Proc.devRef .tc main_v5) (ix2 p q) = _
  rw [show W2 m ρ c (Proc.devRef .tc main_v5) = (dat0 (V1 m ρ) c).arrAt 3 cfg0.N from W2_arr m ρ c 3, R.r0, A_eq0, A_eq0, A_eq0]
  show lin (rowsOf (W1 m ρ c (Proc.devRef .tc main_arg3))) (rowAt (W1 m ρ c (Proc.devRef .tc main_v4)) 0) (rowsOf (W1 m ρ c (Proc.devRef .tc main_arg0)) p) q = _
  rw [p_arg3_1_0, p_arg0_1_0, v4_val, rowAt_oneRow]
  rfl

/-- Region 1 leaves the edge projection in its output array. -/
theorem e0_rows : rowsOf (W4 m ρ c (Proc.devRef .tc main_v7)) = E0 (kargs m c) := by
  funext p q
  show W4 m ρ c (Proc.devRef .tc main_v7) (ix2 p q) = _
  rw [show W4 m ρ c (Proc.devRef .tc main_v7) = (dat1 (V3 m ρ) c).arrAt 3 cfg1.N from W4_arr m ρ c 3, R.r1, A_eq1, A_eq1, A_eq1]
  show lin (rowsOf (W3 m ρ c (Proc.devRef .tc main_arg5))) (rowAt (W3 m ρ c (Proc.devRef .tc main_v6)) 0) (rowsOf (W3 m ρ c (Proc.devRef .tc main_arg2)) p) q = _
  rw [p_arg5_3_0, p_arg2_3_0, v6_val, p_arg6_2_0, rowAt_oneRow]
  rfl

/-- A [1,64] array divided entrywise by the splat of the word of 50000. -/
theorem gs0_rows : rowsOf (W5 m ρ c (Proc.devRef .tc main_v14)) = KGs m c (H0 (kargs m c)) := by
  rw [v14_val, p_v5_4_2, p_v1_4_1, v1_val,
    show (W2 m ρ c (Proc.devRef .tc main_v5) : S50000x64.Idx → EReal) = arrOf (H0 (kargs m c)) from (arrOf_rowsOf _).symm.trans (congrArg arrOf (h0_rows m ρ c R))]
  rfl

theorem msg0_rows : rowsOf (W6 m ρ c (Proc.devRef .tc main_v20)) = fun e => msg ((kargs m c).w 0).elinW ((kargs m c).w 0).elinb (KGs m c (H0 (kargs m c)) e) ((E0 (kargs m c)) e) := by
  funext e q
  show (W6 m ρ c (Proc.devRef .tc main_v20) : S1000000x64.Idx → EReal) (ix2 e q) = _
  rw [show W6 m ρ c (Proc.devRef .tc main_v20) = (dat2 (V5 m ρ) c).arrAt 4 cfg2.N from W6_arr m ρ c 4, R.r2, A_eq2, A_eq2, A_eq2, A_eq2]
  show msg (rowsOf (W5 m ρ c (Proc.devRef .tc main_v16))) (rowAt (W5 m ρ c (Proc.devRef .tc main_v19)) 0) (rowsOf (W5 m ρ c (Proc.devRef .tc main_v14)) e) (rowsOf (W5 m ρ c (Proc.devRef .tc main_v7)) e) q = _
  rw [v16_val, v19_val, p_arg7_4_0, p_arg8_4_0, rowAt_oneRow, rows_slab_0, vec_rowAt_0, gs0_rows m ρ c R, p_v7_5_4, e0_rows m ρ c R]
  rfl

theorem agg0_rows : rowsOf (W7 m ρ c (Proc.devRef .tc main_v23)) = KSc m c (fun e => msg ((kargs m c).w 0).elinW ((kargs m c).w 0).elinb (KGs m c (H0 (kargs m c)) e) ((E0 (kargs m c)) e)) := by
  rw [v23_val, p_v3_6_1, v3_val,
    show (W6 m ρ c (Proc.devRef .tc main_v20) : S1000000x64.Idx → EReal) = arrOf (fun e => msg ((kargs m c).w 0).elinW ((kargs m c).w 0).elinb (KGs m c (H0 (kargs m c)) e) ((E0 (kargs m c)) e)) from (arrOf_rowsOf _).symm.trans (congrArg arrOf (msg0_rows m ρ c R))]
  rfl

/-- The perceptron term of a node of layer 0, in the entry contents of region 3. -/
theorem node0_at (r : Fin 50000) (q : Fin 64) :
    nodeOut (rowsOf (W7 m ρ c (Proc.devRef .tc main_v25))) (rowAt (W7 m ρ c (Proc.devRef .tc main_v32)) 0) (rowsOf (W7 m ρ c (Proc.devRef .tc main_v29))) (rowAt (W7 m ρ c (Proc.devRef .tc main_v33)) 0)
      (rowsOf (W7 m ρ c (Proc.devRef .tc main_v5)) r) (rowsOf (W7 m ρ c (Proc.devRef .tc main_v23)) r) q = (layerOut (KGs m c) (KSc m c) ((kargs m c).w 0) (H0 (kargs m c)) (E0 (kargs m c))) r q := by
  rw [v25_val, v32_val, v29_val, v33_val, p_arg9_6_0, p_arg10_6_0, p_arg11_6_0, p_arg12_6_0, rowAt_oneRow, rowAt_oneRow,
    rows_slab_0, rows_slab_0, vec_rowAt_0, vec_rowAt_0, p_v5_7_2, h0_rows m ρ c R, agg0_rows m ρ c R]
  rfl

theorem out0_rows : rowsOf (W8 m ρ c (Proc.devRef .tc main_v34_0)) = (layerOut (KGs m c) (KSc m c) ((kargs m c).w 0) (H0 (kargs m c)) (E0 (kargs m c))) := by
  funext r q
  show (W8 m ρ c (Proc.devRef .tc main_v34_0) : S50000x64.Idx → EReal) (ix2 r q) = _
  rw [show W8 m ρ c (Proc.devRef .tc main_v34_0) = (dat3 (V7 m ρ) c).arrAt 6 cfg3.N from W8_arr m ρ c 6, R.r3a, A_eq3, A_eq3, A_eq3, A_eq3, A_eq3, A_eq3]
  exact node0_at m ρ c R r q

theorem sum0_row : rowAt (W8 m ρ c (Proc.devRef .tc main_v34_1)) 0 = colSum (layerOut (KGs m c) (KSc m c) ((kargs m c).w 0) (H0 (kargs m c)) (E0 (kargs m c))) := by
  funext q
  show @Eq EReal ((W8 m ρ c (Proc.devRef .tc main_v34_1) : S1x64.Idx → EReal) (ix2 (0 : Fin 1) q)) _
  rw [show W8 m ρ c (Proc.devRef .tc main_v34_1) = (dat3 (V7 m ρ) c).arrAt 7 cfg3.N from W8_arr m ρ c 7, R.r3b, A_eq3, A_eq3, A_eq3, A_eq3, A_eq3, A_eq3]
  exact Finset.sum_congr rfl fun r _ => node0_at m ρ c R r q

theorem sumsq0_row : rowAt (W8 m ρ c (Proc.devRef .tc main_v34_2)) 0 = fun q => ∑ r : Fin 50000, (layerOut (KGs m c) (KSc m c) ((kargs m c).w 0) (H0 (kargs m c)) (E0 (kargs m c))) r q * (layerOut (KGs m c) (KSc m c) ((kargs m c).w 0) (H0 (kargs m c)) (E0 (kargs m c))) r q := by
  funext q
  show @Eq EReal ((W8 m ρ c (Proc.devRef .tc main_v34_2) : S1x64.Idx → EReal) (ix2 (0 : Fin 1) q)) _
  rw [show W8 m ρ c (Proc.devRef .tc main_v34_2) = (dat3 (V7 m ρ) c).arrAt 8 cfg3.N from W8_arr m ρ c 8, R.r3c, A_eq3, A_eq3, A_eq3, A_eq3, A_eq3, A_eq3]
  exact Finset.sum_congr rfl fun r _ => by rw [show _ = (layerOut (KGs m c) (KSc m c) ((kargs m c).w 0) (H0 (kargs m c)) (E0 (kargs m c))) r q from node0_at m ρ c R r q]

theorem mu0_row : rowAt (W9 m ρ c (Proc.devRef .tc main_v36)) 0 = mean (layerOut (KGs m c) (KSc m c) ((kargs m c).w 0) (H0 (kargs m c)) (E0 (kargs m c))) := by
  funext q
  show (W9 m ρ c (Proc.devRef .tc main_v36) : S1x64.Idx → EReal) (ix2 (0 : Fin 1) q) = _
  rw [v36_val, div_cN_at, show (W8 m ρ c (Proc.devRef .tc main_v34_1) : S1x64.Idx → EReal) (ix2 (0 : Fin 1) q) = colSum (layerOut (KGs m c) (KSc m c) ((kargs m c).w 0) (H0 (kargs m c)) (E0 (kargs m c))) q from congrFun (sum0_row m ρ c R) q]
  rfl

theorem var0_row : rowAt (W9 m ρ c (Proc.devRef .tc main_v40)) 0 = varK (layerOut (KGs m c) (KSc m c) ((kargs m c).w 0) (H0 (kargs m c)) (E0 (kargs m c))) := by
  funext q
  show (W9 m ρ c (Proc.devRef .tc main_v40) : S1x64.Idx → EReal) (ix2 (0 : Fin 1) q) = _
  rw [v40_val]
  show Host.divf (F := Ideal) (W8 m ρ c (Proc.devRef .tc main_v34_2)) (broadcastInDim S1x64 ![] bcast_S_S1x64 (constant (F := Ideal) S_ .f32 0x47435000#32)) (ix2 (0 : Fin 1) q)
      - Host.divf (F := Ideal) (W8 m ρ c (Proc.devRef .tc main_v34_1)) (broadcastInDim S1x64 ![] bcast_S_S1x64 (constant (F := Ideal) S_ .f32 0x47435000#32)) (ix2 (0 : Fin 1) q) * Host.divf (F := Ideal) (W8 m ρ c (Proc.devRef .tc main_v34_1)) (broadcastInDim S1x64 ![] bcast_S_S1x64 (constant (F := Ideal) S_ .f32 0x47435000#32)) (ix2 (0 : Fin 1) q) = _
  rw [div_cN_at, div_cN_at,
    show (W8 m ρ c (Proc.devRef .tc main_v34_1) : S1x64.Idx → EReal) (ix2 (0 : Fin 1) q) = colSum (layerOut (KGs m c) (KSc m c) ((kargs m c).w 0) (H0 (kargs m c)) (E0 (kargs m c))) q from congrFun (sum0_row m ρ c R) q,
    show (W8 m ρ c (Proc.devRef .tc main_v34_2) : S1x64.Idx → EReal) (ix2 (0 : Fin 1) q) = ∑ r : Fin 50000, (layerOut (KGs m c) (KSc m c) ((kargs m c).w 0) (H0 (kargs m c)) (E0 (kargs m c))) r q * (layerOut (KGs m c) (KSc m c) ((kargs m c).w 0) (H0 (kargs m c)) (E0 (kargs m c))) r q from congrFun (sumsq0_row m ρ c R) q]
  rfl

theorem h1_rows : rowsOf (W10 m ρ c (Proc.devRef .tc main_v47)) = (H1 varK (KGs m c) (KSc m c) (kargs m c)) := by
  funext r q
  show (W10 m ρ c (Proc.devRef .tc main_v47) : S50000x64.Idx → EReal) (ix2 r q) = _
  rw [show W10 m ρ c (Proc.devRef .tc main_v47) = (dat4 (V9 m ρ) c).arrAt 6 cfg4.N from W10_arr m ρ c 6, R.r4, A_eq4, A_eq4, A_eq4, A_eq4, A_eq4, A_eq4]
  show bnUpd (rowAt (W9 m ρ c (Proc.devRef .tc main_v36)) 0) (rowAt (W9 m ρ c (Proc.devRef .tc main_v40)) 0) (rowAt (W9 m ρ c (Proc.devRef .tc main_v43)) 0) (rowAt (W9 m ρ c (Proc.devRef .tc main_v46)) 0)
    (rowsOf (W9 m ρ c (Proc.devRef .tc main_v34_0)) r) (rowsOf (W9 m ρ c (Proc.devRef .tc main_v5)) r) q = _
  rw [mu0_row m ρ c R, var0_row m ρ c R, v43_val, v46_val, p_arg17_8_0, p_arg18_8_0, rowAt_oneRow, rowAt_oneRow, vec_rowAt_0, vec_rowAt_0,
    p_v34_0_9_8, out0_rows m ρ c R, p_v5_9_2, h0_rows m ρ c R]
  rfl

theorem gs1_rows : rowsOf (W11 m ρ c (Proc.devRef .tc main_v54)) = KGs m c (H1 varK (KGs m c) (KSc m c) (kargs m c)) := by
  rw [v54_val, p_v1_10_1, v1_val,
    show (W10 m ρ c (Proc.devRef .tc main_v47) : S50000x64.Idx → EReal) = arrOf (H1 varK (KGs m c) (KSc m c) (kargs m c)) from (arrOf_rowsOf _).symm.trans (congrArg arrOf (h1_rows m ρ c R))]
  rfl

theorem gd1_rows : rowsOf (W11 m ρ c (Proc.devRef .tc main_v61)) = KGd m c (H1 varK (KGs m c) (KSc m c) (kargs m c)) := by
  rw [v61_val, p_v3_10_1, v3_val,
    show (W10 m ρ c (Proc.devRef .tc main_v47) : S50000x64.Idx → EReal) = arrOf (H1 varK (KGs m c) (KSc m c) (kargs m c)) from (arrOf_rowsOf _).symm.trans (congrArg arrOf (h1_rows m ρ c R))]
  rfl

theorem e1_rows : rowsOf (W12 m ρ c (Proc.devRef .tc main_v72)) = (E1 varK (KGs m c) (KGd m c) (KSc m c) (kargs m c)) := by
  funext e q
  show (W12 m ρ c (Proc.devRef .tc main_v72) : S1000000x64.Idx → EReal) (ix2 e q) = _
  rw [show W12 m ρ c (Proc.devRef .tc main_v72) = (dat5 (V11 m ρ) c).arrAt 7 cfg5.N from W12_arr m ρ c 7, R.r5, A_eq5, A_eq5, A_eq5, A_eq5, A_eq5, A_eq5, A_eq5]
  show edgeUpd (rowsOf (W11 m ρ c (Proc.devRef .tc main_v63))) (rowAt (W11 m ρ c (Proc.devRef .tc main_v70)) 0) (rowsOf (W11 m ρ c (Proc.devRef .tc main_v67))) (rowAt (W11 m ρ c (Proc.devRef .tc main_v71)) 0)
    (rowsOf (W11 m ρ c (Proc.devRef .tc main_v54)) e) (rowsOf (W11 m ρ c (Proc.devRef .tc main_v61)) e) (rowsOf (W11 m ρ c (Proc.devRef .tc main_v7)) e) q = _
  rw [v63_val, v70_val, v67_val, v71_val, p_arg13_10_0, p_arg14_10_0, p_arg15_10_0, p_arg16_10_0, rowAt_oneRow, rowAt_oneRow,
    rows_slab_0, rows_slab_0, vec_rowAt_0, vec_rowAt_0, gs1_rows m ρ c R, gd1_rows m ρ c R, p_v7_11_4, e0_rows m ρ c R]
  rfl

theorem gs1b_rows : rowsOf (W13 m ρ c (Proc.devRef .tc main_v79)) = KGs m c (H1 varK (KGs m c) (KSc m c) (kargs m c)) := by
  rw [v79_val, p_v47_12_10, p_v1_12_1, v1_val,
    show (W10 m ρ c (Proc.devRef .tc main_v47) : S50000x64.Idx → EReal) = arrOf (H1 varK (KGs m c) (KSc m c) (kargs m c)) from (arrOf_rowsOf _).symm.trans (congrArg arrOf (h1_rows m ρ c R))]
  rfl

theorem msg1_rows : rowsOf (W14 m ρ c (Proc.devRef .tc main_v85)) = fun e => msg ((kargs m c).w 1).elinW ((kargs m c).w 1).elinb (KGs m c (H1 varK (KGs m c) (KSc m c) (kargs m c)) e) ((E1 varK (KGs m c) (KGd m c) (KSc m c) (kargs m c)) e) := by
  funext e q
  show (W14 m ρ c (Proc.devRef .tc main_v85) : S1000000x64.Idx → EReal) (ix2 e q) = _
  rw [show W14 m ρ c (Proc.devRef .tc main_v85) = (dat6 (V13 m ρ) c).arrAt 4 cfg6.N from W14_arr m ρ c 4, R.r6, A_eq6, A_eq6, A_eq6, A_eq6]
  show msg (rowsOf (W13 m ρ c (Proc.devRef .tc main_v81))) (rowAt (W13 m ρ c (Proc.devRef .tc main_v84)) 0) (rowsOf (W13 m ρ c (Proc.devRef .tc main_v79)) e) (rowsOf (W13 m ρ c (Proc.devRef .tc main_v72)) e) q = _
  rw [v81_val, v84_val, p_arg7_12_0, p_arg8_12_0, rowAt_oneRow, rows_slab_1, vec_rowAt_1, gs1b_rows m ρ c R, p_v72_13_12, e1_rows m ρ c R]
  rfl

theorem agg1_rows : rowsOf (W15 m ρ c (Proc.devRef .tc main_v88)) = KSc m c (fun e => msg ((kargs m c).w 1).elinW ((kargs m c).w 1).elinb (KGs m c (H1 varK (KGs m c) (KSc m c) (kargs m c)) e) ((E1 varK (KGs m c) (KGd m c) (KSc m c) (kargs m c)) e)) := by
  rw [v88_val, p_v3_14_1, v3_val,
    show (W14 m ρ c (Proc.devRef .tc main_v85) : S1000000x64.Idx → EReal) = arrOf (fun e => msg ((kargs m c).w 1).elinW ((kargs m c).w 1).elinb (KGs m c (H1 varK (KGs m c) (KSc m c) (kargs m c)) e) ((E1 varK (KGs m c) (KGd m c) (KSc m c) (kargs m c)) e)) from (arrOf_rowsOf _).symm.trans (congrArg arrOf (msg1_rows m ρ c R))]
  rfl

/-- The perceptron term of a node of layer 1, in the entry contents of region 7. -/
theorem node1_at (r : Fin 50000) (q : Fin 64) :
    nodeOut (rowsOf (W15 m ρ c (Proc.devRef .tc main_v90))) (rowAt (W15 m ρ c (Proc.devRef .tc main_v97)) 0) (rowsOf (W15 m ρ c (Proc.devRef .tc main_v94))) (rowAt (W15 m ρ c (Proc.devRef .tc main_v98)) 0)
      (rowsOf (W15 m ρ c (Proc.devRef .tc main_v47)) r) (rowsOf (W15 m ρ c (Proc.devRef .tc main_v88)) r) q = (layerOut (KGs m c) (KSc m c) ((kargs m c).w 1) (H1 varK (KGs m c) (KSc m c) (kargs m c)) (E1 varK (KGs m c) (KGd m c) (KSc m c) (kargs m c))) r q := by
  rw [v90_val, v97_val, v94_val, v98_val, p_arg9_14_0, p_arg10_14_0, p_arg11_14_0, p_arg12_14_0, rowAt_oneRow, rowAt_oneRow,
    rows_slab_1, rows_slab_1, vec_rowAt_1, vec_rowAt_1, p_v47_15_10, h1_rows m ρ c R, agg1_rows m ρ c R]
  rfl

theorem out1_rows : rowsOf (W16 m ρ c (Proc.devRef .tc main_v99_0)) = (layerOut (KGs m c) (KSc m c) ((kargs m c).w 1) (H1 varK (KGs m c) (KSc m c) (kargs m c)) (E1 varK (KGs m c) (KGd m c) (KSc m c) (kargs m c))) := by
  funext r q
  show (W16 m ρ c (Proc.devRef .tc main_v99_0) : S50000x64.Idx → EReal) (ix2 r q) = _
  rw [show W16 m ρ c (Proc.devRef .tc main_v99_0) = (dat7 (V15 m ρ) c).arrAt 6 cfg7.N from W16_arr m ρ c 6, R.r7a, A_eq7, A_eq7, A_eq7, A_eq7, A_eq7, A_eq7]
  exact node1_at m ρ c R r q

theorem sum1_row : rowAt (W16 m ρ c (Proc.devRef .tc main_v99_1)) 0 = colSum (layerOut (KGs m c) (KSc m c) ((kargs m c).w 1) (H1 varK (KGs m c) (KSc m c) (kargs m c)) (E1 varK (KGs m c) (KGd m c) (KSc m c) (kargs m c))) := by
  funext q
  show @Eq EReal ((W16 m ρ c (Proc.devRef .tc main_v99_1) : S1x64.Idx → EReal) (ix2 (0 : Fin 1) q)) _
  rw [show W16 m ρ c (Proc.devRef .tc main_v99_1) = (dat7 (V15 m ρ) c).arrAt 7 cfg7.N from W16_arr m ρ c 7, R.r7b, A_eq7, A_eq7, A_eq7, A_eq7, A_eq7, A_eq7]
  exact Finset.sum_congr rfl fun r _ => node1_at m ρ c R r q

theorem sumsq1_row : rowAt (W16 m ρ c (Proc.devRef .tc main_v99_2)) 0 = fun q => ∑ r : Fin 50000, (layerOut (KGs m c) (KSc m c) ((kargs m c).w 1) (H1 varK (KGs m c) (KSc m c) (kargs m c)) (E1 varK (KGs m c) (KGd m c) (KSc m c) (kargs m c))) r q * (layerOut (KGs m c) (KSc m c) ((kargs m c).w 1) (H1 varK (KGs m c) (KSc m c) (kargs m c)) (E1 varK (KGs m c) (KGd m c) (KSc m c) (kargs m c))) r q := by
  funext q
  show @Eq EReal ((W16 m ρ c (Proc.devRef .tc main_v99_2) : S1x64.Idx → EReal) (ix2 (0 : Fin 1) q)) _
  rw [show W16 m ρ c (Proc.devRef .tc main_v99_2) = (dat7 (V15 m ρ) c).arrAt 8 cfg7.N from W16_arr m ρ c 8, R.r7c, A_eq7, A_eq7, A_eq7, A_eq7, A_eq7, A_eq7]
  exact Finset.sum_congr rfl fun r _ => by rw [show _ = (layerOut (KGs m c) (KSc m c) ((kargs m c).w 1) (H1 varK (KGs m c) (KSc m c) (kargs m c)) (E1 varK (KGs m c) (KGd m c) (KSc m c) (kargs m c))) r q from node1_at m ρ c R r q]

theorem mu1_row : rowAt (W17 m ρ c (Proc.devRef .tc main_v101)) 0 = mean (layerOut (KGs m c) (KSc m c) ((kargs m c).w 1) (H1 varK (KGs m c) (KSc m c) (kargs m c)) (E1 varK (KGs m c) (KGd m c) (KSc m c) (kargs m c))) := by
  funext q
  show (W17 m ρ c (Proc.devRef .tc main_v101) : S1x64.Idx → EReal) (ix2 (0 : Fin 1) q) = _
  rw [v101_val, div_cN_at, show (W16 m ρ c (Proc.devRef .tc main_v99_1) : S1x64.Idx → EReal) (ix2 (0 : Fin 1) q) = colSum (layerOut (KGs m c) (KSc m c) ((kargs m c).w 1) (H1 varK (KGs m c) (KSc m c) (kargs m c)) (E1 varK (KGs m c) (KGd m c) (KSc m c) (kargs m c))) q from congrFun (sum1_row m ρ c R) q]
  rfl

theorem var1_row : rowAt (W17 m ρ c (Proc.devRef .tc main_v105)) 0 = varK (layerOut (KGs m c) (KSc m c) ((kargs m c).w 1) (H1 varK (KGs m c) (KSc m c) (kargs m c)) (E1 varK (KGs m c) (KGd m c) (KSc m c) (kargs m c))) := by
  funext q
  show (W17 m ρ c (Proc.devRef .tc main_v105) : S1x64.Idx → EReal) (ix2 (0 : Fin 1) q) = _
  rw [v105_val]
  show Host.divf (F := Ideal) (W16 m ρ c (Proc.devRef .tc main_v99_2)) (broadcastInDim S1x64 ![] bcast_S_S1x64 (constant (F := Ideal) S_ .f32 0x47435000#32)) (ix2 (0 : Fin 1) q)
      - Host.divf (F := Ideal) (W16 m ρ c (Proc.devRef .tc main_v99_1)) (broadcastInDim S1x64 ![] bcast_S_S1x64 (constant (F := Ideal) S_ .f32 0x47435000#32)) (ix2 (0 : Fin 1) q) * Host.divf (F := Ideal) (W16 m ρ c (Proc.devRef .tc main_v99_1)) (broadcastInDim S1x64 ![] bcast_S_S1x64 (constant (F := Ideal) S_ .f32 0x47435000#32)) (ix2 (0 : Fin 1) q) = _
  rw [div_cN_at, div_cN_at,
    show (W16 m ρ c (Proc.devRef .tc main_v99_1) : S1x64.Idx → EReal) (ix2 (0 : Fin 1) q) = colSum (layerOut (KGs m c) (KSc m c) ((kargs m c).w 1) (H1 varK (KGs m c) (KSc m c) (kargs m c)) (E1 varK (KGs m c) (KGd m c) (KSc m c) (kargs m c))) q from congrFun (sum1_row m ρ c R) q,
    show (W16 m ρ c (Proc.devRef .tc main_v99_2) : S1x64.Idx → EReal) (ix2 (0 : Fin 1) q) = ∑ r : Fin 50000, (layerOut (KGs m c) (KSc m c) ((kargs m c).w 1) (H1 varK (KGs m c) (KSc m c) (kargs m c)) (E1 varK (KGs m c) (KGd m c) (KSc m c) (kargs m c))) r q * (layerOut (KGs m c) (KSc m c) ((kargs m c).w 1) (H1 varK (KGs m c) (KSc m c) (kargs m c)) (E1 varK (KGs m c) (KGd m c) (KSc m c) (kargs m c))) r q from congrFun (sumsq1_row m ρ c R) q]
  rfl

theorem h2_rows : rowsOf (W18 m ρ c (Proc.devRef .tc main_v112)) = (H2 varK (KGs m c) (KGd m c) (KSc m c) (kargs m c)) := by
  funext r q
  show (W18 m ρ c (Proc.devRef .tc main_v112) : S50000x64.Idx → EReal) (ix2 r q) = _
  rw [show W18 m ρ c (Proc.devRef .tc main_v112) = (dat8 (V17 m ρ) c).arrAt 6 cfg8.N from W18_arr m ρ c 6, R.r8, A_eq8, A_eq8, A_eq8, A_eq8, A_eq8, A_eq8]
  show bnUpd (rowAt (W17 m ρ c (Proc.devRef .tc main_v101)) 0) (rowAt (W17 m ρ c (Proc.devRef .tc main_v105)) 0) (rowAt (W17 m ρ c (Proc.devRef .tc main_v108)) 0) (rowAt (W17 m ρ c (Proc.devRef .tc main_v111)) 0)
    (rowsOf (W17 m ρ c (Proc.devRef .tc main_v99_0)) r) (rowsOf (W17 m ρ c (Proc.devRef .tc main_v47)) r) q = _
  rw [mu1_row m ρ c R, var1_row m ρ c R, v108_val, v111_val, p_arg17_16_0, p_arg18_16_0, rowAt_oneRow, rowAt_oneRow, vec_rowAt_1, vec_rowAt_1,
    p_v99_0_17_16, out1_rows m ρ c R, p_v47_17_10, h1_rows m ρ c R]
  rfl

theorem gs2_rows : rowsOf (W19 m ρ c (Proc.devRef .tc main_v119)) = KGs m c (H2 varK (KGs m c) (KGd m c) (KSc m c) (kargs m c)) := by
  rw [v119_val, p_v1_18_1, v1_val,
    show (W18 m ρ c (Proc.devRef .tc main_v112) : S50000x64.Idx → EReal) = arrOf (H2 varK (KGs m c) (KGd m c) (KSc m c) (kargs m c)) from (arrOf_rowsOf _).symm.trans (congrArg arrOf (h2_rows m ρ c R))]
  rfl

theorem gd2_rows : rowsOf (W19 m ρ c (Proc.devRef .tc main_v126)) = KGd m c (H2 varK (KGs m c) (KGd m c) (KSc m c) (kargs m c)) := by
  rw [v126_val, p_v3_18_1, v3_val,
    show (W18 m ρ c (Proc.devRef .tc main_v112) : S50000x64.Idx → EReal) = arrOf (H2 varK (KGs m c) (KGd m c) (KSc m c) (kargs m c)) from (arrOf_rowsOf _).symm.trans (congrArg arrOf (h2_rows m ρ c R))]
  rfl

theorem e2_rows : rowsOf (W20 m ρ c (Proc.devRef .tc main_v137)) = (E2 varK (KGs m c) (KGd m c) (KSc m c) (kargs m c)) := by
  funext e q
  show (W20 m ρ c (Proc.devRef .tc main_v137) : S1000000x64.Idx → EReal) (ix2 e q) = _
  rw [show W20 m ρ c (Proc.devRef .tc main_v137) = (dat9 (V19 m ρ) c).arrAt 7 cfg9.N from W20_arr m ρ c 7, R.r9, A_eq9, A_eq9, A_eq9, A_eq9, A_eq9, A_eq9, A_eq9]
  show edgeUpd (rowsOf (W19 m ρ c (Proc.devRef .tc main_v128))) (rowAt (W19 m ρ c (Proc.devRef .tc main_v135)) 0) (rowsOf (W19 m ρ c (Proc.devRef .tc main_v132))) (rowAt (W19 m ρ c (Proc.devRef .tc main_v136)) 0)
    (rowsOf (W19 m ρ c (Proc.devRef .tc main_v119)) e) (rowsOf (W19 m ρ c (Proc.devRef .tc main_v126)) e) (rowsOf (W19 m ρ c (Proc.devRef .tc main_v72)) e) q = _
  rw [v128_val, v135_val, v132_val, v136_val, p_arg13_18_0, p_arg14_18_0, p_arg15_18_0, p_arg16_18_0, rowAt_oneRow, rowAt_oneRow,
    rows_slab_1, rows_slab_1, vec_rowAt_1, vec_rowAt_1, gs2_rows m ρ c R, gd2_rows m ρ c R, p_v72_19_12, e1_rows m ρ c R]
  rfl

/-- The node result: the array region 8 leaves is not touched by the last two segments. -/
theorem h2_final : rowsOf (W20 m ρ c (Proc.devRef .tc main_v112)) = H2 varK (KGs m c) (KGd m c) (KSc m c) (kargs m c) := by
  rw [p_v112_20_18]
  exact h2_rows m ρ c R

end Cert.KernelIdeal.Chain

end
-- ==== Proof.RefRun.lean ====
/- The run of the reference program `ReferenceIdeal`, whose @main is host operations only.

   @main calls four module-local functions (`relu` and `relu_0`: a zero, its broadcast, the maximum; `_var`: nineteen
   operations and a call of `_where`; `_where`: three). A call executes the callee's body on the operands, so the
   program the machine runs is one straight line of 302 operations: @main's 234 own and, at each of its ten calls, the
   callee's, written over the buffers of that call's record (`main_callK`) and the call's actual arguments.

   The line is stated as a list of SEGMENTS, `segs`, each a short list of consecutive operations named after the last
   buffer it writes (`seg_v7` ends with the operation that writes `main_v7`); `ops` is their concatenation. A segment
   ends wherever a later proof wants to read the line back (after each value the two graph-network layers hand on)
   and wherever a printed window `main_partN` of @main ends, so that each window is a concatenation of whole segments
   (`win0` … `win4`) and equals it by unfolding.

   `run_main`: from any memory with zero counters every weakly fair execution of @main terminates, and each buffer then
   holds the fold `after ops` of the operations over the launch contents (Lib/StableHlo/Run.lean `run_seq`). -/
import proofs.«133695_j30227979829590_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## Lists of operations: two general facts -/

section General

variable {τ : Topo} {sig : RefSig} {Val : EltTy → Type}

/-- What `run_seq` asks of each operation of a line: it touches TensorCore references only, and it determines the
    contents of everything it writes (it is no `AllocateBuffer`). -/
abbrev Straight (l : List (HloOp τ sig Val)) : Prop :=
  l.Forall fun op => op.bufs ⊆ tcRefs τ sig ∧ op.fresh = ∅

/-- A property of every operation of every segment is a property of every operation of the concatenation. -/
theorem forall_flatten {α : Type} {p : α → Prop} : ∀ {L : List (List α)}, (L.Forall fun l => l.Forall p) → L.flatten.Forall p
  | [], _ => trivial
  | l :: L, h => by
    rw [List.forall_cons] at h
    rw [List.flatten_cons, List.forall_iff_forall_mem]
    intro x hx
    rcases List.mem_append.mp hx with hx | hx
    · exact List.forall_iff_forall_mem.mp h.1 x hx
    · exact List.forall_iff_forall_mem.mp (forall_flatten h.2) x hx

end General

variable {F : FTy → Type} [FloatOps F]

/-! ## The segments

Each printed line `hlo rfl (OP) (fun _ => .ret ⟨⟩)` contributes `OP`; a call `fn_NAME.body a₀ … record` contributes the
callee's lines with `φ` the record and `argK` the actual argument `aK`. After each segment, that every operation of it
is one `run_seq` admits (`Straight`): the builder's own fact about its buffers, and `fresh` is `∅` by definition. -/

abbrev seg_v1 : List (HloOp τ sig (Elt F)) :=
  [ StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000 ]
theorem seg_v1_ok : Straight (seg_v1 : List (HloOp τ sig (Elt F))) :=
  ⟨⟨unary_bufs_sub .., rfl⟩, ⟨reshape_bufs_sub .., rfl⟩⟩

abbrev seg_v3 : List (HloOp τ sig (Elt F)) :=
  [ StableHlo.unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000 ]
theorem seg_v3_ok : Straight (seg_v3 : List (HloOp τ sig (Elt F))) :=
  ⟨⟨unary_bufs_sub .., rfl⟩, ⟨reshape_bufs_sub .., rfl⟩⟩

abbrev seg_v7 : List (HloOp τ sig (Elt F)) :=
  [ StableHlo.binary main_arg0 main_arg3 main_v4 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    StableHlo.unary main_arg4 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S50000x64 ![0, 1] bcast_S1x64_S50000x64_0_1 : (⟨S1x64, .f32⟩ : BufTy).Contents (Elt F) → (⟨S50000x64, .f32⟩ : BufTy).Contents (Elt F)),
    StableHlo.binary main_v4 main_v6 main_v7 (addf : (⟨S50000x64, .f32⟩ : BufTy).Contents (Elt F) → (⟨S50000x64, .f32⟩ : BufTy).Contents (Elt F) → (⟨S50000x64, .f32⟩ : BufTy).Contents (Elt F)) ]
theorem seg_v7_ok : Straight (seg_v7 : List (HloOp τ sig (Elt F))) :=
  ⟨⟨binary_bufs_sub .., rfl⟩, ⟨unary_bufs_sub .., rfl⟩, ⟨unary_bufs_sub .., rfl⟩, ⟨binary_bufs_sub .., rfl⟩⟩

abbrev seg_v11 : List (HloOp τ sig (Elt F)) :=
  [ StableHlo.binary main_arg2 main_arg5 main_v8 ((fun l r => Host.dotGeneral dot_S1000000x16_S16x64_S1000000x64_1_0_0_1_n_n none l r) : (⟨S1000000x16, .f32⟩ : BufTy).Contents (Elt F) → (⟨S16x64, .f32⟩ : BufTy).Contents (Elt F) → (⟨S1000000x64, .f32⟩ : BufTy).Contents (Elt F)),
    StableHlo.unary main_arg6 main_v9 (broadcastInDim S1x64 ![1] bcast_S64_S1x64_1 : (⟨S64, .f32⟩ : BufTy).Contents (Elt F) → (⟨S1x64, .f32⟩ : BufTy).Contents (Elt F)),
    StableHlo.unary main_v9 main_v10 (broadcastInDim S1000000x64 ![0, 1] bcast_S1x64_S1000000x64_0_1 : (⟨S1x64, .f32⟩ : BufTy).Contents (Elt F) → (⟨S1000000x64, .f32⟩ : BufTy).Contents (Elt F)),
    StableHlo.binary main_v8 main_v10 main_v11 (addf : (⟨S1000000x64, .f32⟩ : BufTy).Contents (Elt F) → (⟨S1000000x64, .f32⟩ : BufTy).Contents (Elt F) → (⟨S1000000x64, .f32⟩ : BufTy).Contents (Elt F)) ]
theorem seg_v11_ok : Straight (seg_v11 : List (HloOp τ sig (Elt F))) :=
  ⟨⟨binary_bufs_sub .., rfl⟩, ⟨unary_bufs_sub .., rfl⟩, ⟨unary_bufs_sub .., rfl⟩, ⟨binary_bufs_sub .., rfl⟩⟩

abbrev seg_v18 : List (HloOp τ sig (Elt F)) :=
  [ StableHlo.nullary main_c (constantI S_ 32 0#32),
    StableHlo.unary main_c main_v12 (broadcastInDim S1000000 ![] bcast_S_S1000000 : (⟨S_, .i32⟩ : BufTy).Contents (Elt F) → (⟨S1000000, .i32⟩ : BufTy).Contents (Elt F)),
    StableHlo.binary main_v1 main_v12 main_v13 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 50000#32),
    StableHlo.unary main_c_0 main_v14 (broadcastInDim S1000000 ![] bcast_S_S1000000 : (⟨S_, .i32⟩ : BufTy).Contents (Elt F) → (⟨S1000000, .i32⟩ : BufTy).Contents (Elt F)),
    StableHlo.binary main_v1 main_v14 main_v15 (addi : (⟨S1000000, .i32⟩ : BufTy).Contents (Elt F) → (⟨S1000000, .i32⟩ : BufTy).Contents (Elt F) → (⟨S1000000, .i32⟩ : BufTy).Contents (Elt F)),
    StableHlo.ternary main_v13 main_v15 main_v1 main_v16 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v16 main_v17 (broadcastInDim S1000000x1 ![0] bcast_S1000000_S1000000x1_0 : (⟨S1000000, .i32⟩ : BufTy).Contents (Elt F) → (⟨S1000000x1, .i32⟩ : BufTy).Contents (Elt F)),
    StableHlo.binary main_v7 main_v17 main_v18 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)) ]
theorem seg_v18_ok : Straight (seg_v18 : List (HloOp τ sig (Elt F))) :=
  ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨binary_bufs_sub .., rfl⟩⟩

abbrev seg_v28 : List (HloOp τ sig (Elt F)) :=
  [ StableHlo.unary main_arg7 main_v19 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v19 main_v20 rfl shapeCasts_S1x64x64_S64x64,
    StableHlo.binary main_v11 main_v20 main_v21 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.binary main_v18 main_v21 main_v22 (addf : (⟨S1000000x64, .f32⟩ : BufTy).Contents (Elt F) → (⟨S1000000x64, .f32⟩ : BufTy).Contents (Elt F) → (⟨S1000000x64, .f32⟩ : BufTy).Contents (Elt F)),
    StableHlo.unary main_arg8 main_v23 ((extractStridedSlice S1x64 ![0, 0] · slices_S2x64_S1x64_0_0) : (⟨S2x64, .f32⟩ : BufTy).Contents (Elt F) → (⟨S1x64, .f32⟩ : BufTy).Contents (Elt F)),
    StableHlo.reshape main_v23 main_v24 rfl shapeCasts_S1x64_S64,
    StableHlo.unary main_v24 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S1000000x64 ![0, 1] bcast_S1x64_S1000000x64_0_1 : (⟨S1x64, .f32⟩ : BufTy).Contents (Elt F) → (⟨S1000000x64, .f32⟩ : BufTy).Contents (Elt F)),
    StableHlo.binary main_v22 main_v26 main_v27 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call0.cst (constant S_ .f32 0x00000000#32),
    StableHlo.TRef.unary main_call0.cst main_call0.v0 (broadcastInDim S1000000x64 ![] bcast_S_S1000000x64),
    StableHlo.TRef.binary (.of main_v27) main_call0.v0 main_call0.v1 maximumf ]
theorem seg_v28_ok : Straight (seg_v28 : List (HloOp τ sig (Elt F))) :=
  ⟨⟨unary_bufs_sub .., rfl⟩, ⟨reshape_bufs_sub .., rfl⟩, ⟨binary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩

abbrev seg_v31 : List (HloOp τ sig (Elt F)) :=
  [ StableHlo.nullary main_cst (constant S_ .f32 0x00000000#32),
    StableHlo.unary main_cst main_v29 (broadcastInDim S50000x64 ![] bcast_S_S50000x64 : (⟨S_, .f32⟩ : BufTy).Contents (Elt F) → (⟨S50000x64, .f32⟩ : BufTy).Contents (Elt F)),
    StableHlo.unary main_v3 main_v30 (broadcastInDim S1000000x1 ![0] bcast_S1000000_S1000000x1_0 : (⟨S1000000, .i32⟩ : BufTy).Contents (Elt F) → (⟨S1000000x1, .i32⟩ : BufTy).Contents (Elt F)),
    StableHlo.ternary main_v29 main_v30 main_v28 main_v31 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)) ]
theorem seg_v31_ok : Straight (seg_v31 : List (HloOp τ sig (Elt F))) :=
  ⟨⟨nullary_bufs_sub .., rfl⟩, ⟨unary_bufs_sub .., rfl⟩, ⟨unary_bufs_sub .., rfl⟩, ⟨ternary_bufs_sub .., rfl⟩⟩

abbrev seg_v51 : List (HloOp τ sig (Elt F)) :=
  [ StableHlo.nullary main_cst_1 (constant S_ .f32 0x3F800000#32),
    StableHlo.unary main_cst_1 main_v32 (broadcastInDim S50000x64 ![] bcast_S_S50000x64 : (⟨S_, .f32⟩ : BufTy).Contents (Elt F) → (⟨S50000x64, .f32⟩ : BufTy).Contents (Elt F)),
    StableHlo.binary main_v32 main_v7 main_v33 (mulf : (⟨S50000x64, .f32⟩ : BufTy).Contents (Elt F) → (⟨S50000x64, .f32⟩ : BufTy).Contents (Elt F) → (⟨S50000x64, .f32⟩ : BufTy).Contents (Elt F)),
    StableHlo.binary main_v33 main_v31 main_v34 (addf : (⟨S50000x64, .f32⟩ : BufTy).Contents (Elt F) → (⟨S50000x64, .f32⟩ : BufTy).Contents (Elt F) → (⟨S50000x64, .f32⟩ : BufTy).Contents (Elt F)),
    StableHlo.unary main_arg9 main_v35 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v35 main_v36 rfl shapeCasts_S1x64x64_S64x64,
    StableHlo.binary main_v34 main_v36 main_v37 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg10 main_v38 ((extractStridedSlice S1x64 ![0, 0] · slices_S2x64_S1x64_0_0) : (⟨S2x64, .f32⟩ : BufTy).Contents (Elt F) → (⟨S1x64, .f32⟩ : BufTy).Contents (Elt F)),
    StableHlo.reshape main_v38 main_v39 rfl shapeCasts_S1x64_S64,
    StableHlo.unary main_v39 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S50000x64 ![0, 1] bcast_S1x64_S50000x64_0_1 : (⟨S1x64, .f32⟩ : BufTy).Contents (Elt F) → (⟨S50000x64, .f32⟩ : BufTy).Contents (Elt F)),
    StableHlo.binary main_v37 main_v41 main_v42 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v42) main_call1.v0 main_call1.v1 maximumf,
    StableHlo.unary main_arg11 main_v44 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v44 main_v45 rfl shapeCasts_S1x64x64_S64x64,
    StableHlo.binary main_v43 main_v45 main_v46 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg12 main_v47 ((extractStridedSlice S1x64 ![0, 0] · slices_S2x64_S1x64_0_0) : (⟨S2x64, .f32⟩ : BufTy).Contents (Elt F) → (⟨S1x64, .f32⟩ : BufTy).Contents (Elt F)),
    StableHlo.reshape main_v47 main_v48 rfl shapeCasts_S1x64_S64,
    StableHlo.unary main_v48 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S50000x64 ![0, 1] bcast_S1x64_S50000x64_0_1 : (⟨S1x64, .f32⟩ : BufTy).Contents (Elt F) → (⟨S50000x64, .f32⟩ : BufTy).Contents (Elt F)),
    StableHlo.binary main_v46 main_v50 main_v51 (addf : (⟨S50000x64, .f32⟩ : BufTy).Contents (Elt F) → (⟨S50000x64, .f32⟩ : BufTy).Contents (Elt F) → (⟨S50000x64, .f32⟩ : BufTy).Contents (Elt F)) ]
theorem seg_v51_ok : Straight (seg_v51 : List (HloOp τ sig (Elt F))) :=
  ⟨⟨nullary_bufs_sub .., rfl⟩, ⟨unary_bufs_sub .., rfl⟩, ⟨binary_bufs_sub .., rfl⟩, ⟨binary_bufs_sub .., rfl⟩, ⟨unary_bufs_sub .., rfl⟩, ⟨reshape_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

abbrev seg_v53 : List (HloOp τ sig (Elt F)) :=
  [ StableHlo.nullary main_cst_2 (constant S_ .f32 0x00000000#32),
    StableHlo.binary main_v51 main_cst_2 main_v52 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_3 (constant S_ .f32 0x47435000#32),
    StableHlo.unary main_cst_3 main_v53 (broadcastInDim S64 ![] bcast_S_S64 : (⟨S_, .f32⟩ : BufTy).Contents (Elt F) → (⟨S64, .f32⟩ : BufTy).Contents (Elt F)) ]
theorem seg_v53_ok : Straight (seg_v53 : List (HloOp τ sig (Elt F))) :=
  ⟨⟨nullary_bufs_sub .., rfl⟩, ⟨binary_bufs_sub .., rfl⟩, ⟨nullary_bufs_sub .., rfl⟩, ⟨unary_bufs_sub .., rfl⟩⟩

abbrev seg_v54 : List (HloOp τ sig (Elt F)) :=
  [ StableHlo.binary main_v52 main_v53 main_v54 (Host.divf : (⟨S64, .f32⟩ : BufTy).Contents (Elt F) → (⟨S64, .f32⟩ : BufTy).Contents (Elt F) → (⟨S64, .f32⟩ : BufTy).Contents (Elt F)) ]
theorem seg_v54_ok : Straight (seg_v54 : List (HloOp τ sig (Elt F))) :=
  (⟨binary_bufs_sub .., rfl⟩)

abbrev seg_v55 : List (HloOp τ sig (Elt F)) :=
  [ StableHlo.nullary main_c_4 (constantI S_ 32 0#32),
    StableHlo.TRef.nullary main_call2.cst (constant S_ .f32 0x00000000#32),
    StableHlo.TRef.binary (.of main_v51) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v51) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b) ]
theorem seg_v55_ok : Straight (seg_v55 : List (HloOp τ sig (Elt F))) :=
  ⟨⟨nullary_bufs_sub .., rfl⟩, ⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨unary_bufs_sub .., rfl⟩, ⟨nullary_bufs_sub .., rfl⟩, ⟨binary_bufs_sub .., rfl⟩, ⟨nullary_bufs_sub .., rfl⟩, ⟨binary_bufs_sub .., rfl⟩, ⟨unary_bufs_sub .., rfl⟩, ⟨binary_bufs_sub .., rfl⟩, ⟨nullary_bufs_sub .., rfl⟩, ⟨binary_bufs_sub .., rfl⟩, ⟨nullary_bufs_sub .., rfl⟩, ⟨unary_bufs_sub .., rfl⟩, ⟨unary_bufs_sub .., rfl⟩, ⟨ternary_bufs_sub .., rfl⟩⟩

abbrev seg_v78 : List (HloOp τ sig (Elt F)) :=
  [ StableHlo.unary main_v54 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S50000x64 ![0, 1] bcast_S1x64_S50000x64_0_1 : (⟨S1x64, .f32⟩ : BufTy).Contents (Elt F) → (⟨S50000x64, .f32⟩ : BufTy).Contents (Elt F)),
    StableHlo.binary main_v51 main_v57 main_v58 (subf : (⟨S50000x64, .f32⟩ : BufTy).Contents (Elt F) → (⟨S50000x64, .f32⟩ : BufTy).Contents (Elt F) → (⟨S50000x64, .f32⟩ : BufTy).Contents (Elt F)),
    StableHlo.nullary main_cst_5 (constant S_ .f32 0x3727C5AC#32),
    StableHlo.unary main_cst_5 main_v59 (broadcastInDim S64 ![] bcast_S_S64 : (⟨S_, .f32⟩ : BufTy).Contents (Elt F) → (⟨S64, .f32⟩ : BufTy).Contents (Elt F)),
    StableHlo.binary main_v55 main_v59 main_v60 (addf : (⟨S64, .f32⟩ : BufTy).Contents (Elt F) → (⟨S64, .f32⟩ : BufTy).Contents (Elt F) → (⟨S64, .f32⟩ : BufTy).Contents (Elt F)),
    StableHlo.unary main_v60 main_v61 (Host.rsqrt : (⟨S64, .f32⟩ : BufTy).Contents (Elt F) → (⟨S64, .f32⟩ : BufTy).Contents (Elt F)),
    StableHlo.unary main_v61 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v58 main_v63 main_v64 (mulf : (⟨S50000x64, .f32⟩ : BufTy).Contents (Elt F) → (⟨S50000x64, .f32⟩ : BufTy).Contents (Elt F) → (⟨S50000x64, .f32⟩ : BufTy).Contents (Elt F)),
    StableHlo.unary main_arg17 main_v65 ((extractStridedSlice S1x64 ![0, 0] · slices_S2x64_S1x64_0_0) : (⟨S2x64, .f32⟩ : BufTy).Contents (Elt F) → (⟨S1x64, .f32⟩ : BufTy).Contents (Elt F)),
    StableHlo.reshape main_v65 main_v66 rfl shapeCasts_S1x64_S64,
    StableHlo.unary main_v66 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S50000x64 ![0, 1] bcast_S1x64_S50000x64_0_1 : (⟨S1x64, .f32⟩ : BufTy).Contents (Elt F) → (⟨S50000x64, .f32⟩ : BufTy).Contents (Elt F)),
    StableHlo.binary main_v64 main_v68 main_v69 (mulf : (⟨S50000x64, .f32⟩ : BufTy).Contents (Elt F) → (⟨S50000x64, .f32⟩ : BufTy).Contents (Elt F) → (⟨S50000x64, .f32⟩ : BufTy).Contents (Elt F)),
    StableHlo.unary main_arg18 main_v70 ((extractStridedSlice S1x64 ![0, 0] · slices_S2x64_S1x64_0_0) : (⟨S2x64, .f32⟩ : BufTy).Contents (Elt F) → (⟨S1x64, .f32⟩ : BufTy).Contents (Elt F)),
    StableHlo.reshape main_v70 main_v71 rfl shapeCasts_S1x64_S64,
    StableHlo.unary main_v71 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S50000x64 ![0, 1] bcast_S1x64_S50000x64_0_1 : (⟨S1x64, .f32⟩ : BufTy).Contents (Elt F) → (⟨S50000x64, .f32⟩ : BufTy).Contents (Elt F)),
    StableHlo.binary main_v69 main_v73 main_v74 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v74) main_call3.v0 main_call3.v1 maximumf,
    StableHlo.binary main_v7 main_v75 main_v76 (addf : (⟨S50000x64, .f32⟩ : BufTy).Contents (Elt F) → (⟨S50000x64, .f32⟩ : BufTy).Contents (Elt F) → (⟨S50000x64, .f32⟩ : BufTy).Contents (Elt F)),
    StableHlo.nullary main_cst_6 (constant S_ .f32 0x3F000000#32),
    StableHlo.unary main_cst_6 main_v77 (broadcastInDim S50000x64 ![] bcast_S_S50000x64 : (⟨S_, .f32⟩ : BufTy).Contents (Elt F) → (⟨S50000x64, .f32⟩ : BufTy).Contents (Elt F)),
    StableHlo.binary main_v76 main_v77 main_v78 (mulf : (⟨S50000x64, .f32⟩ : BufTy).Contents (Elt F) → (⟨S50000x64, .f32⟩ : BufTy).Contents (Elt F) → (⟨S50000x64, .f32⟩ : BufTy).Contents (Elt F)) ]
theorem seg_v78_ok : Straight (seg_v78 : List (HloOp τ sig (Elt F))) :=
  ⟨⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩⟩

abbrev seg_v85 : List (HloOp τ sig (Elt F)) :=
  [ StableHlo.nullary main_c_7 (constantI S_ 32 0#32),
    StableHlo.unary main_c_7 main_v79 (broadcastInDim S1000000 ![] bcast_S_S1000000 : (⟨S_, .i32⟩ : BufTy).Contents (Elt F) → (⟨S1000000, .i32⟩ : BufTy).Contents (Elt F)),
    StableHlo.binary main_v1 main_v79 main_v80 (cmpi .slt : (⟨S1000000, .i32⟩ : BufTy).Contents (Elt F) → (⟨S1000000, .i32⟩ : BufTy).Contents (Elt F) → (⟨S1000000, .i1⟩ : BufTy).Contents (Elt F)),
    StableHlo.nullary main_c_8 (constantI S_ 32 50000#32),
    StableHlo.unary main_c_8 main_v81 (broadcastInDim S1000000 ![] bcast_S_S1000000 : (⟨S_, .i32⟩ : BufTy).Contents (Elt F) → (⟨S1000000, .i32⟩ : BufTy).Contents (Elt F)),
    StableHlo.binary main_v1 main_v81 main_v82 (addi : (⟨S1000000, .i32⟩ : BufTy).Contents (Elt F) → (⟨S1000000, .i32⟩ : BufTy).Contents (Elt F) → (⟨S1000000, .i32⟩ : BufTy).Contents (Elt F)),
    StableHlo.ternary main_v80 main_v82 main_v1 main_v83 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v83 main_v84 (broadcastInDim S1000000x1 ![0] bcast_S1000000_S1000000x1_0 : (⟨S1000000, .i32⟩ : BufTy).Contents (Elt F) → (⟨S1000000x1, .i32⟩ : BufTy).Contents (Elt F)),
    StableHlo.binary main_v78 main_v84 main_v85 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)) ]
theorem seg_v85_ok : Straight (seg_v85 : List (HloOp τ sig (Elt F))) :=
  ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨binary_bufs_sub .., rfl⟩⟩

abbrev seg_v92 : List (HloOp τ sig (Elt F)) :=
  [ StableHlo.nullary main_c_9 (constantI S_ 32 0#32),
    StableHlo.unary main_c_9 main_v86 (broadcastInDim S1000000 ![] bcast_S_S1000000 : (⟨S_, .i32⟩ : BufTy).Contents (Elt F) → (⟨S1000000, .i32⟩ : BufTy).Contents (Elt F)),
    StableHlo.binary main_v3 main_v86 main_v87 (cmpi .slt : (⟨S1000000, .i32⟩ : BufTy).Contents (Elt F) → (⟨S1000000, .i32⟩ : BufTy).Contents (Elt F) → (⟨S1000000, .i1⟩ : BufTy).Contents (Elt F)),
    StableHlo.nullary main_c_10 (constantI S_ 32 50000#32),
    StableHlo.unary main_c_10 main_v88 (broadcastInDim S1000000 ![] bcast_S_S1000000 : (⟨S_, .i32⟩ : BufTy).Contents (Elt F) → (⟨S1000000, .i32⟩ : BufTy).Contents (Elt F)),
    StableHlo.binary main_v3 main_v88 main_v89 (addi : (⟨S1000000, .i32⟩ : BufTy).Contents (Elt F) → (⟨S1000000, .i32⟩ : BufTy).Contents (Elt F) → (⟨S1000000, .i32⟩ : BufTy).Contents (Elt F)),
    StableHlo.ternary main_v87 main_v89 main_v3 main_v90 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v90 main_v91 (broadcastInDim S1000000x1 ![0] bcast_S1000000_S1000000x1_0 : (⟨S1000000, .i32⟩ : BufTy).Contents (Elt F) → (⟨S1000000x1, .i32⟩ : BufTy).Contents (Elt F)),
    StableHlo.binary main_v78 main_v91 main_v92 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)) ]
theorem seg_v92_ok : Straight (seg_v92 : List (HloOp τ sig (Elt F))) :=
  ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨binary_bufs_sub .., rfl⟩⟩

abbrev seg_v106 : List (HloOp τ sig (Elt F)) :=
  [ StableHlo.nary ![main_v85, main_v92, main_v11] main_v93 (fun u => concatenate S1000000x192 1 [⟨S1000000x64, u 0⟩, ⟨S1000000x64, u 1⟩, ⟨S1000000x64, u 2⟩] concatenates_S1000000x64_S1000000x64_S1000000x64_S1000000x192_d1),
    StableHlo.unary main_arg13 main_v94 ((extractStridedSlice S1x192x64 ![0, 0, 0] · slices_S2x192x64_S1x192x64_0_0_0) : (⟨S2x192x64, .f32⟩ : BufTy).Contents (Elt F) → (⟨S1x192x64, .f32⟩ : BufTy).Contents (Elt F)),
    StableHlo.reshape main_v94 main_v95 rfl shapeCasts_S1x192x64_S192x64,
    StableHlo.binary main_v93 main_v95 main_v96 ((fun l r => Host.dotGeneral dot_S1000000x192_S192x64_S1000000x64_1_0_0_1_n_n none l r) : (⟨S1000000x192, .f32⟩ : BufTy).Contents (Elt F) → (⟨S192x64, .f32⟩ : BufTy).Contents (Elt F) → (⟨S1000000x64, .f32⟩ : BufTy).Contents (Elt F)),
    StableHlo.unary main_arg14 main_v97 ((extractStridedSlice S1x64 ![0, 0] · slices_S2x64_S1x64_0_0) : (⟨S2x64, .f32⟩ : BufTy).Contents (Elt F) → (⟨S1x64, .f32⟩ : BufTy).Contents (Elt F)),
    StableHlo.reshape main_v97 main_v98 rfl shapeCasts_S1x64_S64,
    StableHlo.unary main_v98 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S1000000x64 ![0, 1] bcast_S1x64_S1000000x64_0_1 : (⟨S1x64, .f32⟩ : BufTy).Contents (Elt F) → (⟨S1000000x64, .f32⟩ : BufTy).Contents (Elt F)),
    StableHlo.binary main_v96 main_v100 main_v101 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call4.cst (constant S_ .f32 0x00000000#32),
    StableHlo.TRef.unary main_call4.cst main_call4.v0 (broadcastInDim S1000000x64 ![] bcast_S_S1000000x64),
    StableHlo.TRef.binary (.of main_v101) main_call4.v0 main_call4.v1 maximumf,
    StableHlo.unary main_arg15 main_v103 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v103 main_v104 rfl shapeCasts_S1x64x64_S64x64,
    StableHlo.binary main_v102 main_v104 main_v105 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg16 main_v106 ((extractStridedSlice S1x64 ![0, 0] · slices_S2x64_S1x64_0_0) : (⟨S2x64, .f32⟩ : BufTy).Contents (Elt F) → (⟨S1x64, .f32⟩ : BufTy).Contents (Elt F)) ]
theorem seg_v106_ok : Straight (seg_v106 : List (HloOp τ sig (Elt F))) :=
  ⟨⟨nary_bufs_sub .., rfl⟩, ⟨unary_bufs_sub .., rfl⟩, ⟨reshape_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨binary_bufs_sub .., rfl⟩, ⟨unary_bufs_sub .., rfl⟩⟩

abbrev seg_v113 : List (HloOp τ sig (Elt F)) :=
  [ StableHlo.reshape main_v106 main_v107 rfl shapeCasts_S1x64_S64,
    StableHlo.unary main_v107 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S1000000x64 ![0, 1] bcast_S1x64_S1000000x64_0_1 : (⟨S1x64, .f32⟩ : BufTy).Contents (Elt F) → (⟨S1000000x64, .f32⟩ : BufTy).Contents (Elt F)),
    StableHlo.binary main_v105 main_v109 main_v110 (addf : (⟨S1000000x64, .f32⟩ : BufTy).Contents (Elt F) → (⟨S1000000x64, .f32⟩ : BufTy).Contents (Elt F) → (⟨S1000000x64, .f32⟩ : BufTy).Contents (Elt F)),
    StableHlo.nullary main_cst_11 (constant S_ .f32 0x3F000000#32),
    StableHlo.unary main_cst_11 main_v111 (broadcastInDim S1000000x64 ![] bcast_S_S1000000x64 : (⟨S_, .f32⟩ : BufTy).Contents (Elt F) → (⟨S1000000x64, .f32⟩ : BufTy).Contents (Elt F)),
    StableHlo.binary main_v110 main_v111 main_v112 (mulf : (⟨S1000000x64, .f32⟩ : BufTy).Contents (Elt F) → (⟨S1000000x64, .f32⟩ : BufTy).Contents (Elt F) → (⟨S1000000x64, .f32⟩ : BufTy).Contents (Elt F)),
    StableHlo.binary main_v11 main_v112 main_v113 (addf : (⟨S1000000x64, .f32⟩ : BufTy).Contents (Elt F) → (⟨S1000000x64, .f32⟩ : BufTy).Contents (Elt F) → (⟨S1000000x64, .f32⟩ : BufTy).Contents (Elt F)) ]
theorem seg_v113_ok : Straight (seg_v113 : List (HloOp τ sig (Elt F))) :=
  ⟨⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩⟩

abbrev seg_v120 : List (HloOp τ sig (Elt F)) :=
  [ StableHlo.nullary main_c_12 (constantI S_ 32 0#32),
    StableHlo.unary main_c_12 main_v114 (broadcastInDim S1000000 ![] bcast_S_S1000000 : (⟨S_, .i32⟩ : BufTy).Contents (Elt F) → (⟨S1000000, .i32⟩ : BufTy).Contents (Elt F)),
    StableHlo.binary main_v1 main_v114 main_v115 (cmpi .slt : (⟨S1000000, .i32⟩ : BufTy).Contents (Elt F) → (⟨S1000000, .i32⟩ : BufTy).Contents (Elt F) → (⟨S1000000, .i1⟩ : BufTy).Contents (Elt F)),
    StableHlo.nullary main_c_13 (constantI S_ 32 50000#32),
    StableHlo.unary main_c_13 main_v116 (broadcastInDim S1000000 ![] bcast_S_S1000000 : (⟨S_, .i32⟩ : BufTy).Contents (Elt F) → (⟨S1000000, .i32⟩ : BufTy).Contents (Elt F)),
    StableHlo.binary main_v1 main_v116 main_v117 (addi : (⟨S1000000, .i32⟩ : BufTy).Contents (Elt F) → (⟨S1000000, .i32⟩ : BufTy).Contents (Elt F) → (⟨S1000000, .i32⟩ : BufTy).Contents (Elt F)),
    StableHlo.ternary main_v115 main_v117 main_v1 main_v118 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v118 main_v119 (broadcastInDim S1000000x1 ![0] bcast_S1000000_S1000000x1_0 : (⟨S1000000, .i32⟩ : BufTy).Contents (Elt F) → (⟨S1000000x1, .i32⟩ : BufTy).Contents (Elt F)),
    StableHlo.binary main_v78 main_v119 main_v120 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)) ]
theorem seg_v120_ok : Straight (seg_v120 : List (HloOp τ sig (Elt F))) :=
  ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨binary_bufs_sub .., rfl⟩⟩

abbrev seg_v130 : List (HloOp τ sig (Elt F)) :=
  [ StableHlo.unary main_arg7 main_v121 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v121 main_v122 rfl shapeCasts_S1x64x64_S64x64,
    StableHlo.binary main_v113 main_v122 main_v123 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.binary main_v120 main_v123 main_v124 (addf : (⟨S1000000x64, .f32⟩ : BufTy).Contents (Elt F) → (⟨S1000000x64, .f32⟩ : BufTy).Contents (Elt F) → (⟨S1000000x64, .f32⟩ : BufTy).Contents (Elt F)),
    StableHlo.unary main_arg8 main_v125 ((extractStridedSlice S1x64 ![1, 0] · slices_S2x64_S1x64_1_0) : (⟨S2x64, .f32⟩ : BufTy).Contents (Elt F) → (⟨S1x64, .f32⟩ : BufTy).Contents (Elt F)),
    StableHlo.reshape main_v125 main_v126 rfl shapeCasts_S1x64_S64,
    StableHlo.unary main_v126 main_v127 (broadcastInDim S1x64 ![1] bcast_S64_S1x64_1 : (⟨S64, .f32⟩ : BufTy).Contents (Elt F) → (⟨S1x64, .f32⟩ : BufTy).Contents (Elt F)),
    StableHlo.unary main_v127 main_v128 (broadcastInDim S1000000x64 ![0, 1] bcast_S1x64_S1000000x64_0_1 : (⟨S1x64, .f32⟩ : BufTy).Contents (Elt F) → (⟨S1000000x64, .f32⟩ : BufTy).Contents (Elt F)),
    StableHlo.binary main_v124 main_v128 main_v129 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call5.cst (constant S_ .f32 0x00000000#32),
    StableHlo.TRef.unary main_call5.cst main_call5.v0 (broadcastInDim S1000000x64 ![] bcast_S_S1000000x64),
    StableHlo.TRef.binary (.of main_v129) main_call5.v0 main_call5.v1 maximumf ]
theorem seg_v130_ok : Straight (seg_v130 : List (HloOp τ sig (Elt F))) :=
  ⟨⟨unary_bufs_sub .., rfl⟩, ⟨reshape_bufs_sub .., rfl⟩, ⟨binary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩

abbrev seg_v133 : List (HloOp τ sig (Elt F)) :=
  [ StableHlo.nullary main_cst_14 (constant S_ .f32 0x00000000#32),
    StableHlo.unary main_cst_14 main_v131 (broadcastInDim S50000x64 ![] bcast_S_S50000x64 : (⟨S_, .f32⟩ : BufTy).Contents (Elt F) → (⟨S50000x64, .f32⟩ : BufTy).Contents (Elt F)),
    StableHlo.unary main_v3 main_v132 (broadcastInDim S1000000x1 ![0] bcast_S1000000_S1000000x1_0 : (⟨S1000000, .i32⟩ : BufTy).Contents (Elt F) → (⟨S1000000x1, .i32⟩ : BufTy).Contents (Elt F)),
    StableHlo.ternary main_v131 main_v132 main_v130 main_v133 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)) ]
theorem seg_v133_ok : Straight (seg_v133 : List (HloOp τ sig (Elt F))) :=
  ⟨⟨nullary_bufs_sub .., rfl⟩, ⟨unary_bufs_sub .., rfl⟩, ⟨unary_bufs_sub .., rfl⟩, ⟨ternary_bufs_sub .., rfl⟩⟩

abbrev seg_v153 : List (HloOp τ sig (Elt F)) :=
  [ StableHlo.nullary main_cst_15 (constant S_ .f32 0x3F800000#32),
    StableHlo.unary main_cst_15 main_v134 (broadcastInDim S50000x64 ![] bcast_S_S50000x64 : (⟨S_, .f32⟩ : BufTy).Contents (Elt F) → (⟨S50000x64, .f32⟩ : BufTy).Contents (Elt F)),
    StableHlo.binary main_v134 main_v78 main_v135 (mulf : (⟨S50000x64, .f32⟩ : BufTy).Contents (Elt F) → (⟨S50000x64, .f32⟩ : BufTy).Contents (Elt F) → (⟨S50000x64, .f32⟩ : BufTy).Contents (Elt F)),
    StableHlo.binary main_v135 main_v133 main_v136 (addf : (⟨S50000x64, .f32⟩ : BufTy).Contents (Elt F) → (⟨S50000x64, .f32⟩ : BufTy).Contents (Elt F) → (⟨S50000x64, .f32⟩ : BufTy).Contents (Elt F)),
    StableHlo.unary main_arg9 main_v137 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v137 main_v138 rfl shapeCasts_S1x64x64_S64x64,
    StableHlo.binary main_v136 main_v138 main_v139 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg10 main_v140 ((extractStridedSlice S1x64 ![1, 0] · slices_S2x64_S1x64_1_0) : (⟨S2x64, .f32⟩ : BufTy).Contents (Elt F) → (⟨S1x64, .f32⟩ : BufTy).Contents (Elt F)),
    StableHlo.reshape main_v140 main_v141 rfl shapeCasts_S1x64_S64,
    StableHlo.unary main_v141 main_v142 (broadcastInDim S1x64 ![1] bcast_S64_S1x64_1 : (⟨S64, .f32⟩ : BufTy).Contents (Elt F) → (⟨S1x64, .f32⟩ : BufTy).Contents (Elt F)),
    StableHlo.unary main_v142 main_v143 (broadcastInDim S50000x64 ![0, 1] bcast_S1x64_S50000x64_0_1 : (⟨S1x64, .f32⟩ : BufTy).Contents (Elt F) → (⟨S50000x64, .f32⟩ : BufTy).Contents (Elt F)),
    StableHlo.binary main_v139 main_v143 main_v144 (addf : (⟨S50000x64, .f32⟩ : BufTy).Contents (Elt F) → (⟨S50000x64, .f32⟩ : BufTy).Contents (Elt F) → (⟨S50000x64, .f32⟩ : BufTy).Contents (Elt F)),
    StableHlo.TRef.nullary main_call6.cst (constant S_ .f32 0x00000000#32),
    StableHlo.TRef.unary main_call6.cst main_call6.v0 (broadcastInDim S50000x64 ![] bcast_S_S50000x64),
    StableHlo.TRef.binary (.of main_v144) main_call6.v0 main_call6.v1 maximumf,
    StableHlo.unary main_arg11 main_v146 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v146 main_v147 rfl shapeCasts_S1x64x64_S64x64,
    StableHlo.binary main_v145 main_v147 main_v148 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg12 main_v149 ((extractStridedSlice S1x64 ![1, 0] · slices_S2x64_S1x64_1_0) : (⟨S2x64, .f32⟩ : BufTy).Contents (Elt F) → (⟨S1x64, .f32⟩ : BufTy).Contents (Elt F)),
    StableHlo.reshape main_v149 main_v150 rfl shapeCasts_S1x64_S64,
    StableHlo.unary main_v150 main_v151 (broadcastInDim S1x64 ![1] bcast_S64_S1x64_1 : (⟨S64, .f32⟩ : BufTy).Contents (Elt F) → (⟨S1x64, .f32⟩ : BufTy).Contents (Elt F)),
    StableHlo.unary main_v151 main_v152 (broadcastInDim S50000x64 ![0, 1] bcast_S1x64_S50000x64_0_1 : (⟨S1x64, .f32⟩ : BufTy).Contents (Elt F) → (⟨S50000x64, .f32⟩ : BufTy).Contents (Elt F)),
    StableHlo.binary main_v148 main_v152 main_v153 (addf : (⟨S50000x64, .f32⟩ : BufTy).Contents (Elt F) → (⟨S50000x64, .f32⟩ : BufTy).Contents (Elt F) → (⟨S50000x64, .f32⟩ : BufTy).Contents (Elt F)) ]
theorem seg_v153_ok : Straight (seg_v153 : List (HloOp τ sig (Elt F))) :=
  ⟨⟨nullary_bufs_sub .., rfl⟩, ⟨unary_bufs_sub .., rfl⟩, ⟨binary_bufs_sub .., rfl⟩, ⟨binary_bufs_sub .., rfl⟩, ⟨unary_bufs_sub .., rfl⟩, ⟨reshape_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

abbrev seg_v156 : List (HloOp τ sig (Elt F)) :=
  [ StableHlo.nullary main_cst_16 (constant S_ .f32 0x00000000#32),
    StableHlo.binary main_v153 main_cst_16 main_v154 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_17 (constant S_ .f32 0x47435000#32),
    StableHlo.unary main_cst_17 main_v155 (broadcastInDim S64 ![] bcast_S_S64 : (⟨S_, .f32⟩ : BufTy).Contents (Elt F) → (⟨S64, .f32⟩ : BufTy).Contents (Elt F)),
    StableHlo.binary main_v154 main_v155 main_v156 (Host.divf : (⟨S64, .f32⟩ : BufTy).Contents (Elt F) → (⟨S64, .f32⟩ : BufTy).Contents (Elt F) → (⟨S64, .f32⟩ : BufTy).Contents (Elt F)) ]
theorem seg_v156_ok : Straight (seg_v156 : List (HloOp τ sig (Elt F))) :=
  ⟨⟨nullary_bufs_sub .., rfl⟩, ⟨binary_bufs_sub .., rfl⟩, ⟨nullary_bufs_sub .., rfl⟩, ⟨unary_bufs_sub .., rfl⟩, ⟨binary_bufs_sub .., rfl⟩⟩

abbrev seg_v157 : List (HloOp τ sig (Elt F)) :=
  [ StableHlo.nullary main_c_18 (constantI S_ 32 0#32),
    StableHlo.TRef.nullary main_call7.cst (constant S_ .f32 0x00000000#32),
    StableHlo.TRef.binary (.of main_v153) main_call7.cst main_call7.v0 (fun x v => Host.reduceAdd x v reducesTo_S50000x64_S64_d0 h_S_),
    StableHlo.TRef.unary main_call7.v0 main_call7.v1 (broadcastInDim S1x64 ![1] bcast_S64_S1x64_1),
    StableHlo.TRef.nullary main_call7.cst_0 (constant S_ .f32 0x47435000#32),
    StableHlo.TRef.unary main_call7.cst_0 main_call7.v2 (broadcastInDim S1x64 ![] bcast_S_S1x64),
    StableHlo.TRef.binary main_call7.v1 main_call7.v2 main_call7.v3 Host.divf,
    StableHlo.TRef.unary main_call7.v3 main_call7.v4 (broadcastInDim S50000x64 ![0, 1] bcast_S1x64_S50000x64_0_1),
    StableHlo.TRef.binary (.of main_v153) main_call7.v4 main_call7.v5 subf,
    StableHlo.TRef.binary main_call7.v5 main_call7.v5 main_call7.v6 mulf,
    StableHlo.TRef.unary (.of main_c_18) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x64_S64_d0 h_S_),
    StableHlo.TRef.unary main_call7.v8 main_call7.v10 (broadcastInDim S64 ![] bcast_S_S64),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S64 ![] bcast_S_S64),
    StableHlo.TRef.ternary main_call7.v12 main_call7.v11 main_call7.call0.v1 main_call7.call0.v2 (fun p a b => select (broadcastInDim S64 ![] bcast_S_S64 p) a b) ]
theorem seg_v157_ok : Straight (seg_v157 : List (HloOp τ sig (Elt F))) :=
  ⟨⟨nullary_bufs_sub .., rfl⟩, ⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩, ⟨unary_bufs_sub .., rfl⟩, ⟨nullary_bufs_sub .., rfl⟩, ⟨binary_bufs_sub .., rfl⟩, ⟨nullary_bufs_sub .., rfl⟩, ⟨binary_bufs_sub .., rfl⟩, ⟨unary_bufs_sub .., rfl⟩, ⟨binary_bufs_sub .., rfl⟩, ⟨nullary_bufs_sub .., rfl⟩, ⟨binary_bufs_sub .., rfl⟩, ⟨nullary_bufs_sub .., rfl⟩, ⟨unary_bufs_sub .., rfl⟩, ⟨unary_bufs_sub .., rfl⟩, ⟨ternary_bufs_sub .., rfl⟩⟩

abbrev seg_v158 : List (HloOp τ sig (Elt F)) :=
  [ StableHlo.unary main_v156 main_v158 (broadcastInDim S1x64 ![1] bcast_S64_S1x64_1 : (⟨S64, .f32⟩ : BufTy).Contents (Elt F) → (⟨S1x64, .f32⟩ : BufTy).Contents (Elt F)) ]
theorem seg_v158_ok : Straight (seg_v158 : List (HloOp τ sig (Elt F))) :=
  (⟨unary_bufs_sub .., rfl⟩)

abbrev seg_v180 : List (HloOp τ sig (Elt F)) :=
  [ StableHlo.unary main_v158 main_v159 (broadcastInDim S50000x64 ![0, 1] bcast_S1x64_S50000x64_0_1 : (⟨S1x64, .f32⟩ : BufTy).Contents (Elt F) → (⟨S50000x64, .f32⟩ : BufTy).Contents (Elt F)),
    StableHlo.binary main_v153 main_v159 main_v160 (subf : (⟨S50000x64, .f32⟩ : BufTy).Contents (Elt F) → (⟨S50000x64, .f32⟩ : BufTy).Contents (Elt F) → (⟨S50000x64, .f32⟩ : BufTy).Contents (Elt F)),
    StableHlo.nullary main_cst_19 (constant S_ .f32 0x3727C5AC#32),
    StableHlo.unary main_cst_19 main_v161 (broadcastInDim S64 ![] bcast_S_S64 : (⟨S_, .f32⟩ : BufTy).Contents (Elt F) → (⟨S64, .f32⟩ : BufTy).Contents (Elt F)),
    StableHlo.binary main_v157 main_v161 main_v162 (addf : (⟨S64, .f32⟩ : BufTy).Contents (Elt F) → (⟨S64, .f32⟩ : BufTy).Contents (Elt F) → (⟨S64, .f32⟩ : BufTy).Contents (Elt F)),
    StableHlo.unary main_v162 main_v163 (Host.rsqrt : (⟨S64, .f32⟩ : BufTy).Contents (Elt F) → (⟨S64, .f32⟩ : BufTy).Contents (Elt F)),
    StableHlo.unary main_v163 main_v164 (broadcastInDim S1x64 ![1] bcast_S64_S1x64_1 : (⟨S64, .f32⟩ : BufTy).Contents (Elt F) → (⟨S1x64, .f32⟩ : BufTy).Contents (Elt F)),
    StableHlo.unary main_v164 main_v165 (broadcastInDim S50000x64 ![0, 1] bcast_S1x64_S50000x64_0_1 : (⟨S1x64, .f32⟩ : BufTy).Contents (Elt F) → (⟨S50000x64, .f32⟩ : BufTy).Contents (Elt F)),
    StableHlo.binary main_v160 main_v165 main_v166 (mulf : (⟨S50000x64, .f32⟩ : BufTy).Contents (Elt F) → (⟨S50000x64, .f32⟩ : BufTy).Contents (Elt F) → (⟨S50000x64, .f32⟩ : BufTy).Contents (Elt F)),
    StableHlo.unary main_arg17 main_v167 ((extractStridedSlice S1x64 ![1, 0] · slices_S2x64_S1x64_1_0) : (⟨S2x64, .f32⟩ : BufTy).Contents (Elt F) → (⟨S1x64, .f32⟩ : BufTy).Contents (Elt F)),
    StableHlo.reshape main_v167 main_v168 rfl shapeCasts_S1x64_S64,
    StableHlo.unary main_v168 main_v169 (broadcastInDim S1x64 ![1] bcast_S64_S1x64_1 : (⟨S64, .f32⟩ : BufTy).Contents (Elt F) → (⟨S1x64, .f32⟩ : BufTy).Contents (Elt F)),
    StableHlo.unary main_v169 main_v170 (broadcastInDim S50000x64 ![0, 1] bcast_S1x64_S50000x64_0_1 : (⟨S1x64, .f32⟩ : BufTy).Contents (Elt F) → (⟨S50000x64, .f32⟩ : BufTy).Contents (Elt F)),
    StableHlo.binary main_v166 main_v170 main_v171 (mulf : (⟨S50000x64, .f32⟩ : BufTy).Contents (Elt F) → (⟨S50000x64, .f32⟩ : BufTy).Contents (Elt F) → (⟨S50000x64, .f32⟩ : BufTy).Contents (Elt F)),
    StableHlo.unary main_arg18 main_v172 ((extractStridedSlice S1x64 ![1, 0] · slices_S2x64_S1x64_1_0) : (⟨S2x64, .f32⟩ : BufTy).Contents (Elt F) → (⟨S1x64, .f32⟩ : BufTy).Contents (Elt F)),
    StableHlo.reshape main_v172 main_v173 rfl shapeCasts_S1x64_S64,
    StableHlo.unary main_v173 main_v174 (broadcastInDim S1x64 ![1] bcast_S64_S1x64_1 : (⟨S64, .f32⟩ : BufTy).Contents (Elt F) → (⟨S1x64, .f32⟩ : BufTy).Contents (Elt F)),
    StableHlo.unary main_v174 main_v175 (broadcastInDim S50000x64 ![0, 1] bcast_S1x64_S50000x64_0_1 : (⟨S1x64, .f32⟩ : BufTy).Contents (Elt F) → (⟨S50000x64, .f32⟩ : BufTy).Contents (Elt F)),
    StableHlo.binary main_v171 main_v175 main_v176 (addf : (⟨S50000x64, .f32⟩ : BufTy).Contents (Elt F) → (⟨S50000x64, .f32⟩ : BufTy).Contents (Elt F) → (⟨S50000x64, .f32⟩ : BufTy).Contents (Elt F)),
    StableHlo.TRef.nullary main_call8.cst (constant S_ .f32 0x00000000#32),
    StableHlo.TRef.unary main_call8.cst main_call8.v0 (broadcastInDim S50000x64 ![] bcast_S_S50000x64),
    StableHlo.TRef.binary (.of main_v176) main_call8.v0 main_call8.v1 maximumf,
    StableHlo.binary main_v78 main_v177 main_v178 (addf : (⟨S50000x64, .f32⟩ : BufTy).Contents (Elt F) → (⟨S50000x64, .f32⟩ : BufTy).Contents (Elt F) → (⟨S50000x64, .f32⟩ : BufTy).Contents (Elt F)),
    StableHlo.nullary main_cst_20 (constant S_ .f32 0x3F000000#32),
    StableHlo.unary main_cst_20 main_v179 (broadcastInDim S50000x64 ![] bcast_S_S50000x64 : (⟨S_, .f32⟩ : BufTy).Contents (Elt F) → (⟨S50000x64, .f32⟩ : BufTy).Contents (Elt F)),
    StableHlo.binary main_v178 main_v179 main_v180 (mulf : (⟨S50000x64, .f32⟩ : BufTy).Contents (Elt F) → (⟨S50000x64, .f32⟩ : BufTy).Contents (Elt F) → (⟨S50000x64, .f32⟩ : BufTy).Contents (Elt F)) ]
theorem seg_v180_ok : Straight (seg_v180 : List (HloOp τ sig (Elt F))) :=
  ⟨⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩⟩

abbrev seg_v187 : List (HloOp τ sig (Elt F)) :=
  [ StableHlo.nullary main_c_21 (constantI S_ 32 0#32),
    StableHlo.unary main_c_21 main_v181 (broadcastInDim S1000000 ![] bcast_S_S1000000 : (⟨S_, .i32⟩ : BufTy).Contents (Elt F) → (⟨S1000000, .i32⟩ : BufTy).Contents (Elt F)),
    StableHlo.binary main_v1 main_v181 main_v182 (cmpi .slt : (⟨S1000000, .i32⟩ : BufTy).Contents (Elt F) → (⟨S1000000, .i32⟩ : BufTy).Contents (Elt F) → (⟨S1000000, .i1⟩ : BufTy).Contents (Elt F)),
    StableHlo.nullary main_c_22 (constantI S_ 32 50000#32),
    StableHlo.unary main_c_22 main_v183 (broadcastInDim S1000000 ![] bcast_S_S1000000 : (⟨S_, .i32⟩ : BufTy).Contents (Elt F) → (⟨S1000000, .i32⟩ : BufTy).Contents (Elt F)),
    StableHlo.binary main_v1 main_v183 main_v184 (addi : (⟨S1000000, .i32⟩ : BufTy).Contents (Elt F) → (⟨S1000000, .i32⟩ : BufTy).Contents (Elt F) → (⟨S1000000, .i32⟩ : BufTy).Contents (Elt F)),
    StableHlo.ternary main_v182 main_v184 main_v1 main_v185 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v185 main_v186 (broadcastInDim S1000000x1 ![0] bcast_S1000000_S1000000x1_0 : (⟨S1000000, .i32⟩ : BufTy).Contents (Elt F) → (⟨S1000000x1, .i32⟩ : BufTy).Contents (Elt F)),
    StableHlo.binary main_v180 main_v186 main_v187 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)) ]
theorem seg_v187_ok : Straight (seg_v187 : List (HloOp τ sig (Elt F))) :=
  ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨binary_bufs_sub .., rfl⟩⟩

abbrev seg_v194 : List (HloOp τ sig (Elt F)) :=
  [ StableHlo.nullary main_c_23 (constantI S_ 32 0#32),
    StableHlo.unary main_c_23 main_v188 (broadcastInDim S1000000 ![] bcast_S_S1000000 : (⟨S_, .i32⟩ : BufTy).Contents (Elt F) → (⟨S1000000, .i32⟩ : BufTy).Contents (Elt F)),
    StableHlo.binary main_v3 main_v188 main_v189 (cmpi .slt : (⟨S1000000, .i32⟩ : BufTy).Contents (Elt F) → (⟨S1000000, .i32⟩ : BufTy).Contents (Elt F) → (⟨S1000000, .i1⟩ : BufTy).Contents (Elt F)),
    StableHlo.nullary main_c_24 (constantI S_ 32 50000#32),
    StableHlo.unary main_c_24 main_v190 (broadcastInDim S1000000 ![] bcast_S_S1000000 : (⟨S_, .i32⟩ : BufTy).Contents (Elt F) → (⟨S1000000, .i32⟩ : BufTy).Contents (Elt F)),
    StableHlo.binary main_v3 main_v190 main_v191 (addi : (⟨S1000000, .i32⟩ : BufTy).Contents (Elt F) → (⟨S1000000, .i32⟩ : BufTy).Contents (Elt F) → (⟨S1000000, .i32⟩ : BufTy).Contents (Elt F)),
    StableHlo.ternary main_v189 main_v191 main_v3 main_v192 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v192 main_v193 (broadcastInDim S1000000x1 ![0] bcast_S1000000_S1000000x1_0 : (⟨S1000000, .i32⟩ : BufTy).Contents (Elt F) → (⟨S1000000x1, .i32⟩ : BufTy).Contents (Elt F)),
    StableHlo.binary main_v180 main_v193 main_v194 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)) ]
theorem seg_v194_ok : Straight (seg_v194 : List (HloOp τ sig (Elt F))) :=
  ⟨⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨binary_bufs_sub .., rfl⟩⟩

abbrev seg_v212 : List (HloOp τ sig (Elt F)) :=
  [ StableHlo.nary ![main_v187, main_v194, main_v113] main_v195 (fun u => concatenate S1000000x192 1 [⟨S1000000x64, u 0⟩, ⟨S1000000x64, u 1⟩, ⟨S1000000x64, u 2⟩] concatenates_S1000000x64_S1000000x64_S1000000x64_S1000000x192_d1),
    StableHlo.unary main_arg13 main_v196 ((extractStridedSlice S1x192x64 ![1, 0, 0] · slices_S2x192x64_S1x192x64_1_0_0) : (⟨S2x192x64, .f32⟩ : BufTy).Contents (Elt F) → (⟨S1x192x64, .f32⟩ : BufTy).Contents (Elt F)),
    StableHlo.reshape main_v196 main_v197 rfl shapeCasts_S1x192x64_S192x64,
    StableHlo.binary main_v195 main_v197 main_v198 ((fun l r => Host.dotGeneral dot_S1000000x192_S192x64_S1000000x64_1_0_0_1_n_n none l r) : (⟨S1000000x192, .f32⟩ : BufTy).Contents (Elt F) → (⟨S192x64, .f32⟩ : BufTy).Contents (Elt F) → (⟨S1000000x64, .f32⟩ : BufTy).Contents (Elt F)),
    StableHlo.unary main_arg14 main_v199 ((extractStridedSlice S1x64 ![1, 0] · slices_S2x64_S1x64_1_0) : (⟨S2x64, .f32⟩ : BufTy).Contents (Elt F) → (⟨S1x64, .f32⟩ : BufTy).Contents (Elt F)),
    StableHlo.reshape main_v199 main_v200 rfl shapeCasts_S1x64_S64,
    StableHlo.unary main_v200 main_v201 (broadcastInDim S1x64 ![1] bcast_S64_S1x64_1 : (⟨S64, .f32⟩ : BufTy).Contents (Elt F) → (⟨S1x64, .f32⟩ : BufTy).Contents (Elt F)),
    StableHlo.unary main_v201 main_v202 (broadcastInDim S1000000x64 ![0, 1] bcast_S1x64_S1000000x64_0_1 : (⟨S1x64, .f32⟩ : BufTy).Contents (Elt F) → (⟨S1000000x64, .f32⟩ : BufTy).Contents (Elt F)),
    StableHlo.binary main_v198 main_v202 main_v203 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call9.cst (constant S_ .f32 0x00000000#32),
    StableHlo.TRef.unary main_call9.cst main_call9.v0 (broadcastInDim S1000000x64 ![] bcast_S_S1000000x64),
    StableHlo.TRef.binary (.of main_v203) main_call9.v0 main_call9.v1 maximumf,
    StableHlo.unary main_arg15 main_v205 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v205 main_v206 rfl shapeCasts_S1x64x64_S64x64,
    StableHlo.binary main_v204 main_v206 main_v207 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg16 main_v208 ((extractStridedSlice S1x64 ![1, 0] · slices_S2x64_S1x64_1_0) : (⟨S2x64, .f32⟩ : BufTy).Contents (Elt F) → (⟨S1x64, .f32⟩ : BufTy).Contents (Elt F)),
    StableHlo.reshape main_v208 main_v209 rfl shapeCasts_S1x64_S64,
    StableHlo.unary main_v209 main_v210 (broadcastInDim S1x64 ![1] bcast_S64_S1x64_1 : (⟨S64, .f32⟩ : BufTy).Contents (Elt F) → (⟨S1x64, .f32⟩ : BufTy).Contents (Elt F)),
    StableHlo.unary main_v210 main_v211 (broadcastInDim S1000000x64 ![0, 1] bcast_S1x64_S1000000x64_0_1 : (⟨S1x64, .f32⟩ : BufTy).Contents (Elt F) → (⟨S1000000x64, .f32⟩ : BufTy).Contents (Elt F)),
    StableHlo.binary main_v207 main_v211 main_v212 (addf : (⟨S1000000x64, .f32⟩ : BufTy).Contents (Elt F) → (⟨S1000000x64, .f32⟩ : BufTy).Contents (Elt F) → (⟨S1000000x64, .f32⟩ : BufTy).Contents (Elt F)) ]
theorem seg_v212_ok : Straight (seg_v212 : List (HloOp τ sig (Elt F))) :=
  ⟨⟨nary_bufs_sub .., rfl⟩, ⟨unary_bufs_sub .., rfl⟩, ⟨reshape_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

abbrev seg_v215 : List (HloOp τ sig (Elt F)) :=
  [ StableHlo.nullary main_cst_25 (constant S_ .f32 0x3F000000#32),
    StableHlo.unary main_cst_25 main_v213 (broadcastInDim S1000000x64 ![] bcast_S_S1000000x64 : (⟨S_, .f32⟩ : BufTy).Contents (Elt F) → (⟨S1000000x64, .f32⟩ : BufTy).Contents (Elt F)),
    StableHlo.binary main_v212 main_v213 main_v214 (mulf : (⟨S1000000x64, .f32⟩ : BufTy).Contents (Elt F) → (⟨S1000000x64, .f32⟩ : BufTy).Contents (Elt F) → (⟨S1000000x64, .f32⟩ : BufTy).Contents (Elt F)),
    StableHlo.binary main_v113 main_v214 main_v215 (addf : (⟨S1000000x64, .f32⟩ : BufTy).Contents (Elt F) → (⟨S1000000x64, .f32⟩ : BufTy).Contents (Elt F) → (⟨S1000000x64, .f32⟩ : BufTy).Contents (Elt F)) ]
theorem seg_v215_ok : Straight (seg_v215 : List (HloOp τ sig (Elt F))) :=
  ⟨⟨nullary_bufs_sub .., rfl⟩, ⟨unary_bufs_sub .., rfl⟩, ⟨binary_bufs_sub .., rfl⟩, ⟨binary_bufs_sub .., rfl⟩⟩

/-! ## The line, and @main as the line -/

/-- @main's segments in order. -/
abbrev segs : List (List (HloOp τ sig (Elt F))) :=
  [ seg_v1, seg_v3, seg_v7, seg_v11, seg_v18, seg_v28, seg_v31, seg_v51, seg_v53, seg_v54, seg_v55,
    seg_v78, seg_v85, seg_v92, seg_v106, seg_v113, seg_v120, seg_v130, seg_v133, seg_v153, seg_v156,
    seg_v157, seg_v158, seg_v180, seg_v187, seg_v194, seg_v212, seg_v215 ]

/-- @main's 302 operations in order: the segments concatenated. -/
abbrev ops : List (HloOp τ sig (Elt F)) := segs.flatten

/-- The segments of the printed window `main_part0`. -/
abbrev win0 : List (List (HloOp τ sig (Elt F))) := [seg_v1, seg_v3, seg_v7, seg_v11, seg_v18, seg_v28, seg_v31, seg_v51, seg_v53]
/-- The segments of the printed window `main_part1`. -/
abbrev win1 : List (List (HloOp τ sig (Elt F))) := [seg_v54, seg_v55, seg_v78, seg_v85, seg_v92, seg_v106]
/-- The segments of the printed window `main_part2`. -/
abbrev win2 : List (List (HloOp τ sig (Elt F))) := [seg_v113, seg_v120, seg_v130, seg_v133, seg_v153, seg_v156, seg_v157, seg_v158]
/-- The segments of the printed window `main_part3`. -/
abbrev win3 : List (List (HloOp τ sig (Elt F))) := [seg_v180, seg_v187, seg_v194, seg_v212]
/-- The segments of the printed window `main_part4`. -/
abbrev win4 : List (List (HloOp τ sig (Elt F))) := [seg_v215]

/-- The segments are the five windows' segments, window after window. -/
theorem segs_eq : segs (F := F) = win0 ++ (win1 ++ (win2 ++ (win3 ++ win4))) := rfl

set_option maxRecDepth 8192 in
/-- The window `main_part0` is its segments' operations in order: both sides unfold to the same chain of `hlo` steps (a call
    unfolds to its body's steps, and sequencing a step `hlo … (fun _ => .ret ⟨⟩)` before a continuation computes). -/
theorem main_part0_eq (c : Dev nD) : main_part0 (F := F) c = seq win0.flatten := rfl

set_option maxRecDepth 8192 in
/-- The window `main_part1` is its segments' operations in order: both sides unfold to the same chain of `hlo` steps (a call
    unfolds to its body's steps, and sequencing a step `hlo … (fun _ => .ret ⟨⟩)` before a continuation computes). -/
theorem main_part1_eq (c : Dev nD) : main_part1 (F := F) c = seq win1.flatten := rfl

set_option maxRecDepth 8192 in
/-- The window `main_part2` is its segments' operations in order: both sides unfold to the same chain of `hlo` steps (a call
    unfolds to its body's steps, and sequencing a step `hlo … (fun _ => .ret ⟨⟩)` before a continuation computes). -/
theorem main_part2_eq (c : Dev nD) : main_part2 (F := F) c = seq win2.flatten := rfl

set_option maxRecDepth 8192 in
/-- The window `main_part3` is its segments' operations in order: both sides unfold to the same chain of `hlo` steps (a call
    unfolds to its body's steps, and sequencing a step `hlo … (fun _ => .ret ⟨⟩)` before a continuation computes). -/
theorem main_part3_eq (c : Dev nD) : main_part3 (F := F) c = seq win3.flatten := rfl

set_option maxRecDepth 8192 in
/-- The window `main_part4` is its segments' operations in order: both sides unfold to the same chain of `hlo` steps. -/
theorem main_part4_eq (c : Dev nD) : main_part4 (F := F) c = seq win4.flatten := rfl

/-- @main is the straight line `ops`: it runs its windows in order, each window is its segments' line, and lines run one
    after the other are their concatenation run as one (`seq_append`). -/
theorem main_eq (c : Dev nD) : main (F := F) c = seq ops := by
  simp only [ops, segs_eq, List.flatten_append, seq_append, ← main_part0_eq c, ← main_part1_eq c, ← main_part2_eq c,
    ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line is one `run_seq` admits. -/
theorem ops_ok : Straight (ops : List (HloOp τ sig (Elt F))) :=
  forall_flatten ⟨seg_v1_ok, seg_v3_ok, seg_v7_ok, seg_v11_ok, seg_v18_ok, seg_v28_ok, seg_v31_ok, seg_v51_ok,
    seg_v53_ok, seg_v54_ok, seg_v55_ok, seg_v78_ok, seg_v85_ok, seg_v92_ok, seg_v106_ok, seg_v113_ok,
    seg_v120_ok, seg_v130_ok, seg_v133_ok, seg_v153_ok, seg_v156_ok, seg_v157_ok, seg_v158_ok,
    seg_v180_ok, seg_v187_ok, seg_v194_ok, seg_v212_ok, seg_v215_ok⟩

theorem ops_sub : (ops : List (HloOp τ sig (Elt F))).Forall fun op => op.bufs ⊆ tcRefs τ sig :=
  List.forall_iff_forall_mem.mpr fun op h => (List.forall_iff_forall_mem.mp ops_ok op h).1

theorem ops_fresh : ∀ op ∈ (ops : List (HloOp τ sig (Elt F))), op.fresh = ∅ :=
  fun op h => (List.forall_iff_forall_mem.mp ops_ok op h).2

/-- At the compiled mesh, for any float values, from any memory with zero counters: every weakly fair execution of @main on
    the TensorCore terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.RefStages.lean ====
/- The reference program's line read back, stage by stage.

   `RefRun.lean` states what every buffer holds after @main as the fold `after ops V` of 302 operations over the launch
   contents `V`. Here that fold is read at the buffers the two graph-network layers hand on: the two index rows, the
   node and edge embeddings, and per layer the gathered sources, the message, its scatter-sum, the node network's
   output, its batch mean and variance, the new node features, the two gathers of them and the new edge features.
   Each such BOUNDARY buffer gets one equation

     after ops V B = ‹the host operations since the earlier boundaries› (after ops V B') … (V main_argK) …

   over the final contents `after ops V B'` of EARLIER boundary buffers and the arguments' launch contents, with nothing
   opened further: a later boundary reads an earlier one several times, so the fully composed term of the last
   buffer would be astronomically large, while the stage equations together are linear in the program.

   Why the equation holds: every buffer of this program is written by exactly one operation, after the operations that
   compute its operands. So the fold at `B` is what the segment(s) holding `B`'s stage leave in it (no later operation
   writes `B`), run from the contents `X` the earlier segments leave; there the short stretch is unfolded
   (`after_results_simp`) into its operations' functions applied to `X` at the stage's inputs; and `X` at an input is
   already the final contents of that input (no operation from the stage on writes it) — for an argument, its launch
   contents (no operation writes it at all). The three "no operation … writes" are memberships in the table `Ws`. -/
import proofs.«133695_j30227979829590_2_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## Reading a long line back, segment by segment

The fold of a line of several hundred operations is never unfolded as a whole. What is used instead: the fold over a
concatenation is the fold over the first part, then over the second (\`after_concat\`); and a buffer no operation of
a part writes comes through that part unchanged. Which buffers a part writes is read off a table (\`Ws\`: for every
segment the reference each of its operations writes), so that "no operation of the rest of the line writes \`r\`" is
a membership in a literal list of references, decided by computation. -/

section Fold

variable {τ : Topo} {sig : RefSig} {Val : EltTy → Type}

/-- Folding over a concatenation: over the first list, then over the second from there. -/
theorem after_concat : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_concat l₁ l₂]

/-- \`W\` lists, in order, the one reference each operation of \`l\` writes. -/
abbrev WritesAre (l : List (HloOp τ sig Val)) (W : List (Ref sig .tc)) : Prop :=
  List.Forall₂ (fun op y => op.writes = {Proc.devRef (τ := τ) .tc y}) l W

/-- The same segment by segment. -/
abbrev SegWritesAre (segs : List (List (HloOp τ sig Val))) (Ws : List (List (Ref sig .tc))) : Prop :=
  List.Forall₂ WritesAre segs Ws

/-- A reference that is not among those a line writes keeps its contents through the line. -/
theorem after_keep {r : Ref sig .tc} :
    ∀ {l : List (HloOp τ sig Val)} {W : List (Ref sig .tc)}, WritesAre l W → r ∉ W →
      ∀ V : Valuation τ sig Val, after l V (Proc.devRef .tc r) = V (Proc.devRef .tc r)
  | _, _, .nil, _, _ => rfl
  | op :: _, _ :: _, .cons h hs, hr, V => by
    rw [after_cons, after_keep hs (fun h' => hr (List.mem_cons_of_mem _ h')), op.result_of_not_mem V]
    rw [h, Finset.mem_singleton]
    exact devRef_ne_of_ne fun e => hr (e ▸ List.mem_cons_self)

variable {segs : List (List (HloOp τ sig Val))} {Ws : List (List (Ref sig .tc))}

/-- A reference no segment writes holds at the end what it held at the start (an argument of the program). -/
theorem after_flatten_untouched (h : SegWritesAre segs Ws) {r : Ref sig .tc} (hr : r ∉ Ws.flatten)
    (V : Valuation τ sig Val) : after segs.flatten V (Proc.devRef .tc r) = V (Proc.devRef .tc r) :=
  after_keep (List.rel_flatten h) hr V

/-- A reference none of the first \`i\` segments writes holds after them what it held at the start. -/
theorem after_take_untouched (h : SegWritesAre segs Ws) (i : Nat) {r : Ref sig .tc} (hr : r ∉ (Ws.take i).flatten)
    (V : Valuation τ sig Val) : after (segs.take i).flatten V (Proc.devRef .tc r) = V (Proc.devRef .tc r) :=
  after_keep (List.rel_flatten (List.forall₂_take i h)) hr V

/-- A reference no segment from the \`i\`-th on writes already holds, after the first \`i\` segments, what it holds at
    the end. -/
theorem after_take_final (h : SegWritesAre segs Ws) (i : Nat) {r : Ref sig .tc} (hr : r ∉ (Ws.drop i).flatten)
    (V : Valuation τ sig Val) :
    after (segs.take i).flatten V (Proc.devRef .tc r) = after segs.flatten V (Proc.devRef .tc r) := by
  conv_rhs => rw [← List.take_append_drop i segs, List.flatten_append, after_concat]
  rw [after_keep (List.rel_flatten (List.forall₂_drop i h)) hr]

/-- A reference no segment after the \`i + n\`-th writes holds at the end what the \`n\` segments from the \`i\`-th on leave
    in it, run from the contents the first \`i\` segments leave. -/
theorem after_flatten_read (h : SegWritesAre segs Ws) (i n : Nat) {r : Ref sig .tc} (hr : r ∉ (Ws.drop (i + n)).flatten)
    (V : Valuation τ sig Val) :
    after segs.flatten V (Proc.devRef .tc r)
      = after ((segs.drop i).take n).flatten (after (segs.take i).flatten V) (Proc.devRef .tc r) := by
  rw [← after_take_final h (i + n) hr, List.take_add, List.flatten_append, after_concat]

end Fold

variable {F : FTy → Type} [FloatOps F]

/-! ## The buffers the line writes -/

/-- For every segment of `segs`, in order, the buffer each of its operations writes. -/
abbrev Ws : List (List (Ref sig .tc)) :=
  [ [main_v0, main_v1],
    [main_v2, main_v3],
    [main_v4, main_v5, main_v6, main_v7],
    [main_v8, main_v9, main_v10, main_v11],
    [main_c, main_v12, main_v13, main_c_0, main_v14, main_v15, main_v16, main_v17, main_v18],
    [main_v19, main_v20, main_v21, main_v22, main_v23, main_v24, main_v25, main_v26, main_v27, main_call0_cst, main_call0_v0, main_v28],
    [main_cst, main_v29, main_v30, main_v31],
    [main_cst_1, main_v32, main_v33, main_v34, main_v35, main_v36, main_v37, main_v38, main_v39, main_v40, main_v41, main_v42, main_call1_cst, main_call1_v0, main_v43, main_v44, main_v45, main_v46, main_v47, main_v48, main_v49, main_v50, main_v51],
    [main_cst_2, main_v52, main_cst_3, main_v53],
    [main_v54],
    [main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v55],
    [main_v56, main_v57, main_v58, main_cst_5, main_v59, main_v60, main_v61, main_v62, main_v63, main_v64, main_v65, main_v66, main_v67, main_v68, main_v69, main_v70, main_v71, main_v72, main_v73, main_v74, main_call3_cst, main_call3_v0, main_v75, main_v76, main_cst_6, main_v77, main_v78],
    [main_c_7, main_v79, main_v80, main_c_8, main_v81, main_v82, main_v83, main_v84, main_v85],
    [main_c_9, main_v86, main_v87, main_c_10, main_v88, main_v89, main_v90, main_v91, main_v92],
    [main_v93, main_v94, main_v95, main_v96, main_v97, main_v98, main_v99, main_v100, main_v101, main_call4_cst, main_call4_v0, main_v102, main_v103, main_v104, main_v105, main_v106],
    [main_v107, main_v108, main_v109, main_v110, main_cst_11, main_v111, main_v112, main_v113],
    [main_c_12, main_v114, main_v115, main_c_13, main_v116, main_v117, main_v118, main_v119, main_v120],
    [main_v121, main_v122, main_v123, main_v124, main_v125, main_v126, main_v127, main_v128, main_v129, main_call5_cst, main_call5_v0, main_v130],
    [main_cst_14, main_v131, main_v132, main_v133],
    [main_cst_15, main_v134, main_v135, main_v136, main_v137, main_v138, main_v139, main_v140, main_v141, main_v142, main_v143, main_v144, main_call6_cst, main_call6_v0, main_v145, main_v146, main_v147, main_v148, main_v149, main_v150, main_v151, main_v152, main_v153],
    [main_cst_16, main_v154, main_cst_17, main_v155, main_v156],
    [main_c_18, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v157],
    [main_v158],
    [main_v159, main_v160, main_cst_19, main_v161, main_v162, main_v163, main_v164, main_v165, main_v166, main_v167, main_v168, main_v169, main_v170, main_v171, main_v172, main_v173, main_v174, main_v175, main_v176, main_call8_cst, main_call8_v0, main_v177, main_v178, main_cst_20, main_v179, main_v180],
    [main_c_21, main_v181, main_v182, main_c_22, main_v183, main_v184, main_v185, main_v186, main_v187],
    [main_c_23, main_v188, main_v189, main_c_24, main_v190, main_v191, main_v192, main_v193, main_v194],
    [main_v195, main_v196, main_v197, main_v198, main_v199, main_v200, main_v201, main_v202, main_v203, main_call9_cst, main_call9_v0, main_v204, main_v205, main_v206, main_v207, main_v208, main_v209, main_v210, main_v211, main_v212],
    [main_cst_25, main_v213, main_v214, main_v215] ]

/-- Walks a table of written buffers: what a builder's operation writes is its result buffer, by definition. -/
macro "writes_table" : tactic =>
  `(tactic| repeat' (first | exact List.Forall₂.nil | refine List.Forall₂.cons rfl ?_ | refine List.Forall₂.cons ?_ ?_))

/-- The table is right: operation by operation, segment by segment. -/
theorem segs_writes : SegWritesAre (segs : List (List (HloOp τ sig (Elt F)))) Ws := by writes_table

/-! ## The arguments are never written -/

theorem arg0_eq (V : Valuation τ sig (Elt F)) : after ops V main_arg0 = V main_arg0 :=
  after_flatten_untouched segs_writes (by decide) V
theorem arg1_eq (V : Valuation τ sig (Elt F)) : after ops V main_arg1 = V main_arg1 :=
  after_flatten_untouched segs_writes (by decide) V
theorem arg2_eq (V : Valuation τ sig (Elt F)) : after ops V main_arg2 = V main_arg2 :=
  after_flatten_untouched segs_writes (by decide) V
theorem arg3_eq (V : Valuation τ sig (Elt F)) : after ops V main_arg3 = V main_arg3 :=
  after_flatten_untouched segs_writes (by decide) V
theorem arg4_eq (V : Valuation τ sig (Elt F)) : after ops V main_arg4 = V main_arg4 :=
  after_flatten_untouched segs_writes (by decide) V
theorem arg5_eq (V : Valuation τ sig (Elt F)) : after ops V main_arg5 = V main_arg5 :=
  after_flatten_untouched segs_writes (by decide) V
theorem arg6_eq (V : Valuation τ sig (Elt F)) : after ops V main_arg6 = V main_arg6 :=
  after_flatten_untouched segs_writes (by decide) V
theorem arg7_eq (V : Valuation τ sig (Elt F)) : after ops V main_arg7 = V main_arg7 :=
  after_flatten_untouched segs_writes (by decide) V
theorem arg8_eq (V : Valuation τ sig (Elt F)) : after ops V main_arg8 = V main_arg8 :=
  after_flatten_untouched segs_writes (by decide) V
theorem arg9_eq (V : Valuation τ sig (Elt F)) : after ops V main_arg9 = V main_arg9 :=
  after_flatten_untouched segs_writes (by decide) V
theorem arg10_eq (V : Valuation τ sig (Elt F)) : after ops V main_arg10 = V main_arg10 :=
  after_flatten_untouched segs_writes (by decide) V
theorem arg11_eq (V : Valuation τ sig (Elt F)) : after ops V main_arg11 = V main_arg11 :=
  after_flatten_untouched segs_writes (by decide) V
theorem arg12_eq (V : Valuation τ sig (Elt F)) : after ops V main_arg12 = V main_arg12 :=
  after_flatten_untouched segs_writes (by decide) V
theorem arg13_eq (V : Valuation τ sig (Elt F)) : after ops V main_arg13 = V main_arg13 :=
  after_flatten_untouched segs_writes (by decide) V
theorem arg14_eq (V : Valuation τ sig (Elt F)) : after ops V main_arg14 = V main_arg14 :=
  after_flatten_untouched segs_writes (by decide) V
theorem arg15_eq (V : Valuation τ sig (Elt F)) : after ops V main_arg15 = V main_arg15 :=
  after_flatten_untouched segs_writes (by decide) V
theorem arg16_eq (V : Valuation τ sig (Elt F)) : after ops V main_arg16 = V main_arg16 :=
  after_flatten_untouched segs_writes (by decide) V
theorem arg17_eq (V : Valuation τ sig (Elt F)) : after ops V main_arg17 = V main_arg17 :=
  after_flatten_untouched segs_writes (by decide) V
theorem arg18_eq (V : Valuation τ sig (Elt F)) : after ops V main_arg18 = V main_arg18 :=
  after_flatten_untouched segs_writes (by decide) V

/-! ## The stage equations

Each proof is the argument of the header: `after_flatten_read` at the stage's segments (segment `i`, `n` of them; no later
segment writes the boundary), each input's final contents turned back into the contents `X` before the stage
(`after_take_final` for an earlier boundary, `after_take_untouched` for an argument), then the stage's own operations
unfolded from `X`. What `rfl` closes at the end is a `reshape`'s element-type transport and the transports between a
module-local function's value types and its call's buffers, all the identity by definition. -/
/-- The source row of the edge index: row 0 of `%arg1`, as a vector. -/
theorem stage_v1 (V : Valuation τ sig (Elt F)) :
    after ops V main_v1 =
      shapeCast S1000000
        (extractStridedSlice S1x1000000 ![0, 0] (V main_arg1) slices_S2x1000000_S1x1000000_0_0) shapeCasts_S1x1000000_S1000000 := by
  rw [after_flatten_read segs_writes 0 1 (by decide) V, ← after_take_untouched segs_writes 0 (r := main_arg1) (by decide) V]
  generalize after (List.take 0 segs).flatten V = X
  show after seg_v1 X _ = _
  simp only [seg_v1]
  after_results_simp
  all_goals rfl

/-- The destination row of the edge index: row 1 of `%arg1`, as a vector. -/
theorem stage_v3 (V : Valuation τ sig (Elt F)) :
    after ops V main_v3 =
      shapeCast S1000000
        (extractStridedSlice S1x1000000 ![1, 0] (V main_arg1) slices_S2x1000000_S1x1000000_1_0) shapeCasts_S1x1000000_S1000000 := by
  rw [after_flatten_read segs_writes 1 1 (by decide) V, ← after_take_untouched segs_writes 1 (r := main_arg1) (by decide) V]
  generalize after (List.take 1 segs).flatten V = X
  show after seg_v3 X _ = _
  simp only [seg_v3]
  after_results_simp
  all_goals rfl

/-- The node embedding: `x · Wn + bn`, the bias a row broadcast down the nodes. -/
theorem stage_v7 (V : Valuation τ sig (Elt F)) :
    after ops V main_v7 =
      addf
        (Host.dotGeneral dot_S50000x32_S32x64_S50000x64_1_0_0_1_n_n none (V main_arg0) (V main_arg3))
        (broadcastInDim S50000x64 ![0, 1] bcast_S1x64_S50000x64_0_1
           (broadcastInDim S1x64 ![1] bcast_S64_S1x64_1 (V main_arg4))) := by
  rw [after_flatten_read segs_writes 2 1 (by decide) V, ← after_take_untouched segs_writes 2 (r := main_arg0) (by decide) V,
    ← after_take_untouched segs_writes 2 (r := main_arg3) (by decide) V,
    ← after_take_untouched segs_writes 2 (r := main_arg4) (by decide) V]
  generalize after (List.take 2 segs).flatten V = X
  show after seg_v7 X _ = _
  simp only [seg_v7]
  after_results_simp
  all_goals rfl

/-- The edge embedding: `e · We + be`. -/
theorem stage_v11 (V : Valuation τ sig (Elt F)) :
    after ops V main_v11 =
      addf
        (Host.dotGeneral dot_S1000000x16_S16x64_S1000000x64_1_0_0_1_n_n none (V main_arg2) (V main_arg5))
        (broadcastInDim S1000000x64 ![0, 1] bcast_S1x64_S1000000x64_0_1
           (broadcastInDim S1x64 ![1] bcast_S64_S1x64_1 (V main_arg6))) := by
  rw [after_flatten_read segs_writes 3 1 (by decide) V, ← after_take_untouched segs_writes 3 (r := main_arg2) (by decide) V,
    ← after_take_untouched segs_writes 3 (r := main_arg5) (by decide) V,
    ← after_take_untouched segs_writes 3 (r := main_arg6) (by decide) V]
  generalize after (List.take 3 segs).flatten V = X
  show after seg_v11 X _ = _
  simp only [seg_v11]
  after_results_simp
  all_goals rfl

/-- Layer 1's gather of the node features at the source index, a negative index wrapped by the node count first. -/
theorem stage_v18 (V : Valuation τ sig (Elt F)) :
    after ops V main_v18 =
      Host.gather gather_S50000x64_S1000000x1_S1000000x64_1_0_n_n_0_1_164 (after ops V main_v7)
        (broadcastInDim S1000000x1 ![0] bcast_S1000000_S1000000x1_0
           (select
              (cmpi .slt (after ops V main_v1) (broadcastInDim S1000000 ![] bcast_S_S1000000 (constantI S_ 32 0#32)))
              (addi (after ops V main_v1) (broadcastInDim S1000000 ![] bcast_S_S1000000 (constantI S_ 32 50000#32)))
              (after ops V main_v1))) := by
  rw [after_flatten_read segs_writes 4 1 (by decide) V, ← after_take_final segs_writes 4 (r := main_v7) (by decide) V,
    ← after_take_final segs_writes 4 (r := main_v1) (by decide) V]
  generalize after (List.take 4 segs).flatten V = X
  show after seg_v18 X _ = _
  simp only [seg_v18]
  after_results_simp
  all_goals rfl

/-- Layer 1's message: `relu (h[src] + e · Wm₀ + bm₀)`. -/
theorem stage_v28 (V : Valuation τ sig (Elt F)) :
    after ops V main_v28 =
      maximumf
        (addf
           (addf (after ops V main_v18)
              (Host.dotGeneral dot_S1000000x64_S64x64_S1000000x64_1_0_0_1_n_n none (after ops V main_v11)
                 (shapeCast S64x64
                    (extractStridedSlice S1x64x64 ![0, 0, 0] (V main_arg7) slices_S2x64x64_S1x64x64_0_0_0)
                    shapeCasts_S1x64x64_S64x64)))
           (broadcastInDim S1000000x64 ![0, 1] bcast_S1x64_S1000000x64_0_1
              (broadcastInDim S1x64 ![1] bcast_S64_S1x64_1
                 (shapeCast S64
                    (extractStridedSlice S1x64 ![0, 0] (V main_arg8) slices_S2x64_S1x64_0_0) shapeCasts_S1x64_S64))))
        (broadcastInDim S1000000x64 ![] bcast_S_S1000000x64 (constant S_ .f32 0x00000000#32)) := by
  rw [after_flatten_read segs_writes 5 1 (by decide) V, ← after_take_final segs_writes 5 (r := main_v18) (by decide) V,
    ← after_take_final segs_writes 5 (r := main_v11) (by decide) V,
    ← after_take_untouched segs_writes 5 (r := main_arg7) (by decide) V,
    ← after_take_untouched segs_writes 5 (r := main_arg8) (by decide) V]
  generalize after (List.take 5 segs).flatten V = X
  show after seg_v28 X _ = _
  simp only [seg_v28]
  after_results_simp
  all_goals rfl

/-- Layer 1's aggregation: the messages scatter-added into zeros at the destination index. -/
theorem stage_v31 (V : Valuation τ sig (Elt F)) :
    after ops V main_v31 =
      Host.scatterAdd scatter_S50000x64_S1000000x1_S1000000x64_1_0_0_1
        (broadcastInDim S50000x64 ![] bcast_S_S50000x64 (constant S_ .f32 0x00000000#32))
        (broadcastInDim S1000000x1 ![0] bcast_S1000000_S1000000x1_0 (after ops V main_v3)) (after ops V main_v28) := by
  rw [after_flatten_read segs_writes 6 1 (by decide) V, ← after_take_final segs_writes 6 (r := main_v3) (by decide) V,
    ← after_take_final segs_writes 6 (r := main_v28) (by decide) V]
  generalize after (List.take 6 segs).flatten V = X
  show after seg_v31 X _ = _
  simp only [seg_v31]
  after_results_simp
  all_goals rfl

set_option maxHeartbeats 1000000 in
/-- Layer 1's node network before normalization: `relu ((1 · h + agg) · W₁ + b₁) · W₂ + b₂`. -/
theorem stage_v51 (V : Valuation τ sig (Elt F)) :
    after ops V main_v51 =
      addf
        (Host.dotGeneral dot_S50000x64_S64x64_S50000x64_1_0_0_1_n_n none
           (maximumf
              (addf
                 (Host.dotGeneral dot_S50000x64_S64x64_S50000x64_1_0_0_1_n_n none
                    (addf
                       (mulf
                          (broadcastInDim S50000x64 ![] bcast_S_S50000x64 (constant S_ .f32 0x3F800000#32))
                          (after ops V main_v7))
                       (after ops V main_v31))
                    (shapeCast S64x64
                       (extractStridedSlice S1x64x64 ![0, 0, 0] (V main_arg9) slices_S2x64x64_S1x64x64_0_0_0)
                       shapeCasts_S1x64x64_S64x64))
                 (broadcastInDim S50000x64 ![0, 1] bcast_S1x64_S50000x64_0_1
                    (broadcastInDim S1x64 ![1] bcast_S64_S1x64_1
                       (shapeCast S64
                          (extractStridedSlice S1x64 ![0, 0] (V main_arg10) slices_S2x64_S1x64_0_0) shapeCasts_S1x64_S64))))
              (broadcastInDim S50000x64 ![] bcast_S_S50000x64 (constant S_ .f32 0x00000000#32)))
           (shapeCast S64x64
              (extractStridedSlice S1x64x64 ![0, 0, 0] (V main_arg11) slices_S2x64x64_S1x64x64_0_0_0)
              shapeCasts_S1x64x64_S64x64))
        (broadcastInDim S50000x64 ![0, 1] bcast_S1x64_S50000x64_0_1
           (broadcastInDim S1x64 ![1] bcast_S64_S1x64_1
              (shapeCast S64 (extractStridedSlice S1x64 ![0, 0] (V main_arg12) slices_S2x64_S1x64_0_0) shapeCasts_S1x64_S64))) := by
  rw [after_flatten_read segs_writes 7 1 (by decide) V, ← after_take_final segs_writes 7 (r := main_v7) (by decide) V,
    ← after_take_final segs_writes 7 (r := main_v31) (by decide) V,
    ← after_take_untouched segs_writes 7 (r := main_arg9) (by decide) V,
    ← after_take_untouched segs_writes 7 (r := main_arg10) (by decide) V,
    ← after_take_untouched segs_writes 7 (r := main_arg11) (by decide) V,
    ← after_take_untouched segs_writes 7 (r := main_arg12) (by decide) V]
  generalize after (List.take 7 segs).flatten V = X
  show after seg_v51 X _ = _
  simp only [seg_v51]
  after_results_simp
  all_goals rfl

/-- Layer 1's batch mean: the column sums over the nodes divided by the node count. -/
theorem stage_v54 (V : Valuation τ sig (Elt F)) :
    after ops V main_v54 =
      Host.divf
        (Host.reduceAdd (after ops V main_v51) (constant S_ .f32 0x00000000#32) reducesTo_S50000x64_S64_d0 h_S_)
        (broadcastInDim S64 ![] bcast_S_S64 (constant S_ .f32 0x47435000#32)) := by
  rw [after_flatten_read segs_writes 8 2 (by decide) V, ← after_take_final segs_writes 8 (r := main_v51) (by decide) V]
  generalize after (List.take 8 segs).flatten V = X
  show after (seg_v53 ++ seg_v54) X _ = _
  simp only [seg_v53, seg_v54, List.cons_append, List.nil_append]
  after_results_simp
  all_goals rfl

set_option maxHeartbeats 1000000 in
/-- Layer 1's batch variance (`jnp.var`, zero degrees of freedom removed): the mean recomputed, the squared deviations' column sums over `50000 - 0`, selected against a NaN row where that divisor is not positive. -/
theorem stage_v55 (V : Valuation τ sig (Elt F)) :
    after ops V main_v55 =
      select
        (broadcastInDim S64 ![] bcast_S_S64
           (cmpf (F := F) .ogt
              (subf (constant S_ .f32 0x47435000#32) (sitofp .f32 (constantI S_ 32 0#32))) (constant S_ .f32 0x00000000#32)))
        (Host.divf
           (Host.reduceAdd
              (mulf
                 (subf (after ops V main_v51)
                    (broadcastInDim S50000x64 ![0, 1] bcast_S1x64_S50000x64_0_1
                       (Host.divf
                          (broadcastInDim S1x64 ![1] bcast_S64_S1x64_1
                             (Host.reduceAdd (after ops V main_v51) (constant S_ .f32 0x00000000#32)
                                reducesTo_S50000x64_S64_d0 h_S_))
                          (broadcastInDim S1x64 ![] bcast_S_S1x64 (constant S_ .f32 0x47435000#32)))))
                 (subf (after ops V main_v51)
                    (broadcastInDim S50000x64 ![0, 1] bcast_S1x64_S50000x64_0_1
                       (Host.divf
                          (broadcastInDim S1x64 ![1] bcast_S64_S1x64_1
                             (Host.reduceAdd (after ops V main_v51) (constant S_ .f32 0x00000000#32)
                                reducesTo_S50000x64_S64_d0 h_S_))
                          (broadcastInDim S1x64 ![] bcast_S_S1x64 (constant S_ .f32 0x47435000#32))))))
              (constant S_ .f32 0x00000000#32) reducesTo_S50000x64_S64_d0 h_S_)
           (broadcastInDim S64 ![] bcast_S_S64 (subf (constant S_ .f32 0x47435000#32) (sitofp .f32 (constantI S_ 32 0#32)))))
        (broadcastInDim S64 ![] bcast_S_S64 (constant S_ .f32 0x7FC00000#32)) := by
  rw [after_flatten_read segs_writes 10 1 (by decide) V, ← after_take_final segs_writes 10 (r := main_v51) (by decide) V]
  generalize after (List.take 10 segs).flatten V = X
  show after seg_v55 X _ = _
  simp only [seg_v55]
  after_results_simp
  all_goals rfl

set_option maxHeartbeats 1000000 in
/-- Layer 1's new node features: normalize, scale and shift, `relu`, then the residual average `(h + ·) · ½`. -/
theorem stage_v78 (V : Valuation τ sig (Elt F)) :
    after ops V main_v78 =
      mulf
        (addf (after ops V main_v7)
           (maximumf
              (addf
                 (mulf
                    (mulf
                       (subf (after ops V main_v51)
                          (broadcastInDim S50000x64 ![0, 1] bcast_S1x64_S50000x64_0_1
                             (broadcastInDim S1x64 ![1] bcast_S64_S1x64_1 (after ops V main_v54))))
                       (broadcastInDim S50000x64 ![0, 1] bcast_S1x64_S50000x64_0_1
                          (broadcastInDim S1x64 ![1] bcast_S64_S1x64_1
                             (Host.rsqrt
                                (addf (after ops V main_v55)
                                   (broadcastInDim S64 ![] bcast_S_S64 (constant S_ .f32 0x3727C5AC#32)))))))
                    (broadcastInDim S50000x64 ![0, 1] bcast_S1x64_S50000x64_0_1
                       (broadcastInDim S1x64 ![1] bcast_S64_S1x64_1
                          (shapeCast S64
                             (extractStridedSlice S1x64 ![0, 0] (V main_arg17) slices_S2x64_S1x64_0_0) shapeCasts_S1x64_S64))))
                 (broadcastInDim S50000x64 ![0, 1] bcast_S1x64_S50000x64_0_1
                    (broadcastInDim S1x64 ![1] bcast_S64_S1x64_1
                       (shapeCast S64
                          (extractStridedSlice S1x64 ![0, 0] (V main_arg18) slices_S2x64_S1x64_0_0) shapeCasts_S1x64_S64))))
              (broadcastInDim S50000x64 ![] bcast_S_S50000x64 (constant S_ .f32 0x00000000#32))))
        (broadcastInDim S50000x64 ![] bcast_S_S50000x64 (constant S_ .f32 0x3F000000#32)) := by
  rw [after_flatten_read segs_writes 11 1 (by decide) V, ← after_take_final segs_writes 11 (r := main_v7) (by decide) V,
    ← after_take_final segs_writes 11 (r := main_v51) (by decide) V,
    ← after_take_final segs_writes 11 (r := main_v54) (by decide) V,
    ← after_take_final segs_writes 11 (r := main_v55) (by decide) V,
    ← after_take_untouched segs_writes 11 (r := main_arg17) (by decide) V,
    ← after_take_untouched segs_writes 11 (r := main_arg18) (by decide) V]
  generalize after (List.take 11 segs).flatten V = X
  show after seg_v78 X _ = _
  simp only [seg_v78]
  after_results_simp
  all_goals rfl

/-- Layer 1's gather of the new node features at the source index (wrapped). -/
theorem stage_v85 (V : Valuation τ sig (Elt F)) :
    after ops V main_v85 =
      Host.gather gather_S50000x64_S1000000x1_S1000000x64_1_0_n_n_0_1_164 (after ops V main_v78)
        (broadcastInDim S1000000x1 ![0] bcast_S1000000_S1000000x1_0
           (select
              (cmpi .slt (after ops V main_v1) (broadcastInDim S1000000 ![] bcast_S_S1000000 (constantI S_ 32 0#32)))
              (addi (after ops V main_v1) (broadcastInDim S1000000 ![] bcast_S_S1000000 (constantI S_ 32 50000#32)))
              (after ops V main_v1))) := by
  rw [after_flatten_read segs_writes 12 1 (by decide) V, ← after_take_final segs_writes 12 (r := main_v78) (by decide) V,
    ← after_take_final segs_writes 12 (r := main_v1) (by decide) V]
  generalize after (List.take 12 segs).flatten V = X
  show after seg_v85 X _ = _
  simp only [seg_v85]
  after_results_simp
  all_goals rfl

/-- Layer 1's gather of the new node features at the destination index (wrapped). -/
theorem stage_v92 (V : Valuation τ sig (Elt F)) :
    after ops V main_v92 =
      Host.gather gather_S50000x64_S1000000x1_S1000000x64_1_0_n_n_0_1_164 (after ops V main_v78)
        (broadcastInDim S1000000x1 ![0] bcast_S1000000_S1000000x1_0
           (select
              (cmpi .slt (after ops V main_v3) (broadcastInDim S1000000 ![] bcast_S_S1000000 (constantI S_ 32 0#32)))
              (addi (after ops V main_v3) (broadcastInDim S1000000 ![] bcast_S_S1000000 (constantI S_ 32 50000#32)))
              (after ops V main_v3))) := by
  rw [after_flatten_read segs_writes 13 1 (by decide) V, ← after_take_final segs_writes 13 (r := main_v78) (by decide) V,
    ← after_take_final segs_writes 13 (r := main_v3) (by decide) V]
  generalize after (List.take 13 segs).flatten V = X
  show after seg_v92 X _ = _
  simp only [seg_v92]
  after_results_simp
  all_goals rfl

set_option maxHeartbeats 1000000 in
/-- Layer 1's new edge features: `e + ½ · (relu ([h'[src] | h'[dst] | e] · We₁ + be₁) · We₂ + be₂)`. -/
theorem stage_v113 (V : Valuation τ sig (Elt F)) :
    after ops V main_v113 =
      addf (after ops V main_v11)
        (mulf
           (addf
              (Host.dotGeneral dot_S1000000x64_S64x64_S1000000x64_1_0_0_1_n_n none
                 (maximumf
                    (addf
                       (Host.dotGeneral dot_S1000000x192_S192x64_S1000000x64_1_0_0_1_n_n none
                          (concatenate S1000000x192 1
                             [⟨S1000000x64, after ops V main_v85⟩, ⟨S1000000x64, after ops V main_v92⟩, ⟨S1000000x64, after ops V main_v11⟩]
                             concatenates_S1000000x64_S1000000x64_S1000000x64_S1000000x192_d1)
                          (shapeCast S192x64
                             (extractStridedSlice S1x192x64 ![0, 0, 0] (V main_arg13) slices_S2x192x64_S1x192x64_0_0_0)
                             shapeCasts_S1x192x64_S192x64))
                       (broadcastInDim S1000000x64 ![0, 1] bcast_S1x64_S1000000x64_0_1
                          (broadcastInDim S1x64 ![1] bcast_S64_S1x64_1
                             (shapeCast S64
                                (extractStridedSlice S1x64 ![0, 0] (V main_arg14) slices_S2x64_S1x64_0_0) shapeCasts_S1x64_S64))))
                    (broadcastInDim S1000000x64 ![] bcast_S_S1000000x64 (constant S_ .f32 0x00000000#32)))
                 (shapeCast S64x64
                    (extractStridedSlice S1x64x64 ![0, 0, 0] (V main_arg15) slices_S2x64x64_S1x64x64_0_0_0)
                    shapeCasts_S1x64x64_S64x64))
              (broadcastInDim S1000000x64 ![0, 1] bcast_S1x64_S1000000x64_0_1
                 (broadcastInDim S1x64 ![1] bcast_S64_S1x64_1
                    (shapeCast S64
                       (extractStridedSlice S1x64 ![0, 0] (V main_arg16) slices_S2x64_S1x64_0_0) shapeCasts_S1x64_S64))))
           (broadcastInDim S1000000x64 ![] bcast_S_S1000000x64 (constant S_ .f32 0x3F000000#32))) := by
  rw [after_flatten_read segs_writes 14 2 (by decide) V, ← after_take_final segs_writes 14 (r := main_v11) (by decide) V,
    ← after_take_final segs_writes 14 (r := main_v85) (by decide) V,
    ← after_take_final segs_writes 14 (r := main_v92) (by decide) V,
    ← after_take_untouched segs_writes 14 (r := main_arg13) (by decide) V,
    ← after_take_untouched segs_writes 14 (r := main_arg14) (by decide) V,
    ← after_take_untouched segs_writes 14 (r := main_arg15) (by decide) V,
    ← after_take_untouched segs_writes 14 (r := main_arg16) (by decide) V]
  generalize after (List.take 14 segs).flatten V = X
  show after (seg_v106 ++ seg_v113) X _ = _
  simp only [seg_v106, seg_v113, List.cons_append, List.nil_append]
  after_results_simp
  all_goals rfl

/-- Layer 2's gather of the node features at the source index (wrapped). -/
theorem stage_v120 (V : Valuation τ sig (Elt F)) :
    after ops V main_v120 =
      Host.gather gather_S50000x64_S1000000x1_S1000000x64_1_0_n_n_0_1_164 (after ops V main_v78)
        (broadcastInDim S1000000x1 ![0] bcast_S1000000_S1000000x1_0
           (select
              (cmpi .slt (after ops V main_v1) (broadcastInDim S1000000 ![] bcast_S_S1000000 (constantI S_ 32 0#32)))
              (addi (after ops V main_v1) (broadcastInDim S1000000 ![] bcast_S_S1000000 (constantI S_ 32 50000#32)))
              (after ops V main_v1))) := by
  rw [after_flatten_read segs_writes 16 1 (by decide) V, ← after_take_final segs_writes 16 (r := main_v78) (by decide) V,
    ← after_take_final segs_writes 16 (r := main_v1) (by decide) V]
  generalize after (List.take 16 segs).flatten V = X
  show after seg_v120 X _ = _
  simp only [seg_v120]
  after_results_simp
  all_goals rfl

/-- Layer 2's message. -/
theorem stage_v130 (V : Valuation τ sig (Elt F)) :
    after ops V main_v130 =
      maximumf
        (addf
           (addf (after ops V main_v120)
              (Host.dotGeneral dot_S1000000x64_S64x64_S1000000x64_1_0_0_1_n_n none (after ops V main_v113)
                 (shapeCast S64x64
                    (extractStridedSlice S1x64x64 ![1, 0, 0] (V main_arg7) slices_S2x64x64_S1x64x64_1_0_0)
                    shapeCasts_S1x64x64_S64x64)))
           (broadcastInDim S1000000x64 ![0, 1] bcast_S1x64_S1000000x64_0_1
              (broadcastInDim S1x64 ![1] bcast_S64_S1x64_1
                 (shapeCast S64
                    (extractStridedSlice S1x64 ![1, 0] (V main_arg8) slices_S2x64_S1x64_1_0) shapeCasts_S1x64_S64))))
        (broadcastInDim S1000000x64 ![] bcast_S_S1000000x64 (constant S_ .f32 0x00000000#32)) := by
  rw [after_flatten_read segs_writes 17 1 (by decide) V, ← after_take_final segs_writes 17 (r := main_v120) (by decide) V,
    ← after_take_final segs_writes 17 (r := main_v113) (by decide) V,
    ← after_take_untouched segs_writes 17 (r := main_arg7) (by decide) V,
    ← after_take_untouched segs_writes 17 (r := main_arg8) (by decide) V]
  generalize after (List.take 17 segs).flatten V = X
  show after seg_v130 X _ = _
  simp only [seg_v130]
  after_results_simp
  all_goals rfl

/-- Layer 2's aggregation. -/
theorem stage_v133 (V : Valuation τ sig (Elt F)) :
    after ops V main_v133 =
      Host.scatterAdd scatter_S50000x64_S1000000x1_S1000000x64_1_0_0_1
        (broadcastInDim S50000x64 ![] bcast_S_S50000x64 (constant S_ .f32 0x00000000#32))
        (broadcastInDim S1000000x1 ![0] bcast_S1000000_S1000000x1_0 (after ops V main_v3)) (after ops V main_v130) := by
  rw [after_flatten_read segs_writes 18 1 (by decide) V, ← after_take_final segs_writes 18 (r := main_v3) (by decide) V,
    ← after_take_final segs_writes 18 (r := main_v130) (by decide) V]
  generalize after (List.take 18 segs).flatten V = X
  show after seg_v133 X _ = _
  simp only [seg_v133]
  after_results_simp
  all_goals rfl

set_option maxHeartbeats 1000000 in
/-- Layer 2's node network before normalization. -/
theorem stage_v153 (V : Valuation τ sig (Elt F)) :
    after ops V main_v153 =
      addf
        (Host.dotGeneral dot_S50000x64_S64x64_S50000x64_1_0_0_1_n_n none
           (maximumf
              (addf
                 (Host.dotGeneral dot_S50000x64_S64x64_S50000x64_1_0_0_1_n_n none
                    (addf
                       (mulf
                          (broadcastInDim S50000x64 ![] bcast_S_S50000x64 (constant S_ .f32 0x3F800000#32))
                          (after ops V main_v78))
                       (after ops V main_v133))
                    (shapeCast S64x64
                       (extractStridedSlice S1x64x64 ![1, 0, 0] (V main_arg9) slices_S2x64x64_S1x64x64_1_0_0)
                       shapeCasts_S1x64x64_S64x64))
                 (broadcastInDim S50000x64 ![0, 1] bcast_S1x64_S50000x64_0_1
                    (broadcastInDim S1x64 ![1] bcast_S64_S1x64_1
                       (shapeCast S64
                          (extractStridedSlice S1x64 ![1, 0] (V main_arg10) slices_S2x64_S1x64_1_0) shapeCasts_S1x64_S64))))
              (broadcastInDim S50000x64 ![] bcast_S_S50000x64 (constant S_ .f32 0x00000000#32)))
           (shapeCast S64x64
              (extractStridedSlice S1x64x64 ![1, 0, 0] (V main_arg11) slices_S2x64x64_S1x64x64_1_0_0)
              shapeCasts_S1x64x64_S64x64))
        (broadcastInDim S50000x64 ![0, 1] bcast_S1x64_S50000x64_0_1
           (broadcastInDim S1x64 ![1] bcast_S64_S1x64_1
              (shapeCast S64 (extractStridedSlice S1x64 ![1, 0] (V main_arg12) slices_S2x64_S1x64_1_0) shapeCasts_S1x64_S64))) := by
  rw [after_flatten_read segs_writes 19 1 (by decide) V, ← after_take_final segs_writes 19 (r := main_v78) (by decide) V,
    ← after_take_final segs_writes 19 (r := main_v133) (by decide) V,
    ← after_take_untouched segs_writes 19 (r := main_arg9) (by decide) V,
    ← after_take_untouched segs_writes 19 (r := main_arg10) (by decide) V,
    ← after_take_untouched segs_writes 19 (r := main_arg11) (by decide) V,
    ← after_take_untouched segs_writes 19 (r := main_arg12) (by decide) V]
  generalize after (List.take 19 segs).flatten V = X
  show after seg_v153 X _ = _
  simp only [seg_v153]
  after_results_simp
  all_goals rfl

/-- Layer 2's batch mean. -/
theorem stage_v156 (V : Valuation τ sig (Elt F)) :
    after ops V main_v156 =
      Host.divf
        (Host.reduceAdd (after ops V main_v153) (constant S_ .f32 0x00000000#32) reducesTo_S50000x64_S64_d0 h_S_)
        (broadcastInDim S64 ![] bcast_S_S64 (constant S_ .f32 0x47435000#32)) := by
  rw [after_flatten_read segs_writes 20 1 (by decide) V, ← after_take_final segs_writes 20 (r := main_v153) (by decide) V]
  generalize after (List.take 20 segs).flatten V = X
  show after seg_v156 X _ = _
  simp only [seg_v156]
  after_results_simp
  all_goals rfl

set_option maxHeartbeats 1000000 in
/-- Layer 2's batch variance. -/
theorem stage_v157 (V : Valuation τ sig (Elt F)) :
    after ops V main_v157 =
      select
        (broadcastInDim S64 ![] bcast_S_S64
           (cmpf (F := F) .ogt
              (subf (constant S_ .f32 0x47435000#32) (sitofp .f32 (constantI S_ 32 0#32))) (constant S_ .f32 0x00000000#32)))
        (Host.divf
           (Host.reduceAdd
              (mulf
                 (subf (after ops V main_v153)
                    (broadcastInDim S50000x64 ![0, 1] bcast_S1x64_S50000x64_0_1
                       (Host.divf
                          (broadcastInDim S1x64 ![1] bcast_S64_S1x64_1
                             (Host.reduceAdd (after ops V main_v153) (constant S_ .f32 0x00000000#32)
                                reducesTo_S50000x64_S64_d0 h_S_))
                          (broadcastInDim S1x64 ![] bcast_S_S1x64 (constant S_ .f32 0x47435000#32)))))
                 (subf (after ops V main_v153)
                    (broadcastInDim S50000x64 ![0, 1] bcast_S1x64_S50000x64_0_1
                       (Host.divf
                          (broadcastInDim S1x64 ![1] bcast_S64_S1x64_1
                             (Host.reduceAdd (after ops V main_v153) (constant S_ .f32 0x00000000#32)
                                reducesTo_S50000x64_S64_d0 h_S_))
                          (broadcastInDim S1x64 ![] bcast_S_S1x64 (constant S_ .f32 0x47435000#32))))))
              (constant S_ .f32 0x00000000#32) reducesTo_S50000x64_S64_d0 h_S_)
           (broadcastInDim S64 ![] bcast_S_S64 (subf (constant S_ .f32 0x47435000#32) (sitofp .f32 (constantI S_ 32 0#32)))))
        (broadcastInDim S64 ![] bcast_S_S64 (constant S_ .f32 0x7FC00000#32)) := by
  rw [after_flatten_read segs_writes 21 1 (by decide) V, ← after_take_final segs_writes 21 (r := main_v153) (by decide) V]
  generalize after (List.take 21 segs).flatten V = X
  show after seg_v157 X _ = _
  simp only [seg_v157]
  after_results_simp
  all_goals rfl

set_option maxHeartbeats 1000000 in
/-- Layer 2's new node features: the first result of @main. -/
theorem stage_v180 (V : Valuation τ sig (Elt F)) :
    after ops V main_v180 =
      mulf
        (addf (after ops V main_v78)
           (maximumf
              (addf
                 (mulf
                    (mulf
                       (subf (after ops V main_v153)
                          (broadcastInDim S50000x64 ![0, 1] bcast_S1x64_S50000x64_0_1
                             (broadcastInDim S1x64 ![1] bcast_S64_S1x64_1 (after ops V main_v156))))
                       (broadcastInDim S50000x64 ![0, 1] bcast_S1x64_S50000x64_0_1
                          (broadcastInDim S1x64 ![1] bcast_S64_S1x64_1
                             (Host.rsqrt
                                (addf (after ops V main_v157)
                                   (broadcastInDim S64 ![] bcast_S_S64 (constant S_ .f32 0x3727C5AC#32)))))))
                    (broadcastInDim S50000x64 ![0, 1] bcast_S1x64_S50000x64_0_1
                       (broadcastInDim S1x64 ![1] bcast_S64_S1x64_1
                          (shapeCast S64
                             (extractStridedSlice S1x64 ![1, 0] (V main_arg17) slices_S2x64_S1x64_1_0) shapeCasts_S1x64_S64))))
                 (broadcastInDim S50000x64 ![0, 1] bcast_S1x64_S50000x64_0_1
                    (broadcastInDim S1x64 ![1] bcast_S64_S1x64_1
                       (shapeCast S64
                          (extractStridedSlice S1x64 ![1, 0] (V main_arg18) slices_S2x64_S1x64_1_0) shapeCasts_S1x64_S64))))
              (broadcastInDim S50000x64 ![] bcast_S_S50000x64 (constant S_ .f32 0x00000000#32))))
        (broadcastInDim S50000x64 ![] bcast_S_S50000x64 (constant S_ .f32 0x3F000000#32)) := by
  rw [after_flatten_read segs_writes 22 2 (by decide) V, ← after_take_final segs_writes 22 (r := main_v78) (by decide) V,
    ← after_take_final segs_writes 22 (r := main_v153) (by decide) V,
    ← after_take_final segs_writes 22 (r := main_v156) (by decide) V,
    ← after_take_final segs_writes 22 (r := main_v157) (by decide) V,
    ← after_take_untouched segs_writes 22 (r := main_arg17) (by decide) V,
    ← after_take_untouched segs_writes 22 (r := main_arg18) (by decide) V]
  generalize after (List.take 22 segs).flatten V = X
  show after (seg_v158 ++ seg_v180) X _ = _
  simp only [seg_v158, seg_v180, List.cons_append, List.nil_append]
  after_results_simp
  all_goals rfl

/-- Layer 2's gather of the new node features at the source index (wrapped). -/
theorem stage_v187 (V : Valuation τ sig (Elt F)) :
    after ops V main_v187 =
      Host.gather gather_S50000x64_S1000000x1_S1000000x64_1_0_n_n_0_1_164 (after ops V main_v180)
        (broadcastInDim S1000000x1 ![0] bcast_S1000000_S1000000x1_0
           (select
              (cmpi .slt (after ops V main_v1) (broadcastInDim S1000000 ![] bcast_S_S1000000 (constantI S_ 32 0#32)))
              (addi (after ops V main_v1) (broadcastInDim S1000000 ![] bcast_S_S1000000 (constantI S_ 32 50000#32)))
              (after ops V main_v1))) := by
  rw [after_flatten_read segs_writes 24 1 (by decide) V, ← after_take_final segs_writes 24 (r := main_v180) (by decide) V,
    ← after_take_final segs_writes 24 (r := main_v1) (by decide) V]
  generalize after (List.take 24 segs).flatten V = X
  show after seg_v187 X _ = _
  simp only [seg_v187]
  after_results_simp
  all_goals rfl

/-- Layer 2's gather of the new node features at the destination index (wrapped). -/
theorem stage_v194 (V : Valuation τ sig (Elt F)) :
    after ops V main_v194 =
      Host.gather gather_S50000x64_S1000000x1_S1000000x64_1_0_n_n_0_1_164 (after ops V main_v180)
        (broadcastInDim S1000000x1 ![0] bcast_S1000000_S1000000x1_0
           (select
              (cmpi .slt (after ops V main_v3) (broadcastInDim S1000000 ![] bcast_S_S1000000 (constantI S_ 32 0#32)))
              (addi (after ops V main_v3) (broadcastInDim S1000000 ![] bcast_S_S1000000 (constantI S_ 32 50000#32)))
              (after ops V main_v3))) := by
  rw [after_flatten_read segs_writes 25 1 (by decide) V, ← after_take_final segs_writes 25 (r := main_v180) (by decide) V,
    ← after_take_final segs_writes 25 (r := main_v3) (by decide) V]
  generalize after (List.take 25 segs).flatten V = X
  show after seg_v194 X _ = _
  simp only [seg_v194]
  after_results_simp
  all_goals rfl

set_option maxHeartbeats 1000000 in
/-- Layer 2's new edge features: the second result of @main. -/
theorem stage_v215 (V : Valuation τ sig (Elt F)) :
    after ops V main_v215 =
      addf (after ops V main_v113)
        (mulf
           (addf
              (Host.dotGeneral dot_S1000000x64_S64x64_S1000000x64_1_0_0_1_n_n none
                 (maximumf
                    (addf
                       (Host.dotGeneral dot_S1000000x192_S192x64_S1000000x64_1_0_0_1_n_n none
                          (concatenate S1000000x192 1
                             [⟨S1000000x64, after ops V main_v187⟩, ⟨S1000000x64, after ops V main_v194⟩, ⟨S1000000x64, after ops V main_v113⟩]
                             concatenates_S1000000x64_S1000000x64_S1000000x64_S1000000x192_d1)
                          (shapeCast S192x64
                             (extractStridedSlice S1x192x64 ![1, 0, 0] (V main_arg13) slices_S2x192x64_S1x192x64_1_0_0)
                             shapeCasts_S1x192x64_S192x64))
                       (broadcastInDim S1000000x64 ![0, 1] bcast_S1x64_S1000000x64_0_1
                          (broadcastInDim S1x64 ![1] bcast_S64_S1x64_1
                             (shapeCast S64
                                (extractStridedSlice S1x64 ![1, 0] (V main_arg14) slices_S2x64_S1x64_1_0) shapeCasts_S1x64_S64))))
                    (broadcastInDim S1000000x64 ![] bcast_S_S1000000x64 (constant S_ .f32 0x00000000#32)))
                 (shapeCast S64x64
                    (extractStridedSlice S1x64x64 ![1, 0, 0] (V main_arg15) slices_S2x64x64_S1x64x64_1_0_0)
                    shapeCasts_S1x64x64_S64x64))
              (broadcastInDim S1000000x64 ![0, 1] bcast_S1x64_S1000000x64_0_1
                 (broadcastInDim S1x64 ![1] bcast_S64_S1x64_1
                    (shapeCast S64
                       (extractStridedSlice S1x64 ![1, 0] (V main_arg16) slices_S2x64_S1x64_1_0) shapeCasts_S1x64_S64))))
           (broadcastInDim S1000000x64 ![] bcast_S_S1000000x64 (constant S_ .f32 0x3F000000#32))) := by
  rw [after_flatten_read segs_writes 26 2 (by decide) V, ← after_take_final segs_writes 26 (r := main_v113) (by decide) V,
    ← after_take_final segs_writes 26 (r := main_v187) (by decide) V,
    ← after_take_final segs_writes 26 (r := main_v194) (by decide) V,
    ← after_take_untouched segs_writes 26 (r := main_arg13) (by decide) V,
    ← after_take_untouched segs_writes 26 (r := main_arg14) (by decide) V,
    ← after_take_untouched segs_writes 26 (r := main_arg15) (by decide) V,
    ← after_take_untouched segs_writes 26 (r := main_arg16) (by decide) V]
  generalize after (List.take 26 segs).flatten V = X
  show after (seg_v212 ++ seg_v215) X _ = _
  simp only [seg_v212, seg_v215, List.cons_append, List.nil_append]
  after_results_simp
  all_goals rfl

end Cert.ReferenceIdeal.Hand

end
-- ==== Proof.LibRealSum.lean ====
/-
  Real entries among the extended reals, and the one law that lets a graph propagation step commute with a product by a matrix.

  At the ideal values a float is an extended real, and on the extended reals a product does not distribute over a
  sum in general (`⊤ + ⊥`). Where every entry is a real it does: this module names that condition (`IsReal`), shows
  the operations a degree normalisation is made of keep it (a finite sum, a product, a maximum, a choice between two
  reals, the reciprocal square root of a positive real), pushes the coercion `ℝ → EReal` through finite sums
  (`coe_sum`), and proves the law (`step_comm`): for real coefficients `ν e`, real rows `a e k` and a real
  column `w k`,

      0 + ∑ e ∈ S, (∑ k, a e k · w k) · ν e  =  ∑ k, (∑ e ∈ S, a e k · ν e) · w k

  — adding up weighted rows and then contracting with `w` is contracting each row with `w` and then adding up.
-/
import Idealize.ShloMosaic.PureOps.Ideal
import Idealize.ShloMosaic.PureOps.Ideal.Laws

noncomputable section

open scoped BigOperators

namespace Cert.Lib.RealSum

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One propagation step on real entries stays real: zero plus a sum of products of reals is the real sum of products. -/
theorem step_real {E : Type*} (S : Finset E) (a ν : E → ℝ) :
    (0 : EReal) + ∑ e ∈ S, (a e : EReal) * (ν e : EReal) = ((∑ e ∈ S, a e * ν e : ℝ) : EReal) := by
  rw [zero_add, coe_sum]
  simp only [EReal.coe_mul]

/-- A propagation step commutes with a contraction of the feature axis: weighting and adding up rows that were
    already contracted with `w` gives the contraction with `w` of the weighted sum of the rows. -/
theorem step_comm {E K : Type*} [Fintype K] (S : Finset E) (a : E → K → ℝ) (ν : E → ℝ) (w : K → ℝ) :
    (0 : EReal) + ∑ e ∈ S, ((∑ k, a e k * w k : ℝ) : EReal) * (ν e : EReal)
      = ((∑ k, (∑ e ∈ S, a e k * ν e) * w k : ℝ) : EReal) := by
  rw [step_real]
  refine congrArg _ ?_
  simp only [Finset.sum_mul]
  rw [Finset.sum_comm]
  refine Finset.sum_congr rfl fun k _ => Finset.sum_congr rfl fun e _ => by ring

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The ideal reciprocal square root of a positive real is a real. -/
theorem IsReal.rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- A real that is at least a positive real has a real ideal reciprocal square root. -/
theorem IsReal.rsqrt_max {x c : EReal} (hx : IsReal x) {r : ℝ} (hc : c = (r : EReal)) (hr : 0 < r) :
    IsReal (Ideal.rsqrt (Max.max x c)) := by
  obtain ⟨a, rfl⟩ := hx
  subst hc
  have : Max.max (a : EReal) (r : EReal) = ((Max.max a r : ℝ) : EReal) := (EReal.coe_strictMono.monotone.map_max (a := a) (b := r)).symm
  rw [this]
  exact IsReal.rsqrt_of_pos (lt_of_lt_of_le hr (le_max_right a r))

/-! ## The host operations a normalisation is made of, on real entries

Stated over arbitrary shapes and dimension numbers, so that at a program's literal shapes they apply to the printed
operation as it stands. -/

/-- The f32 zero word is the real `0`. -/
theorem IsReal.ofBits_zero : IsReal (FloatOps.ofBits (F := Ideal) .f32 0x00000000#32) := by
  rw [Ideal.ofBits_def, Ideal.ofBits_zero_f32]
  exact IsReal.zero

/-- A float product of reals is real. -/
theorem IsReal.fmul {x y : EReal} (hx : IsReal x) (hy : IsReal y) :
    IsReal (FloatOps.mulf (F := Ideal) (φ := .f32) x y) := hx.mul hy

/-- A choice between two reals is real, whichever the condition picks. -/
theorem IsReal.select (c : BitVec 1) {a b : EReal} (ha : IsReal a) (hb : IsReal b) : IsReal (Scalar.select c a b) := by
  unfold Scalar.select
  split <;> assumption

/-- The host's reciprocal square root of the maximum of a real and a positive real is real. -/
theorem IsReal.host_rsqrt_max {x c : EReal} (hx : IsReal x) {r : ℝ} (hc : c = (r : EReal)) (hr : 0 < r) :
    IsReal (FloatOps.hostUnary (F := Ideal) (φ := .f32) .rsqrt (FloatOps.maximumf (F := Ideal) (φ := .f32) x c)) :=
  IsReal.rsqrt_max hx hc hr

/-- An accumulating scatter of real updates into a real operand is real at every index: each element is the operand's
    plus a finite sum of updates. -/
theorem IsReal.host_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- A gathered entry of a real array is real, wherever the index points. -/
theorem IsReal.host_gather {s si t : Shape} (d : GatherDims s si t) {w : Nat} (x : s.Idx → EReal) (idx : IVec si w)
    (hx : ∀ i, IsReal (x i)) (j : t.Idx) : IsReal (Host.gather d x idx j) := hx _

end Cert.Lib.RealSum

end
-- ==== Proof.LibRealNorm.lean ====
/-
  Real entries among the extended reals, continued: what a normalisation layer needs beyond sums and products.

  * closure of "is a real number" under negation, subtraction, the exponential, a quotient by a nonzero real, the
    host's sum along axes, and the logistic gate `y · (1 / (1 + exp (−y)))`;
  * a positive normal binary32 pattern denotes a positive real;
  * THE AFFINE LAW of a normalisation: for real `a μ r γ β`,
        a · (γ · r) + (β − μ · (γ · r))  =  (a − μ) · r · γ + β.
    On the extended reals this is false at infinities (the left side distributes a product over a difference), which
    is why every factor is first shown to be a real number.
-/
import Idealize.ShloMosaic.PureOps.Ideal
import Idealize.ShloMosaic.PureOps.Ideal.Laws
import proofs.«133695_j30227979829590_2_alg».proof.Proof.LibRealSum

noncomputable section

namespace Cert.Lib.RealNorm

open Idealize.ShloMosaic Cert.Lib.RealSum

theorem isReal_one : IsReal (1 : EReal) := ⟨1, EReal.coe_one.symm⟩

theorem isReal_neg {x : EReal} (hx : IsReal x) : IsReal (-x) := by
  obtain ⟨a, rfl⟩ := hx; exact ⟨-a, (EReal.coe_neg a).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_exp {x : EReal} (hx : IsReal x) : IsReal (Ideal.exp x) := by
  obtain ⟨a, rfl⟩ := hx; exact ⟨Real.exp a, rfl⟩

/-- A real divided by a nonzero real is a real: the ideal quotient is the product with the reciprocal. -/
theorem isReal_div {x : EReal} (hx : IsReal x) {r : ℝ} (hr : r ≠ 0) : IsReal (Ideal.div x (r : EReal)) := by
  rw [Ideal.div_coe hr]; exact hx.mul (IsReal.coe _)

/-- The host's sum along axes of a real array, from a real initial value, is real at every index. -/
theorem isReal_hostReduceAdd {s : Shape} {axes : List (Fin s.rank)} {t : Shape} (h : s.ReducesTo axes t)
    (x : s.Idx → EReal) (init : EReal) (hx : ∀ i, IsReal (x i)) (hi : IsReal init) (j : t.Idx) :
    IsReal (Ideal.hostReduceAdd h x init j) := by
  unfold Ideal.hostReduceAdd
  exact hi.add (IsReal.sum _ _ fun i _ => hx i)

/-- The exponential of a real is a positive real, so one plus it is a nonzero real. -/
theorem one_add_exp_neg (a : ℝ) : (1 : EReal) + Ideal.exp (-(a : EReal)) = ((1 + Real.exp (-a) : ℝ) : EReal) := by
  rw [← EReal.coe_neg]; rfl

/-- The logistic gate of a real is a real. -/
theorem isReal_gate {y : EReal} (hy : IsReal y) : IsReal (y * Ideal.div 1 (1 + Ideal.exp (-y))) := by
  obtain ⟨a, rfl⟩ := hy
  rw [one_add_exp_neg, Ideal.div_coe (by positivity)]
  exact (IsReal.coe a).mul (isReal_one.mul (IsReal.coe _))

/-- On a real the logistic function is the quotient `1 / (1 + exp (−y))`: both are the real `(1 + e^{−y})⁻¹`. -/
theorem logistic_coe_eq_div (a : ℝ) :
    Ideal.logistic (a : EReal) = Ideal.div 1 (1 + Ideal.exp (-(a : EReal))) := by
  rw [Ideal.logistic_coe, one_add_exp_neg, Ideal.div_coe (by positivity), one_mul, one_div]

theorem isReal_logistic {y : EReal} (hy : IsReal y) : IsReal (Ideal.logistic y) := by
  obtain ⟨a, rfl⟩ := hy; rw [Ideal.logistic_coe]; exact IsReal.coe _

/-- The affine law on reals. -/
theorem affine_coe (a μ r γ β : ℝ) :
    (a : EReal) * ((γ : EReal) * (r : EReal)) + ((β : EReal) - (μ : EReal) * ((γ : EReal) * (r : EReal)))
      = ((a : EReal) - (μ : EReal)) * (r : EReal) * (γ : EReal) + (β : EReal) := by
  simp only [← EReal.coe_mul, ← EReal.coe_sub, ← EReal.coe_add]
  congr 1; ring

/-- THE AFFINE LAW: scaling by `γ·r` and shifting by `β − μ·(γ·r)` is centring at `μ`, scaling by `r`, then by `γ`, and
    shifting by `β` — for real numbers. -/
theorem affine {a μ r γ β : EReal} (ha : IsReal a) (hμ : IsReal μ) (hr : IsReal r) (hγ : IsReal γ) (hβ : IsReal β) :
    a * (γ * r) + (β - μ * (γ * r)) = (a - μ) * r * γ + β := by
  obtain ⟨a, rfl⟩ := ha; obtain ⟨μ, rfl⟩ := hμ; obtain ⟨r, rfl⟩ := hr; obtain ⟨γ, rfl⟩ := hγ; obtain ⟨β, rfl⟩ := hβ
  exact affine_coe a μ r γ β

/-- A binary32 pattern with sign bit clear and exponent field neither all zeros nor all ones denotes a positive
    real: `(2^23 + fraction) · 2^(exponent − 127 − 23)`. -/
theorem ofBits_pos_of_normal (b : BitVec 32) (hs : (b.extractLsb' 31 1 == 1#1) = false)
    (h1 : (b.extractLsb' 23 8).toNat ≠ 255) (h0 : (b.extractLsb' 23 8).toNat ≠ 0) :
    ∃ r : ℝ, 0 < r ∧ Ideal.ofBits .f32 b = (r : EReal) := by
  refine ⟨(1 : ℝ) * ((2 ^ 23 + (b.extractLsb' 0 23).toNat : ℕ) : ℝ) * (2 : ℝ) ^ (((b.extractLsb' 23 8).toNat : Int) - (2 ^ (8 - 1) - 1) - 23), by positivity, ?_⟩
  show Ideal.ieee 8 23 b = _
  unfold Ideal.ieee
  simp only [hs]
  rw [if_neg (by simpa using h1), if_neg h0]
  simp

end Cert.Lib.RealNorm

end
-- ==== Proof.SpecLaws.lean ====
/-
  The laws of the specification that do not mention a program: every stage keeps real entries real, and on real
  entries the two variance formulas agree.

  The ideal value of a float is an extended real, and several identities of real arithmetic fail there
  (`⊤ - ⊤`, a product distributed over a difference). Every law below therefore first shows that the numbers in play
  are real numbers. The four literals are the reals 1, 1/2, 50000 and a positive ε; sums, products, maxima, the
  quotient by 50000 and the reciprocal square root of a positive real keep real numbers real, so every stage of a
  layer does; and for a matrix of 50000 real rows, with μ the column mean,

      (Σ (x − μ)²) / 50000  =  (Σ x²) / 50000 − μ²,

  because the number of rows is the divisor: Σ (x − μ)² = Σ x² − 2 μ Σ x + 50000 μ² and Σ x = 50000 μ.
-/
import Idealize.ShloMosaic.PureOps.Ideal
import Idealize.ShloMosaic.PureOps.Ideal.Laws
import proofs.«133695_j30227979829590_2_alg».proof.Proof.Spec
import proofs.«133695_j30227979829590_2_alg».proof.Proof.LibRealSum
import proofs.«133695_j30227979829590_2_alg».proof.Proof.LibRealNorm

noncomputable section

open scoped BigOperators

namespace Cert.Gine

open Idealize.ShloMosaic Cert.Lib.RealSum Cert.Lib.RealNorm

/-! ## The four literals as real numbers -/

/-- `0x3F800000` is `1.0`: exponent field 127, fraction 0. -/
theorem cOne_eq : cOne = ((1 : ℝ) : EReal) := by
  unfold cOne
  simp [Ideal.ofBits, Ideal.ieee, -EReal.coe_mul]
  norm_num

/-- `0x3F000000` is `0.5`: exponent field 126, fraction 0. -/
theorem cHalf_eq : cHalf = ((1 / 2 : ℝ) : EReal) := by
  unfold cHalf
  simp [Ideal.ofBits, Ideal.ieee, -EReal.coe_mul]
  norm_num

/-- `0x47435000` is `50000.0`: exponent field 142, so `(2^23 + 0x435000) · 2^(15 − 23) = 12800000 / 256`. -/
theorem cN_eq : cN = ((50000 : ℝ) : EReal) := by
  unfold cN
  simp [Ideal.ofBits, Ideal.ieee, -EReal.coe_mul]
  norm_num

/-- `0x3727C5AC` (the float nearest `1e-5`) has sign bit clear and exponent field 110, neither 0 nor 255: it is a
    positive real. Its exact value is never needed. -/
theorem cEps_pos : ∃ ε : ℝ, 0 < ε ∧ cEps = (ε : EReal) :=
  ofBits_pos_of_normal 0x3727C5AC#32 (by decide) (by decide) (by decide)

theorem cOne_real : IsReal cOne := cOne_eq ▸ IsReal.coe 1

theorem cHalf_real : IsReal cHalf := cHalf_eq ▸ IsReal.coe (1 / 2)

theorem cN_real : IsReal cN := cN_eq ▸ IsReal.coe 50000

theorem cEps_real : IsReal cEps := by
  obtain ⟨ε, -, h⟩ := cEps_pos
  exact h ▸ IsReal.coe ε

/-- A real divided by the literal 50000 is a real. -/
theorem div_cN_real {x : EReal} (hx : IsReal x) : IsReal (Ideal.div x cN) := by
  rw [cN_eq]
  exact isReal_div hx (by norm_num)

/-! ## Every row stage keeps real entries real -/

theorem lin_real {K N : Nat} {W : Mat K N} {b : Row N} {x : Row K} (hW : ∀ k q, IsReal (W k q))
    (hb : ∀ q, IsReal (b q)) (hx : ∀ k, IsReal (x k)) (q : Fin N) : IsReal (lin W b x q) :=
  (IsReal.sum _ _ fun k _ => (hx k).mul (hW k q)).add (hb q)

theorem relu_real {N : Nat} {v : Row N} (hv : ∀ q, IsReal (v q)) (q : Fin N) : IsReal (relu v q) :=
  (hv q).max IsReal.zero

theorem msg_real {W : Mat 64 64} {b hs ea : Row 64} (hW : ∀ k q, IsReal (W k q)) (hb : ∀ q, IsReal (b q))
    (hhs : ∀ q, IsReal (hs q)) (hea : ∀ q, IsReal (ea q)) (q : Fin 64) : IsReal (msg W b hs ea q) :=
  relu_real (fun q => (hhs q).add (lin_real hW hb hea q)) q

theorem nodeOut_real {W1 W2 : Mat 64 64} {b1 b2 h agg : Row 64} (hW1 : ∀ k q, IsReal (W1 k q))
    (hb1 : ∀ q, IsReal (b1 q)) (hW2 : ∀ k q, IsReal (W2 k q)) (hb2 : ∀ q, IsReal (b2 q))
    (hh : ∀ q, IsReal (h q)) (hagg : ∀ q, IsReal (agg q)) (q : Fin 64) :
    IsReal (nodeOut W1 b1 W2 b2 h agg q) :=
  lin_real hW2 hb2 (relu_real (lin_real hW1 hb1 fun q => (cOne_real.mul (hh q)).add (hagg q))) q

theorem cat3_real {a b c : Row 64} (ha : ∀ q, IsReal (a q)) (hb : ∀ q, IsReal (b q)) (hc : ∀ q, IsReal (c q))
    (j : Fin 192) : IsReal (cat3 a b c j) := by
  unfold cat3
  split
  · exact ha _
  · split
    · exact hb _
    · exact hc _

theorem edgeUpd_real {W1 : Mat 192 64} {W2 : Mat 64 64} {b1 b2 hs hd ea : Row 64} (hW1 : ∀ k q, IsReal (W1 k q))
    (hb1 : ∀ q, IsReal (b1 q)) (hW2 : ∀ k q, IsReal (W2 k q)) (hb2 : ∀ q, IsReal (b2 q))
    (hhs : ∀ q, IsReal (hs q)) (hhd : ∀ q, IsReal (hd q)) (hea : ∀ q, IsReal (ea q)) (q : Fin 64) :
    IsReal (edgeUpd W1 b1 W2 b2 hs hd ea q) :=
  (hea q).add ((lin_real hW2 hb2 (relu_real (lin_real hW1 hb1 (cat3_real hhs hhd hea))) q).mul cHalf_real)

/-! ## The column statistics of a real matrix are real -/

theorem colSum_real {M N : Nat} {A : Mat M N} (hA : ∀ r q, IsReal (A r q)) (q : Fin N) : IsReal (colSum A q) :=
  IsReal.sum _ _ fun r _ => hA r q

theorem mean_real {M N : Nat} {A : Mat M N} (hA : ∀ r q, IsReal (A r q)) (q : Fin N) : IsReal (mean A q) :=
  div_cN_real (colSum_real hA q)

theorem varK_real {M N : Nat} {A : Mat M N} (hA : ∀ r q, IsReal (A r q)) (q : Fin N) : IsReal (varK A q) :=
  isReal_sub (div_cN_real (IsReal.sum _ _ fun r _ => (hA r q).mul (hA r q)))
    ((mean_real hA q).mul (mean_real hA q))

theorem varR_real {M N : Nat} {A : Mat M N} (hA : ∀ r q, IsReal (A r q)) (q : Fin N) : IsReal (varR A q) :=
  div_cN_real (IsReal.sum _ _ fun r _ =>
    (isReal_sub (hA r q) (mean_real hA q)).mul (isReal_sub (hA r q) (mean_real hA q)))

/-! ## The statistics of a matrix of real numbers, computed in the reals -/

/-- Real witnesses for a matrix with real entries. -/
theorem exists_real_mat {M N : Nat} {A : Mat M N} (hA : ∀ r q, IsReal (A r q)) :
    ∃ a : Fin M → Fin N → ℝ, A = fun r q => ((a r q : ℝ) : EReal) := by
  have hA' : ∀ r q, ∃ x : ℝ, A r q = (x : EReal) := hA
  choose a ha using hA'
  exact ⟨a, funext fun r => funext fun q => ha r q⟩

/-- The mean of a matrix of reals: the real column sum times `1 / 50000`. -/
theorem mean_coe {M N : Nat} (a : Fin M → Fin N → ℝ) (q : Fin N) :
    mean (fun r q => ((a r q : ℝ) : EReal)) q = (((∑ r, a r q) * (1 / 50000) : ℝ) : EReal) := by
  show Ideal.div (∑ r, ((a r q : ℝ) : EReal)) cN = _
  rw [cN_eq, Ideal.div_coe (by norm_num), ← coe_sum, ← EReal.coe_mul]

/-- The mean of the squares minus the squared mean, of a matrix of reals. -/
theorem varK_coe {M N : Nat} (a : Fin M → Fin N → ℝ) (q : Fin N) :
    varK (fun r q => ((a r q : ℝ) : EReal)) q
      = (((∑ r, a r q * a r q) * (1 / 50000)
          - ((∑ r, a r q) * (1 / 50000)) * ((∑ r, a r q) * (1 / 50000)) : ℝ) : EReal) := by
  show Ideal.div (∑ r, ((a r q : ℝ) : EReal) * ((a r q : ℝ) : EReal)) cN
      - mean (fun r q => ((a r q : ℝ) : EReal)) q * mean (fun r q => ((a r q : ℝ) : EReal)) q = _
  rw [mean_coe, cN_eq, Ideal.div_coe (by norm_num)]
  simp only [← EReal.coe_mul, ← coe_sum, ← EReal.coe_sub]

/-- The mean of the squared deviations from the mean, of a matrix of reals. -/
theorem varR_coe {M N : Nat} (a : Fin M → Fin N → ℝ) (q : Fin N) :
    varR (fun r q => ((a r q : ℝ) : EReal)) q
      = (((∑ r, (a r q - (∑ s, a s q) * (1 / 50000)) * (a r q - (∑ s, a s q) * (1 / 50000))) * (1 / 50000) : ℝ)
          : EReal) := by
  show Ideal.div (∑ r, (((a r q : ℝ) : EReal) - mean (fun r q => ((a r q : ℝ) : EReal)) q)
      * (((a r q : ℝ) : EReal) - mean (fun r q => ((a r q : ℝ) : EReal)) q)) cN = _
  rw [mean_coe, cN_eq, Ideal.div_coe (by norm_num)]
  simp only [← EReal.coe_sub, ← EReal.coe_mul, ← coe_sum]

/-- THE VARIANCE IDENTITY over the reals. For `n` numbers with sum `S`, a factor `d` with `n · d = 1` and `μ = S · d`:
    `Σ (x − μ)² = Σ x² − 2 μ S + n μ²`, so `(Σ (x − μ)²) · d = (Σ x²) · d − 2 μ² + (n · d) μ² = (Σ x²) · d − μ²`. -/
theorem var_real {n : Nat} (a : Fin n → ℝ) (d : ℝ) (hd : (n : ℝ) * d = 1) :
    (∑ r, (a r - (∑ s, a s) * d) * (a r - (∑ s, a s) * d)) * d
      = (∑ r, a r * a r) * d - ((∑ s, a s) * d) * ((∑ s, a s) * d) := by
  have expand : ∑ r, (a r - (∑ s, a s) * d) * (a r - (∑ s, a s) * d)
      = (∑ r, a r * a r) - 2 * ((∑ s, a s) * d) * (∑ s, a s) + n * (((∑ s, a s) * d) * ((∑ s, a s) * d)) := by
    simp only [sub_mul, mul_sub, Finset.sum_sub_distrib, ← Finset.mul_sum, ← Finset.sum_mul, Finset.sum_const,
      Finset.card_univ, Fintype.card_fin, nsmul_eq_mul]
    ring
  rw [expand]
  linear_combination ((∑ s, a s) * d) ^ 2 * hd

/-- On 50000 real rows the mean of the squared deviations is the mean of the squares minus the squared mean. -/
theorem varR_eq_varK {N : Nat} (A : Mat 50000 N) (hA : ∀ r q, IsReal (A r q)) : varR A = varK A := by
  obtain ⟨a, rfl⟩ := exists_real_mat hA
  funext q
  rw [varR_coe, varK_coe, var_real (fun r => a r q) (1 / 50000) (by norm_num)]

/-- The mean of squared deviations of a real matrix is a nonnegative real. -/
theorem varR_nonneg {M N : Nat} {A : Mat M N} (hA : ∀ r q, IsReal (A r q)) (q : Fin N) :
    ∃ v : ℝ, 0 ≤ v ∧ varR A q = (v : EReal) := by
  obtain ⟨a, rfl⟩ := exists_real_mat hA
  exact ⟨_, mul_nonneg (Finset.sum_nonneg fun r _ => mul_self_nonneg _) (by norm_num), varR_coe a q⟩

/-- So, on 50000 real rows, is the mean of the squares minus the squared mean. -/
theorem varK_nonneg {N : Nat} {A : Mat 50000 N} (hA : ∀ r q, IsReal (A r q)) (q : Fin N) :
    ∃ v : ℝ, 0 ≤ v ∧ varK A q = (v : EReal) :=
  varR_eq_varK A hA ▸ varR_nonneg hA q

/-! ## The normalisation keeps real entries real when the variance is a nonnegative real -/

/-- With a nonnegative real variance `v` and the positive literal `ε`, `v + ε` is a positive real, its reciprocal
    square root is a real, and the rest of the update is sums, products and a maximum of reals. -/
theorem bnUpd_real {mu var γ β out h : Row 64} (hmu : ∀ q, IsReal (mu q))
    (hvar : ∀ q, ∃ v : ℝ, 0 ≤ v ∧ var q = (v : EReal)) (hγ : ∀ q, IsReal (γ q)) (hβ : ∀ q, IsReal (β q))
    (hout : ∀ q, IsReal (out q)) (hh : ∀ q, IsReal (h q)) (q : Fin 64) : IsReal (bnUpd mu var γ β out h q) := by
  obtain ⟨ε, hε, he⟩ := cEps_pos
  obtain ⟨v, hv, hvq⟩ := hvar q
  have hrs : IsReal (Ideal.rsqrt (var q + cEps)) := by
    rw [hvq, he, ← EReal.coe_add]
    exact IsReal.rsqrt_of_pos (by positivity)
  exact ((hh q).add (((((isReal_sub (hout q) (hmu q)).mul hrs).mul (hγ q)).add (hβ q)).max IsReal.zero)).mul
    cHalf_real

/-! ## A whole layer

The gathers `Gs`, `Gd` and the scatter `Sc` stay abstract: all that is asked of them is that they keep real entries
real. -/

/-- Every entry of a layer's weights is a real. -/
structure LayerW.Real (w : LayerW) : Prop where
  elinW : ∀ k q, IsReal (w.elinW k q)
  elinb : ∀ q, IsReal (w.elinb q)
  W1 : ∀ k q, IsReal (w.W1 k q)
  b1 : ∀ q, IsReal (w.b1 q)
  W2 : ∀ k q, IsReal (w.W2 k q)
  b2 : ∀ q, IsReal (w.b2 q)
  eW1 : ∀ k q, IsReal (w.eW1 k q)
  eb1 : ∀ q, IsReal (w.eb1 q)
  eW2 : ∀ k q, IsReal (w.eW2 k q)
  eb2 : ∀ q, IsReal (w.eb2 q)
  γ : ∀ q, IsReal (w.γ q)
  β : ∀ q, IsReal (w.β q)

section Layer

variable {Gs Gd : NodeArr → EdgeArr} {Sc : EdgeArr → NodeArr} {w : LayerW} {h : NodeArr} {ea : EdgeArr}

theorem layerOut_real (hGs : ∀ X : NodeArr, (∀ r q, IsReal (X r q)) → ∀ e q, IsReal (Gs X e q))
    (hSc : ∀ Y : EdgeArr, (∀ e q, IsReal (Y e q)) → ∀ r q, IsReal (Sc Y r q)) (hw : w.Real)
    (hh : ∀ r q, IsReal (h r q)) (hea : ∀ e q, IsReal (ea e q)) (r : Fin 50000) (q : Fin 64) :
    IsReal (layerOut Gs Sc w h ea r q) :=
  nodeOut_real hw.W1 hw.b1 hw.W2 hw.b2 (hh r)
    (hSc _ (fun e => msg_real hw.elinW hw.elinb (hGs h hh e) (hea e)) r) q

/-- With the variance as mean of squares minus squared mean, the new node rows are real: the perceptron outputs
    are 50000 real rows, so that variance is a nonnegative real. -/
theorem layerH_varK_real (hGs : ∀ X : NodeArr, (∀ r q, IsReal (X r q)) → ∀ e q, IsReal (Gs X e q))
    (hSc : ∀ Y : EdgeArr, (∀ e q, IsReal (Y e q)) → ∀ r q, IsReal (Sc Y r q)) (hw : w.Real)
    (hh : ∀ r q, IsReal (h r q)) (hea : ∀ e q, IsReal (ea e q)) (r : Fin 50000) (q : Fin 64) :
    IsReal (layerH varK Gs Sc w h ea r q) :=
  bnUpd_real (mean_real (layerOut_real hGs hSc hw hh hea)) (varK_nonneg (layerOut_real hGs hSc hw hh hea))
    hw.γ hw.β (layerOut_real hGs hSc hw hh hea r) (hh r) q

/-- The new edge rows, from real node rows `h'` and real edge rows, are real. -/
theorem layerE_real {h' : NodeArr} (hGs : ∀ X : NodeArr, (∀ r q, IsReal (X r q)) → ∀ e q, IsReal (Gs X e q))
    (hGd : ∀ X : NodeArr, (∀ r q, IsReal (X r q)) → ∀ e q, IsReal (Gd X e q)) (hw : w.Real)
    (hh' : ∀ r q, IsReal (h' r q)) (hea : ∀ e q, IsReal (ea e q)) (e : Fin 1000000) (q : Fin 64) :
    IsReal (layerE Gs Gd w h' ea e q) :=
  edgeUpd_real hw.eW1 hw.eb1 hw.eW2 hw.eb2 (hGs h' hh' e) (hGd h' hh' e) (hea e) q

/-- On real inputs a layer's new node rows do not depend on which of the two variance formulas is used. -/
theorem layerH_varR_eq_varK (hGs : ∀ X : NodeArr, (∀ r q, IsReal (X r q)) → ∀ e q, IsReal (Gs X e q))
    (hSc : ∀ Y : EdgeArr, (∀ e q, IsReal (Y e q)) → ∀ r q, IsReal (Sc Y r q)) (hw : w.Real)
    (hh : ∀ r q, IsReal (h r q)) (hea : ∀ e q, IsReal (ea e q)) :
    layerH varR Gs Sc w h ea = layerH varK Gs Sc w h ea := by
  unfold layerH
  rw [varR_eq_varK _ (layerOut_real hGs hSc hw hh hea)]

end Layer

end Cert.Gine

end
-- ==== Proof.NetLaws.lean ====
/-
  The laws of the whole network: real arguments give real arrays at every stage, and then the two results do not
  depend on which variance formula the layers use.

  The argument arrays enter the network only through affine maps, so real arguments give real input projections
  and real weights; a layer keeps real arrays real as long as its gathers and its scatter do (the laws of the
  specification); and wherever a layer's perceptron outputs are 50000 real rows the two variance formulas give the
  same number, so the layer's result is the same under either. The last part shows that the gathers and the
  accumulating scatter of the two programs — rows picked at an index array, rows summed into a zero array at an index
  array — keep real entries real whatever the index arrays hold.
-/
import Idealize.ShloMosaic.Lib.ValueIdx
import proofs.«133695_j30227979829590_2_alg».proof.Proof.Net
import proofs.«133695_j30227979829590_2_alg».proof.Proof.SpecLaws
import proofs.«133695_j30227979829590_2_alg».proof.Proof.Conv
import proofs.«133695_j30227979829590_2_alg».proof.Proof.LibRealSum

noncomputable section

namespace Cert.Gine

open Idealize.ShloMosaic Idealize.ShloMosaic.ValueIdx Cert.Lib.RealSum

/-- Every entry of every float argument is a real. -/
structure Args.Real (a : Args) : Prop where
  x : ∀ i, IsReal (a.x i)
  edgeAttr : ∀ i, IsReal (a.edgeAttr i)
  nodeW : ∀ i, IsReal (a.nodeW i)
  nodeb : ∀ i, IsReal (a.nodeb i)
  edgeW : ∀ i, IsReal (a.edgeW i)
  edgeb : ∀ i, IsReal (a.edgeb i)
  elinW : ∀ i, IsReal (a.elinW i)
  elinb : ∀ i, IsReal (a.elinb i)
  mlp1W : ∀ i, IsReal (a.mlp1W i)
  mlp1b : ∀ i, IsReal (a.mlp1b i)
  mlp2W : ∀ i, IsReal (a.mlp2W i)
  mlp2b : ∀ i, IsReal (a.mlp2b i)
  emlp1W : ∀ i, IsReal (a.emlp1W i)
  emlp1b : ∀ i, IsReal (a.emlp1b i)
  emlp2W : ∀ i, IsReal (a.emlp2W i)
  emlp2b : ∀ i, IsReal (a.emlp2b i)
  gamma : ∀ i, IsReal (a.gamma i)
  beta : ∀ i, IsReal (a.beta i)

/-- A slab or a row of a real array is real: layer `i`'s weights are. -/
theorem Args.Real.w {a : Args} (ha : a.Real) (i : Fin 2) : (a.w i).Real where
  elinW := fun k q => ha.elinW (ix3 i k q)
  elinb := fun q => ha.elinb (ix2 i q)
  W1 := fun k q => ha.mlp1W (ix3 i k q)
  b1 := fun q => ha.mlp1b (ix2 i q)
  W2 := fun k q => ha.mlp2W (ix3 i k q)
  b2 := fun q => ha.mlp2b (ix2 i q)
  eW1 := fun k q => ha.emlp1W (ix3 i k q)
  eb1 := fun q => ha.emlp1b (ix2 i q)
  eW2 := fun k q => ha.emlp2W (ix3 i k q)
  eb2 := fun q => ha.emlp2b (ix2 i q)
  γ := fun q => ha.gamma (ix2 i q)
  β := fun q => ha.beta (ix2 i q)

/-- The node input projection of real arguments is real. -/
theorem H0_real {a : Args} (ha : a.Real) (r : Fin 50000) (q : Fin 64) : IsReal (H0 a r q) :=
  lin_real (fun k q => ha.nodeW (ix2 k q)) (fun q => ha.nodeb (ix1 q)) (fun k => ha.x (ix2 r k)) q

/-- The edge input projection of real arguments is real. -/
theorem E0_real {a : Args} (ha : a.Real) (e : Fin 1000000) (q : Fin 64) : IsReal (E0 a e q) :=
  lin_real (fun k q => ha.edgeW (ix2 k q)) (fun q => ha.edgeb (ix1 q)) (fun k => ha.edgeAttr (ix2 e k)) q

section Layers

variable {Gs Gd : NodeArr → EdgeArr} {Sc : EdgeArr → NodeArr} {a : Args}
  (hGs : ∀ X : NodeArr, (∀ r q, IsReal (X r q)) → ∀ e q, IsReal (Gs X e q))
  (hGd : ∀ X : NodeArr, (∀ r q, IsReal (X r q)) → ∀ e q, IsReal (Gd X e q))
  (hSc : ∀ Y : EdgeArr, (∀ e q, IsReal (Y e q)) → ∀ r q, IsReal (Sc Y r q)) (ha : a.Real)

include hGs hSc ha in
theorem H1_varK_real (r : Fin 50000) (q : Fin 64) : IsReal (H1 varK Gs Sc a r q) :=
  layerH_varK_real hGs hSc (ha.w 0) (H0_real ha) (E0_real ha) r q

include hGs hGd hSc ha in
theorem E1_varK_real (e : Fin 1000000) (q : Fin 64) : IsReal (E1 varK Gs Gd Sc a e q) :=
  layerE_real hGs hGd (ha.w 0) (H1_varK_real hGs hSc ha) (E0_real ha) e q

include hGs hGd hSc ha in
theorem H2_varK_real (r : Fin 50000) (q : Fin 64) : IsReal (H2 varK Gs Gd Sc a r q) :=
  layerH_varK_real hGs hSc (ha.w 1) (H1_varK_real hGs hSc ha) (E1_varK_real hGs hGd hSc ha) r q

include hGs hGd hSc ha in
theorem E2_varK_real (e : Fin 1000000) (q : Fin 64) : IsReal (E2 varK Gs Gd Sc a e q) :=
  layerE_real hGs hGd (ha.w 1) (H2_varK_real hGs hGd hSc ha) (E1_varK_real hGs hGd hSc ha) e q

/-! The first layer's inputs are real, so its node rows are the same under either variance formula; then so are
    its edge rows, which are computed from them; then the second layer's inputs are those same real arrays, and the
    argument repeats. -/

include hGs hSc ha in
theorem H1_varR_eq : H1 varR Gs Sc a = H1 varK Gs Sc a :=
  layerH_varR_eq_varK hGs hSc (ha.w 0) (H0_real ha) (E0_real ha)

include hGs hSc ha in
theorem E1_varR_eq : E1 varR Gs Gd Sc a = E1 varK Gs Gd Sc a := by
  unfold E1
  rw [H1_varR_eq hGs hSc ha]

include hGs hGd hSc ha in
theorem H2_varR_eq : H2 varR Gs Gd Sc a = H2 varK Gs Gd Sc a := by
  unfold H2
  rw [H1_varR_eq hGs hSc ha, E1_varR_eq hGs hSc ha]
  exact layerH_varR_eq_varK hGs hSc (ha.w 1) (H1_varK_real hGs hSc ha) (E1_varK_real hGs hGd hSc ha)

include hGs hGd hSc ha in
theorem E2_varR_eq : E2 varR Gs Gd Sc a = E2 varK Gs Gd Sc a := by
  unfold E2
  rw [H2_varR_eq hGs hGd hSc ha, E1_varR_eq hGs hSc ha]

end Layers

/-! ## The programs' gathers and scatter keep real entries real -/

/-- Rows gathered from a real node array are real, whatever the index array holds: a gathered entry IS an entry of
    the operand. -/
theorem gather_rows_real {si : Shape} {w : Nat}
    (g : GatherDims (⟨2, ![50000, 64]⟩ : Shape) si (⟨2, ![1000000, 64]⟩ : Shape)) (idx : IVec si w) (X : NodeArr)
    (hX : ∀ r q, IsReal (X r q)) (e : Fin 1000000) (q : Fin 64) :
    IsReal (rowsOf (Host.gather g (arrOf X) idx) e q) :=
  IsReal.host_gather g (arrOf X) idx (fun i => hX (i 0) (i 1)) (ix2 e q)

/-- A splat of the float zero is real at every index. -/
theorem zeros_real {s : Shape} (hb : (⟨0, ![]⟩ : Shape).BroadcastsInDim s (![] : Fin 0 → Fin s.rank)) (i : s.Idx) :
    IsReal (broadcastInDim s ![] hb (constant (F := Ideal) (⟨0, ![]⟩ : Shape) .f32 0x00000000#32) i) :=
  IsReal.ofBits_zero

/-- Real edge rows summed into a zero array at the rows an index array names give a real node array, whatever the
    index array holds: each entry is zero plus a finite sum of entries of the update. -/
theorem scatter_rows_real {si : Shape} {w : Nat}
    (s : ScatterDims (⟨2, ![50000, 64]⟩ : Shape) si (⟨2, ![1000000, 64]⟩ : Shape))
    (hb : (⟨0, ![]⟩ : Shape).BroadcastsInDim (⟨2, ![50000, 64]⟩ : Shape) (![] : Fin 0 → Fin 2)) (idx : IVec si w)
    (Y : EdgeArr) (hY : ∀ e q, IsReal (Y e q)) (r : Fin 50000) (q : Fin 64) :
    IsReal (rowsOf (Host.scatterAdd (F := Ideal) s
      (broadcastInDim (⟨2, ![50000, 64]⟩ : Shape) ![] hb (constant (F := Ideal) (⟨0, ![]⟩ : Shape) .f32 0x00000000#32))
      idx (arrOf Y)) r q) :=
  IsReal.host_scatterAdd s _ idx (arrOf Y) (zeros_real hb) (fun j => hY (j 0) (j 1)) (ix2 r q)

end Cert.Gine

end
-- ==== Proof.RefChain.lean ====
/-
  The reference program's two results are the network of the specification.

  The reference program's run leaves each buffer at a fold of 302 host operations; the stage equations read that fold
  at the buffers the two layers hand on, each as a short composition of host operations on EARLIER such buffers; and
  the row lemmas say what each such composition means row by row, in the specification's words. This module chains
  them in program order. Write `a` for the float arguments and `I` for the index argument; the gathers `RGs I`,
  `RGd I` and the scatter `RSc I` are the program's own operations at the index rows it computes from `I`. Then,
  buffer by buffer,

      %7  = H0 a            %11 = E0 a
      %18 = RGs I (%7)      %28 = the messages       %31 = RSc I (%28)      %51 = the perceptron outputs
      %54 = their mean      %55 = their variance (as the mean of the squared deviations)
      %78 = H1              %85, %92 = RGs I, RGd I (%78)                    %113 = E1

  and the same again for the second layer from `H1`, `E1` with the second slab of every stacked weight, ending in
  `%180 = H2` and `%215 = E2`. Each step rewrites the stage equation, applies the row lemma of that stage, reads the
  sliced weights as the layer's weights, and replaces the earlier buffers by what the earlier steps found.
-/
import proofs.«133695_j30227979829590_2_alg».proof.Proof.RefStages
import proofs.«133695_j30227979829590_2_alg».proof.Proof.RefRows
import proofs.«133695_j30227979829590_2_alg».proof.Proof.LibSlices
import proofs.«133695_j30227979829590_2_alg».proof.Proof.Net
import proofs.«133695_j30227979829590_2_alg».proof.Proof.NetLaws
import proofs.«133695_j30227979829590_2_alg».proof.Proof.Conv

noncomputable section

namespace Cert.ReferenceIdeal.Chain

open Cert.ReferenceIdeal Cert.ReferenceIdeal.Gen Cert.ReferenceIdeal.Hand Cert.ReferenceIdeal.Rows Cert.Slices
  Idealize.ShloMosaic Idealize.ShloMosaic.TcCoe Idealize.SL.Sem Idealize.ShloMosaic.StableHlo
  Idealize.ShloMosaic.ValueIdx Cert.Gine Cert.Lib.RealSum

/-! ## The program's gathers and scatter, as functions of the index argument -/

/-- Row 0 of the index argument, as a vector: the edges' sources (`%0`, `%1`). -/
def srcRow (I : IVec S2x1000000 32) : IVec S1000000 32 :=
  shapeCast S1000000 (extractStridedSlice S1x1000000 ![0, 0] I slices_S2x1000000_S1x1000000_0_0)
    shapeCasts_S1x1000000_S1000000

/-- Row 1 of the index argument, as a vector: the edges' targets (`%2`, `%3`). -/
def dstRow (I : IVec S2x1000000 32) : IVec S1000000 32 :=
  shapeCast S1000000 (extractStridedSlice S1x1000000 ![1, 0] I slices_S2x1000000_S1x1000000_1_0)
    shapeCasts_S1x1000000_S1000000

/-- A vector of indices as a one-column matrix (`%30`). -/
def col (v : IVec S1000000 32) : IVec S1000000x1 32 := broadcastInDim S1000000x1 ![0] bcast_S1000000_S1000000x1_0 v

/-- A vector of indices, a negative one moved up by the number of nodes, as a one-column matrix (`%12`–`%17`). -/
def wrapCol (v : IVec S1000000 32) : IVec S1000000x1 32 :=
  col (select (cmpi .slt v (broadcastInDim S1000000 ![] bcast_S_S1000000 (constantI S_ 32 0#32)))
    (addi v (broadcastInDim S1000000 ![] bcast_S_S1000000 (constantI S_ 32 50000#32))) v)

/-- The node rows gathered at the edges' sources. -/
def RGs (I : IVec S2x1000000 32) : NodeArr → EdgeArr := fun h =>
  rowsOf (Host.gather gather_S50000x64_S1000000x1_S1000000x64_1_0_n_n_0_1_164 (arrOf h) (wrapCol (srcRow I)))

/-- The node rows gathered at the edges' targets. -/
def RGd (I : IVec S2x1000000 32) : NodeArr → EdgeArr := fun h =>
  rowsOf (Host.gather gather_S50000x64_S1000000x1_S1000000x64_1_0_n_n_0_1_164 (arrOf h) (wrapCol (dstRow I)))

/-- The edge rows summed, into an array of zeros, at the edges' targets. -/
def RSc (I : IVec S2x1000000 32) : EdgeArr → NodeArr := fun u =>
  rowsOf (Host.scatterAdd (F := Ideal) scatter_S50000x64_S1000000x1_S1000000x64_1_0_0_1
    (broadcastInDim S50000x64 ![] bcast_S_S50000x64 (constant (F := Ideal) S_ .f32 0x00000000#32)) (col (dstRow I))
    (arrOf u))

/-- The float arguments, from the contents of the argument buffers. -/
def rargs (V : Valuation τ sig (Elt Ideal)) : Args where
  x := V main_arg0
  edgeAttr := V main_arg2
  nodeW := V main_arg3
  nodeb := V main_arg4
  edgeW := V main_arg5
  edgeb := V main_arg6
  elinW := V main_arg7
  elinb := V main_arg8
  mlp1W := V main_arg9
  mlp1b := V main_arg10
  mlp2W := V main_arg11
  mlp2b := V main_arg12
  emlp1W := V main_arg13
  emlp1b := V main_arg14
  emlp2W := V main_arg15
  emlp2b := V main_arg16
  gamma := V main_arg17
  beta := V main_arg18

/-- The program's gathers and its scatter keep real entries real, whatever the index argument holds. -/
theorem RGs_real (I : IVec S2x1000000 32) (X : NodeArr) (hX : ∀ r q, IsReal (X r q)) (e : Fin 1000000) (q : Fin 64) :
    IsReal (RGs I X e q) :=
  gather_rows_real _ _ X hX e q

theorem RGd_real (I : IVec S2x1000000 32) (X : NodeArr) (hX : ∀ r q, IsReal (X r q)) (e : Fin 1000000) (q : Fin 64) :
    IsReal (RGd I X e q) :=
  gather_rows_real _ _ X hX e q

theorem RSc_real (I : IVec S2x1000000 32) (Y : EdgeArr) (hY : ∀ e q, IsReal (Y e q)) (r : Fin 50000) (q : Fin 64) :
    IsReal (RSc I Y r q) :=
  scatter_rows_real _ bcast_S_S50000x64 _ Y hY r q

/-- An array whose rows are the matrix `A` is `A` as an array. -/
theorem eq_arrOf {M N : Nat} {X : (⟨2, ![M, N]⟩ : Shape).Idx → EReal} {A : Mat M N} (h : rowsOf X = A) :
    X = arrOf A := by
  rw [← h, arrOf_rowsOf]

/-! ## The chain -/

section Chain

variable (V : Valuation τ sig (Elt Ideal))

local notation "W" => after (ops (F := Ideal)) V
local notation "a" => rargs V
local notation "I" => (V main_arg1 : IVec S2x1000000 32)

theorem v1_eq : W main_v1 = srcRow I := stage_v1 V

theorem v3_eq : W main_v3 = dstRow I := stage_v3 V

/-! ### The input projections -/

theorem v7_rows : rowsOf (W main_v7) = H0 a := by
  funext r
  rw [stage_v7]
  exact rows_lin _ isPlain_node_in none (V main_arg0) (V main_arg3) (V main_arg4) _ _ r

theorem v11_rows : rowsOf (W main_v11) = E0 a := by
  funext e
  rw [stage_v11]
  exact rows_lin _ isPlain_edge_in none (V main_arg2) (V main_arg5) (V main_arg6) _ _ e

/-! ### The first layer -/

theorem v18_rows : rowsOf (W main_v18) = RGs I (H0 a) := by
  rw [stage_v18, v1_eq, eq_arrOf (v7_rows V)]
  rfl

theorem v28_rows :
    rowsOf (W main_v28) = fun e => msg (Args.w a 0).elinW (Args.w a 0).elinb (RGs I (H0 a) e) (E0 a e) := by
  funext e
  rw [stage_v28]
  refine (rows_msg _ isPlain_edge none (W main_v18) (W main_v11) _ _ _ _ _ e).trans ?_
  rw [rows_slab_0, vec_rowAt_0, v18_rows, v11_rows]
  rfl

theorem v31_rows :
    rowsOf (W main_v31) = RSc I (fun e => msg (Args.w a 0).elinW (Args.w a 0).elinb (RGs I (H0 a) e) (E0 a e)) := by
  rw [stage_v31, v3_eq, eq_arrOf (v28_rows V)]
  rfl

theorem v51_rows : rowsOf (W main_v51) = layerOut (RGs I) (RSc I) (Args.w a 0) (H0 a) (E0 a) := by
  funext r
  rw [stage_v51]
  refine (rows_nodeOut _ isPlain_node none (W main_v7) (W main_v31) _ _ _ _ _ _ _ r).trans ?_
  rw [rows_slab_0, rows_slab_0, vec_rowAt_0, vec_rowAt_0, v7_rows, v31_rows]
  rfl

theorem v54_row : vecRow (W main_v54) = mean (layerOut (RGs I) (RSc I) (Args.w a 0) (H0 a) (E0 a)) := by
  rw [stage_v54]
  refine (vec_mean (W main_v51) _ _ _).trans ?_
  rw [v51_rows]

theorem v55_row : vecRow (W main_v55) = varR (layerOut (RGs I) (RSc I) (Args.w a 0) (H0 a) (E0 a)) := by
  rw [stage_v55]
  refine (vec_varR (W main_v51) _ _ _ _ _ _ _).trans ?_
  rw [v51_rows]

theorem v78_rows : rowsOf (W main_v78) = H1 varR (RGs I) (RSc I) a := by
  funext r
  rw [stage_v78]
  refine (rows_bnUpd (W main_v51) (W main_v7) (W main_v54) (W main_v55) _ _ _ _ _ _ r).trans ?_
  rw [vec_rowAt_0, vec_rowAt_0, v54_row, v55_row, v51_rows, v7_rows]
  rfl

theorem v85_rows : rowsOf (W main_v85) = RGs I (H1 varR (RGs I) (RSc I) a) := by
  rw [stage_v85, v1_eq, eq_arrOf (v78_rows V)]
  rfl

theorem v92_rows : rowsOf (W main_v92) = RGd I (H1 varR (RGs I) (RSc I) a) := by
  rw [stage_v92, v3_eq, eq_arrOf (v78_rows V)]
  rfl

theorem v113_rows : rowsOf (W main_v113) = E1 varR (RGs I) (RGd I) (RSc I) a := by
  funext e
  rw [stage_v113]
  refine (rows_edgeUpd _ isPlain_edge_cat _ isPlain_edge none (W main_v85) (W main_v92) (W main_v11) _ _ _ _ _ _ _ _
    e).trans ?_
  rw [rows_slab_0, rows_slab_0, vec_rowAt_0, vec_rowAt_0, v85_rows, v92_rows, v11_rows]
  rfl

/-! ### The second layer -/

theorem v120_rows : rowsOf (W main_v120) = RGs I (H1 varR (RGs I) (RSc I) a) := by
  rw [stage_v120, v1_eq, eq_arrOf (v78_rows V)]
  rfl

theorem v130_rows :
    rowsOf (W main_v130) = fun e => msg (Args.w a 1).elinW (Args.w a 1).elinb (RGs I (H1 varR (RGs I) (RSc I) a) e)
      (E1 varR (RGs I) (RGd I) (RSc I) a e) := by
  funext e
  rw [stage_v130]
  refine (rows_msg _ isPlain_edge none (W main_v120) (W main_v113) _ _ _ _ _ e).trans ?_
  rw [rows_slab_1, vec_rowAt_1, v120_rows, v113_rows]
  rfl

theorem v133_rows :
    rowsOf (W main_v133) = RSc I (fun e => msg (Args.w a 1).elinW (Args.w a 1).elinb (RGs I (H1 varR (RGs I) (RSc I) a) e)
      (E1 varR (RGs I) (RGd I) (RSc I) a e)) := by
  rw [stage_v133, v3_eq, eq_arrOf (v130_rows V)]
  rfl

theorem v153_rows :
    rowsOf (W main_v153)
      = layerOut (RGs I) (RSc I) (Args.w a 1) (H1 varR (RGs I) (RSc I) a) (E1 varR (RGs I) (RGd I) (RSc I) a) := by
  funext r
  rw [stage_v153]
  refine (rows_nodeOut _ isPlain_node none (W main_v78) (W main_v133) _ _ _ _ _ _ _ r).trans ?_
  rw [rows_slab_1, rows_slab_1, vec_rowAt_1, vec_rowAt_1, v78_rows, v133_rows]
  rfl

theorem v156_row :
    vecRow (W main_v156)
      = mean (layerOut (RGs I) (RSc I) (Args.w a 1) (H1 varR (RGs I) (RSc I) a) (E1 varR (RGs I) (RGd I) (RSc I) a)) := by
  rw [stage_v156]
  refine (vec_mean (W main_v153) _ _ _).trans ?_
  rw [v153_rows]

theorem v157_row :
    vecRow (W main_v157)
      = varR (layerOut (RGs I) (RSc I) (Args.w a 1) (H1 varR (RGs I) (RSc I) a) (E1 varR (RGs I) (RGd I) (RSc I) a)) := by
  rw [stage_v157]
  refine (vec_varR (W main_v153) _ _ _ _ _ _ _).trans ?_
  rw [v153_rows]

/-- The program's first result is the specification's node array after two layers. -/
theorem result_h : rowsOf (W main_v180) = H2 varR (RGs I) (RGd I) (RSc I) a := by
  funext r
  rw [stage_v180]
  refine (rows_bnUpd (W main_v153) (W main_v78) (W main_v156) (W main_v157) _ _ _ _ _ _ r).trans ?_
  rw [vec_rowAt_1, vec_rowAt_1, v156_row, v157_row, v153_rows, v78_rows]
  rfl

theorem v187_rows : rowsOf (W main_v187) = RGs I (H2 varR (RGs I) (RGd I) (RSc I) a) := by
  rw [stage_v187, v1_eq, eq_arrOf (result_h V)]
  rfl

theorem v194_rows : rowsOf (W main_v194) = RGd I (H2 varR (RGs I) (RGd I) (RSc I) a) := by
  rw [stage_v194, v3_eq, eq_arrOf (result_h V)]
  rfl

/-- The program's second result is the specification's edge array after two layers. -/
theorem result_e : rowsOf (W main_v215) = E2 varR (RGs I) (RGd I) (RSc I) a := by
  funext e
  rw [stage_v215]
  refine (rows_edgeUpd _ isPlain_edge_cat _ isPlain_edge none (W main_v187) (W main_v194) (W main_v113) _ _ _ _ _ _ _
    _ e).trans ?_
  rw [rows_slab_1, rows_slab_1, vec_rowAt_1, vec_rowAt_1, v187_rows, v194_rows, v113_rows]
  rfl

/-! ### On real arguments

When every float argument is real, the variance as the mean of the squared deviations — the reference's — can be
exchanged for the mean of the squares minus the squared mean: the two results are the network under either. -/

theorem result_h_varK (ha : (rargs V).Real) : rowsOf (W main_v180) = H2 varK (RGs I) (RGd I) (RSc I) a :=
  (result_h V).trans (H2_varR_eq (RGs_real _) (RGd_real _) (RSc_real _) ha)

theorem result_e_varK (ha : (rargs V).Real) : rowsOf (W main_v215) = E2 varK (RGs I) (RGd I) (RSc I) a :=
  (result_e V).trans (E2_varR_eq (RGs_real _) (RGd_real _) (RSc_real _) ha)

end Chain

end Cert.ReferenceIdeal.Chain

end
-- ==== Proof.PreReal.lean ====
/-
  From the precondition to real inputs.

  The precondition says: on every device, the predicate "every float argument is finite" evaluates to true. That
  predicate is printed as a program: for each of the eighteen float arrays `x` it compares `|x|` with `+∞` entrywise,
  takes the conjunction of all the entries (a reduction by `and` over every axis), and then takes the conjunction of the
  eighteen results. Read backwards: the final `and` is 1, so each of the eighteen reductions is 1, so each entry
  comparison is 1, so `max x (−x) < ⊤` for every entry `x`. Among the extended reals that excludes exactly `⊤` and `⊥`:
  every entry is a real number. (The one remaining argument, the integer edge index, takes no part.)
-/
import proofs.«133695_j30227979829590_2_alg».proof.Defs
import proofs.«133695_j30227979829590_2_alg».proof.Proof.LibRealSum
import Idealize.ShloMosaic.Lib.ReduceAll
import Idealize.ShloMosaic.Lib.ValueIdx

noncomputable section

namespace Cert.Proof.PreReal

open Idealize.ShloMosaic Idealize.SL.Sem Cert.Lib.RealSum

/-- The scalar shape has exactly one index. -/
instance scalarIdx_subsingleton : Subsingleton (⟨0, ![]⟩ : Shape).Idx := ⟨fun a b => funext fun d => d.elim0⟩

/-- An extended real whose absolute value `max x (−x)` is below `+∞` is a real number: the binary32 word
    `0x7F800000` denotes `⊤`, and `max x (−x) = ⊤` at both `x = ⊤` and `x = ⊥`. -/
theorem isReal_of_abs_lt_inf (x : Ideal .f32)
    (h : FloatOps.cmpf .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- One array of the predicate: if the conjunction over all entries of `|x| < +∞` is 1, every entry of `x` is real. -/
theorem all_finite {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : Host.reduce IntOp.andi
        (cmpf .olt (Host.absf x)
          (broadcastInDim s ![] hb (constant (F := Ideal) (⟨0, ![]⟩ : Shape) .f32 0x7F800000#32)))
        (constantI (⟨0, ![]⟩ : Shape) 1 1#1) hr hu ValueIdx.ix0 = 1#1) (i : s.Idx) : IsReal (x i) :=
  isReal_of_abs_lt_inf (x i) (Host.reduce_andi_all _ _ hr hu ValueIdx.ix0 h i)

variable [Cert.Pre_finite_inputs.Facts]

/-- Every float argument array of the kernel has real entries on device `c`. -/
structure InputsReal (m : (ℓ : Loc Cert.KernelIdeal.nD Cert.KernelIdeal.τ Cert.KernelIdeal.sig) → Buf (Elt Ideal) ℓ)
    (c : Dev Cert.KernelIdeal.nD) : Prop where
  arg0 : ∀ i, IsReal (m ((c.tc : Thread Cert.KernelIdeal.nD Cert.KernelIdeal.τ).loc Cert.KernelIdeal.main_arg0) i)
  arg2 : ∀ i, IsReal (m ((c.tc : Thread Cert.KernelIdeal.nD Cert.KernelIdeal.τ).loc Cert.KernelIdeal.main_arg2) i)
  arg3 : ∀ i, IsReal (m ((c.tc : Thread Cert.KernelIdeal.nD Cert.KernelIdeal.τ).loc Cert.KernelIdeal.main_arg3) i)
  arg4 : ∀ i, IsReal (m ((c.tc : Thread Cert.KernelIdeal.nD Cert.KernelIdeal.τ).loc Cert.KernelIdeal.main_arg4) i)
  arg5 : ∀ i, IsReal (m ((c.tc : Thread Cert.KernelIdeal.nD Cert.KernelIdeal.τ).loc Cert.KernelIdeal.main_arg5) i)
  arg6 : ∀ i, IsReal (m ((c.tc : Thread Cert.KernelIdeal.nD Cert.KernelIdeal.τ).loc Cert.KernelIdeal.main_arg6) i)
  arg7 : ∀ i, IsReal (m ((c.tc : Thread Cert.KernelIdeal.nD Cert.KernelIdeal.τ).loc Cert.KernelIdeal.main_arg7) i)
  arg8 : ∀ i, IsReal (m ((c.tc : Thread Cert.KernelIdeal.nD Cert.KernelIdeal.τ).loc Cert.KernelIdeal.main_arg8) i)
  arg9 : ∀ i, IsReal (m ((c.tc : Thread Cert.KernelIdeal.nD Cert.KernelIdeal.τ).loc Cert.KernelIdeal.main_arg9) i)
  arg10 : ∀ i, IsReal (m ((c.tc : Thread Cert.KernelIdeal.nD Cert.KernelIdeal.τ).loc Cert.KernelIdeal.main_arg10) i)
  arg11 : ∀ i, IsReal (m ((c.tc : Thread Cert.KernelIdeal.nD Cert.KernelIdeal.τ).loc Cert.KernelIdeal.main_arg11) i)
  arg12 : ∀ i, IsReal (m ((c.tc : Thread Cert.KernelIdeal.nD Cert.KernelIdeal.τ).loc Cert.KernelIdeal.main_arg12) i)
  arg13 : ∀ i, IsReal (m ((c.tc : Thread Cert.KernelIdeal.nD Cert.KernelIdeal.τ).loc Cert.KernelIdeal.main_arg13) i)
  arg14 : ∀ i, IsReal (m ((c.tc : Thread Cert.KernelIdeal.nD Cert.KernelIdeal.τ).loc Cert.KernelIdeal.main_arg14) i)
  arg15 : ∀ i, IsReal (m ((c.tc : Thread Cert.KernelIdeal.nD Cert.KernelIdeal.τ).loc Cert.KernelIdeal.main_arg15) i)
  arg16 : ∀ i, IsReal (m ((c.tc : Thread Cert.KernelIdeal.nD Cert.KernelIdeal.τ).loc Cert.KernelIdeal.main_arg16) i)
  arg17 : ∀ i, IsReal (m ((c.tc : Thread Cert.KernelIdeal.nD Cert.KernelIdeal.τ).loc Cert.KernelIdeal.main_arg17) i)
  arg18 : ∀ i, IsReal (m ((c.tc : Thread Cert.KernelIdeal.nD Cert.KernelIdeal.τ).loc Cert.KernelIdeal.main_arg18) i)

/-- The precondition gives real inputs. Read the predicate at the one index of its scalar result, open its printed
    chain so that the eighteen reductions are in view, split the conjunction of the eighteen results, and read each
    array through `all_finite`. -/
theorem inputs_real (m : (ℓ : Loc Cert.KernelIdeal.nD Cert.KernelIdeal.τ Cert.KernelIdeal.sig) → Buf (Elt Ideal) ℓ)
    (h : Cert.Pre_KernelIdeal m) (c : Dev Cert.KernelIdeal.nD) : InputsReal m c := by
  have hall := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at hall
  simp only [andi, IntOp.andi_eq_one] at hall
  obtain ⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩,
    h18⟩ := hall
  exact
    { arg0 := all_finite _ _ _ _ h0
      arg2 := all_finite _ _ _ _ h2
      arg3 := all_finite _ _ _ _ h3
      arg4 := all_finite _ _ _ _ h4
      arg5 := all_finite _ _ _ _ h5
      arg6 := all_finite _ _ _ _ h6
      arg7 := all_finite _ _ _ _ h7
      arg8 := all_finite _ _ _ _ h8
      arg9 := all_finite _ _ _ _ h9
      arg10 := all_finite _ _ _ _ h10
      arg11 := all_finite _ _ _ _ h11
      arg12 := all_finite _ _ _ _ h12
      arg13 := all_finite _ _ _ _ h13
      arg14 := all_finite _ _ _ _ h14
      arg15 := all_finite _ _ _ _ h15
      arg16 := all_finite _ _ _ _ h16
      arg17 := all_finite _ _ _ _ h17
      arg18 := all_finite _ _ _ _ h18 }

end Cert.Proof.PreReal

end
-- ==== Proof.Assemble.lean ====
/-
  The certificate's claims, assembled.

  Three frames — each program terminates and leaves its nineteen argument arrays as launched: the two kernels' by
  the generated frame theorems, the reference's by its run — and the value claim: at the ideal values, from memories
  that agree on the arguments and satisfy the precondition, the kernel's two result arrays are the reference's.

  The value claim is where the parts meet. The reference's run ends with its two result buffers at the fold of its
  operations, whose rows are the specification's network `H2`, `E2` with the variance as the mean of the squared
  deviations; the kernel's run ends with its two result buffers at its last boundary's contents, whose rows are `H2`,
  `E2` with the variance as the mean of the squares minus the squared mean. Three bridges close the gap. The two
  networks are built from the same arguments (the memories agree) and the same gathers and scatter (the two programs
  print the same operations over the same index rows, so the terms are equal by definition). The precondition
  makes every argument entry a real number, and on real arguments the two variance formulas give the same network.
  And two arrays with the same rows are the same array.
-/
import proofs.«133695_j30227979829590_2_alg».proof.Defs
import proofs.«133695_j30227979829590_2_alg».proof.Proof.Gen.Kernel.Frame
import proofs.«133695_j30227979829590_2_alg».proof.Proof.Gen.KernelIdeal.Frame
import proofs.«133695_j30227979829590_2_alg».proof.Proof.Gen.ReferenceIdeal
import proofs.«133695_j30227979829590_2_alg».proof.Proof.Gen.Pre_finite_inputs
import proofs.«133695_j30227979829590_2_alg».proof.Proof.KRun
import proofs.«133695_j30227979829590_2_alg».proof.Proof.KChain
import proofs.«133695_j30227979829590_2_alg».proof.Proof.RefChain
import proofs.«133695_j30227979829590_2_alg».proof.Proof.PreReal
import proofs.«133695_j30227979829590_2_alg».proof.Proof.NetLaws

noncomputable section

namespace Cert.Proof.Assemble

open Idealize.ShloMosaic Idealize.ShloMosaic.TcCoe Idealize.SL.Sem Idealize.ShloMosaic.StableHlo
  Idealize.ShloMosaic.ValueIdx Cert.Gine Cert.Lib.RealSum

/-! ## Bridges -/

/-- Two arrays with the same rows are the same array. -/
theorem eq_of_rows {M N : Nat} {X Y : (⟨2, ![M, N]⟩ : Shape).Idx → EReal} (h : rowsOf X = rowsOf Y) : X = Y := by
  rw [← arrOf_rowsOf X, h, arrOf_rowsOf]

/-- The two programs print the same gather and the same scatter: the records agree field by field, and their
    well-formedness fields are proofs of one proposition. -/
theorem gather_eq :
    Cert.KernelIdeal.gather_S50000x64_S1000000x1_S1000000x64_1_0_n_n_0_1_164
      = Cert.ReferenceIdeal.gather_S50000x64_S1000000x1_S1000000x64_1_0_n_n_0_1_164 := rfl

theorem scatter_eq :
    Cert.KernelIdeal.scatter_S50000x64_S1000000x1_S1000000x64_1_0_0_1
      = Cert.ReferenceIdeal.scatter_S50000x64_S1000000x1_S1000000x64_1_0_0_1 := rfl

section Memories

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The kernel's gathers and scatter over its index argument are the reference's over the same array: both wrap a
    negative index by the number of nodes and lay the row out as a column, by the same operations. -/
theorem KGs_eq : Cert.KernelIdeal.Chain.KGs m c = Cert.ReferenceIdeal.Chain.RGs (m ((c.tc : Thread Cert.KernelIdeal.nD Cert.KernelIdeal.τ).loc Cert.KernelIdeal.main_arg1)) := rfl

theorem KGd_eq : Cert.KernelIdeal.Chain.KGd m c = Cert.ReferenceIdeal.Chain.RGd (m ((c.tc : Thread Cert.KernelIdeal.nD Cert.KernelIdeal.τ).loc Cert.KernelIdeal.main_arg1)) := rfl

theorem KSc_eq : Cert.KernelIdeal.Chain.KSc m c = Cert.ReferenceIdeal.Chain.RSc (m ((c.tc : Thread Cert.KernelIdeal.nD Cert.KernelIdeal.τ).loc Cert.KernelIdeal.main_arg1)) := rfl

/-- The two memories hold the same nineteen arguments on core `c`. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)

variable {m m' c}

/-- The reference's arguments, read off its launch contents, are the kernel's. -/
theorem rargs_eq (hag : Agree m m' c) :
    Cert.ReferenceIdeal.Chain.rargs (launchContents m' c) = Cert.KernelIdeal.Chain.kargs m c := by
  obtain ⟨h0, h1, h2, h3, h4, h5, h6, h7, h8, h9, h10, h11, h12, h13, h14, h15, h16, h17, h18⟩ := hag
  unfold Cert.ReferenceIdeal.Chain.rargs Cert.KernelIdeal.Chain.kargs
  exact (Args.mk.injEq ..).mpr ⟨h0, h2, h3, h4, h5, h6, h7, h8, h9, h10, h11, h12, h13, h14, h15, h16, h17, h18⟩

/-- The precondition makes every entry of every float argument of the kernel a real number. -/
theorem kargs_real (hpre : Cert.Pre_KernelIdeal m) : (Cert.KernelIdeal.Chain.kargs m c).Real :=
  have ir := Cert.Proof.PreReal.inputs_real m hpre c
  ⟨ir.arg0, ir.arg2, ir.arg3, ir.arg4, ir.arg5, ir.arg6, ir.arg7, ir.arg8, ir.arg9, ir.arg10, ir.arg11, ir.arg12, ir.arg13, ir.arg14, ir.arg15, ir.arg16, ir.arg17, ir.arg18⟩

end Memories

/-! ## The value claim

The kernel's two results as the network with the variance in the kernel's form are taken as hypotheses `hH`, `hE`
here: they are what the kernel's chain of regions proves. -/

section Value

variable
  (hH : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
    rowsOf (Cert.KernelIdeal.Gen.W20 m ρ c (Proc.devRef .tc Cert.KernelIdeal.main_v112))
      = H2 varK (Cert.KernelIdeal.Chain.KGs m c) (Cert.KernelIdeal.Chain.KGd m c) (Cert.KernelIdeal.Chain.KSc m c) (Cert.KernelIdeal.Chain.kargs m c))
  (hE : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
    rowsOf (Cert.KernelIdeal.Gen.W20 m ρ c (Proc.devRef .tc Cert.KernelIdeal.main_v137))
      = E2 varK (Cert.KernelIdeal.Chain.KGs m c) (Cert.KernelIdeal.Chain.KGd m c) (Cert.KernelIdeal.Chain.KSc m c) (Cert.KernelIdeal.Chain.kargs m c))

variable {m : (ℓ : Loc Cert.KernelIdeal.nD Cert.KernelIdeal.τ Cert.KernelIdeal.sig) → Buf (Elt Ideal) ℓ} (ρ : Dev Cert.KernelIdeal.nD → PrngReg)
  {m' : (ℓ : Loc Cert.ReferenceIdeal.nD Cert.ReferenceIdeal.τ Cert.ReferenceIdeal.sig) → Buf (Elt Ideal) ℓ} {c : Dev Cert.KernelIdeal.nD}

include hH in
/-- The reference's first result is the kernel's: both are the node array after two layers. -/
theorem result_h_agree (hpre : Cert.Pre_KernelIdeal m) (hag : Agree m m' c) :
    (after (Cert.ReferenceIdeal.Hand.ops (F := Ideal)) (launchContents m' c) Cert.ReferenceIdeal.main_v180 : (⟨2, ![50000, 64]⟩ : Shape).Idx → EReal)
      = Cert.KernelIdeal.Gen.W20 m ρ c (Proc.devRef .tc Cert.KernelIdeal.main_v112) := by
  have ha : Cert.ReferenceIdeal.Chain.rargs (launchContents m' c) = Cert.KernelIdeal.Chain.kargs m c := rargs_eq hag
  have hI : (launchContents m' c Cert.ReferenceIdeal.main_arg1 : IVec Cert.ReferenceIdeal.S2x1000000 32) = m ((c.tc : Thread Cert.KernelIdeal.nD Cert.KernelIdeal.τ).loc Cert.KernelIdeal.main_arg1) := hag.2.1
  apply eq_of_rows
  rw [Cert.ReferenceIdeal.Chain.result_h_varK (launchContents m' c) (ha ▸ kargs_real hpre), hH m ρ c, ha, hI, KGs_eq, KGd_eq, KSc_eq]

include hE in
/-- The reference's second result is the kernel's: both are the edge array after two layers. -/
theorem result_e_agree (hpre : Cert.Pre_KernelIdeal m) (hag : Agree m m' c) :
    (after (Cert.ReferenceIdeal.Hand.ops (F := Ideal)) (launchContents m' c) Cert.ReferenceIdeal.main_v215 : (⟨2, ![1000000, 64]⟩ : Shape).Idx → EReal)
      = Cert.KernelIdeal.Gen.W20 m ρ c (Proc.devRef .tc Cert.KernelIdeal.main_v137) := by
  have ha : Cert.ReferenceIdeal.Chain.rargs (launchContents m' c) = Cert.KernelIdeal.Chain.kargs m c := rargs_eq hag
  have hI : (launchContents m' c Cert.ReferenceIdeal.main_arg1 : IVec Cert.ReferenceIdeal.S2x1000000 32) = m ((c.tc : Thread Cert.KernelIdeal.nD Cert.KernelIdeal.τ).loc Cert.KernelIdeal.main_arg1) := hag.2.1
  apply eq_of_rows
  rw [Cert.ReferenceIdeal.Chain.result_e_varK (launchContents m' c) (ha ▸ kargs_real hpre), hE m ρ c, ha, hI, KGs_eq, KGd_eq, KSc_eq]

end Value

/-! ## The claims -/

theorem frame_Kernel : Cert.frame_Kernel := fun m ρ _ => Cert.Kernel.Gen.frame m ρ

theorem frame_KernelIdeal : Cert.frame_KernelIdeal := fun m ρ _ => Cert.KernelIdeal.Gen.frame m ρ

/-- The reference's run leaves every buffer at the fold of its operations, and no operation writes an argument. -/
theorem frame_ReferenceIdeal : Cert.frame_ReferenceIdeal := fun m ρ _ =>
  (θ_run Cert.ReferenceIdeal.defs _ _).mono (fun _ h c =>
    ⟨(h c Cert.ReferenceIdeal.main_arg0).trans (Cert.ReferenceIdeal.Hand.arg0_eq _),
     (h c Cert.ReferenceIdeal.main_arg1).trans (Cert.ReferenceIdeal.Hand.arg1_eq _),
     (h c Cert.ReferenceIdeal.main_arg2).trans (Cert.ReferenceIdeal.Hand.arg2_eq _),
     (h c Cert.ReferenceIdeal.main_arg3).trans (Cert.ReferenceIdeal.Hand.arg3_eq _),
     (h c Cert.ReferenceIdeal.main_arg4).trans (Cert.ReferenceIdeal.Hand.arg4_eq _),
     (h c Cert.ReferenceIdeal.main_arg5).trans (Cert.ReferenceIdeal.Hand.arg5_eq _),
     (h c Cert.ReferenceIdeal.main_arg6).trans (Cert.ReferenceIdeal.Hand.arg6_eq _),
     (h c Cert.ReferenceIdeal.main_arg7).trans (Cert.ReferenceIdeal.Hand.arg7_eq _),
     (h c Cert.ReferenceIdeal.main_arg8).trans (Cert.ReferenceIdeal.Hand.arg8_eq _),
     (h c Cert.ReferenceIdeal.main_arg9).trans (Cert.ReferenceIdeal.Hand.arg9_eq _),
     (h c Cert.ReferenceIdeal.main_arg10).trans (Cert.ReferenceIdeal.Hand.arg10_eq _),
     (h c Cert.ReferenceIdeal.main_arg11).trans (Cert.ReferenceIdeal.Hand.arg11_eq _),
     (h c Cert.ReferenceIdeal.main_arg12).trans (Cert.ReferenceIdeal.Hand.arg12_eq _),
     (h c Cert.ReferenceIdeal.main_arg13).trans (Cert.ReferenceIdeal.Hand.arg13_eq _),
     (h c Cert.ReferenceIdeal.main_arg14).trans (Cert.ReferenceIdeal.Hand.arg14_eq _),
     (h c Cert.ReferenceIdeal.main_arg15).trans (Cert.ReferenceIdeal.Hand.arg15_eq _),
     (h c Cert.ReferenceIdeal.main_arg16).trans (Cert.ReferenceIdeal.Hand.arg16_eq _),
     (h c Cert.ReferenceIdeal.main_arg17).trans (Cert.ReferenceIdeal.Hand.arg17_eq _),
     (h c Cert.ReferenceIdeal.main_arg18).trans (Cert.ReferenceIdeal.Hand.arg18_eq _)⟩)
    (Cert.ReferenceIdeal.Hand.run_main (F := Ideal) m ρ)

section Claim

variable
  (hH : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
    rowsOf (Cert.KernelIdeal.Gen.W20 m ρ c (Proc.devRef .tc Cert.KernelIdeal.main_v112))
      = H2 varK (Cert.KernelIdeal.Chain.KGs m c) (Cert.KernelIdeal.Chain.KGd m c) (Cert.KernelIdeal.Chain.KSc m c) (Cert.KernelIdeal.Chain.kargs m c))
  (hE : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
    rowsOf (Cert.KernelIdeal.Gen.W20 m ρ c (Proc.devRef .tc Cert.KernelIdeal.main_v137))
      = E2 varK (Cert.KernelIdeal.Chain.KGs m c) (Cert.KernelIdeal.Chain.KGd m c) (Cert.KernelIdeal.Chain.KSc m c) (Cert.KernelIdeal.Chain.kargs m c))

include hH hE in
/-- The value claim: the results are the kernel's last boundary contents at its two result buffers; the kernel's run
    ends there with the arguments as launched; the reference's run ends at the same two arrays, its arguments as
    launched. -/
theorem algebraic : Cert.algebraic_KernelIdeal_ReferenceIdeal := by
  intro m g m' g' hpre hagree
  refine ⟨fun c => Cert.KernelIdeal.Gen.W20 m g c (Proc.devRef .tc Cert.KernelIdeal.main_v112),
    fun c => Cert.KernelIdeal.Gen.W20 m g c (Proc.devRef .tc Cert.KernelIdeal.main_v137), ?_, ?_⟩
  · exact (θ_run Cert.KernelIdeal.defs _ _).mono (fun _ h c =>
      ⟨h c _ (Cert.KernelIdeal.Gen.mem_uc Cert.KernelIdeal.main_v112 (by decide)),
       h c _ (Cert.KernelIdeal.Gen.mem_uc Cert.KernelIdeal.main_v137 (by decide)),
       (h c _ (Cert.KernelIdeal.Gen.mem_uc Cert.KernelIdeal.main_arg0 (by decide))).trans (Cert.KernelIdeal.Gen.W20_main_arg0 m g c),
       (h c _ (Cert.KernelIdeal.Gen.mem_uc Cert.KernelIdeal.main_arg1 (by decide))).trans (Cert.KernelIdeal.Gen.W20_main_arg1 m g c),
       (h c _ (Cert.KernelIdeal.Gen.mem_uc Cert.KernelIdeal.main_arg2 (by decide))).trans (Cert.KernelIdeal.Gen.W20_main_arg2 m g c),
       (h c _ (Cert.KernelIdeal.Gen.mem_uc Cert.KernelIdeal.main_arg3 (by decide))).trans (Cert.KernelIdeal.Gen.W20_main_arg3 m g c),
       (h c _ (Cert.KernelIdeal.Gen.mem_uc Cert.KernelIdeal.main_arg4 (by decide))).trans (Cert.KernelIdeal.Gen.W20_main_arg4 m g c),
       (h c _ (Cert.KernelIdeal.Gen.mem_uc Cert.KernelIdeal.main_arg5 (by decide))).trans (Cert.KernelIdeal.Gen.W20_main_arg5 m g c),
       (h c _ (Cert.KernelIdeal.Gen.mem_uc Cert.KernelIdeal.main_arg6 (by decide))).trans (Cert.KernelIdeal.Gen.W20_main_arg6 m g c),
       (h c _ (Cert.KernelIdeal.Gen.mem_uc Cert.KernelIdeal.main_arg7 (by decide))).trans (Cert.KernelIdeal.Gen.W20_main_arg7 m g c),
       (h c _ (Cert.KernelIdeal.Gen.mem_uc Cert.KernelIdeal.main_arg8 (by decide))).trans (Cert.KernelIdeal.Gen.W20_main_arg8 m g c),
       (h c _ (Cert.KernelIdeal.Gen.mem_uc Cert.KernelIdeal.main_arg9 (by decide))).trans (Cert.KernelIdeal.Gen.W20_main_arg9 m g c),
       (h c _ (Cert.KernelIdeal.Gen.mem_uc Cert.KernelIdeal.main_arg10 (by decide))).trans (Cert.KernelIdeal.Gen.W20_main_arg10 m g c),
       (h c _ (Cert.KernelIdeal.Gen.mem_uc Cert.KernelIdeal.main_arg11 (by decide))).trans (Cert.KernelIdeal.Gen.W20_main_arg11 m g c),
       (h c _ (Cert.KernelIdeal.Gen.mem_uc Cert.KernelIdeal.main_arg12 (by decide))).trans (Cert.KernelIdeal.Gen.W20_main_arg12 m g c),
       (h c _ (Cert.KernelIdeal.Gen.mem_uc Cert.KernelIdeal.main_arg13 (by decide))).trans (Cert.KernelIdeal.Gen.W20_main_arg13 m g c),
       (h c _ (Cert.KernelIdeal.Gen.mem_uc Cert.KernelIdeal.main_arg14 (by decide))).trans (Cert.KernelIdeal.Gen.W20_main_arg14 m g c),
       (h c _ (Cert.KernelIdeal.Gen.mem_uc Cert.KernelIdeal.main_arg15 (by decide))).trans (Cert.KernelIdeal.Gen.W20_main_arg15 m g c),
       (h c _ (Cert.KernelIdeal.Gen.mem_uc Cert.KernelIdeal.main_arg16 (by decide))).trans (Cert.KernelIdeal.Gen.W20_main_arg16 m g c),
       (h c _ (Cert.KernelIdeal.Gen.mem_uc Cert.KernelIdeal.main_arg17 (by decide))).trans (Cert.KernelIdeal.Gen.W20_main_arg17 m g c),
       (h c _ (Cert.KernelIdeal.Gen.mem_uc Cert.KernelIdeal.main_arg18 (by decide))).trans (Cert.KernelIdeal.Gen.W20_main_arg18 m g c)⟩)
      (Cert.KernelIdeal.Hand.run_all m g)
  · exact (θ_run Cert.ReferenceIdeal.defs _ _).mono (fun _ h c =>
      ⟨(h c Cert.ReferenceIdeal.main_v180).trans (result_h_agree hH g hpre (hagree c)),
       (h c Cert.ReferenceIdeal.main_v215).trans (result_e_agree hE g hpre (hagree c)),
       (h c Cert.ReferenceIdeal.main_arg0).trans (Cert.ReferenceIdeal.Hand.arg0_eq _),
       (h c Cert.ReferenceIdeal.main_arg1).trans (Cert.ReferenceIdeal.Hand.arg1_eq _),
       (h c Cert.ReferenceIdeal.main_arg2).trans (Cert.ReferenceIdeal.Hand.arg2_eq _),
       (h c Cert.ReferenceIdeal.main_arg3).trans (Cert.ReferenceIdeal.Hand.arg3_eq _),
       (h c Cert.ReferenceIdeal.main_arg4).trans (Cert.ReferenceIdeal.Hand.arg4_eq _),
       (h c Cert.ReferenceIdeal.main_arg5).trans (Cert.ReferenceIdeal.Hand.arg5_eq _),
       (h c Cert.ReferenceIdeal.main_arg6).trans (Cert.ReferenceIdeal.Hand.arg6_eq _),
       (h c Cert.ReferenceIdeal.main_arg7).trans (Cert.ReferenceIdeal.Hand.arg7_eq _),
       (h c Cert.ReferenceIdeal.main_arg8).trans (Cert.ReferenceIdeal.Hand.arg8_eq _),
       (h c Cert.ReferenceIdeal.main_arg9).trans (Cert.ReferenceIdeal.Hand.arg9_eq _),
       (h c Cert.ReferenceIdeal.main_arg10).trans (Cert.ReferenceIdeal.Hand.arg10_eq _),
       (h c Cert.ReferenceIdeal.main_arg11).trans (Cert.ReferenceIdeal.Hand.arg11_eq _),
       (h c Cert.ReferenceIdeal.main_arg12).trans (Cert.ReferenceIdeal.Hand.arg12_eq _),
       (h c Cert.ReferenceIdeal.main_arg13).trans (Cert.ReferenceIdeal.Hand.arg13_eq _),
       (h c Cert.ReferenceIdeal.main_arg14).trans (Cert.ReferenceIdeal.Hand.arg14_eq _),
       (h c Cert.ReferenceIdeal.main_arg15).trans (Cert.ReferenceIdeal.Hand.arg15_eq _),
       (h c Cert.ReferenceIdeal.main_arg16).trans (Cert.ReferenceIdeal.Hand.arg16_eq _),
       (h c Cert.ReferenceIdeal.main_arg17).trans (Cert.ReferenceIdeal.Hand.arg17_eq _),
       (h c Cert.ReferenceIdeal.main_arg18).trans (Cert.ReferenceIdeal.Hand.arg18_eq _)⟩)
      (Cert.ReferenceIdeal.Hand.run_main (F := Ideal) m' g')

include hH hE in
/-- Everything the certificate claims. -/
theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic hH hE⟩

end Claim

end Cert.Proof.Assemble

end
-- ==== Proof.LibTileRows.lean ====
/-
  Reading a tile of rows, operation by operation, at the extended reals.

  A two-axis array `X` of `M` rows is described by its rows: a family `xr p k` with `X (p, k) = xr p k`. Each lemma
  below takes such a description of an operation's operands and returns the description of its result, so that a
  chain of operations is read by composing the lemmas, never by rewriting inside a large term. Everything is stated
  for arbitrary extents, so a 4096-row tile and a 262144-row array are read by the same lemmas.

  At the extended reals a change of float format is the identity, a product into a zero accumulator is the plain
  sum of products, and the rectifier is the maximum with zero.
-/
import proofs.«133695_j30227979829590_2_alg».proof.Proof.LibPlainDot
import Idealize.ShloMosaic.Lib.ValueLayout
import Idealize.ShloMosaic.Lib.Pipeline.Value

noncomputable section

namespace Cert.TileRows

open Idealize.ShloMosaic Idealize.ShloMosaic.ValueIdx

variable {M K N : Nat}

/-- Row `p` of a two-axis array. -/
abbrev rowOf {M K : Nat} (X : (⟨2, ![M, K]⟩ : Shape).Idx → EReal) (p : Fin M) : Fin K → EReal := fun k => X (ix2 p k)
/-- A two-axis array as a matrix. -/
abbrev matOf {K N : Nat} (w : (⟨2, ![K, N]⟩ : Shape).Idx → EReal) : Fin K → Fin N → EReal := fun k q => w (ix2 k q)
/-- A one-row array as a row. -/
abbrev vecOf {N : Nat} (b : (⟨2, ![1, N]⟩ : Shape).Idx → EReal) : Fin N → EReal := fun q => b (ix2 (0 : Fin 1) q)
/-- A one-axis array as a row. -/
abbrev vec1 {N : Nat} (b : (⟨1, ![N]⟩ : Shape).Idx → EReal) : Fin N → EReal := fun q => b (ix1 q)

/-- A vector made a one-row matrix is, as a row, the vector. -/
theorem vecOf_cast {N : Nat} (a : (⟨1, ![N]⟩ : Shape).Idx → EReal) (h : (⟨1, ![N]⟩ : Shape).ShapeCasts ⟨2, ![1, N]⟩) :
    vecOf (shapeCast ⟨2, ![1, N]⟩ a h) = vec1 a := funext fun q => shapeCast_a_1a_apply a h 0 q

/-- A re-laying to the same shape changes nothing. -/
theorem cast_rows {φ : FTy} (X : FVec Ideal ⟨2, ![M, K]⟩ φ) (h : (⟨2, ![M, K]⟩ : Shape).ShapeCasts ⟨2, ![M, K]⟩)
    (xr : Fin M → Fin K → EReal) (hX : ∀ p k, X (ix2 p k) = xr p k) :
    ∀ p k, shapeCast ⟨2, ![M, K]⟩ X h (ix2 p k) = xr p k := fun p k => by
  rw [shapeCast_self]; exact hX p k

/-- A change of float format changes nothing. -/
theorem trunc_rows {φ ψ : FTy} (X : FVec Ideal ⟨2, ![M, K]⟩ φ) (h : ψ.bits < φ.bits)
    (xr : Fin M → Fin K → EReal) (hX : ∀ p k, X (ix2 p k) = xr p k) :
    ∀ p k, (truncf ψ X h : FVec Ideal ⟨2, ![M, K]⟩ ψ) (ix2 p k) = xr p k := fun p k => hX p k

/-- A plain product of a tile of rows with a re-laid `K × N` matrix, into the zero accumulator: row `p` of the result
    is the row `p` of the tile times the matrix. -/
theorem mm_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (hw : (⟨2, ![K, N]⟩ : Shape).ShapeCasts ⟨2, ![K, N]⟩)
    (xr : Fin M → Fin K → EReal) (hX : ∀ p k, X (ix2 p k) = xr p k) :
    ∀ p q, matmul d prec X (shapeCast ⟨2, ![K, N]⟩ w hw) (constant ⟨2, ![M, N]⟩ .f32 0x00000000#32) (ix2 p q)
      = ∑ k : Fin K, xr p k * w (ix2 k q) := fun p q => by
  refine (Ideal.matmul_constant_zero_apply d prec X _ (ix2 p q)).trans ?_
  refine (Cert.PlainDot.sum_contr d hd X (shapeCast ⟨2, ![K, N]⟩ w hw) p q).trans ?_
  refine Finset.sum_congr rfl fun k _ => ?_
  rw [hX p k, shapeCast_self]

/-- Adding a one-row bias, re-laid and spread over the rows. -/
theorem bias_rows (Y : FVec Ideal ⟨2, ![M, N]⟩ .f32) (b : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩)
    (yr : Fin M → Fin N → EReal) (hY : ∀ p q, Y (ix2 p q) = yr p q) :
    ∀ p q, addf Y (broadcastTo ⟨2, ![M, N]⟩ (shapeCast ⟨2, ![1, N]⟩ b hb) hbc) (ix2 p q) = yr p q + b (ix2 (0 : Fin 1) q) := fun p q => by
  rw [addf_apply, hY p q, broadcastTo_1b_ab_apply, shapeCast_self]

/-- Adding two tiles. -/
theorem add_rows (Y Z : FVec Ideal ⟨2, ![M, N]⟩ .f32) (yr zr : Fin M → Fin N → EReal)
    (hY : ∀ p q, Y (ix2 p q) = yr p q) (hZ : ∀ p q, Z (ix2 p q) = zr p q) :
    ∀ p q, addf Y Z (ix2 p q) = yr p q + zr p q := fun p q => by
  rw [addf_apply, hY p q, hZ p q]

/-- The rectifier against a splat of the zero word. -/
theorem relu_rows (Y : FVec Ideal ⟨2, ![M, N]⟩ .f32) (yr : Fin M → Fin N → EReal) (hY : ∀ p q, Y (ix2 p q) = yr p q) :
    ∀ p q, maximumf Y (broadcast ⟨2, ![M, N]⟩ (Scalar.ofBits (F := Ideal) .f32 0x00000000#32)) (ix2 p q) = max (yr p q) 0 := fun p q => by
  rw [maximumf_apply, hY p q, broadcast_apply]
  show max (yr p q) (Ideal.ofBits .f32 0x00000000#32) = _
  rw [Ideal.ofBits_zero_f32]

/-- The rectifier against another tile known to be zero. -/
theorem relu_rows_of (Y Z : FVec Ideal ⟨2, ![M, N]⟩ .f32) (yr : Fin M → Fin N → EReal) (hY : ∀ p q, Y (ix2 p q) = yr p q)
    (hZ : ∀ p q, Z (ix2 p q) = 0) :
    ∀ p q, maximumf Y Z (ix2 p q) = max (yr p q) 0 := fun p q => by
  rw [maximumf_apply, hY p q, hZ p q]

/-- A splat of the zero word is zero everywhere. -/
theorem zero_rows : ∀ (p : Fin M) (q : Fin N), (broadcast ⟨2, ![M, N]⟩ (Scalar.ofBits (F := Ideal) .f32 0x00000000#32) : FVec Ideal ⟨2, ![M, N]⟩ .f32) (ix2 p q) = 0 := fun p q => by
  rw [broadcast_apply]
  show Ideal.ofBits .f32 0x00000000#32 = _
  rw [Ideal.ofBits_zero_f32]

/-- Columns `o … o + m − 1` cut out of a tile. -/
theorem cols_rows {m : Nat} (o : Nat) (Y : FVec Ideal ⟨2, ![M, N]⟩ .f32) (h : (⟨2, ![M, N]⟩ : Shape).Slices ![0, o] ⟨2, ![M, m]⟩)
    (hle : o + m ≤ N) (yr : Fin M → Fin N → EReal) (hY : ∀ p q, Y (ix2 p q) = yr p q) :
    ∀ (p : Fin M) (j : Fin m), extractStridedSlice ⟨2, ![M, m]⟩ ![0, o] Y h (ix2 p j) = yr p ⟨o + j.val, by omega⟩ := fun p j => by
  rw [slice2_axis1_apply o Y h p j ⟨o + j.val, by omega⟩ rfl]; exact hY p _

/-- Two tiles set side by side along the columns: row `p` of the result is row `p` of the first followed by row `p` of
    the second. -/
theorem concat_rows {A B C : Nat} (hC : A + B = C) (Y : (⟨2, ![M, A]⟩ : Shape).Idx → EReal) (Z : (⟨2, ![M, B]⟩ : Shape).Idx → EReal)
    (h : Shape.Concatenates [(⟨2, ![M, A]⟩ : Shape), ⟨2, ![M, B]⟩] ⟨2, ![M, C]⟩ (1 : Fin 2))
    (yr : Fin M → Fin A → EReal) (zr : Fin M → Fin B → EReal)
    (hY : ∀ p k, Y (ix2 p k) = yr p k) (hZ : ∀ p k, Z (ix2 p k) = zr p k) :
    ∀ (p : Fin M) (j : Fin C), concatenate ⟨2, ![M, C]⟩ (1 : Fin 2) [⟨⟨2, ![M, A]⟩, Y⟩, ⟨⟨2, ![M, B]⟩, Z⟩] h (ix2 p j)
      = Fin.append (yr p) (zr p) (Fin.cast hC.symm j) := by
  intro p j
  by_cases hj : j.val < A
  · have e1 := concatenate_pair_apply_left (1 : Fin 2) Y Z h (ix2 p j) rfl (ix2 p ⟨j.val, hj⟩)
      (fun b => by match b with | ⟨0, _⟩ => rfl | ⟨1, _⟩ => rfl)
    rw [e1, hY]
    have e : Fin.cast hC.symm j = Fin.castAdd B ⟨j.val, hj⟩ := Fin.ext rfl
    rw [e, Fin.append_left]
  · have hjB : j.val - A < B := by have := j.isLt; omega
    have e1 := concatenate_pair_apply_right (1 : Fin 2) Y Z h (ix2 p j) rfl rfl (ix2 p ⟨j.val - A, hjB⟩)
      (fun b hb => by match b with | ⟨0, _⟩ => rfl | ⟨1, _⟩ => exact absurd rfl hb)
      (by show (j.val - A) + A = j.val; omega)
    rw [e1, hZ]
    have e : Fin.cast hC.symm j = Fin.natAdd A ⟨j.val - A, hjB⟩ := Fin.ext (by show j.val = A + (j.val - A); omega)
    rw [e, Fin.append_right]

end Cert.TileRows

end
-- ==== Proof.KReg0.lean ====
/-
  Region 0 of the kernel program, read as mathematics: the first pointwise stage, an affine map applied to every
  row of the node features.

  The region walks the 50000 rows of `X` in 10 tiles of 5000 rows. At a tile it multiplies the tile by the
  whole 32 × 64 matrix `W` into a zero accumulator and adds the one-row bias `b` to every row, and writes the
  5000 × 64 result back as the same tile of the output array. Entry `(p, q)` of what a tile stores depends
  only on row `p` of the tile, so row `r` of the output array — which lies in tile `r / 5000`, at place
  `r % 5000` — is `Cert.Gine.lin W b` of row `r` of `X`.

  Three steps: the stored tile entry by entry (`tile_entry`); what a grid point writes back is its block of one
  function of the whole arrays (`written_back`), because every block's place in its array is its block index times
  the block's extent; and the tiles cover the output array (`covered`), so the array ends as that function.
-/
import proofs.«133695_j30227979829590_2_alg».proof.Proof.Gen.KernelIdeal.Frame
import proofs.«133695_j30227979829590_2_alg».proof.Proof.Spec
import proofs.«133695_j30227979829590_2_alg».proof.Proof.Conv
import proofs.«133695_j30227979829590_2_alg».proof.Proof.LibTileRows
import Idealize.ShloMosaic.Lib.Pipeline.Value

noncomputable section

namespace Cert.KernelIdeal.Reg0

open Idealize.ShloMosaic Idealize.ShloMosaic.TcCoe Idealize.ShloMosaic.ValueIdx
open Idealize.ShloMosaic.Pipeline (Dat)
open Cert.KernelIdeal Cert.Gine

-- The contents of the TensorCore's buffers when the region is entered.
variable (V : (c : Dev nD) → (b : Ref sig .tc) → Buf (Elt Ideal) ((c : Thread nD τ).loc b))

theorem zero_offsets : (![0, 0] : Fin 2 → Nat) = fun _ => 0 := funext fun a => by fin_cases a <;> rfl

/-- The output array as one function of the three input arrays: row `r` is the affine image of row `r` of `X`. -/
def rowsLin (X : S50000x32.Idx → EReal) (W : S32x64.Idx → EReal) (b : S1x64.Idx → EReal) : S50000x64.Idx → EReal :=
  fun i => lin (rowsOf W) (rowAt b 0) (rowsOf X (i 0)) (i 1)

/-- Entry `(p, q)` of the tile the body stores: row `p` of the tile of `X` against column `q` of `W`, plus the
    bias. The two changes of float format are the identity at the extended reals and the accumulator is zero. -/
theorem tile_entry (x0 : FVec Ideal S5000x32 .f32) (x1 : FVec Ideal S32x64 .f32) (x2 : FVec Ideal S1x64 .f32)
    (p : Fin 5000) (q : Fin 64) :
    Gen.k0_pay1 (F := Ideal) x0 x1 x2 (ix2 p q) = (∑ k : Fin 32, x0 (ix2 p k) * x1 (ix2 k q)) + x2 (ix2 (0 : Fin 1) q) := by
  unfold Gen.k0_pay1
  refine Cert.TileRows.bias_rows _ x2 _ _ (fun p q => ∑ k : Fin 32, x0 (ix2 p k) * x1 (ix2 k q)) (fun p q => ?_) p q
  refine (Ideal.matmul_constant_zero_apply dot_S5000x32_S32x64_S5000x64_1_0_0_1_n_n none _ _ (ix2 p q)).trans ?_
  exact Cert.PlainDot.sum_contr dot_S5000x32_S32x64_S5000x64_1_0_0_1_n_n ⟨rfl, rfl, rfl, rfl, rfl, rfl⟩ _ _ p q

/-- The same entry when the three loaded tiles are known to be rows `r` of `X`, all of `W` and all of `b`: it is
    entry `(r, q)` of `rowsLin X W b`. -/
theorem tile_entry_of (X : S50000x32.Idx → EReal) (W : S32x64.Idx → EReal) (b : S1x64.Idx → EReal)
    (x0 : FVec Ideal S5000x32 .f32) (x1 : FVec Ideal S32x64 .f32) (x2 : FVec Ideal S1x64 .f32)
    (p : Fin 5000) (q : Fin 64) (r : Fin 50000)
    (h0 : ∀ k : Fin 32, x0 (ix2 p k) = X (ix2 r k)) (h1 : ∀ k : Fin 32, x1 (ix2 k q) = W (ix2 k q))
    (h2 : x2 (ix2 (0 : Fin 1) q) = b (ix2 (0 : Fin 1) q)) :
    Gen.k0_pay1 (F := Ideal) x0 x1 x2 (ix2 p q) = rowsLin X W b (ix2 r q) := by
  rw [tile_entry, h2]
  show _ = (∑ k : Fin 32, X (ix2 r k) * W (ix2 k q)) + b (ix2 (0 : Fin 1) q)
  exact congrArg (· + b (ix2 (0 : Fin 1) q)) (Finset.sum_congr rfl fun k _ => by rw [h0 k, h1 k])

/-! ## Where a block sits in its array -/

/-- The block indices of the four windows at grid point `t`, decided over the 10 points: `X` and the output move
    down one tile of rows per point; `W` and `b` are always their one whole block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, k)` of the tile of `X` at point `t` is entry `(5000 t + p, k)` of `X`. -/
theorem x_tile (c : Dev nD) (t : Fin cfg0.N) (p : Fin 5000) (k : Fin 32) (r : Fin 50000) (hr : r.val = t.val * 5000 + p.val) :
    (Gen.iblk0 V c 0 t : S5000x32.Idx → EReal) (ix2 p k) = (V c (Pipeline.arrRef spec0 0) : S50000x32.Idx → EReal) (ix2 r k) := by
  obtain ⟨e0, e1, -⟩ := block_indices t
  unfold Gen.iblk0
  rw [View.read_apply]
  show (V c (Pipeline.arrRef spec0 0) : S50000x32.Idx → EReal) (((cfg0.win 0).blk t).view.emb (ix2 p k)) = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 32 + 1 * k.val = k.val; rw [e1]; omega

/-- The block of `W` at any point is `W`. -/
theorem w_tile (c : Dev nD) (t : Fin cfg0.N) (k : Fin 32) (q : Fin 64) :
    (Gen.iblk0 V c 1 t : S32x64.Idx → EReal) (ix2 k q) = (V c (Pipeline.arrRef spec0 1) : S32x64.Idx → EReal) (ix2 k q) := by
  obtain ⟨-, -, e0, e1, -⟩ := block_indices t
  unfold Gen.iblk0
  rw [View.read_apply]
  show (V c (Pipeline.arrRef spec0 1) : S32x64.Idx → EReal) (((cfg0.win 1).blk t).view.emb (ix2 k q)) = _
  refine congrArg _ (funext fun a => Fin.ext ?_)
  match a with
  | ⟨0, _⟩ => show win0_1.index t (0 : Fin 2) * 32 + 1 * k.val = k.val; rw [e0]; omega
  | ⟨1, _⟩ => show win0_1.index t (1 : Fin 2) * 64 + 1 * q.val = q.val; rw [e1]; omega

/-- The block of `b` at any point is `b`. -/
theorem b_tile (c : Dev nD) (t : Fin cfg0.N) (z : Fin 1) (q : Fin 64) :
    (Gen.iblk0 V c 2 t : S1x64.Idx → EReal) (ix2 z q) = (V c (Pipeline.arrRef spec0 2) : S1x64.Idx → EReal) (ix2 z q) := by
  obtain ⟨-, -, -, -, e0, e1, -⟩ := block_indices t
  unfold Gen.iblk0
  rw [View.read_apply]
  show (V c (Pipeline.arrRef spec0 2) : S1x64.Idx → EReal) (((cfg0.win 2).blk t).view.emb (ix2 z q)) = _
  refine congrArg _ (funext fun a => Fin.ext ?_)
  match a with
  | ⟨0, _⟩ => show win0_2.index t (0 : Fin 2) * 1 + 1 * z.val = z.val; rw [e0]; omega
  | ⟨1, _⟩ => show win0_2.index t (1 : Fin 2) * 64 + 1 * q.val = q.val; rw [e1]; omega

/-- Place `(p, q)` of the output's block at point `t` is place `(5000 t + p, q)` of the output array. -/
theorem out_place (t : Fin cfg0.N) (p : Fin 5000) (q : Fin 64) (r : Fin 50000) (hr : r.val = t.val * 5000 + p.val) :
    (((cfg0.win 3).blk t).view.emb (ix2 p q) : S50000x64.Idx) = ix2 r q := by
  obtain ⟨-, -, -, -, -, -, e0, e1⟩ := block_indices t
  refine funext fun a => Fin.ext ?_
  match a with
  | ⟨0, _⟩ => show win0_3.index t (0 : Fin 2) * 5000 + 1 * p.val = r.val; rw [e0, hr]; omega
  | ⟨1, _⟩ => show win0_3.index t (1 : Fin 2) * 64 + 1 * q.val = q.val; rw [e1]; omega

/-! ## What a point writes back, and the array after the region -/

/-- What grid point `t` writes back is its block of `rowsLin X W b`, the arrays as the region finds them. -/
theorem written_back (c : Dev nD) (t : Fin cfg0.N) :
    (Gen.dat0 V c).flushed 3 t = ((cfg0.win 3).blk t).view.read (Elt Ideal)
      (rowsLin (V c (Pipeline.arrRef spec0 0)) (V c (Pipeline.arrRef spec0 1)) (V c (Pipeline.arrRef spec0 2))) := by
  show (cfg0.win 3).cut (grid0.coords t) ((Gen.dat0 V c).after 3 t) = _
  rw [Gen.after0_3]
  unfold Gen.out0_3
  rw [View.canon_unit_zero zero_offsets]
  simp only [View.ld_unit_zero (S := S5000x32) zero_offsets, View.ld_unit_zero (S := S32x64) zero_offsets,
    View.ld_unit_zero (S := S1x64) zero_offsets]
  funext y
  obtain ⟨p, q, rfl⟩ : ∃ (p : Fin 5000) (q : Fin 64), y = ix2 p q := ⟨y 0, y 1, eq_ix2 y⟩
  have hN : cfg0.N = 10 := Gen.N_0
  have ht : t.val < 10 := hN ▸ t.isLt
  have hr : (⟨t.val * 5000 + p.val, by omega⟩ : Fin 50000).val = t.val * 5000 + p.val := rfl
  rw [View.read_apply]
  show Gen.k0_pay1 (F := Ideal) (Gen.iblk0 V c 0 t) (Gen.iblk0 V c 1 t) (Gen.iblk0 V c 2 t) (ix2 p q)
    = rowsLin (V c (Pipeline.arrRef spec0 0)) (V c (Pipeline.arrRef spec0 1)) (V c (Pipeline.arrRef spec0 2))
        (((cfg0.win 3).blk t).view.emb (ix2 p q))
  rw [out_place t p q _ hr]
  exact tile_entry_of _ _ _ (Gen.iblk0 V c 0 t) (Gen.iblk0 V c 1 t) (Gen.iblk0 V c 2 t) p q _
    (fun k => x_tile V c t p k _ hr) (fun k => w_tile V c t k q) (b_tile V c t 0 q)

/-- An index of the output array lies in point `t`'s block iff each coordinate lies in the block's range. -/
theorem mem_block (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v5).slice (win0_3.rect t)).set ↔ _
  rw [View.set_slice_whole, Rect.mem_set_unit]
  exact Iff.rfl

/-- Every index of the output array is written back by some point: row `r` by point `r / 5000`. -/
theorem covered (i : S50000x64.Idx) : ∃ t : Fin cfg0.N, (cfg0.win 3).flush t = true ∧ i ∈ ((cfg0.win 3).blk t).view.set := by
  have hN : cfg0.N = 10 := Gen.N_0
  have h0 : (i 0).val < 50000 := (i 0).isLt
  have h1 : (i 1).val < 64 := (i 1).isLt
  refine ⟨⟨(i 0).val / 5000, by omega⟩, Gen.flush0_3 _, ?_⟩
  obtain ⟨-, -, -, -, -, -, e0, e1⟩ := block_indices ⟨(i 0).val / 5000, by omega⟩
  rw [mem_block]
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 64 ≤ (i 1).val ∧ (i 1).val < win0_3.index _ (1 : Fin 2) * 64 + 64
    rw [e1]; omega

/-- The output array after the region is `rowsLin X W b`. -/
theorem array_after (c : Dev nD) :
    (Gen.dat0 V c).arrAt 3 cfg0.N
      = rowsLin (V c (Pipeline.arrRef spec0 0)) (V c (Pipeline.arrRef spec0 1)) (V c (Pipeline.arrRef spec0 2)) :=
  (Gen.dat0 V c).arrAt_eq_of_cover 3 _ (fun t _ => written_back V c t) covered

/-- Row by row: row `p` of the output array is the affine image of row `p` of `X`. -/
theorem rows (c : Dev nD) (p : Fin 50000) (q : Fin 64) :
    ((Gen.dat0 V c).arrAt 3 cfg0.N : S50000x64.Idx → EReal) (ix2 p q)
      = lin (rowsOf ((Gen.dat0 V c).A 1 : S32x64.Idx → EReal)) (rowAt ((Gen.dat0 V c).A 2 : S1x64.Idx → EReal) 0)
          (rowsOf ((Gen.dat0 V c).A 0 : S50000x32.Idx → EReal) p) q := by
  rw [array_after V c, Gen.A_eq0, Gen.A_eq0, Gen.A_eq0]
  rfl

end Cert.KernelIdeal.Reg0

end
-- ==== Proof.KReg1.lean ====
/-
  Region 1 of the kernel program, read as mathematics: an affine map applied to every row of the edge features.

  The region walks the 1000000 rows of `X` in 125 tiles of 8000 rows. At a tile it multiplies the tile by the
  whole 16 × 64 matrix `W` into a zero accumulator and adds the one-row bias `b` to every row, and writes the
  8000 × 64 result back as the same tile of the output array. Entry `(p, q)` of what a tile stores depends
  only on row `p` of the tile, so row `r` of the output array — which lies in tile `r / 8000`, at place
  `r % 8000` — is `Cert.Gine.lin W b` of row `r` of `X`.

  Three steps: the stored tile entry by entry (`tile_entry`); what a grid point writes back is its block of one
  function of the whole arrays (`written_back`), because every block's place in its array is its block index times
  the block's extent; and the tiles cover the output array (`covered`), so the array ends as that function.
-/
import proofs.«133695_j30227979829590_2_alg».proof.Proof.Gen.KernelIdeal.Frame
import proofs.«133695_j30227979829590_2_alg».proof.Proof.Spec
import proofs.«133695_j30227979829590_2_alg».proof.Proof.Conv
import proofs.«133695_j30227979829590_2_alg».proof.Proof.LibTileRows
import Idealize.ShloMosaic.Lib.Pipeline.Value

noncomputable section

namespace Cert.KernelIdeal.Reg1

open Idealize.ShloMosaic Idealize.ShloMosaic.TcCoe Idealize.ShloMosaic.ValueIdx
open Idealize.ShloMosaic.Pipeline (Dat)
open Cert.KernelIdeal Cert.Gine

-- The contents of the TensorCore's buffers when the region is entered.
variable (V : (c : Dev nD) → (b : Ref sig .tc) → Buf (Elt Ideal) ((c : Thread nD τ).loc b))

theorem zero_offsets : (![0, 0] : Fin 2 → Nat) = fun _ => 0 := funext fun a => by fin_cases a <;> rfl

/-- The output array as one function of the three input arrays: row `r` is the affine image of row `r` of `X`. -/
def rowsLin (X : S1000000x16.Idx → EReal) (W : S16x64.Idx → EReal) (b : S1x64.Idx → EReal) : S1000000x64.Idx → EReal :=
  fun i => lin (rowsOf W) (rowAt b 0) (rowsOf X (i 0)) (i 1)

/-- Entry `(p, q)` of the tile the body stores: row `p` of the tile of `X` against column `q` of `W`, plus the
    bias. The two changes of float format are the identity at the extended reals and the accumulator is zero. -/
theorem tile_entry (x0 : FVec Ideal S8000x16 .f32) (x1 : FVec Ideal S16x64 .f32) (x2 : FVec Ideal S1x64 .f32)
    (p : Fin 8000) (q : Fin 64) :
    Gen.k1_pay1 (F := Ideal) x0 x1 x2 (ix2 p q) = (∑ k : Fin 16, x0 (ix2 p k) * x1 (ix2 k q)) + x2 (ix2 (0 : Fin 1) q) := by
  unfold Gen.k1_pay1
  refine Cert.TileRows.bias_rows _ x2 _ _ (fun p q => ∑ k : Fin 16, x0 (ix2 p k) * x1 (ix2 k q)) (fun p q => ?_) p q
  refine (Ideal.matmul_constant_zero_apply dot_S8000x16_S16x64_S8000x64_1_0_0_1_n_n none _ _ (ix2 p q)).trans ?_
  exact Cert.PlainDot.sum_contr dot_S8000x16_S16x64_S8000x64_1_0_0_1_n_n ⟨rfl, rfl, rfl, rfl, rfl, rfl⟩ _ _ p q

/-- The same entry when the three loaded tiles are known to be rows `r` of `X`, all of `W` and all of `b`: it is
    entry `(r, q)` of `rowsLin X W b`. -/
theorem tile_entry_of (X : S1000000x16.Idx → EReal) (W : S16x64.Idx → EReal) (b : S1x64.Idx → EReal)
    (x0 : FVec Ideal S8000x16 .f32) (x1 : FVec Ideal S16x64 .f32) (x2 : FVec Ideal S1x64 .f32)
    (p : Fin 8000) (q : Fin 64) (r : Fin 1000000)
    (h0 : ∀ k : Fin 16, x0 (ix2 p k) = X (ix2 r k)) (h1 : ∀ k : Fin 16, x1 (ix2 k q) = W (ix2 k q))
    (h2 : x2 (ix2 (0 : Fin 1) q) = b (ix2 (0 : Fin 1) q)) :
    Gen.k1_pay1 (F := Ideal) x0 x1 x2 (ix2 p q) = rowsLin X W b (ix2 r q) := by
  rw [tile_entry, h2]
  show _ = (∑ k : Fin 16, X (ix2 r k) * W (ix2 k q)) + b (ix2 (0 : Fin 1) q)
  exact congrArg (· + b (ix2 (0 : Fin 1) q)) (Finset.sum_congr rfl fun k _ => by rw [h0 k, h1 k])

/-! ## Where a block sits in its array -/

/-- The block indices of the four windows at grid point `t`, decided over the 125 points: `X` and the output move
    down one tile of rows per point; `W` and `b` are always their one whole block. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `(p, k)` of the tile of `X` at point `t` is entry `(8000 t + p, k)` of `X`. -/
theorem x_tile (c : Dev nD) (t : Fin cfg1.N) (p : Fin 8000) (k : Fin 16) (r : Fin 1000000) (hr : r.val = t.val * 8000 + p.val) :
    (Gen.iblk1 V c 0 t : S8000x16.Idx → EReal) (ix2 p k) = (V c (Pipeline.arrRef spec1 0) : S1000000x16.Idx → EReal) (ix2 r k) := by
  obtain ⟨e0, e1, -⟩ := block_indices t
  unfold Gen.iblk1
  rw [View.read_apply]
  show (V c (Pipeline.arrRef spec1 0) : S1000000x16.Idx → EReal) (((cfg1.win 0).blk t).view.emb (ix2 p k)) = _
  refine congrArg _ (funext fun a => Fin.ext ?_)
  match a with
  | ⟨0, _⟩ => show win1_0.index t (0 : Fin 2) * 8000 + 1 * p.val = r.val; rw [e0, hr]; omega
  | ⟨1, _⟩ => show win1_0.index t (1 : Fin 2) * 16 + 1 * k.val = k.val; rw [e1]; omega

/-- The block of `W` at any point is `W`. -/
theorem w_tile (c : Dev nD) (t : Fin cfg1.N) (k : Fin 16) (q : Fin 64) :
    (Gen.iblk1 V c 1 t : S16x64.Idx → EReal) (ix2 k q) = (V c (Pipeline.arrRef spec1 1) : S16x64.Idx → EReal) (ix2 k q) := by
  obtain ⟨-, -, e0, e1, -⟩ := block_indices t
  unfold Gen.iblk1
  rw [View.read_apply]
  show (V c (Pipeline.arrRef spec1 1) : S16x64.Idx → EReal) (((cfg1.win 1).blk t).view.emb (ix2 k q)) = _
  refine congrArg _ (funext fun a => Fin.ext ?_)
  match a with
  | ⟨0, _⟩ => show win1_1.index t (0 : Fin 2) * 16 + 1 * k.val = k.val; rw [e0]; omega
  | ⟨1, _⟩ => show win1_1.index t (1 : Fin 2) * 64 + 1 * q.val = q.val; rw [e1]; omega

/-- The block of `b` at any point is `b`. -/
theorem b_tile (c : Dev nD) (t : Fin cfg1.N) (z : Fin 1) (q : Fin 64) :
    (Gen.iblk1 V c 2 t : S1x64.Idx → EReal) (ix2 z q) = (V c (Pipeline.arrRef spec1 2) : S1x64.Idx → EReal) (ix2 z q) := by
  obtain ⟨-, -, -, -, e0, e1, -⟩ := block_indices t
  unfold Gen.iblk1
  rw [View.read_apply]
  show (V c (Pipeline.arrRef spec1 2) : S1x64.Idx → EReal) (((cfg1.win 2).blk t).view.emb (ix2 z q)) = _
  refine congrArg _ (funext fun a => Fin.ext ?_)
  match a with
  | ⟨0, _⟩ => show win1_2.index t (0 : Fin 2) * 1 + 1 * z.val = z.val; rw [e0]; omega
  | ⟨1, _⟩ => show win1_2.index t (1 : Fin 2) * 64 + 1 * q.val = q.val; rw [e1]; omega

/-- Place `(p, q)` of the output's block at point `t` is place `(8000 t + p, q)` of the output array. -/
theorem out_place (t : Fin cfg1.N) (p : Fin 8000) (q : Fin 64) (r : Fin 1000000) (hr : r.val = t.val * 8000 + p.val) :
    (((cfg1.win 3).blk t).view.emb (ix2 p q) : S1000000x64.Idx) = ix2 r q := by
  obtain ⟨-, -, -, -, -, -, e0, e1⟩ := block_indices t
  refine funext fun a => Fin.ext ?_
  match a with
  | ⟨0, _⟩ => show win1_3.index t (0 : Fin 2) * 8000 + 1 * p.val = r.val; rw [e0, hr]; omega
  | ⟨1, _⟩ => show win1_3.index t (1 : Fin 2) * 64 + 1 * q.val = q.val; rw [e1]; omega

/-! ## What a point writes back, and the array after the region -/

/-- What grid point `t` writes back is its block of `rowsLin X W b`, the arrays as the region finds them. -/
theorem written_back (c : Dev nD) (t : Fin cfg1.N) :
    (Gen.dat1 V c).flushed 3 t = ((cfg1.win 3).blk t).view.read (Elt Ideal)
      (rowsLin (V c (Pipeline.arrRef spec1 0)) (V c (Pipeline.arrRef spec1 1)) (V c (Pipeline.arrRef spec1 2))) := by
  show (cfg1.win 3).cut (grid1.coords t) ((Gen.dat1 V c).after 3 t) = _
  rw [Gen.after1_3]
  unfold Gen.out1_3
  rw [View.canon_unit_zero zero_offsets]
  simp only [View.ld_unit_zero (S := S8000x16) zero_offsets, View.ld_unit_zero (S := S16x64) zero_offsets,
    View.ld_unit_zero (S := S1x64) zero_offsets]
  funext y
  obtain ⟨p, q, rfl⟩ : ∃ (p : Fin 8000) (q : Fin 64), y = ix2 p q := ⟨y 0, y 1, eq_ix2 y⟩
  have hN : cfg1.N = 125 := Gen.N_1
  have ht : t.val < 125 := hN ▸ t.isLt
  have hr : (⟨t.val * 8000 + p.val, by omega⟩ : Fin 1000000).val = t.val * 8000 + p.val := rfl
  rw [View.read_apply]
  show Gen.k1_pay1 (F := Ideal) (Gen.iblk1 V c 0 t) (Gen.iblk1 V c 1 t) (Gen.iblk1 V c 2 t) (ix2 p q)
    = rowsLin (V c (Pipeline.arrRef spec1 0)) (V c (Pipeline.arrRef spec1 1)) (V c (Pipeline.arrRef spec1 2))
        (((cfg1.win 3).blk t).view.emb (ix2 p q))
  rw [out_place t p q _ hr]
  exact tile_entry_of _ _ _ (Gen.iblk1 V c 0 t) (Gen.iblk1 V c 1 t) (Gen.iblk1 V c 2 t) p q _
    (fun k => x_tile V c t p k _ hr) (fun k => w_tile V c t k q) (b_tile V c t 0 q)

/-- An index of the output array lies in point `t`'s block iff each coordinate lies in the block's range. -/
theorem mem_block (t : Fin cfg1.N) (i : S1000000x64.Idx) :
    i ∈ ((cfg1.win 3).blk t).view.set ↔ ∀ a : Fin 2, win1_3.index t a * S8000x64.size a ≤ (i a).val
      ∧ (i a).val < win1_3.index t a * S8000x64.size a + S8000x64.size a := by
  show i ∈ ((View.whole main_v7).slice (win1_3.rect t)).set ↔ _
  rw [View.set_slice_whole, Rect.mem_set_unit]
  exact Iff.rfl

/-- Every index of the output array is written back by some point: row `r` by point `r / 8000`. -/
theorem covered (i : S1000000x64.Idx) : ∃ t : Fin cfg1.N, (cfg1.win 3).flush t = true ∧ i ∈ ((cfg1.win 3).blk t).view.set := by
  have hN : cfg1.N = 125 := Gen.N_1
  have h0 : (i 0).val < 1000000 := (i 0).isLt
  have h1 : (i 1).val < 64 := (i 1).isLt
  refine ⟨⟨(i 0).val / 8000, by omega⟩, Gen.flush1_3 _, ?_⟩
  obtain ⟨-, -, -, -, -, -, e0, e1⟩ := block_indices ⟨(i 0).val / 8000, by omega⟩
  rw [mem_block]
  intro a
  match a with
  | ⟨0, _⟩ =>
    show win1_3.index _ (0 : Fin 2) * 8000 ≤ (i 0).val ∧ (i 0).val < win1_3.index _ (0 : Fin 2) * 8000 + 8000
    rw [e0]; show (i 0).val / 8000 * 8000 ≤ (i 0).val ∧ (i 0).val < (i 0).val / 8000 * 8000 + 8000; omega
  | ⟨1, _⟩ =>
    show win1_3.index _ (1 : Fin 2) * 64 ≤ (i 1).val ∧ (i 1).val < win1_3.index _ (1 : Fin 2) * 64 + 64
    rw [e1]; omega

/-- The output array after the region is `rowsLin X W b`. -/
theorem array_after (c : Dev nD) :
    (Gen.dat1 V c).arrAt 3 cfg1.N
      = rowsLin (V c (Pipeline.arrRef spec1 0)) (V c (Pipeline.arrRef spec1 1)) (V c (Pipeline.arrRef spec1 2)) :=
  (Gen.dat1 V c).arrAt_eq_of_cover 3 _ (fun t _ => written_back V c t) covered

/-- Row by row: row `p` of the output array is the affine image of row `p` of `X`. -/
theorem rows (c : Dev nD) (p : Fin 1000000) (q : Fin 64) :
    ((Gen.dat1 V c).arrAt 3 cfg1.N : S1000000x64.Idx → EReal) (ix2 p q)
      = lin (rowsOf ((Gen.dat1 V c).A 1 : S16x64.Idx → EReal)) (rowAt ((Gen.dat1 V c).A 2 : S1x64.Idx → EReal) 0)
          (rowsOf ((Gen.dat1 V c).A 0 : S1000000x16.Idx → EReal) p) q := by
  rw [array_after V c, Gen.A_eq1, Gen.A_eq1, Gen.A_eq1]
  rfl

end Cert.KernelIdeal.Reg1

end
-- ==== Proof.KReg2.lean ====
/-
  Region 2 of the kernel program, read as mathematics: the message of every edge.

  The region walks the 1000000 edges in 125 tiles of 8000. At a tile it takes the tile of gathered source rows `Hs`
  and the tile of edge rows `EA`, multiplies the edge tile by the whole 64 × 64 matrix `W` into a zero accumulator,
  adds the one-row bias `b` to every row, adds the source tile, and takes the positive part. Entry `(p, q)` of what
  a tile stores depends only on rows `p` of the two tiles, so row `e` of the output array — which lies in tile
  `e / 8000` — is `Cert.Gine.msg W b` of row `e` of `Hs` and row `e` of `EA`.

  Three steps: the stored tile entry by entry (`tile_entry`); what a grid point writes back is its block of one
  function of the whole arrays (`written_back`), because every block's place in its array is its block index times
  the block's extent; and the tiles cover the output array (`covered`), so the array ends as that function.
-/
import proofs.«133695_j30227979829590_2_alg».proof.Proof.Gen.KernelIdeal.Frame
import proofs.«133695_j30227979829590_2_alg».proof.Proof.Spec
import proofs.«133695_j30227979829590_2_alg».proof.Proof.Conv
import proofs.«133695_j30227979829590_2_alg».proof.Proof.LibTileRows
import Idealize.ShloMosaic.Lib.Pipeline.Value

noncomputable section

namespace Cert.KernelIdeal.Reg2

open Idealize.ShloMosaic Idealize.ShloMosaic.TcCoe Idealize.ShloMosaic.ValueIdx
open Idealize.ShloMosaic.Pipeline (Dat)
open Cert.KernelIdeal Cert.Gine

-- The contents of the TensorCore's buffers when the region is entered.
variable (V : (c : Dev nD) → (b : Ref sig .tc) → Buf (Elt Ideal) ((c : Thread nD τ).loc b))

theorem zero_offsets : (![0, 0] : Fin 2 → Nat) = fun _ => 0 := funext fun a => by fin_cases a <;> rfl

/-- The output array as one function of the four input arrays: row `e` is the message of rows `e` of `Hs` and `EA`. -/
def rowsMsg (Hs EA : S1000000x64.Idx → EReal) (W : S64x64.Idx → EReal) (b : S1x64.Idx → EReal) : S1000000x64.Idx → EReal :=
  fun i => msg (rowsOf W) (rowAt b 0) (rowsOf Hs (i 0)) (rowsOf EA (i 0)) (i 1)

/-- Entry `(p, q)` of the tile the body stores, from the loaded tiles of `EA`, `W`, `b` and `Hs` (in the order the
    body loads them): the positive part of the source entry plus row `p` of the edge tile against column `q` of
    `W` plus the bias. The re-layings to the same shape and the changes of float format are the identity at the
    extended reals, and the accumulator is zero. -/
theorem tile_entry (ea : FVec Ideal S8000x64 .f32) (w : FVec Ideal S64x64 .f32) (b : FVec Ideal S1x64 .f32)
    (hs : FVec Ideal S8000x64 .f32) (p : Fin 8000) (q : Fin 64) :
    Gen.k2_pay1 (F := Ideal) ea w b hs (ix2 p q)
      = max (hs (ix2 p q) + ((∑ k : Fin 64, ea (ix2 p k) * w (ix2 k q)) + b (ix2 (0 : Fin 1) q))) 0 := by
  unfold Gen.k2_pay1
  refine Cert.TileRows.relu_rows _
    (fun p q => hs (ix2 p q) + ((∑ k : Fin 64, ea (ix2 p k) * w (ix2 k q)) + b (ix2 (0 : Fin 1) q))) (fun p q => ?_) p q
  refine Cert.TileRows.add_rows _ _ (fun p q => hs (ix2 p q))
    (fun p q => (∑ k : Fin 64, ea (ix2 p k) * w (ix2 k q)) + b (ix2 (0 : Fin 1) q)) (fun p q => ?_) (fun p q => ?_) p q
  · rw [shapeCast_self]
  · refine Cert.TileRows.bias_rows _ b _ _ (fun p q => ∑ k : Fin 64, ea (ix2 p k) * w (ix2 k q)) (fun p q => ?_) p q
    refine (Ideal.matmul_constant_zero_apply dot_S8000x64_S64x64_S8000x64_1_0_0_1_n_n none _ _ (ix2 p q)).trans ?_
    refine (Cert.PlainDot.sum_contr dot_S8000x64_S64x64_S8000x64_1_0_0_1_n_n ⟨rfl, rfl, rfl, rfl, rfl, rfl⟩ _ _ p q).trans ?_
    refine Finset.sum_congr rfl fun k _ => ?_
    show shapeCast S8000x64 ea _ (ix2 p k) * shapeCast S64x64 w _ (ix2 k q) = _
    rw [shapeCast_self, shapeCast_self]

/-- The same entry when the loaded tiles are known to be rows `e` of `EA` and of `Hs`, all of `W` and all of `b`: it is
    entry `(e, q)` of `rowsMsg Hs EA W b`. -/
theorem tile_entry_of (Hs EA : S1000000x64.Idx → EReal) (W : S64x64.Idx → EReal) (B : S1x64.Idx → EReal)
    (ea : FVec Ideal S8000x64 .f32) (w : FVec Ideal S64x64 .f32) (b : FVec Ideal S1x64 .f32) (hs : FVec Ideal S8000x64 .f32)
    (p : Fin 8000) (q : Fin 64) (e : Fin 1000000)
    (hea : ∀ k : Fin 64, ea (ix2 p k) = EA (ix2 e k)) (hw : ∀ k : Fin 64, w (ix2 k q) = W (ix2 k q))
    (hb : b (ix2 (0 : Fin 1) q) = B (ix2 (0 : Fin 1) q)) (hhs : hs (ix2 p q) = Hs (ix2 e q)) :
    Gen.k2_pay1 (F := Ideal) ea w b hs (ix2 p q) = rowsMsg Hs EA W B (ix2 e q) := by
  rw [tile_entry, hb, hhs]
  show _ = max (Hs (ix2 e q) + ((∑ k : Fin 64, EA (ix2 e k) * W (ix2 k q)) + B (ix2 (0 : Fin 1) q))) 0
  exact congrArg (fun s => max (Hs (ix2 e q) + (s + B (ix2 (0 : Fin 1) q))) 0)
    (Finset.sum_congr rfl fun k _ => by rw [hea k, hw k])

/-! ## Where a block sits in its array -/

/-- The block indices of the five windows at grid point `t`, decided over the 125 points: `Hs`, `EA` and the output
    move down one tile of rows per point; `W` and `b` are always their one whole block. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry `(p, k)` of the tile of `Hs` at point `t` is entry `(8000 t + p, k)` of `Hs`. -/
theorem hs_tile (c : Dev nD) (t : Fin cfg2.N) (p : Fin 8000) (k : Fin 64) (e : Fin 1000000) (he : e.val = t.val * 8000 + p.val) :
    (Gen.iblk2 V c 0 t : S8000x64.Idx → EReal) (ix2 p k) = (V c (Pipeline.arrRef spec2 0) : S1000000x64.Idx → EReal) (ix2 e k) := by
  obtain ⟨e0, e1, -⟩ := block_indices t
  unfold Gen.iblk2
  rw [View.read_apply]
  show (V c (Pipeline.arrRef spec2 0) : S1000000x64.Idx → EReal) (((cfg2.win 0).blk t).view.emb (ix2 p k)) = _
  refine congrArg _ (funext fun a => Fin.ext ?_)
  match a with
  | ⟨0, _⟩ => show win2_0.index t (0 : Fin 2) * 8000 + 1 * p.val = e.val; rw [e0, he]; omega
  | ⟨1, _⟩ => show win2_0.index t (1 : Fin 2) * 64 + 1 * k.val = k.val; rw [e1]; omega

/-- Entry `(p, k)` of the tile of `EA` at point `t` is entry `(8000 t + p, k)` of `EA`. -/
theorem ea_tile (c : Dev nD) (t : Fin cfg2.N) (p : Fin 8000) (k : Fin 64) (e : Fin 1000000) (he : e.val = t.val * 8000 + p.val) :
    (Gen.iblk2 V c 1 t : S8000x64.Idx → EReal) (ix2 p k) = (V c (Pipeline.arrRef spec2 1) : S1000000x64.Idx → EReal) (ix2 e k) := by
  obtain ⟨-, -, e0, e1, -⟩ := block_indices t
  unfold Gen.iblk2
  rw [View.read_apply]
  show (V c (Pipeline.arrRef spec2 1) : S1000000x64.Idx → EReal) (((cfg2.win 1).blk t).view.emb (ix2 p k)) = _
  refine congrArg _ (funext fun a => Fin.ext ?_)
  match a with
  | ⟨0, _⟩ => show win2_1.index t (0 : Fin 2) * 8000 + 1 * p.val = e.val; rw [e0, he]; omega
  | ⟨1, _⟩ => show win2_1.index t (1 : Fin 2) * 64 + 1 * k.val = k.val; rw [e1]; omega

/-- The block of `W` at any point is `W`. -/
theorem w_tile (c : Dev nD) (t : Fin cfg2.N) (k : Fin 64) (q : Fin 64) :
    (Gen.iblk2 V c 2 t : S64x64.Idx → EReal) (ix2 k q) = (V c (Pipeline.arrRef spec2 2) : S64x64.Idx → EReal) (ix2 k q) := by
  obtain ⟨-, -, -, -, e0, e1, -⟩ := block_indices t
  unfold Gen.iblk2
  rw [View.read_apply]
  show (V c (Pipeline.arrRef spec2 2) : S64x64.Idx → EReal) (((cfg2.win 2).blk t).view.emb (ix2 k q)) = _
  refine congrArg _ (funext fun a => Fin.ext ?_)
  match a with
  | ⟨0, _⟩ => show win2_2.index t (0 : Fin 2) * 64 + 1 * k.val = k.val; rw [e0]; omega
  | ⟨1, _⟩ => show win2_2.index t (1 : Fin 2) * 64 + 1 * q.val = q.val; rw [e1]; omega

/-- The block of `b` at any point is `b`. -/
theorem b_tile (c : Dev nD) (t : Fin cfg2.N) (z : Fin 1) (q : Fin 64) :
    (Gen.iblk2 V c 3 t : S1x64.Idx → EReal) (ix2 z q) = (V c (Pipeline.arrRef spec2 3) : S1x64.Idx → EReal) (ix2 z q) := by
  obtain ⟨-, -, -, -, -, -, e0, e1, -⟩ := block_indices t
  unfold Gen.iblk2
  rw [View.read_apply]
  show (V c (Pipeline.arrRef spec2 3) : S1x64.Idx → EReal) (((cfg2.win 3).blk t).view.emb (ix2 z q)) = _
  refine congrArg _ (funext fun a => Fin.ext ?_)
  match a with
  | ⟨0, _⟩ => show win2_3.index t (0 : Fin 2) * 1 + 1 * z.val = z.val; rw [e0]; omega
  | ⟨1, _⟩ => show win2_3.index t (1 : Fin 2) * 64 + 1 * q.val = q.val; rw [e1]; omega

/-- Place `(p, q)` of the output's block at point `t` is place `(8000 t + p, q)` of the output array. -/
theorem out_place (t : Fin cfg2.N) (p : Fin 8000) (q : Fin 64) (e : Fin 1000000) (he : e.val = t.val * 8000 + p.val) :
    (((cfg2.win 4).blk t).view.emb (ix2 p q) : S1000000x64.Idx) = ix2 e q := by
  obtain ⟨-, -, -, -, -, -, -, -, e0, e1⟩ := block_indices t
  refine funext fun a => Fin.ext ?_
  match a with
  | ⟨0, _⟩ => show win2_4.index t (0 : Fin 2) * 8000 + 1 * p.val = e.val; rw [e0, he]; omega
  | ⟨1, _⟩ => show win2_4.index t (1 : Fin 2) * 64 + 1 * q.val = q.val; rw [e1]; omega

/-! ## What a point writes back, and the array after the region -/

/-- What grid point `t` writes back is its block of `rowsMsg Hs EA W b`, the arrays as the region finds them. -/
theorem written_back (c : Dev nD) (t : Fin cfg2.N) :
    (Gen.dat2 V c).flushed 4 t = ((cfg2.win 4).blk t).view.read (Elt Ideal)
      (rowsMsg (V c (Pipeline.arrRef spec2 0)) (V c (Pipeline.arrRef spec2 1)) (V c (Pipeline.arrRef spec2 2))
        (V c (Pipeline.arrRef spec2 3))) := by
  show (cfg2.win 4).cut (grid2.coords t) ((Gen.dat2 V c).after 4 t) = _
  rw [Gen.after2_4]
  unfold Gen.out2_4
  rw [View.canon_unit_zero zero_offsets]
  simp only [View.ld_unit_zero (S := S8000x64) zero_offsets, View.ld_unit_zero (S := S64x64) zero_offsets,
    View.ld_unit_zero (S := S1x64) zero_offsets]
  funext y
  obtain ⟨p, q, rfl⟩ : ∃ (p : Fin 8000) (q : Fin 64), y = ix2 p q := ⟨y 0, y 1, eq_ix2 y⟩
  have hN : cfg2.N = 125 := Gen.N_2
  have ht : t.val < 125 := hN ▸ t.isLt
  have he : (⟨t.val * 8000 + p.val, by omega⟩ : Fin 1000000).val = t.val * 8000 + p.val := rfl
  rw [View.read_apply]
  show Gen.k2_pay1 (F := Ideal) (Gen.iblk2 V c 1 t) (Gen.iblk2 V c 2 t) (Gen.iblk2 V c 3 t) (Gen.iblk2 V c 0 t) (ix2 p q)
    = rowsMsg (V c (Pipeline.arrRef spec2 0)) (V c (Pipeline.arrRef spec2 1)) (V c (Pipeline.arrRef spec2 2))
        (V c (Pipeline.arrRef spec2 3)) (((cfg2.win 4).blk t).view.emb (ix2 p q))
  rw [out_place t p q _ he]
  exact tile_entry_of _ _ _ _ (Gen.iblk2 V c 1 t) (Gen.iblk2 V c 2 t) (Gen.iblk2 V c 3 t) (Gen.iblk2 V c 0 t) p q _
    (fun k => ea_tile V c t p k _ he) (fun k => w_tile V c t k q) (b_tile V c t 0 q) (hs_tile V c t p q _ he)

/-- An index of the output array lies in point `t`'s block iff each coordinate lies in the block's range. -/
theorem mem_block (t : Fin cfg2.N) (i : S1000000x64.Idx) :
    i ∈ ((cfg2.win 4).blk t).view.set ↔ ∀ a : Fin 2, win2_4.index t a * S8000x64.size a ≤ (i a).val
      ∧ (i a).val < win2_4.index t a * S8000x64.size a + S8000x64.size a := by
  show i ∈ ((View.whole main_v20).slice (win2_4.rect t)).set ↔ _
  rw [View.set_slice_whole, Rect.mem_set_unit]
  exact Iff.rfl

/-- Every index of the output array is written back by some point: row `e` by point `e / 8000`. -/
theorem covered (i : S1000000x64.Idx) : ∃ t : Fin cfg2.N, (cfg2.win 4).flush t = true ∧ i ∈ ((cfg2.win 4).blk t).view.set := by
  have hN : cfg2.N = 125 := Gen.N_2
  have h0 : (i 0).val < 1000000 := (i 0).isLt
  have h1 : (i 1).val < 64 := (i 1).isLt
  refine ⟨⟨(i 0).val / 8000, by omega⟩, Gen.flush2_4 _, ?_⟩
  obtain ⟨-, -, -, -, -, -, -, -, e0, e1⟩ := block_indices ⟨(i 0).val / 8000, by omega⟩
  rw [mem_block]
  intro a
  match a with
  | ⟨0, _⟩ =>
    show win2_4.index _ (0 : Fin 2) * 8000 ≤ (i 0).val ∧ (i 0).val < win2_4.index _ (0 : Fin 2) * 8000 + 8000
    rw [e0]; show (i 0).val / 8000 * 8000 ≤ (i 0).val ∧ (i 0).val < (i 0).val / 8000 * 8000 + 8000; omega
  | ⟨1, _⟩ =>
    show win2_4.index _ (1 : Fin 2) * 64 ≤ (i 1).val ∧ (i 1).val < win2_4.index _ (1 : Fin 2) * 64 + 64
    rw [e1]; omega

/-- The output array after the region is `rowsMsg Hs EA W b`. -/
theorem array_after (c : Dev nD) :
    (Gen.dat2 V c).arrAt 4 cfg2.N
      = rowsMsg (V c (Pipeline.arrRef spec2 0)) (V c (Pipeline.arrRef spec2 1)) (V c (Pipeline.arrRef spec2 2))
          (V c (Pipeline.arrRef spec2 3)) :=
  (Gen.dat2 V c).arrAt_eq_of_cover 4 _ (fun t _ => written_back V c t) covered

/-- Row by row: row `e` of the output array is the message of rows `e` of `Hs` and `EA`. -/
theorem rows (c : Dev nD) (e : Fin 1000000) (q : Fin 64) :
    ((Gen.dat2 V c).arrAt 4 cfg2.N : S1000000x64.Idx → EReal) (ix2 e q)
      = msg (rowsOf ((Gen.dat2 V c).A 2 : S64x64.Idx → EReal)) (rowAt ((Gen.dat2 V c).A 3 : S1x64.Idx → EReal) 0)
          (rowsOf ((Gen.dat2 V c).A 0 : S1000000x64.Idx → EReal) e) (rowsOf ((Gen.dat2 V c).A 1 : S1000000x64.Idx → EReal) e) q := by
  rw [array_after V c, Gen.A_eq2, Gen.A_eq2, Gen.A_eq2, Gen.A_eq2]
  rfl

end Cert.KernelIdeal.Reg2

end
-- ==== Proof.LibBlockSum.lean ====
import Mathlib.Algebra.BigOperators.Fin
import Mathlib.Logic.Equiv.Fin.Basic

/-!
# A sum over `Fin (k * n)`, taken block by block

A contraction over `k * n` terms may be computed as `k` partial sums of `n` consecutive terms each, added up in
any order: in a commutative monoid the total does not depend on the grouping. Cut `Fin (k * n)` into `k`
consecutive blocks of length `n`; term `s` of block `b` is the term at position `s + n * b`.

Nothing here needs the terms to be finite: only commutativity and associativity of `+` are used, so the lemmas
hold on the extended reals as they stand.
-/

namespace BlockSum

/-- Position `s` inside block `b`, as a position of the whole range: `s + n * b`. -/
def idx {k n : ℕ} (b : Fin k) (s : Fin n) : Fin (k * n) := finProdFinEquiv (b, s)

/-- The position's value. -/
theorem idx_val {k n : ℕ} (b : Fin k) (s : Fin n) : (idx b s).val = s.val + n * b.val := rfl

/-- The whole sum is the sum over the blocks of each block's own sum. -/
theorem sum_eq_sum_blocks {M : Type*} [AddCommMonoid M] {k n : ℕ} (f : Fin (k * n) → M) :
    ∑ t, f t = ∑ b : Fin k, ∑ s : Fin n, f (idx b s) :=
  calc ∑ t, f t = ∑ p : Fin k × Fin n, f (finProdFinEquiv p) := (Equiv.sum_comp finProdFinEquiv f).symm
    _ = ∑ b : Fin k, ∑ s : Fin n, f (idx b s) := Fintype.sum_prod_type _

/-- Four partial sums added one after the other onto a zero start are their total. -/
theorem acc_four {M : Type*} [AddCommMonoid M] (T : Fin 4 → M) : 0 + T 0 + T 1 + T 2 + T 3 = ∑ b, T b := by
  rw [Fin.sum_univ_four, zero_add]

end BlockSum
-- ==== Proof.KReg3.lean ====
/-
  The first node pass of a layer (grid of ten tiles of 5000 node rows): the perceptron outputs, and their column
  sums and column sums of squares accumulated over the grid.

  At each grid point the body reads one tile of the node rows and the same tile of the aggregated messages, and the
  two weight matrices and two bias rows of the perceptron. It computes the tile of perceptron outputs — the node's
  row scaled by the literal one plus its messages, through two affine layers with a rectifier between — stores it as
  that tile of the first output, and adds the tile's column sums and column sums of squares onto two one-row outputs
  whose block never moves: they are zeroed at the first point and written back after the last. So the first output is
  the specification's `nodeOut` row by row, and the two accumulators end at the sums over all 50000 rows, the ten
  tiles' partial sums added in the grid's order (a sum of extended reals does not depend on the grouping).
-/
import proofs.«133695_j30227979829590_2_alg».proof.Proof.Gen.KernelIdeal.Frame
import proofs.«133695_j30227979829590_2_alg».proof.Proof.Spec
import proofs.«133695_j30227979829590_2_alg».proof.Proof.Conv
import proofs.«133695_j30227979829590_2_alg».proof.Proof.LibPlainDot
import proofs.«133695_j30227979829590_2_alg».proof.Proof.LibTileRows
import proofs.«133695_j30227979829590_2_alg».proof.Proof.LibBlockSum
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

noncomputable section

open scoped BigOperators

namespace Cert.KernelIdeal.Reg3

open Cert.KernelIdeal Cert.KernelIdeal.Gen Idealize.ShloMosaic Idealize.ShloMosaic.TcCoe Idealize.ShloMosaic.ValueIdx
open Idealize.ShloMosaic.Tactic
open Idealize.ShloMosaic.Pipeline (Dat)
open Cert.Gine Cert.TileRows

section Pieces
variable {F : FTy → Type} [FloatOps F]

/-! ## What each case of the body leaves in each output's staging buffer

The body's run finds, per output, the list of its stores (last first). In every case each output's last store covers
its whole buffer, so the buffer ends at that store's payload; the loads the payload reads are the input blocks, and
for the two accumulators the value loaded just before: the zero splat stored a moment earlier in the first case, the
buffer's running contents in the other. -/

theorem hz : (![0, 0] : Fin 2 → Nat) = fun _ => 0 := funext fun a => by fin_cases a <;> rfl

/-- First point: the tile of perceptron outputs. -/
theorem outA6 (c : Dev nD) (i : grid3.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (x0 : Vec F S5000x64 .f32) (x1 : Vec F S5000x64 .f32) (x2 : Vec F S64x64 .f32) (x3 : Vec F S1x64 .f32) (x4 : Vec F S64x64 .f32) (x5 : Vec F S1x64 .f32) :
    out3_A_6 c i arg1 harg1 arg2 harg2 arg3 harg3 arg4 harg4 arg5 harg5 arg6 harg6 arg7 harg7 arg8 harg8 arg9 harg9 hc0 x0 x1 x2 x3 x4 x5 = k3_pay5 x0 x1 x2 x3 x4 x5 := by
  unfold out3_A_6
  rw [View.read_writes_eq_canon _ _ _ (cover3_A_6 c i arg1 harg1 arg2 harg2 arg3 harg3 arg4 harg4 arg5 harg5 arg6 harg6 arg7 harg7 arg8 harg8 arg9 harg9 hc0 x0 x1 x2 x3 x4 x5)]
  unfold kernelRun3_A
  dsimp only
  sl_unfold_words
  rw [View.canon_unit_zero hz]
  simp only [View.readAt_eq_ld, harg1.read_unread, harg2.read_unread, harg3.read_unread, harg4.read_unread, harg5.read_unread, harg6.read_unread, View.ld_unit_zero (S := S5000x64) hz, View.ld_unit_zero (S := S64x64) hz, View.ld_unit_zero (S := S1x64) hz]

/-- First point: the column sums' accumulator is the zero splat plus the tile's column sums. -/
theorem outA7 (c : Dev nD) (i : grid3.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (x0 : Vec F S5000x64 .f32) (x1 : Vec F S5000x64 .f32) (x2 : Vec F S64x64 .f32) (x3 : Vec F S1x64 .f32) (x4 : Vec F S64x64 .f32) (x5 : Vec F S1x64 .f32) :
    out3_A_7 c i arg1 harg1 arg2 harg2 arg3 harg3 arg4 harg4 arg5 harg5 arg6 harg6 arg7 harg7 arg8 harg8 arg9 harg9 hc0 x0 x1 x2 x3 x4 x5 = k3_pay1 (k3_pay6 (k3_pay3 (F := F))) (k3_pay7 x0 x1 x2 x3 x4 x5) := by
  unfold out3_A_7
  rw [View.read_writes_eq_canon _ _ _ (cover3_A_7 c i arg1 harg1 arg2 harg2 arg3 harg3 arg4 harg4 arg5 harg5 arg6 harg6 arg7 harg7 arg8 harg8 arg9 harg9 hc0 x0 x1 x2 x3 x4 x5)]
  unfold kernelRun3_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread, harg6.read_unread, View.ld_unit_zero (S := S5000x64) hz, View.ld_unit_zero (S := S64x64) hz, View.ld_unit_zero (S := S1x64) hz]

/-- First point: the accumulator of the column sums of squares likewise. -/
theorem outA8 (c : Dev nD) (i : grid3.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : cond3_0 i) (x0 : Vec F S5000x64 .f32) (x1 : Vec F S5000x64 .f32) (x2 : Vec F S64x64 .f32) (x3 : Vec F S1x64 .f32) (x4 : Vec F S64x64 .f32) (x5 : Vec F S1x64 .f32) :
    out3_A_8 c i arg1 harg1 arg2 harg2 arg3 harg3 arg4 harg4 arg5 harg5 arg6 harg6 arg7 harg7 arg8 harg8 arg9 harg9 hc0 x0 x1 x2 x3 x4 x5 = k3_pay2 (k3_pay5 x0 x1 x2 x3 x4 x5) (k3_pay4 (F := F)) := by
  unfold out3_A_8
  rw [View.read_writes_eq_canon _ _ _ (cover3_A_8 c i arg1 harg1 arg2 harg2 arg3 harg3 arg4 harg4 arg5 harg5 arg6 harg6 arg7 harg7 arg8 harg8 arg9 harg9 hc0 x0 x1 x2 x3 x4 x5)]
  unfold kernelRun3_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread, harg6.read_unread, View.ld_unit_zero (S := S5000x64) hz, View.ld_unit_zero (S := S64x64) hz, View.ld_unit_zero (S := S1x64) hz]

/-- Later points: the tile of perceptron outputs. -/
theorem outB6 (c : Dev nD) (i : grid3.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (x0 : Vec F S5000x64 .f32) (x1 : Vec F S5000x64 .f32) (x2 : Vec F S64x64 .f32) (x3 : Vec F S1x64 .f32) (x4 : Vec F S64x64 .f32) (x5 : Vec F S1x64 .f32) (xo7 xo8 : Vec F S1x64 .f32) :
    out3_B_6 c i arg1 harg1 arg2 harg2 arg3 harg3 arg4 harg4 arg5 harg5 arg6 harg6 arg7 harg7 arg8 harg8 arg9 harg9 hc0 x0 x1 x2 x3 x4 x5 xo7 xo8 = k3_pay5 x0 x1 x2 x3 x4 x5 := by
  unfold out3_B_6
  rw [View.read_writes_eq_canon _ _ _ (cover3_B_6 c i arg1 harg1 arg2 harg2 arg3 harg3 arg4 harg4 arg5 harg5 arg6 harg6 arg7 harg7 arg8 harg8 arg9 harg9 hc0 x0 x1 x2 x3 x4 x5 xo7 xo8)]
  unfold kernelRun3_B
  dsimp only
  sl_unfold_words
  rw [View.canon_unit_zero hz]
  simp only [View.readAt_eq_ld, harg1.read_unread, harg2.read_unread, harg3.read_unread, harg4.read_unread, harg5.read_unread, harg6.read_unread, View.ld_unit_zero (S := S5000x64) hz, View.ld_unit_zero (S := S64x64) hz, View.ld_unit_zero (S := S1x64) hz]

/-- Later points: the running column sums plus the tile's. -/
theorem outB7 (c : Dev nD) (i : grid3.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (x0 : Vec F S5000x64 .f32) (x1 : Vec F S5000x64 .f32) (x2 : Vec F S64x64 .f32) (x3 : Vec F S1x64 .f32) (x4 : Vec F S64x64 .f32) (x5 : Vec F S1x64 .f32) (xo7 xo8 : Vec F S1x64 .f32) :
    out3_B_7 c i arg1 harg1 arg2 harg2 arg3 harg3 arg4 harg4 arg5 harg5 arg6 harg6 arg7 harg7 arg8 harg8 arg9 harg9 hc0 x0 x1 x2 x3 x4 x5 xo7 xo8 = k3_pay1 (k3_pay6 xo7) (k3_pay7 x0 x1 x2 x3 x4 x5) := by
  unfold out3_B_7
  rw [View.read_writes_eq_canon _ _ _ (cover3_B_7 c i arg1 harg1 arg2 harg2 arg3 harg3 arg4 harg4 arg5 harg5 arg6 harg6 arg7 harg7 arg8 harg8 arg9 harg9 hc0 x0 x1 x2 x3 x4 x5 xo7 xo8)]
  unfold kernelRun3_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S5000x64) hz, View.ld_unit_zero (S := S64x64) hz, View.ld_unit_zero (S := S1x64) hz]

/-- Later points: the running column sums of squares plus the tile's. -/
theorem outB8 (c : Dev nD) (i : grid3.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : ¬cond3_0 i) (x0 : Vec F S5000x64 .f32) (x1 : Vec F S5000x64 .f32) (x2 : Vec F S64x64 .f32) (x3 : Vec F S1x64 .f32) (x4 : Vec F S64x64 .f32) (x5 : Vec F S1x64 .f32) (xo7 xo8 : Vec F S1x64 .f32) :
    out3_B_8 c i arg1 harg1 arg2 harg2 arg3 harg3 arg4 harg4 arg5 harg5 arg6 harg6 arg7 harg7 arg8 harg8 arg9 harg9 hc0 x0 x1 x2 x3 x4 x5 xo7 xo8 = k3_pay2 (k3_pay5 x0 x1 x2 x3 x4 x5) xo8 := by
  unfold out3_B_8
  rw [View.read_writes_eq_canon _ _ _ (cover3_B_8 c i arg1 harg1 arg2 harg2 arg3 harg3 arg4 harg4 arg5 harg5 arg6 harg6 arg7 harg7 arg8 harg8 arg9 harg9 hc0 x0 x1 x2 x3 x4 x5 xo7 xo8)]
  unfold kernelRun3_B
  dsimp only
  sl_unfold_words
  rw [View.canon_unit_zero hz]
  simp only [View.readAt_eq_ld, harg1.read_unread, harg2.read_unread, harg3.read_unread, harg4.read_unread, harg5.read_unread, harg6.read_unread, harg9.read_unread, View.ld_unit_zero (S := S5000x64) hz, View.ld_unit_zero (S := S64x64) hz, View.ld_unit_zero (S := S1x64) hz]

end Pieces

/-! ## The payloads at one entry, at the extended reals -/

/-- A splat of a float literal times a tile described by its rows. -/
theorem scale_rows {M N : Nat} (w : BitVec 32) (Y : FVec Ideal ⟨2, ![M, N]⟩ .f32) (yr : Fin M → Fin N → EReal)
    (hY : ∀ p q, Y (ix2 p q) = yr p q) :
    ∀ p q, mulf (broadcast ⟨2, ![M, N]⟩ (Scalar.ofBits (F := Ideal) .f32 w)) Y (ix2 p q) = Ideal.ofBits .f32 w * yr p q := fun p q => by
  rw [mulf_apply, broadcast_apply, hY p q]
  rfl

/-- A plain product of a tile with a matrix, both described by their rows, into the zero accumulator: entry `(p, q)` is
    row `p` of the tile against column `q` of the matrix. -/
theorem mm_rows2 {M K N : Nat} {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (W : FVec Ideal ⟨2, ![K, N]⟩ φ₂)
    (xr : Fin M → Fin K → EReal) (wr : Fin K → Fin N → EReal)
    (hX : ∀ p k, X (ix2 p k) = xr p k) (hW : ∀ k q, W (ix2 k q) = wr k q) :
    ∀ p q, matmul d prec X W (constant ⟨2, ![M, N]⟩ .f32 0x00000000#32) (ix2 p q) = ∑ k : Fin K, xr p k * wr k q := fun p q => by
  refine (Ideal.matmul_constant_zero_apply d prec X W (ix2 p q)).trans ?_
  refine (Cert.PlainDot.sum_contr d hd X W p q).trans ?_
  exact Finset.sum_congr rfl fun k _ => by rw [hX p k, hW k q]

/-- Column `q` with row `k` put back: the index a reduction over axis 0 of `[a, b]` reads. -/
theorem lift_col {a b : ℕ} (h : (⟨2, ![a, b]⟩ : Shape).Reduces [0] ⟨1, ![b]⟩) (q : Fin b) (k : Fin a) :
    h.lift (ix1 q) k = ix2 k q :=
  funext fun c => Fin.ext (by
    match c with
    | ⟨0, _⟩ => rfl
    | ⟨1, _⟩ => rfl)

/-- The sum down the columns of a tile, at column `q`. -/
theorem colSum_apply {a b : ℕ} (src : FVec Ideal ⟨2, ![a, b]⟩ .f32) (acc : BitVec (FTy.bits .f32))
    (h : (⟨2, ![a, b]⟩ : Shape).Reduces [0] ⟨1, ![b]⟩) (hφ : FKind.Formats .f32)
    (hacc : acc = FKind.add.neutral .f32 hφ) (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (lift_col h q k))

/-- THE TILE OF PERCEPTRON OUTPUTS at entry `(p, q)`: the specification's `nodeOut` of row `p` of the two tiles. Each
    operation is read off the rows of its operands; the changes of float format are the identity at the extended reals
    and both products go into a zero accumulator. -/
theorem pay5_apply (h agg : FVec Ideal S5000x64 .f32) (W1 : FVec Ideal S64x64 .f32) (b1 : FVec Ideal S1x64 .f32)
    (W2 : FVec Ideal S64x64 .f32) (b2 : FVec Ideal S1x64 .f32) (p : Fin 5000) (q : Fin 64) :
    k3_pay5 (F := Ideal) h agg W1 b1 W2 b2 (ix2 p q)
      = nodeOut (rowsOf W1) (rowAt b1 0) (rowsOf W2) (rowAt b2 0) (fun k => h (ix2 p k)) (fun k => agg (ix2 p k)) q := by
  unfold k3_pay5
  -- the first layer's input: the node's row scaled by the literal one, plus its aggregated messages
  have e6 := scale_rows (M := 5000) (N := 64) 0x3F800000#32 _ _
    (cast_rows (φ := .f32) h shapeCasts_S5000x64_S5000x64 (fun p k => h (ix2 p k)) fun _ _ => rfl)
  have e9 := add_rows _ _ _ _ e6
    (cast_rows (φ := .f32) agg shapeCasts_S5000x64_S5000x64 (fun p k => agg (ix2 p k)) fun _ _ => rfl)
  -- the first layer, rectified
  have e14 := mm_rows2 dot_S5000x64_S64x64_S5000x64_1_0_0_1_n_n ⟨rfl, rfl, rfl, rfl, rfl, rfl⟩ none _ _ _ _
    (trunc_rows (ψ := .bf16) _ bitsLt_bf16_f32 _ e9)
    (trunc_rows (ψ := .bf16) _ bitsLt_bf16_f32 _
      (cast_rows (φ := .f32) W1 shapeCasts_S64x64_S64x64 (fun k q => W1 (ix2 k q)) fun _ _ => rfl))
  have e20 := relu_rows _ _ (bias_rows _ b1 shapeCasts_S1x64_S1x64 broadcasts_S1x64_S5000x64 _ e14)
  -- the second layer
  have e25 := mm_rows2 dot_S5000x64_S64x64_S5000x64_1_0_0_1_n_n ⟨rfl, rfl, rfl, rfl, rfl, rfl⟩ none _ _ _ _
    (trunc_rows (ψ := .bf16) _ bitsLt_bf16_f32 _ e20)
    (trunc_rows (ψ := .bf16) _ bitsLt_bf16_f32 _
      (cast_rows (φ := .f32) W2 shapeCasts_S64x64_S64x64 (fun k q => W2 (ix2 k q)) fun _ _ => rfl))
  exact bias_rows _ b2 shapeCasts_S1x64_S1x64 broadcasts_S1x64_S5000x64 _ e25 p q

/-- The tile's column sums: at column `q`, the sum over the tile's 5000 rows. -/
theorem pay7_apply (h agg : FVec Ideal S5000x64 .f32) (W1 : FVec Ideal S64x64 .f32) (b1 : FVec Ideal S1x64 .f32)
    (W2 : FVec Ideal S64x64 .f32) (b2 : FVec Ideal S1x64 .f32) (q : Fin 64) :
    k3_pay7 (F := Ideal) h agg W1 b1 W2 b2 (ix1 q) = ∑ p : Fin 5000, k3_pay5 (F := Ideal) h agg W1 b1 W2 b2 (ix2 p q) := by
  unfold k3_pay7
  exact colSum_apply (k3_pay5 (F := Ideal) h agg W1 b1 W2 b2) _ _ _ _ q

/-- The sums' accumulator after a point: what it held plus the tile's column sums, re-laid as a row. -/
theorem pay1_apply (a : FVec Ideal S1x64 .f32) (s : FVec Ideal S64 .f32) (q : Fin 64) :
    k3_pay1 (F := Ideal) a s (ix2 (0 : Fin 1) q) = a (ix2 (0 : Fin 1) q) + s (ix1 q) := by
  unfold k3_pay1
  rw [addf_apply, shapeCast_a_1a_apply]

/-- What the body loads from the sums' accumulator, re-laid to its own shape, is what it holds. -/
theorem pay6_eq (a : FVec Ideal S1x64 .f32) : k3_pay6 (F := Ideal) a = a := by
  unfold k3_pay6
  exact shapeCast_self a _

/-- The squares' accumulator after a point: what it held plus the column sums of the tile's squares. -/
theorem pay2_apply (T : FVec Ideal S5000x64 .f32) (a : FVec Ideal S1x64 .f32) (q : Fin 64) :
    k3_pay2 (F := Ideal) T a (ix2 (0 : Fin 1) q) = a (ix2 (0 : Fin 1) q) + ∑ p : Fin 5000, T (ix2 p q) * T (ix2 p q) := by
  unfold k3_pay2
  rw [addf_apply, shapeCast_self, shapeCast_a_1a_apply]
  exact congrArg (a (ix2 (0 : Fin 1) q) + ·) (colSum_apply (mulf T T) _ _ _ _ q)

/-- The two splats of the zero word the first point stores are zero everywhere. -/
theorem pay3_apply (q : Fin 64) : k3_pay3 (F := Ideal) (ix2 (0 : Fin 1) q) = 0 := by
  unfold k3_pay3
  show Ideal.ofBits .f32 0x00000000#32 = 0
  exact Ideal.ofBits_zero_f32

theorem pay4_apply (q : Fin 64) : k3_pay4 (F := Ideal) (ix2 (0 : Fin 1) q) = 0 := by
  unfold k3_pay4
  show Ideal.ofBits .f32 0x00000000#32 = 0
  exact Ideal.ofBits_zero_f32

/-! ## The tiles inside the arrays -/

-- The contents of the TensorCore's buffers when the region is entered.
variable (V : (c : Dev nD) → (b : Ref sig .tc) → Buf (Elt Ideal) ((c : Thread nD τ).loc b))

/-- The printed index maps, decided over the ten grid points: the two tiled inputs and the tiled output are at tile
    `t`; the weights, the biases and the two accumulators are at their only block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0 :=
  (by decide +kernel : ∀ t : Fin grid3.N, _)

/-- Row `p` of tile `t` is row `5000 t + p` of the array. -/
def tileRow (t : Fin cfg3.N) (p : Fin 5000) : Fin 50000 :=
  ⟨5000 * t.val + p.val, by have := t.isLt; have hN : cfg3.N = 10 := N_3; omega⟩

/-- The node rows' tile at point `t`, entry by entry: an element of a block sits, on each axis, at the block index times the block's size plus its own coordinate. -/
theorem h_tile (c : Dev nD) (t : Fin cfg3.N) (p : Fin 5000) (k : Fin 64) :
    (iblk3 V c 0 t : FVec Ideal S5000x64 .f32) (ix2 p k)
      = (V c (Pipeline.arrRef spec3 0) : S50000x64.Idx → EReal) (ix2 (tileRow t p) k) := by
  obtain ⟨e0, e1, -⟩ := idx_facts t
  show (V c (Pipeline.arrRef spec3 0) : S50000x64.Idx → EReal) (((cfg3.win 0).blk t).view.emb (ix2 p k)) = _
  refine congrArg (V c (Pipeline.arrRef spec3 0) : S50000x64.Idx → EReal) (funext fun a => Fin.ext ?_)
  match a with
  | ⟨0, _⟩ => show win3_0.index t (0 : Fin 2) * 5000 + 1 * p.val = 5000 * t.val + p.val; rw [e0]; omega
  | ⟨1, _⟩ => show win3_0.index t (1 : Fin 2) * 64 + 1 * k.val = k.val; rw [e1]; omega

/-- The aggregated messages' tile at point `t`, entry by entry. -/
theorem agg_tile (c : Dev nD) (t : Fin cfg3.N) (p : Fin 5000) (k : Fin 64) :
    (iblk3 V c 1 t : FVec Ideal S5000x64 .f32) (ix2 p k)
      = (V c (Pipeline.arrRef spec3 1) : S50000x64.Idx → EReal) (ix2 (tileRow t p) k) := by
  obtain ⟨-, -, e0, e1, -⟩ := idx_facts t
  show (V c (Pipeline.arrRef spec3 1) : S50000x64.Idx → EReal) (((cfg3.win 1).blk t).view.emb (ix2 p k)) = _
  refine congrArg (V c (Pipeline.arrRef spec3 1) : S50000x64.Idx → EReal) (funext fun a => Fin.ext ?_)
  match a with
  | ⟨0, _⟩ => show win3_1.index t (0 : Fin 2) * 5000 + 1 * p.val = 5000 * t.val + p.val; rw [e0]; omega
  | ⟨1, _⟩ => show win3_1.index t (1 : Fin 2) * 64 + 1 * k.val = k.val; rw [e1]; omega

/-- The first weight matrix's block is the whole matrix, at every point. -/
theorem w1_tile (c : Dev nD) (t : Fin cfg3.N) (k : Fin 64) (q : Fin 64) :
    (iblk3 V c 2 t : FVec Ideal S64x64 .f32) (ix2 k q)
      = (V c (Pipeline.arrRef spec3 2) : S64x64.Idx → EReal) (ix2 k q) := by
  obtain ⟨-, -, -, -, e0, e1, -⟩ := idx_facts t
  show (V c (Pipeline.arrRef spec3 2) : S64x64.Idx → EReal) (((cfg3.win 2).blk t).view.emb (ix2 k q)) = _
  refine congrArg (V c (Pipeline.arrRef spec3 2) : S64x64.Idx → EReal) (funext fun a => Fin.ext ?_)
  match a with
  | ⟨0, _⟩ => show win3_2.index t (0 : Fin 2) * 64 + 1 * k.val = k.val; rw [e0]; omega
  | ⟨1, _⟩ => show win3_2.index t (1 : Fin 2) * 64 + 1 * q.val = q.val; rw [e1]; omega

/-- The first bias row's block is the whole row. -/
theorem b1_tile (c : Dev nD) (t : Fin cfg3.N) (k : Fin 1) (q : Fin 64) :
    (iblk3 V c 3 t : FVec Ideal S1x64 .f32) (ix2 k q)
      = (V c (Pipeline.arrRef spec3 3) : S1x64.Idx → EReal) (ix2 k q) := by
  obtain ⟨-, -, -, -, -, -, e0, e1, -⟩ := idx_facts t
  show (V c (Pipeline.arrRef spec3 3) : S1x64.Idx → EReal) (((cfg3.win 3).blk t).view.emb (ix2 k q)) = _
  refine congrArg (V c (Pipeline.arrRef spec3 3) : S1x64.Idx → EReal) (funext fun a => Fin.ext ?_)
  match a with
  | ⟨0, _⟩ => show win3_3.index t (0 : Fin 2) * 1 + 1 * k.val = k.val; rw [e0]; omega
  | ⟨1, _⟩ => show win3_3.index t (1 : Fin 2) * 64 + 1 * q.val = q.val; rw [e1]; omega

/-- The second weight matrix's block is the whole matrix. -/
theorem w2_tile (c : Dev nD) (t : Fin cfg3.N) (k : Fin 64) (q : Fin 64) :
    (iblk3 V c 4 t : FVec Ideal S64x64 .f32) (ix2 k q)
      = (V c (Pipeline.arrRef spec3 4) : S64x64.Idx → EReal) (ix2 k q) := by
  obtain ⟨-, -, -, -, -, -, -, -, e0, e1, -⟩ := idx_facts t
  show (V c (Pipeline.arrRef spec3 4) : S64x64.Idx → EReal) (((cfg3.win 4).blk t).view.emb (ix2 k q)) = _
  refine congrArg (V c (Pipeline.arrRef spec3 4) : S64x64.Idx → EReal) (funext fun a => Fin.ext ?_)
  match a with
  | ⟨0, _⟩ => show win3_4.index t (0 : Fin 2) * 64 + 1 * k.val = k.val; rw [e0]; omega
  | ⟨1, _⟩ => show win3_4.index t (1 : Fin 2) * 64 + 1 * q.val = q.val; rw [e1]; omega

/-- The second bias row's block is the whole row. -/
theorem b2_tile (c : Dev nD) (t : Fin cfg3.N) (k : Fin 1) (q : Fin 64) :
    (iblk3 V c 5 t : FVec Ideal S1x64 .f32) (ix2 k q)
      = (V c (Pipeline.arrRef spec3 5) : S1x64.Idx → EReal) (ix2 k q) := by
  obtain ⟨-, -, -, -, -, -, -, -, -, -, e0, e1, -⟩ := idx_facts t
  show (V c (Pipeline.arrRef spec3 5) : S1x64.Idx → EReal) (((cfg3.win 5).blk t).view.emb (ix2 k q)) = _
  refine congrArg (V c (Pipeline.arrRef spec3 5) : S1x64.Idx → EReal) (funext fun a => Fin.ext ?_)
  match a with
  | ⟨0, _⟩ => show win3_5.index t (0 : Fin 2) * 1 + 1 * k.val = k.val; rw [e0]; omega
  | ⟨1, _⟩ => show win3_5.index t (1 : Fin 2) * 64 + 1 * q.val = q.val; rw [e1]; omega

/-- The perceptron outputs of all nodes as one function of the six input arrays, row by row. -/
def rowsNode (H AGG : S50000x64.Idx → EReal) (W1 : S64x64.Idx → EReal) (B1 : S1x64.Idx → EReal)
    (W2 : S64x64.Idx → EReal) (B2 : S1x64.Idx → EReal) : Mat 50000 64 :=
  fun r => nodeOut (rowsOf W1) (rowAt B1 0) (rowsOf W2) (rowAt B2 0) (rowsOf H r) (rowsOf AGG r)

/-- That function of the arrays as the region finds them. -/
abbrev outM (c : Dev nD) : Mat 50000 64 :=
  rowsNode (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))

/-- The tile of perceptron outputs the body computes at point `t`, from the input blocks at `t`. -/
def tile (c : Dev nD) (t : Fin cfg3.N) : FVec Ideal S5000x64 .f32 :=
  k3_pay5 (F := Ideal) (iblk3 V c 0 t) (iblk3 V c 1 t) (iblk3 V c 2 t) (iblk3 V c 3 t) (iblk3 V c 4 t) (iblk3 V c 5 t)

/-- Entry `(p, q)` of that tile is the perceptron output of node `5000 t + p` at column `q`. -/
theorem tile_apply (c : Dev nD) (t : Fin cfg3.N) (p : Fin 5000) (q : Fin 64) :
    tile V c t (ix2 p q) = outM V c (tileRow t p) q := by
  unfold tile
  refine (pay5_apply (iblk3 V c 0 t) (iblk3 V c 1 t) (iblk3 V c 2 t) (iblk3 V c 3 t) (iblk3 V c 4 t) (iblk3 V c 5 t) p q).trans ?_
  have r0 : (fun k => (iblk3 V c 0 t : FVec Ideal S5000x64 .f32) (ix2 p k))
      = rowsOf (V c (Pipeline.arrRef spec3 0) : S50000x64.Idx → EReal) (tileRow t p) := funext fun k => h_tile V c t p k
  have r1 : (fun k => (iblk3 V c 1 t : FVec Ideal S5000x64 .f32) (ix2 p k))
      = rowsOf (V c (Pipeline.arrRef spec3 1) : S50000x64.Idx → EReal) (tileRow t p) := funext fun k => agg_tile V c t p k
  have r2 : rowsOf (iblk3 V c 2 t : FVec Ideal S64x64 .f32) = rowsOf (V c (Pipeline.arrRef spec3 2) : S64x64.Idx → EReal) :=
    funext fun k => funext fun j => w1_tile V c t k j
  have r3 : rowAt (iblk3 V c 3 t : FVec Ideal S1x64 .f32) 0 = rowAt (V c (Pipeline.arrRef spec3 3) : S1x64.Idx → EReal) 0 :=
    funext fun j => b1_tile V c t 0 j
  have r4 : rowsOf (iblk3 V c 4 t : FVec Ideal S64x64 .f32) = rowsOf (V c (Pipeline.arrRef spec3 4) : S64x64.Idx → EReal) :=
    funext fun k => funext fun j => w2_tile V c t k j
  have r5 : rowAt (iblk3 V c 5 t : FVec Ideal S1x64 .f32) 0 = rowAt (V c (Pipeline.arrRef spec3 5) : S1x64.Idx → EReal) 0 :=
    funext fun j => b2_tile V c t 0 j
  rw [r0, r1, r2, r3, r4, r5]
  rfl

/-! ## What the three outputs hold after each point

The frame states the outputs' staging buffers after point `n` by recursion on `n`: at the first point the first
case's contents, at a later point the second case's over what the point before left. With the pieces read above: the
first output holds the tile; each accumulator holds its zero splat plus the first tile's sums, then what it held plus
the next tile's. -/

/-- The first output's buffer after point `t` is the tile at `t`, in either case. -/
theorem outs6 (c : Dev nD) (t : Fin cfg3.N) : (outsAt3 V c t.val t.isLt).1 = tile V c t := by
  unfold tile
  by_cases h0 : t.val % 10 = 0
  · rw [outsAt3_A V c t h0]
    dsimp only
    exact outA6 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) (iblk3 V c 0 t) (iblk3 V c 1 t) (iblk3 V c 2 t) (iblk3 V c 3 t) (iblk3 V c 4 t) (iblk3 V c 5 t)
  · rw [outsAt3_B V c t h0]
    dsimp only
    exact outB6 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (fun h => h0 ((hcond3_0 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2

/-- The sums' accumulator after the first point. -/
theorem outs7_first (c : Dev nD) (t : Fin cfg3.N) (h0 : t.val % 10 = 0) :
    (outsAt3 V c t.val t.isLt).2.1
      = k3_pay1 (F := Ideal) (k3_pay6 (k3_pay3 (F := Ideal))) (k3_pay7 (F := Ideal) (iblk3 V c 0 t) (iblk3 V c 1 t) (iblk3 V c 2 t) (iblk3 V c 3 t) (iblk3 V c 4 t) (iblk3 V c 5 t)) := by
  rw [outsAt3_A V c t h0]
  dsimp only
  exact outA7 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) (iblk3 V c 0 t) (iblk3 V c 1 t) (iblk3 V c 2 t) (iblk3 V c 3 t) (iblk3 V c 4 t) (iblk3 V c 5 t)

/-- The sums' accumulator after a later point, over what the point before left. -/
theorem outs7_later (c : Dev nD) (t : Fin cfg3.N) (h0 : ¬t.val % 10 = 0) :
    (outsAt3 V c t.val t.isLt).2.1
      = k3_pay1 (F := Ideal) (k3_pay6 (outsAt3 V c (t.val - 1) (Nat.lt_of_le_of_lt (Nat.sub_le _ _) t.isLt)).2.1)
          (k3_pay7 (F := Ideal) (iblk3 V c 0 t) (iblk3 V c 1 t) (iblk3 V c 2 t) (iblk3 V c 3 t) (iblk3 V c 4 t) (iblk3 V c 5 t)) := by
  rw [outsAt3_B V c t h0]
  dsimp only
  exact outB7 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (fun h => h0 ((hcond3_0 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2

/-- The squares' accumulator after the first point. -/
theorem outs8_first (c : Dev nD) (t : Fin cfg3.N) (h0 : t.val % 10 = 0) :
    (outsAt3 V c t.val t.isLt).2.2 = k3_pay2 (F := Ideal) (tile V c t) (k3_pay4 (F := Ideal)) := by
  unfold tile
  rw [outsAt3_A V c t h0]
  dsimp only
  exact outA8 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) (iblk3 V c 0 t) (iblk3 V c 1 t) (iblk3 V c 2 t) (iblk3 V c 3 t) (iblk3 V c 4 t) (iblk3 V c 5 t)

/-- The squares' accumulator after a later point, over what the point before left. -/
theorem outs8_later (c : Dev nD) (t : Fin cfg3.N) (h0 : ¬t.val % 10 = 0) :
    (outsAt3 V c t.val t.isLt).2.2
      = k3_pay2 (F := Ideal) (tile V c t) (outsAt3 V c (t.val - 1) (Nat.lt_of_le_of_lt (Nat.sub_le _ _) t.isLt)).2.2 := by
  unfold tile
  rw [outsAt3_B V c t h0]
  dsimp only
  exact outB8 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (fun h => h0 ((hcond3_0 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2

/-- The sum of column `q` over the rows of tile `t`, and of its squares. -/
def tileSum (c : Dev nD) (t : Fin cfg3.N) (q : Fin 64) : EReal := ∑ p : Fin 5000, outM V c (tileRow t p) q
def tileSq (c : Dev nD) (t : Fin cfg3.N) (q : Fin 64) : EReal := ∑ p : Fin 5000, outM V c (tileRow t p) q * outM V c (tileRow t p) q

/-- THE RUNNING SUMS: after point `n` the sums' accumulator holds, at column `q`, the sum of the first `n + 1` tiles'
    column sums — by induction on the point. -/
theorem acc7 (c : Dev nD) : ∀ (n : ℕ) (hn : n < cfg3.N) (q : Fin 64),
    ((outsAt3 V c n hn).2.1 : FVec Ideal S1x64 .f32) (ix2 (0 : Fin 1) q)
      = ∑ s : Fin (n + 1), tileSum V c (Fin.castLE (Nat.succ_le_of_lt hn) s) q
  | 0, hn, q => by
    refine (congrFun (outs7_first V c ⟨0, hn⟩ rfl) (ix2 (0 : Fin 1) q)).trans ?_
    rw [pay1_apply, pay6_eq, pay3_apply, pay7_apply, zero_add, Fin.sum_univ_one]
    exact Finset.sum_congr rfl fun p _ => tile_apply V c ⟨0, hn⟩ p q
  | n + 1, hn, q => by
    have hN : cfg3.N = 10 := N_3
    have hB : ¬(⟨n + 1, hn⟩ : Fin cfg3.N).val % 10 = 0 := by dsimp only; omega
    refine (congrFun (outs7_later V c ⟨n + 1, hn⟩ hB) (ix2 (0 : Fin 1) q)).trans ?_
    rw [pay1_apply, pay6_eq, pay7_apply]
    -- the sum over the first n + 2 tiles is the sum over the first n + 1 plus the last one's
    refine Eq.trans ?_
      (Fin.sum_univ_castSucc fun s : Fin (n + 1 + 1) => tileSum V c (Fin.castLE (Nat.succ_le_of_lt hn) s) q).symm
    refine congrArg₂ (· + ·) (acc7 c n (Nat.lt_of_succ_lt hn) q) ?_
    exact Finset.sum_congr rfl fun p _ => tile_apply V c ⟨n + 1, hn⟩ p q

/-- The running sums of squares, likewise. -/
theorem acc8 (c : Dev nD) : ∀ (n : ℕ) (hn : n < cfg3.N) (q : Fin 64),
    ((outsAt3 V c n hn).2.2 : FVec Ideal S1x64 .f32) (ix2 (0 : Fin 1) q)
      = ∑ s : Fin (n + 1), tileSq V c (Fin.castLE (Nat.succ_le_of_lt hn) s) q
  | 0, hn, q => by
    refine (congrFun (outs8_first V c ⟨0, hn⟩ rfl) (ix2 (0 : Fin 1) q)).trans ?_
    rw [pay2_apply, pay4_apply, zero_add, Fin.sum_univ_one]
    exact Finset.sum_congr rfl fun p _ => by rw [tile_apply V c ⟨0, hn⟩ p q]; rfl
  | n + 1, hn, q => by
    have hN : cfg3.N = 10 := N_3
    have hB : ¬(⟨n + 1, hn⟩ : Fin cfg3.N).val % 10 = 0 := by dsimp only; omega
    refine (congrFun (outs8_later V c ⟨n + 1, hn⟩ hB) (ix2 (0 : Fin 1) q)).trans ?_
    rw [pay2_apply]
    refine Eq.trans ?_
      (Fin.sum_univ_castSucc fun s : Fin (n + 1 + 1) => tileSq V c (Fin.castLE (Nat.succ_le_of_lt hn) s) q).symm
    refine congrArg₂ (· + ·) (acc8 c n (Nat.lt_of_succ_lt hn) q) ?_
    exact Finset.sum_congr rfl fun p _ => by rw [tile_apply V c ⟨n + 1, hn⟩ p q]; rfl

/-- The ten tiles' sums are the sum over all rows: `Fin 50000` cut into ten consecutive blocks of 5000. -/
theorem sum_tiles (f : Fin 50000 → EReal) (h9 : 9 < cfg3.N) :
    ∑ s : Fin (9 + 1), ∑ p : Fin 5000, f (tileRow (Fin.castLE (Nat.succ_le_of_lt h9) s) p) = ∑ r : Fin 50000, f r := by
  refine ((BlockSum.sum_eq_sum_blocks (k := 10) (n := 5000) f).trans ?_).symm
  refine Finset.sum_congr rfl fun s _ => Finset.sum_congr rfl fun p _ => congrArg f (Fin.ext ?_)
  show p.val + 5000 * s.val = 5000 * s.val + p.val
  omega

/-- The same at the last point, named by its number `n = 9`. -/
theorem sum_tiles_last (f : Fin 50000 → EReal) (n : ℕ) (hn : n < cfg3.N) (h9 : n = 9) :
    ∑ s : Fin (n + 1), ∑ p : Fin 5000, f (tileRow (Fin.castLE (Nat.succ_le_of_lt hn) s) p) = ∑ r : Fin 50000, f r := by
  subst h9
  exact sum_tiles f hn

/-! ## The first output: the tiles cover the array -/

/-- Entry `(p, q)` of the first output's tile at point `t` sits at `(5000 t + p, q)` of the output array. -/
theorem emb6 (t : Fin cfg3.N) (p : Fin 5000) (q : Fin 64) :
    (((cfg3.win 6).blk t).view.emb (ix2 p q) : S50000x64.Idx) = ix2 (tileRow t p) q := by
  obtain ⟨-, -, -, -, -, -, -, -, -, -, -, -, e0, e1, -⟩ := idx_facts t
  refine funext fun a => Fin.ext ?_
  match a with
  | ⟨0, _⟩ => show win3_6.index t (0 : Fin 2) * 5000 + 1 * p.val = 5000 * t.val + p.val; rw [e0]; omega
  | ⟨1, _⟩ => show win3_6.index t (1 : Fin 2) * 64 + 1 * q.val = q.val; rw [e1]; omega

/-- Two tiles that agree entry by entry are equal. -/
theorem tile_ext {X Y : FVec Ideal S5000x64 .f32} (h : ∀ (p : Fin 5000) (q : Fin 64), X (ix2 p q) = Y (ix2 p q)) : X = Y :=
  funext fun j => by rw [eq_ix2 j]; exact h _ _

/-- What point `t` writes back to the first output is tile `t` of the perceptron outputs of all nodes. -/
theorem flushed6 (c : Dev nD) (t : Fin cfg3.N) :
    (dat3 V c).flushed 6 t = ((cfg3.win 6).blk t).view.read (Elt Ideal) (arrOf (outM V c)) := by
  show (cfg3.win 6).cut (grid3.coords t) ((dat3 V c).after 6 t) = _
  rw [after3_6, outs6]
  refine tile_ext fun p q => ?_
  show tile V c t (ix2 p q) = arrOf (outM V c) (((cfg3.win 6).blk t).view.emb (ix2 p q))
  rw [emb6 t p q]
  exact tile_apply V c t p q

/-- An index of the first output is in tile `t` iff each coordinate is in the tile's range on its axis. -/
theorem mem_blk6 (t : Fin cfg3.N) (i : S50000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole (Pipeline.arrRef spec3 6)).slice (win3_6.rect t)).set ↔ _
  rw [View.set_slice_whole, Rect.mem_set_unit]
  exact Iff.rfl

/-- Row `r` lies in tile `r / 5000`: the ten tiles cover the first output. -/
theorem cover6 (i : S50000x64.Idx) : ∃ t : Fin cfg3.N, (cfg3.win 6).flush t = true ∧ i ∈ ((cfg3.win 6).blk t).view.set := by
  have hi0 : (i 0).val < 50000 := (i 0).isLt
  have hi1 : (i 1).val < 64 := (i 1).isLt
  have hN : cfg3.N = 10 := N_3
  let t : Fin cfg3.N := ⟨(i 0).val / 5000, by omega⟩
  have ht : t.val = (i 0).val / 5000 := rfl
  obtain ⟨-, -, -, -, -, -, -, -, -, -, -, -, e0, e1, -⟩ := idx_facts t
  refine ⟨t, flush3_6 t, ?_⟩
  rw [mem_blk6]
  intro a
  match a with
  | ⟨0, _⟩ => show win3_6.index t (0 : Fin 2) * 5000 ≤ (i 0).val ∧ (i 0).val < win3_6.index t (0 : Fin 2) * 5000 + 5000; rw [e0]; omega
  | ⟨1, _⟩ => show win3_6.index t (1 : Fin 2) * 64 ≤ (i 1).val ∧ (i 1).val < win3_6.index t (1 : Fin 2) * 64 + 64; rw [e1]; omega

/-- THE FIRST OUTPUT after the ten points: the perceptron outputs of all nodes. -/
theorem array_after6 (c : Dev nD) :
    (dat3 V c).arrAt 6 cfg3.N
      = arrOf (rowsNode (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5))) :=
  (dat3 V c).arrAt_eq_of_cover 6 (arrOf (outM V c)) (fun t _ => flushed6 V c t) cover6

/-! ## The two accumulators: written back once, after the last point -/

/-- Two one-row arrays that agree entry by entry are equal. -/
theorem row_ext {X Y : FVec Ideal S1x64 .f32} (h : ∀ q : Fin 64, X (ix2 (0 : Fin 1) q) = Y (ix2 (0 : Fin 1) q)) : X = Y :=
  funext fun j => by
    obtain ⟨u, q, rfl⟩ : ∃ (u : Fin 1) (q : Fin 64), j = ix2 u q := ⟨j 0, j 1, eq_ix2 j⟩
    obtain rfl : u = 0 := Subsingleton.elim _ _
    exact h q

/-- The column sums of a matrix, and of its squares, as one-row arrays. -/
def sumsRow (A : Mat 50000 64) : S1x64.Idx → EReal := fun i => ∑ r : Fin 50000, A r (i 1)
def sqsRow (A : Mat 50000 64) : S1x64.Idx → EReal := fun i => ∑ r : Fin 50000, A r (i 1) * A r (i 1)

theorem sumsRow_apply (A : Mat 50000 64) (q : Fin 64) : sumsRow A (ix2 (0 : Fin 1) q) = ∑ r : Fin 50000, A r q := rfl
theorem sqsRow_apply (A : Mat 50000 64) (q : Fin 64) : sqsRow A (ix2 (0 : Fin 1) q) = ∑ r : Fin 50000, A r q * A r q := rfl

/-- An accumulator's only block is its whole array. -/
theorem emb7 (t : Fin cfg3.N) (q : Fin 64) :
    (((cfg3.win 7).blk t).view.emb (ix2 (0 : Fin 1) q) : S1x64.Idx) = ix2 (0 : Fin 1) q := by
  obtain ⟨-, -, -, -, -, -, -, -, -, -, -, -, -, -, e0, e1, -⟩ := idx_facts t
  refine funext fun a => Fin.ext ?_
  match a with
  | ⟨0, _⟩ => show win3_7.index t (0 : Fin 2) * 1 + 1 * 0 = 0; rw [e0]
  | ⟨1, _⟩ => show win3_7.index t (1 : Fin 2) * 64 + 1 * q.val = q.val; rw [e1]; omega

theorem emb8 (t : Fin cfg3.N) (q : Fin 64) :
    (((cfg3.win 8).blk t).view.emb (ix2 (0 : Fin 1) q) : S1x64.Idx) = ix2 (0 : Fin 1) q := by
  obtain ⟨-, -, -, -, -, -, -, -, -, -, -, -, -, -, -, -, e0, e1⟩ := idx_facts t
  refine funext fun a => Fin.ext ?_
  match a with
  | ⟨0, _⟩ => show win3_8.index t (0 : Fin 2) * 1 + 1 * 0 = 0; rw [e0]
  | ⟨1, _⟩ => show win3_8.index t (1 : Fin 2) * 64 + 1 * q.val = q.val; rw [e1]; omega

/-- So a one-row array read through an accumulator's block is the array itself. -/
theorem read_blk7 (G : S1x64.Idx → EReal) (t : Fin cfg3.N) (q : Fin 64) :
    (((cfg3.win 7).blk t).view.read (Elt Ideal) G : FVec Ideal S1x64 .f32) (ix2 (0 : Fin 1) q) = G (ix2 (0 : Fin 1) q) := by
  show G (((cfg3.win 7).blk t).view.emb (ix2 (0 : Fin 1) q)) = _
  rw [emb7]

theorem read_blk8 (G : S1x64.Idx → EReal) (t : Fin cfg3.N) (q : Fin 64) :
    (((cfg3.win 8).blk t).view.read (Elt Ideal) G : FVec Ideal S1x64 .f32) (ix2 (0 : Fin 1) q) = G (ix2 (0 : Fin 1) q) := by
  show G (((cfg3.win 8).blk t).view.emb (ix2 (0 : Fin 1) q)) = _
  rw [emb8]

/-- The one write-back of the sums' accumulator, at the last point, writes the column sums over all rows. -/
theorem flushed7 (c : Dev nD) (t : Fin cfg3.N) (hf : (cfg3.win 7).flush t = true) :
    (dat3 V c).flushed 7 t = ((cfg3.win 7).blk t).view.read (Elt Ideal) (sumsRow (outM V c)) := by
  have hN : cfg3.N = 10 := N_3
  have h9 : t.val = 9 := by have := (flush3_7 t).mp hf; have := t.isLt; omega
  show (cfg3.win 7).cut (grid3.coords t) ((dat3 V c).after 7 t) = _
  rw [after3_7]
  refine row_ext fun q => Eq.trans ?_ (read_blk7 (sumsRow (outM V c)) t q).symm
  show ((outsAt3 V c t.val t.isLt).2.1 : FVec Ideal S1x64 .f32) (ix2 (0 : Fin 1) q) = _
  rw [acc7 V c t.val t.isLt q, sumsRow_apply]
  exact sum_tiles_last (fun r => outM V c r q) t.val t.isLt h9

/-- The one write-back of the squares' accumulator, at the last point, writes the column sums of squares over all rows. -/
theorem flushed8 (c : Dev nD) (t : Fin cfg3.N) (hf : (cfg3.win 8).flush t = true) :
    (dat3 V c).flushed 8 t = ((cfg3.win 8).blk t).view.read (Elt Ideal) (sqsRow (outM V c)) := by
  have hN : cfg3.N = 10 := N_3
  have h9 : t.val = 9 := by have := (flush3_8 t).mp hf; have := t.isLt; omega
  show (cfg3.win 8).cut (grid3.coords t) ((dat3 V c).after 8 t) = _
  rw [after3_8]
  refine row_ext fun q => Eq.trans ?_ (read_blk8 (sqsRow (outM V c)) t q).symm
  show ((outsAt3 V c t.val t.isLt).2.2 : FVec Ideal S1x64 .f32) (ix2 (0 : Fin 1) q) = _
  rw [acc8 V c t.val t.isLt q, sqsRow_apply]
  exact sum_tiles_last (fun r => outM V c r q * outM V c r q) t.val t.isLt h9

/-- An index of an accumulator's array is in its block at `t` iff each coordinate is in the block's range. -/
theorem mem_blk7 (t : Fin cfg3.N) (i : S1x64.Idx) :
    i ∈ ((cfg3.win 7).blk t).view.set ↔ ∀ a : Fin 2, win3_7.index t a * S1x64.size a ≤ (i a).val ∧ (i a).val < win3_7.index t a * S1x64.size a + S1x64.size a := by
  show i ∈ ((View.whole (Pipeline.arrRef spec3 7)).slice (win3_7.rect t)).set ↔ _
  rw [View.set_slice_whole, Rect.mem_set_unit]
  exact Iff.rfl

theorem mem_blk8 (t : Fin cfg3.N) (i : S1x64.Idx) :
    i ∈ ((cfg3.win 8).blk t).view.set ↔ ∀ a : Fin 2, win3_8.index t a * S1x64.size a ≤ (i a).val ∧ (i a).val < win3_8.index t a * S1x64.size a + S1x64.size a := by
  show i ∈ ((View.whole (Pipeline.arrRef spec3 8)).slice (win3_8.rect t)).set ↔ _
  rw [View.set_slice_whole, Rect.mem_set_unit]
  exact Iff.rfl

/-- The last point's write-back covers the sums' array. -/
theorem cover7 (i : S1x64.Idx) : ∃ t : Fin cfg3.N, (cfg3.win 7).flush t = true ∧ i ∈ ((cfg3.win 7).blk t).view.set := by
  have hi0 : (i 0).val < 1 := (i 0).isLt
  have hi1 : (i 1).val < 64 := (i 1).isLt
  have hN : cfg3.N = 10 := N_3
  let t : Fin cfg3.N := ⟨9, by omega⟩
  obtain ⟨-, -, -, -, -, -, -, -, -, -, -, -, -, -, e0, e1, -⟩ := idx_facts t
  refine ⟨t, (flush3_7 t).mpr rfl, ?_⟩
  rw [mem_blk7]
  intro a
  match a with
  | ⟨0, _⟩ => show win3_7.index t (0 : Fin 2) * 1 ≤ (i 0).val ∧ (i 0).val < win3_7.index t (0 : Fin 2) * 1 + 1; rw [e0]; omega
  | ⟨1, _⟩ => show win3_7.index t (1 : Fin 2) * 64 ≤ (i 1).val ∧ (i 1).val < win3_7.index t (1 : Fin 2) * 64 + 64; rw [e1]; omega

/-- The last point's write-back covers the squares' array. -/
theorem cover8 (i : S1x64.Idx) : ∃ t : Fin cfg3.N, (cfg3.win 8).flush t = true ∧ i ∈ ((cfg3.win 8).blk t).view.set := by
  have hi0 : (i 0).val < 1 := (i 0).isLt
  have hi1 : (i 1).val < 64 := (i 1).isLt
  have hN : cfg3.N = 10 := N_3
  let t : Fin cfg3.N := ⟨9, by omega⟩
  obtain ⟨-, -, -, -, -, -, -, -, -, -, -, -, -, -, -, -, e0, e1⟩ := idx_facts t
  refine ⟨t, (flush3_8 t).mpr rfl, ?_⟩
  rw [mem_blk8]
  intro a
  match a with
  | ⟨0, _⟩ => show win3_8.index t (0 : Fin 2) * 1 ≤ (i 0).val ∧ (i 0).val < win3_8.index t (0 : Fin 2) * 1 + 1; rw [e0]; omega
  | ⟨1, _⟩ => show win3_8.index t (1 : Fin 2) * 64 ≤ (i 1).val ∧ (i 1).val < win3_8.index t (1 : Fin 2) * 64 + 64; rw [e1]; omega

/-- THE SECOND OUTPUT after the ten points: the column sums of the perceptron outputs over all nodes. -/
theorem array_after7 (c : Dev nD) :
    (dat3 V c).arrAt 7 cfg3.N
      = sumsRow (rowsNode (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5))) :=
  (dat3 V c).arrAt_eq_of_cover 7 (sumsRow (outM V c)) (flushed7 V c) cover7

/-- THE THIRD OUTPUT after the ten points: the column sums of the squares of the perceptron outputs. -/
theorem array_after8 (c : Dev nD) :
    (dat3 V c).arrAt 8 cfg3.N
      = sqsRow (rowsNode (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5))) :=
  (dat3 V c).arrAt_eq_of_cover 8 (sqsRow (outM V c)) (flushed8 V c) cover8

/-! ## The three outputs, entry by entry, over the proof data's arrays -/

/-- Row by row: row `r` of the first output is the perceptron output of node `r`. -/
theorem rows (c : Dev nD) (r : Fin 50000) (q : Fin 64) :
    ((dat3 V c).arrAt 6 cfg3.N : S50000x64.Idx → EReal) (ix2 r q)
      = nodeOut (rowsOf ((dat3 V c).A 2 : S64x64.Idx → EReal)) (rowAt ((dat3 V c).A 3 : S1x64.Idx → EReal) 0)
          (rowsOf ((dat3 V c).A 4 : S64x64.Idx → EReal)) (rowAt ((dat3 V c).A 5 : S1x64.Idx → EReal) 0)
          (rowsOf ((dat3 V c).A 0 : S50000x64.Idx → EReal) r) (rowsOf ((dat3 V c).A 1 : S50000x64.Idx → EReal) r) q := by
  refine (congrFun (array_after6 V c) (ix2 r q)).trans ?_
  -- the proof data's arrays are the region-entry contents, by definition
  rfl

/-- Column by column: entry `q` of the second output is the sum over all nodes of their perceptron outputs' column `q`
    (the specification's `colSum`). -/
theorem sums_real (c : Dev nD) (q : Fin 64) :
    ((dat3 V c).arrAt 7 cfg3.N : S1x64.Idx → EReal) (ix2 (0 : Fin 1) q)
      = (∑ r : Fin 50000, nodeOut (rowsOf ((dat3 V c).A 2 : S64x64.Idx → EReal)) (rowAt ((dat3 V c).A 3 : S1x64.Idx → EReal) 0)
          (rowsOf ((dat3 V c).A 4 : S64x64.Idx → EReal)) (rowAt ((dat3 V c).A 5 : S1x64.Idx → EReal) 0)
          (rowsOf ((dat3 V c).A 0 : S50000x64.Idx → EReal) r) (rowsOf ((dat3 V c).A 1 : S50000x64.Idx → EReal) r) q : EReal) := by
  have h := congrFun (array_after7 V c) (ix2 (0 : Fin 1) q)
  rw [sumsRow_apply] at h
  refine h.trans ?_
  show (_ : EReal) = _
  -- term by term; the proof data's arrays are the region-entry contents, by definition
  exact Finset.sum_congr (M := EReal) rfl fun r _ => rfl

/-- Entry `q` of the third output is the sum over all nodes of the squares of their perceptron outputs' column `q`. -/
theorem sqs_real (c : Dev nD) (q : Fin 64) :
    ((dat3 V c).arrAt 8 cfg3.N : S1x64.Idx → EReal) (ix2 (0 : Fin 1) q)
      = (∑ r : Fin 50000, nodeOut (rowsOf ((dat3 V c).A 2 : S64x64.Idx → EReal)) (rowAt ((dat3 V c).A 3 : S1x64.Idx → EReal) 0)
          (rowsOf ((dat3 V c).A 4 : S64x64.Idx → EReal)) (rowAt ((dat3 V c).A 5 : S1x64.Idx → EReal) 0)
          (rowsOf ((dat3 V c).A 0 : S50000x64.Idx → EReal) r) (rowsOf ((dat3 V c).A 1 : S50000x64.Idx → EReal) r) q
          * nodeOut (rowsOf ((dat3 V c).A 2 : S64x64.Idx → EReal)) (rowAt ((dat3 V c).A 3 : S1x64.Idx → EReal) 0)
          (rowsOf ((dat3 V c).A 4 : S64x64.Idx → EReal)) (rowAt ((dat3 V c).A 5 : S1x64.Idx → EReal) 0)
          (rowsOf ((dat3 V c).A 0 : S50000x64.Idx → EReal) r) (rowsOf ((dat3 V c).A 1 : S50000x64.Idx → EReal) r) q : EReal) := by
  have h := congrFun (array_after8 V c) (ix2 (0 : Fin 1) q)
  rw [sqsRow_apply] at h
  refine h.trans ?_
  show (_ : EReal) = _
  exact Finset.sum_congr (M := EReal) rfl fun r _ => rfl

end Cert.KernelIdeal.Reg3

end
-- ==== Proof.KReg4.lean ====
/-
  The normalisation pass of a layer (grid of ten tiles of 5000 node rows): what its output array holds, entry by entry.

  At each grid point the body reads one tile of the perceptron outputs and the same tile of the node rows, and the
  four one-row arrays (column mean, column variance, scale, shift). Entry by entry it subtracts the mean, multiplies by
  the reciprocal square root of the variance plus a small constant, scales, shifts, takes the positive part, adds the
  node's own entry and halves: the specification's `bnUpd` of the two rows. Tile `t` is rows `5000 t … 5000 t + 4999`
  of the arrays, and the ten tiles cover the 50000 rows, so the output array is `bnUpd` row by row.
-/
import proofs.«133695_j30227979829590_2_alg».proof.Proof.Gen.KernelIdeal.Frame
import proofs.«133695_j30227979829590_2_alg».proof.Proof.Spec
import proofs.«133695_j30227979829590_2_alg».proof.Proof.Conv
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Reg4

open Cert.KernelIdeal Cert.KernelIdeal.Gen Idealize.ShloMosaic Idealize.ShloMosaic.TcCoe Idealize.ShloMosaic.ValueIdx
open Idealize.ShloMosaic.Pipeline (Dat)
open Cert.Gine

variable (V : (c : Dev nD) → (b : Ref sig .tc) → Buf (Elt Ideal) ((c : Thread nD τ).loc b))

/-! ## The body's arithmetic at one entry -/

/-- A one-row array, re-laid to its own shape and spread over the rows of a tile, reads at `(p, q)` its entry of
    column `q`. -/
theorem spread_apply {M N : Nat} (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) (p : Fin M) (q : Fin N) :
    broadcastTo ⟨2, ![M, N]⟩ (shapeCast ⟨2, ![1, N]⟩ b hb) hbc (ix2 p q) = b (ix2 (0 : Fin 1) q) := by
  rw [broadcastTo_1b_ab_apply, shapeCast_self]

/-- The one store's payload at entry `(p, q)` of the tile: every operation acts entry by entry, the four one-row
    operands are read at column `q`, and the splat of the zero word is `0`. -/
theorem pay_apply (out h : Vec Ideal S5000x64 .f32) (mu var g b : Vec Ideal S1x64 .f32) (p : Fin 5000) (q : Fin 64) :
    k4_pay1 out mu var g b h (ix2 p q)
      = bnUpd (rowAt mu 0) (rowAt var 0) (rowAt g 0) (rowAt b 0) (fun k => out (ix2 p k)) (fun k => h (ix2 p k)) q := by
  unfold k4_pay1
  simp only [mulf_apply, addf_apply, subf_apply, maximumf_apply, broadcast_apply, spread_apply, broadcastTo_1b_ab_apply,
    shapeCast_self]
  show (_ + max _ (Ideal.ofBits .f32 0x00000000#32)) * _ = _
  rw [Ideal.ofBits_zero_f32]
  rfl

/-! ## The tiles inside the arrays -/

theorem hz : (![0, 0] : Fin 2 → Nat) = fun _ => 0 := funext fun a => by fin_cases a <;> rfl

/-- The printed index maps, decided over the ten grid points: the two tiled inputs and the output are at tile `t`,
    the four one-row inputs at their only block. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row `p` of tile `t` is row `5000 t + p` of the array. -/
def tileRow (t : Fin cfg4.N) (p : Fin 5000) : Fin 50000 :=
  ⟨5000 * t.val + p.val, by have := t.isLt; have hN : cfg4.N = 10 := N_4; omega⟩

/-- The perceptron outputs' tile at point `t`, entry by entry: an element of a block sits, on each axis, at the block index times the block's size plus its own coordinate. -/
theorem tile0_apply (c : Dev nD) (t : Fin cfg4.N) (p : Fin 5000) (k : Fin 64) :
    (iblk4 V c 0 t : Vec Ideal S5000x64 .f32) (ix2 p k)
      = (V c (Pipeline.arrRef spec4 0) : S50000x64.Idx → EReal) (ix2 (tileRow t p) k) := by
  obtain ⟨e0, e1, -⟩ := idx_facts t
  show (V c (Pipeline.arrRef spec4 0) : S50000x64.Idx → EReal) (((cfg4.win 0).blk t).view.emb (ix2 p k)) = _
  refine congrArg (V c (Pipeline.arrRef spec4 0) : S50000x64.Idx → EReal) (funext fun a => Fin.ext ?_)
  match a with
  | ⟨0, _⟩ => show win4_0.index t (0 : Fin 2) * 5000 + 1 * p.val = 5000 * t.val + p.val; rw [e0]; omega
  | ⟨1, _⟩ => show win4_0.index t (1 : Fin 2) * 64 + 1 * k.val = k.val; rw [e1]; omega

/-- The node rows' tile at point `t`, entry by entry. -/
theorem tile1_apply (c : Dev nD) (t : Fin cfg4.N) (p : Fin 5000) (k : Fin 64) :
    (iblk4 V c 1 t : Vec Ideal S5000x64 .f32) (ix2 p k)
      = (V c (Pipeline.arrRef spec4 1) : S50000x64.Idx → EReal) (ix2 (tileRow t p) k) := by
  obtain ⟨-, -, e0, e1, -⟩ := idx_facts t
  show (V c (Pipeline.arrRef spec4 1) : S50000x64.Idx → EReal) (((cfg4.win 1).blk t).view.emb (ix2 p k)) = _
  refine congrArg (V c (Pipeline.arrRef spec4 1) : S50000x64.Idx → EReal) (funext fun a => Fin.ext ?_)
  match a with
  | ⟨0, _⟩ => show win4_1.index t (0 : Fin 2) * 5000 + 1 * p.val = 5000 * t.val + p.val; rw [e0]; omega
  | ⟨1, _⟩ => show win4_1.index t (1 : Fin 2) * 64 + 1 * k.val = k.val; rw [e1]; omega

/-- Each one-row input's block is the whole one-row array, at every point. -/
theorem row2_apply (c : Dev nD) (t : Fin cfg4.N) (k : Fin 64) :
    (iblk4 V c 2 t : Vec Ideal S1x64 .f32) (ix2 (0 : Fin 1) k)
      = (V c (Pipeline.arrRef spec4 2) : S1x64.Idx → EReal) (ix2 (0 : Fin 1) k) := by
  obtain ⟨-, -, -, -, e0, e1, -⟩ := idx_facts t
  show (V c (Pipeline.arrRef spec4 2) : S1x64.Idx → EReal) (((cfg4.win 2).blk t).view.emb (ix2 (0 : Fin 1) k)) = _
  refine congrArg (V c (Pipeline.arrRef spec4 2) : S1x64.Idx → EReal) (funext fun a => Fin.ext ?_)
  match a with
  | ⟨0, _⟩ => show win4_2.index t (0 : Fin 2) * 1 + 1 * 0 = 0; rw [e0]
  | ⟨1, _⟩ => show win4_2.index t (1 : Fin 2) * 64 + 1 * k.val = k.val; rw [e1]; omega

theorem row3_apply (c : Dev nD) (t : Fin cfg4.N) (k : Fin 64) :
    (iblk4 V c 3 t : Vec Ideal S1x64 .f32) (ix2 (0 : Fin 1) k)
      = (V c (Pipeline.arrRef spec4 3) : S1x64.Idx → EReal) (ix2 (0 : Fin 1) k) := by
  obtain ⟨-, -, -, -, -, -, e0, e1, -⟩ := idx_facts t
  show (V c (Pipeline.arrRef spec4 3) : S1x64.Idx → EReal) (((cfg4.win 3).blk t).view.emb (ix2 (0 : Fin 1) k)) = _
  refine congrArg (V c (Pipeline.arrRef spec4 3) : S1x64.Idx → EReal) (funext fun a => Fin.ext ?_)
  match a with
  | ⟨0, _⟩ => show win4_3.index t (0 : Fin 2) * 1 + 1 * 0 = 0; rw [e0]
  | ⟨1, _⟩ => show win4_3.index t (1 : Fin 2) * 64 + 1 * k.val = k.val; rw [e1]; omega

theorem row4_apply (c : Dev nD) (t : Fin cfg4.N) (k : Fin 64) :
    (iblk4 V c 4 t : Vec Ideal S1x64 .f32) (ix2 (0 : Fin 1) k)
      = (V c (Pipeline.arrRef spec4 4) : S1x64.Idx → EReal) (ix2 (0 : Fin 1) k) := by
  obtain ⟨-, -, -, -, -, -, -, -, e0, e1, -⟩ := idx_facts t
  show (V c (Pipeline.arrRef spec4 4) : S1x64.Idx → EReal) (((cfg4.win 4).blk t).view.emb (ix2 (0 : Fin 1) k)) = _
  refine congrArg (V c (Pipeline.arrRef spec4 4) : S1x64.Idx → EReal) (funext fun a => Fin.ext ?_)
  match a with
  | ⟨0, _⟩ => show win4_4.index t (0 : Fin 2) * 1 + 1 * 0 = 0; rw [e0]
  | ⟨1, _⟩ => show win4_4.index t (1 : Fin 2) * 64 + 1 * k.val = k.val; rw [e1]; omega

theorem row5_apply (c : Dev nD) (t : Fin cfg4.N) (k : Fin 64) :
    (iblk4 V c 5 t : Vec Ideal S1x64 .f32) (ix2 (0 : Fin 1) k)
      = (V c (Pipeline.arrRef spec4 5) : S1x64.Idx → EReal) (ix2 (0 : Fin 1) k) := by
  obtain ⟨-, -, -, -, -, -, -, -, -, -, e0, e1, -⟩ := idx_facts t
  show (V c (Pipeline.arrRef spec4 5) : S1x64.Idx → EReal) (((cfg4.win 5).blk t).view.emb (ix2 (0 : Fin 1) k)) = _
  refine congrArg (V c (Pipeline.arrRef spec4 5) : S1x64.Idx → EReal) (funext fun a => Fin.ext ?_)
  match a with
  | ⟨0, _⟩ => show win4_5.index t (0 : Fin 2) * 1 + 1 * 0 = 0; rw [e0]
  | ⟨1, _⟩ => show win4_5.index t (1 : Fin 2) * 64 + 1 * k.val = k.val; rw [e1]; omega

/-- Entry `(p, q)` of the output's tile at point `t` sits at `(5000 t + p, q)` of the output array. -/
theorem emb6 (t : Fin cfg4.N) (p : Fin 5000) (q : Fin 64) :
    (((cfg4.win 6).blk t).view.emb (ix2 p q) : S50000x64.Idx) = ix2 (tileRow t p) q := by
  obtain ⟨-, -, -, -, -, -, -, -, -, -, -, -, e0, e1⟩ := idx_facts t
  refine funext fun a => Fin.ext ?_
  match a with
  | ⟨0, _⟩ => show win4_6.index t (0 : Fin 2) * 5000 + 1 * p.val = 5000 * t.val + p.val; rw [e0]; omega
  | ⟨1, _⟩ => show win4_6.index t (1 : Fin 2) * 64 + 1 * q.val = q.val; rw [e1]; omega

/-! ## From the tiles to the array -/

/-- The output array as one function of the six input arrays: row `r` is the normalisation-and-residual update of
    row `r` of the perceptron outputs and of the node rows, by the four one-row arrays (mean, variance, scale, shift). -/
def rowsBn (OUT H : S50000x64.Idx → EReal) (MU VAR G B : S1x64.Idx → EReal) : S50000x64.Idx → EReal :=
  fun i => bnUpd (rowAt MU 0) (rowAt VAR 0) (rowAt G 0) (rowAt B 0) (rowsOf OUT (i 0)) (rowsOf H (i 0)) (i 1)

/-- That function of the arrays as the region finds them. -/
abbrev result (c : Dev nD) : S50000x64.Idx → EReal :=
  rowsBn (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))

/-- The output's staging buffer after the body at point `t` is the one store's payload of the input blocks. -/
theorem after_eq (c : Dev nD) (t : Fin cfg4.N) :
    (dat4 V c).after 6 t
      = k4_pay1 (iblk4 V c 0 t) (iblk4 V c 2 t) (iblk4 V c 3 t) (iblk4 V c 4 t) (iblk4 V c 5 t) (iblk4 V c 1 t) := by
  rw [after4_6]
  unfold out4_6
  rw [View.canon_unit_zero hz]
  simp only [View.ld_unit_zero (S := S5000x64) hz, View.ld_unit_zero (S := S1x64) hz]

/-- Entry `(p, q)` of that buffer is entry `(5000 t + p, q)` of `result`. -/
theorem after_apply (c : Dev nD) (t : Fin cfg4.N) (p : Fin 5000) (q : Fin 64) :
    ((dat4 V c).after 6 t : Vec Ideal S5000x64 .f32) (ix2 p q) = result V c (ix2 (tileRow t p) q) := by
  rw [after_eq]
  refine (pay_apply (iblk4 V c 0 t) (iblk4 V c 1 t) (iblk4 V c 2 t) (iblk4 V c 3 t) (iblk4 V c 4 t) (iblk4 V c 5 t) p q).trans ?_
  have r0 : (fun k => (iblk4 V c 0 t : Vec Ideal S5000x64 .f32) (ix2 p k))
      = rowsOf (V c (Pipeline.arrRef spec4 0) : S50000x64.Idx → EReal) (tileRow t p) := funext fun k => tile0_apply V c t p k
  have r1 : (fun k => (iblk4 V c 1 t : Vec Ideal S5000x64 .f32) (ix2 p k))
      = rowsOf (V c (Pipeline.arrRef spec4 1) : S50000x64.Idx → EReal) (tileRow t p) := funext fun k => tile1_apply V c t p k
  have r2 : rowAt (iblk4 V c 2 t : Vec Ideal S1x64 .f32) 0 = rowAt (V c (Pipeline.arrRef spec4 2) : S1x64.Idx → EReal) 0 :=
    funext fun k => row2_apply V c t k
  have r3 : rowAt (iblk4 V c 3 t : Vec Ideal S1x64 .f32) 0 = rowAt (V c (Pipeline.arrRef spec4 3) : S1x64.Idx → EReal) 0 :=
    funext fun k => row3_apply V c t k
  have r4 : rowAt (iblk4 V c 4 t : Vec Ideal S1x64 .f32) 0 = rowAt (V c (Pipeline.arrRef spec4 4) : S1x64.Idx → EReal) 0 :=
    funext fun k => row4_apply V c t k
  have r5 : rowAt (iblk4 V c 5 t : Vec Ideal S1x64 .f32) 0 = rowAt (V c (Pipeline.arrRef spec4 5) : S1x64.Idx → EReal) 0 :=
    funext fun k => row5_apply V c t k
  rw [r0, r1, r2, r3, r4, r5]
  rfl

/-- Two tiles that agree entry by entry are equal. -/
theorem tile_ext {X Y : Vec Ideal S5000x64 .f32} (h : ∀ (p : Fin 5000) (q : Fin 64), X (ix2 p q) = Y (ix2 p q)) : X = Y :=
  funext fun j => by rw [eq_ix2 j]; exact h _ _

/-- What point `t` writes back is tile `t` of `result`. -/
theorem flushed_eq (c : Dev nD) (t : Fin cfg4.N) :
    (dat4 V c).flushed 6 t = ((cfg4.win 6).blk t).view.read (Elt Ideal) (result V c) := by
  show (cfg4.win 6).cut (grid4.coords t) ((dat4 V c).after 6 t) = _
  refine tile_ext fun p q => ?_
  show ((dat4 V c).after 6 t : Vec Ideal S5000x64 .f32) (ix2 p q) = result V c (((cfg4.win 6).blk t).view.emb (ix2 p q))
  rw [emb6 t p q]
  exact after_apply V c t p q

/-- An index of the array is in tile `t` iff each coordinate is in the tile's range on its axis. -/
theorem mem_blk (t : Fin cfg4.N) (i : S50000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v47).slice (win4_6.rect t)).set ↔ _
  rw [View.set_slice_whole, Rect.mem_set_unit]
  exact Iff.rfl

/-- Row `r` lies in tile `r / 5000`: the ten tiles cover the array. -/
theorem cover (i : S50000x64.Idx) : ∃ t : Fin cfg4.N, (cfg4.win 6).flush t = true ∧ i ∈ ((cfg4.win 6).blk t).view.set := by
  have hi0 : (i 0).val < 50000 := (i 0).isLt
  have hi1 : (i 1).val < 64 := (i 1).isLt
  have hN : cfg4.N = 10 := N_4
  let t : Fin cfg4.N := ⟨(i 0).val / 5000, by omega⟩
  have ht : t.val = (i 0).val / 5000 := rfl
  obtain ⟨-, -, -, -, -, -, -, -, -, -, -, -, e0, e1⟩ := idx_facts t
  refine ⟨t, flush4_6 t, ?_⟩
  rw [mem_blk]
  intro a
  match a with
  | ⟨0, _⟩ => show win4_6.index t (0 : Fin 2) * 5000 ≤ (i 0).val ∧ (i 0).val < win4_6.index t (0 : Fin 2) * 5000 + 5000; rw [e0]; omega
  | ⟨1, _⟩ => show win4_6.index t (1 : Fin 2) * 64 ≤ (i 1).val ∧ (i 1).val < win4_6.index t (1 : Fin 2) * 64 + 64; rw [e1]; omega

/-- The output array after the ten points is `rowsBn` of the six input arrays. -/
theorem array_after (c : Dev nD) :
    (dat4 V c).arrAt 6 cfg4.N
      = rowsBn (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) :=
  (dat4 V c).arrAt_eq_of_cover 6 (result V c) (fun t _ => flushed_eq V c t) cover

/-- Row by row: row `p` of the output array is the normalisation-and-residual update of row `p` of the perceptron
    outputs and of the node rows. -/
theorem rows (c : Dev nD) (p : Fin 50000) (q : Fin 64) :
    ((dat4 V c).arrAt 6 cfg4.N : S50000x64.Idx → EReal) (ix2 p q)
      = bnUpd (rowAt ((dat4 V c).A 2 : S1x64.Idx → EReal) 0) (rowAt ((dat4 V c).A 3 : S1x64.Idx → EReal) 0)
          (rowAt ((dat4 V c).A 4 : S1x64.Idx → EReal) 0) (rowAt ((dat4 V c).A 5 : S1x64.Idx → EReal) 0)
          (rowsOf ((dat4 V c).A 0 : S50000x64.Idx → EReal) p) (rowsOf ((dat4 V c).A 1 : S50000x64.Idx → EReal) p) q := by
  refine (congrFun (array_after V c) (ix2 p q)).trans ?_
  -- the proof data's arrays are the region-entry contents, by definition
  rfl

end Cert.KernelIdeal.Reg4

end
-- ==== Proof.KReg5.lean ====
/-
  Region 5 of the kernel program, read as mathematics: the residual update of every edge.

  The region walks the 1000000 edges in 125 tiles of 8000. At a tile it sets the tiles of gathered source rows `Hs`,
  gathered target rows `Hd` and edge rows `EA` side by side into 192 columns, multiplies by the whole 192 × 64
  matrix `W1` into a zero accumulator, adds the bias `b1`, takes the positive part, multiplies by the 64 × 64 matrix
  `W2` into a zero accumulator, adds the bias `b2`, halves, and adds the edge tile. Entry `(p, q)` of what a tile
  stores depends only on rows `p` of the three tiles, so row `e` of the output array — which lies in tile
  `e / 8000` — is `Cert.Gine.edgeUpd W1 b1 W2 b2` of rows `e` of `Hs`, `Hd` and `EA`.

  Steps: three tiles side by side, row by row (`concat3_rows`); the stored tile entry by entry (`tile_entry`); what a
  grid point writes back is its block of one function of the whole arrays (`written_back`), because every block's
  place in its array is its block index times the block's extent; and the tiles cover the output array
  (`covered`), so the array ends as that function.
-/
import proofs.«133695_j30227979829590_2_alg».proof.Proof.Gen.KernelIdeal.Frame
import proofs.«133695_j30227979829590_2_alg».proof.Proof.Spec
import proofs.«133695_j30227979829590_2_alg».proof.Proof.Conv
import proofs.«133695_j30227979829590_2_alg».proof.Proof.LibTileRows
import Idealize.ShloMosaic.Lib.Pipeline.Value

noncomputable section

namespace Cert.KernelIdeal.Reg5

open Idealize.ShloMosaic Idealize.ShloMosaic.TcCoe Idealize.ShloMosaic.ValueIdx
open Idealize.ShloMosaic.Pipeline (Dat)
open Cert.KernelIdeal Cert.Gine

-- The contents of the TensorCore's buffers when the region is entered.
variable (V : (c : Dev nD) → (b : Ref sig .tc) → Buf (Elt Ideal) ((c : Thread nD τ).loc b))

theorem zero_offsets : (![0, 0] : Fin 2 → Nat) = fun _ => 0 := funext fun a => by fin_cases a <;> rfl

/-- The output array as one function of the seven input arrays: row `e` is the update of row `e` of `EA` from rows `e`
    of `Hs`, `Hd` and `EA`. -/
def rowsEdge (Hs Hd EA : S1000000x64.Idx → EReal) (W1 : S192x64.Idx → EReal) (B1 : S1x64.Idx → EReal)
    (W2 : S64x64.Idx → EReal) (B2 : S1x64.Idx → EReal) : S1000000x64.Idx → EReal :=
  fun i => edgeUpd (rowsOf W1) (rowAt B1 0) (rowsOf W2) (rowAt B2 0) (rowsOf Hs (i 0)) (rowsOf Hd (i 0)) (rowsOf EA (i 0)) (i 1)

/-! ## Three tiles side by side -/

/-- Three tiles of 64 columns set side by side along the columns: row `p` of the result is the three rows `p` one after
    the other. Column `j` falls in the first, second or third piece as `j < 64`, `64 ≤ j < 128` or `128 ≤ j`; the
    pieces before it take up 0, 64 or 128 columns. -/
theorem concat3_rows {M : Nat} (Y Z U : (⟨2, ![M, 64]⟩ : Shape).Idx → EReal)
    (h : Shape.Concatenates [(⟨2, ![M, 64]⟩ : Shape), ⟨2, ![M, 64]⟩, ⟨2, ![M, 64]⟩] ⟨2, ![M, 192]⟩ (1 : Fin 2))
    (yr zr ur : Fin M → Fin 64 → EReal)
    (hY : ∀ p k, Y (ix2 p k) = yr p k) (hZ : ∀ p k, Z (ix2 p k) = zr p k) (hU : ∀ p k, U (ix2 p k) = ur p k) :
    ∀ (p : Fin M) (j : Fin 192),
      concatenate ⟨2, ![M, 192]⟩ (1 : Fin 2) [⟨⟨2, ![M, 64]⟩, Y⟩, ⟨⟨2, ![M, 64]⟩, Z⟩, ⟨⟨2, ![M, 64]⟩, U⟩] h (ix2 p j)
        = cat3 (yr p) (zr p) (ur p) j := by
  intro p j
  unfold cat3
  by_cases h1 : j.val < 64
  · rw [dif_pos h1, ← hY]
    exact concatenate_apply_piece (t := ⟨2, ![M, 192]⟩) (1 : Fin 2)
      [⟨(⟨2, ![M, 64]⟩ : Shape), Y⟩, ⟨(⟨2, ![M, 64]⟩ : Shape), Z⟩, ⟨(⟨2, ![M, 64]⟩ : Shape), U⟩] h (ix2 p j)
      0 (by show (0 : Nat) < 3; omega) ⟨2, ![M, 64]⟩ Y rfl rfl 0 rfl (ix2 p ⟨j.val, h1⟩)
      (fun b hb => by match b with | ⟨0, _⟩ => rfl | ⟨1, _⟩ => exact absurd rfl hb)
      (by show 0 + j.val = j.val; omega)
  · by_cases h2 : j.val < 128
    · rw [dif_neg h1, dif_pos h2, ← hZ]
      exact concatenate_apply_piece (t := ⟨2, ![M, 192]⟩) (1 : Fin 2)
        [⟨(⟨2, ![M, 64]⟩ : Shape), Y⟩, ⟨(⟨2, ![M, 64]⟩ : Shape), Z⟩, ⟨(⟨2, ![M, 64]⟩ : Shape), U⟩] h (ix2 p j)
        1 (by show (1 : Nat) < 3; omega) ⟨2, ![M, 64]⟩ Z rfl rfl 64 rfl
        (ix2 p ⟨j.val - 64, by omega⟩)
        (fun b hb => by match b with | ⟨0, _⟩ => rfl | ⟨1, _⟩ => exact absurd rfl hb)
        (by show 64 + (j.val - 64) = j.val; omega)
    · have hj : j.val < 192 := j.isLt
      rw [dif_neg h1, dif_neg h2, ← hU]
      exact concatenate_apply_piece (t := ⟨2, ![M, 192]⟩) (1 : Fin 2)
        [⟨(⟨2, ![M, 64]⟩ : Shape), Y⟩, ⟨(⟨2, ![M, 64]⟩ : Shape), Z⟩, ⟨(⟨2, ![M, 64]⟩ : Shape), U⟩] h (ix2 p j)
        2 (by show (2 : Nat) < 3; omega) ⟨2, ![M, 64]⟩ U rfl rfl 128 rfl
        (ix2 p ⟨j.val - 128, by omega⟩)
        (fun b hb => by match b with | ⟨0, _⟩ => rfl | ⟨1, _⟩ => exact absurd rfl hb)
        (by show 128 + (j.val - 128) = j.val; omega)

/-! ## The stored tile, entry by entry -/

/-- Entry `(p, q)` of the tile the body stores, from the loaded tiles of `Hs`, `Hd`, `EA`, the blocks of `W1`, `b1`,
    `W2`, `b2`, and the tile of `EA` loaded a second time: the edge entry plus half of the two-layer image of the
    three rows `p` side by side. The re-layings to the same shape and the changes of float format are the identity at
    the extended reals, and both accumulators are zero. -/
theorem tile_entry (hs hd ea : FVec Ideal S8000x64 .f32) (w1 : FVec Ideal S192x64 .f32) (b1 : FVec Ideal S1x64 .f32)
    (w2 : FVec Ideal S64x64 .f32) (b2 : FVec Ideal S1x64 .f32) (ea' : FVec Ideal S8000x64 .f32) (p : Fin 8000) (q : Fin 64) :
    Gen.k5_pay1 (F := Ideal) hs hd ea w1 b1 w2 b2 ea' (ix2 p q)
      = ea' (ix2 p q) + ((∑ k : Fin 64,
            max ((∑ j : Fin 192, cat3 (fun k => hs (ix2 p k)) (fun k => hd (ix2 p k)) (fun k => ea (ix2 p k)) j * w1 (ix2 j k))
              + b1 (ix2 (0 : Fin 1) k)) 0 * w2 (ix2 k q)) + b2 (ix2 (0 : Fin 1) q)) * cHalf := by
  unfold Gen.k5_pay1
  refine Cert.TileRows.add_rows _ _ (fun p q => ea' (ix2 p q))
    (fun p q => ((∑ k : Fin 64,
            max ((∑ j : Fin 192, cat3 (fun k => hs (ix2 p k)) (fun k => hd (ix2 p k)) (fun k => ea (ix2 p k)) j * w1 (ix2 j k))
              + b1 (ix2 (0 : Fin 1) k)) 0 * w2 (ix2 k q)) + b2 (ix2 (0 : Fin 1) q)) * cHalf)
    (fun p q => ?_) (fun p q => ?_) p q
  · rw [shapeCast_self]
  · -- the halving: a product with a splat of the word of one half
    show addf _ _ (ix2 p q) * Ideal.ofBits .f32 0x3F000000#32 = _ * cHalf
    refine congrArg (· * cHalf) ?_
    refine Cert.TileRows.bias_rows _ b2 _ _ (fun p q => ∑ k : Fin 64,
            max ((∑ j : Fin 192, cat3 (fun k => hs (ix2 p k)) (fun k => hd (ix2 p k)) (fun k => ea (ix2 p k)) j * w1 (ix2 j k))
              + b1 (ix2 (0 : Fin 1) k)) 0 * w2 (ix2 k q)) (fun p q => ?_) p q
    -- the second product
    refine (Ideal.matmul_constant_zero_apply dot_S8000x64_S64x64_S8000x64_1_0_0_1_n_n none _ _ (ix2 p q)).trans ?_
    refine (Cert.PlainDot.sum_contr dot_S8000x64_S64x64_S8000x64_1_0_0_1_n_n ⟨rfl, rfl, rfl, rfl, rfl, rfl⟩ _ _ p q).trans ?_
    refine Finset.sum_congr rfl fun k _ => ?_
    refine congrArg₂ (· * ·) ?_ ?_
    · -- the hidden layer at (p, k)
      refine Cert.TileRows.relu_rows _ (fun p k =>
          (∑ j : Fin 192, cat3 (fun k => hs (ix2 p k)) (fun k => hd (ix2 p k)) (fun k => ea (ix2 p k)) j * w1 (ix2 j k))
            + b1 (ix2 (0 : Fin 1) k)) (fun p k => ?_) p k
      refine Cert.TileRows.bias_rows _ b1 _ _ (fun p k =>
          ∑ j : Fin 192, cat3 (fun k => hs (ix2 p k)) (fun k => hd (ix2 p k)) (fun k => ea (ix2 p k)) j * w1 (ix2 j k))
          (fun p k => ?_) p k
      -- the first product, against the three tiles side by side
      refine (Ideal.matmul_constant_zero_apply dot_S8000x192_S192x64_S8000x64_1_0_0_1_n_n none _ _ (ix2 p k)).trans ?_
      refine (Cert.PlainDot.sum_contr dot_S8000x192_S192x64_S8000x64_1_0_0_1_n_n ⟨rfl, rfl, rfl, rfl, rfl, rfl⟩ _ _ p k).trans ?_
      refine Finset.sum_congr rfl fun j _ => ?_
      refine congrArg₂ (· * ·) ?_ ?_
      · exact concat3_rows _ _ _ Gen.concatenates_S8000x64_S8000x64_S8000x64_S8000x192_d1 (fun p k => hs (ix2 p k)) (fun p k => hd (ix2 p k)) (fun p k => ea (ix2 p k))
          (fun p k => by rw [shapeCast_self]) (fun p k => by rw [shapeCast_self]) (fun p k => by rw [shapeCast_self]) p j
      · show shapeCast S192x64 w1 _ (ix2 j k) = _
        rw [shapeCast_self]
    · show shapeCast S64x64 w2 _ (ix2 k q) = _
      rw [shapeCast_self]

/-- The same entry when the loaded tiles are known to be rows `e` of `Hs`, `Hd`, `EA` and the four small blocks agree
    with the whole arrays `W1`, `b1`, `W2`, `b2` where the entry reads them: it is entry `(e, q)` of `rowsEdge`. -/
theorem tile_entry_of (Hs Hd EA : S1000000x64.Idx → EReal) (W1 : S192x64.Idx → EReal) (B1 : S1x64.Idx → EReal)
    (W2 : S64x64.Idx → EReal) (B2 : S1x64.Idx → EReal)
    (hs hd ea : FVec Ideal S8000x64 .f32) (w1 : FVec Ideal S192x64 .f32) (b1 : FVec Ideal S1x64 .f32)
    (w2 : FVec Ideal S64x64 .f32) (b2 : FVec Ideal S1x64 .f32)
    (p : Fin 8000) (q : Fin 64) (e : Fin 1000000)
    (hhs : ∀ k : Fin 64, hs (ix2 p k) = Hs (ix2 e k)) (hhd : ∀ k : Fin 64, hd (ix2 p k) = Hd (ix2 e k))
    (hea : ∀ k : Fin 64, ea (ix2 p k) = EA (ix2 e k))
    (hw1 : ∀ (j : Fin 192) (k : Fin 64), w1 (ix2 j k) = W1 (ix2 j k))
    (hb1 : ∀ k : Fin 64, b1 (ix2 (0 : Fin 1) k) = B1 (ix2 (0 : Fin 1) k))
    (hw2 : ∀ k : Fin 64, w2 (ix2 k q) = W2 (ix2 k q)) (hb2 : b2 (ix2 (0 : Fin 1) q) = B2 (ix2 (0 : Fin 1) q)) :
    Gen.k5_pay1 (F := Ideal) hs hd ea w1 b1 w2 b2 ea (ix2 p q) = rowsEdge Hs Hd EA W1 B1 W2 B2 (ix2 e q) := by
  rw [tile_entry, hea q, hb2, show (fun k => hs (ix2 p k)) = rowsOf Hs e from funext hhs,
    show (fun k => hd (ix2 p k)) = rowsOf Hd e from funext hhd, show (fun k => ea (ix2 p k)) = rowsOf EA e from funext hea]
  show _ = EA (ix2 e q) + ((∑ k : Fin 64,
      max ((∑ j : Fin 192, cat3 (rowsOf Hs e) (rowsOf Hd e) (rowsOf EA e) j * W1 (ix2 j k)) + B1 (ix2 (0 : Fin 1) k)) 0
        * W2 (ix2 k q)) + B2 (ix2 (0 : Fin 1) q)) * cHalf
  refine congrArg (fun s => EA (ix2 e q) + (s + B2 (ix2 (0 : Fin 1) q)) * cHalf) (Finset.sum_congr rfl fun k _ => ?_)
  rw [hw2 k, hb1 k]
  refine congrArg (fun s => max (s + B1 (ix2 (0 : Fin 1) k)) 0 * W2 (ix2 k q)) (Finset.sum_congr rfl fun j _ => ?_)
  rw [hw1 j k]

/-! ## Where a block sits in its array -/

/-- The block indices of the eight windows at grid point `t`, decided over the 125 points: `Hs`, `Hd`, `EA` and the
    output move down one tile of rows per point; the weights and biases are always their one whole block. -/
theorem block_indices : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- Entry `(p, k)` of the tile of `Hs` at point `t` is entry `(8000 t + p, k)` of `Hs`. -/
theorem hs_tile (c : Dev nD) (t : Fin cfg5.N) (p : Fin 8000) (k : Fin 64) (e : Fin 1000000) (he : e.val = t.val * 8000 + p.val) :
    (Gen.iblk5 V c 0 t : S8000x64.Idx → EReal) (ix2 p k) = (V c (Pipeline.arrRef spec5 0) : S1000000x64.Idx → EReal) (ix2 e k) := by
  obtain ⟨e0, e1, -⟩ := block_indices t
  unfold Gen.iblk5
  rw [View.read_apply]
  show (V c (Pipeline.arrRef spec5 0) : S1000000x64.Idx → EReal) (((cfg5.win 0).blk t).view.emb (ix2 p k)) = _
  refine congrArg _ (funext fun a => Fin.ext ?_)
  match a with
  | ⟨0, _⟩ => show win5_0.index t (0 : Fin 2) * 8000 + 1 * p.val = e.val; rw [e0, he]; omega
  | ⟨1, _⟩ => show win5_0.index t (1 : Fin 2) * 64 + 1 * k.val = k.val; rw [e1]; omega

/-- Entry `(p, k)` of the tile of `Hd` at point `t` is entry `(8000 t + p, k)` of `Hd`. -/
theorem hd_tile (c : Dev nD) (t : Fin cfg5.N) (p : Fin 8000) (k : Fin 64) (e : Fin 1000000) (he : e.val = t.val * 8000 + p.val) :
    (Gen.iblk5 V c 1 t : S8000x64.Idx → EReal) (ix2 p k) = (V c (Pipeline.arrRef spec5 1) : S1000000x64.Idx → EReal) (ix2 e k) := by
  obtain ⟨-, -, e0, e1, -⟩ := block_indices t
  unfold Gen.iblk5
  rw [View.read_apply]
  show (V c (Pipeline.arrRef spec5 1) : S1000000x64.Idx → EReal) (((cfg5.win 1).blk t).view.emb (ix2 p k)) = _
  refine congrArg _ (funext fun a => Fin.ext ?_)
  match a with
  | ⟨0, _⟩ => show win5_1.index t (0 : Fin 2) * 8000 + 1 * p.val = e.val; rw [e0, he]; omega
  | ⟨1, _⟩ => show win5_1.index t (1 : Fin 2) * 64 + 1 * k.val = k.val; rw [e1]; omega

/-- Entry `(p, k)` of the tile of `EA` at point `t` is entry `(8000 t + p, k)` of `EA`. -/
theorem ea_tile (c : Dev nD) (t : Fin cfg5.N) (p : Fin 8000) (k : Fin 64) (e : Fin 1000000) (he : e.val = t.val * 8000 + p.val) :
    (Gen.iblk5 V c 2 t : S8000x64.Idx → EReal) (ix2 p k) = (V c (Pipeline.arrRef spec5 2) : S1000000x64.Idx → EReal) (ix2 e k) := by
  obtain ⟨-, -, -, -, e0, e1, -⟩ := block_indices t
  unfold Gen.iblk5
  rw [View.read_apply]
  show (V c (Pipeline.arrRef spec5 2) : S1000000x64.Idx → EReal) (((cfg5.win 2).blk t).view.emb (ix2 p k)) = _
  refine congrArg _ (funext fun a => Fin.ext ?_)
  match a with
  | ⟨0, _⟩ => show win5_2.index t (0 : Fin 2) * 8000 + 1 * p.val = e.val; rw [e0, he]; omega
  | ⟨1, _⟩ => show win5_2.index t (1 : Fin 2) * 64 + 1 * k.val = k.val; rw [e1]; omega

/-- The block of `W1` at any point is `W1`. -/
theorem w1_tile (c : Dev nD) (t : Fin cfg5.N) (j : Fin 192) (k : Fin 64) :
    (Gen.iblk5 V c 3 t : S192x64.Idx → EReal) (ix2 j k) = (V c (Pipeline.arrRef spec5 3) : S192x64.Idx → EReal) (ix2 j k) := by
  obtain ⟨-, -, -, -, -, -, e0, e1, -⟩ := block_indices t
  unfold Gen.iblk5
  rw [View.read_apply]
  show (V c (Pipeline.arrRef spec5 3) : S192x64.Idx → EReal) (((cfg5.win 3).blk t).view.emb (ix2 j k)) = _
  refine congrArg _ (funext fun a => Fin.ext ?_)
  match a with
  | ⟨0, _⟩ => show win5_3.index t (0 : Fin 2) * 192 + 1 * j.val = j.val; rw [e0]; omega
  | ⟨1, _⟩ => show win5_3.index t (1 : Fin 2) * 64 + 1 * k.val = k.val; rw [e1]; omega

/-- The block of `b1` at any point is `b1`. -/
theorem b1_tile (c : Dev nD) (t : Fin cfg5.N) (z : Fin 1) (k : Fin 64) :
    (Gen.iblk5 V c 4 t : S1x64.Idx → EReal) (ix2 z k) = (V c (Pipeline.arrRef spec5 4) : S1x64.Idx → EReal) (ix2 z k) := by
  obtain ⟨-, -, -, -, -, -, -, -, e0, e1, -⟩ := block_indices t
  unfold Gen.iblk5
  rw [View.read_apply]
  show (V c (Pipeline.arrRef spec5 4) : S1x64.Idx → EReal) (((cfg5.win 4).blk t).view.emb (ix2 z k)) = _
  refine congrArg _ (funext fun a => Fin.ext ?_)
  match a with
  | ⟨0, _⟩ => show win5_4.index t (0 : Fin 2) * 1 + 1 * z.val = z.val; rw [e0]; omega
  | ⟨1, _⟩ => show win5_4.index t (1 : Fin 2) * 64 + 1 * k.val = k.val; rw [e1]; omega

/-- The block of `W2` at any point is `W2`. -/
theorem w2_tile (c : Dev nD) (t : Fin cfg5.N) (j : Fin 64) (k : Fin 64) :
    (Gen.iblk5 V c 5 t : S64x64.Idx → EReal) (ix2 j k) = (V c (Pipeline.arrRef spec5 5) : S64x64.Idx → EReal) (ix2 j k) := by
  obtain ⟨-, -, -, -, -, -, -, -, -, -, e0, e1, -⟩ := block_indices t
  unfold Gen.iblk5
  rw [View.read_apply]
  show (V c (Pipeline.arrRef spec5 5) : S64x64.Idx → EReal) (((cfg5.win 5).blk t).view.emb (ix2 j k)) = _
  refine congrArg _ (funext fun a => Fin.ext ?_)
  match a with
  | ⟨0, _⟩ => show win5_5.index t (0 : Fin 2) * 64 + 1 * j.val = j.val; rw [e0]; omega
  | ⟨1, _⟩ => show win5_5.index t (1 : Fin 2) * 64 + 1 * k.val = k.val; rw [e1]; omega

/-- The block of `b2` at any point is `b2`. -/
theorem b2_tile (c : Dev nD) (t : Fin cfg5.N) (z : Fin 1) (k : Fin 64) :
    (Gen.iblk5 V c 6 t : S1x64.Idx → EReal) (ix2 z k) = (V c (Pipeline.arrRef spec5 6) : S1x64.Idx → EReal) (ix2 z k) := by
  obtain ⟨-, -, -, -, -, -, -, -, -, -, -, -, e0, e1, -⟩ := block_indices t
  unfold Gen.iblk5
  rw [View.read_apply]
  show (V c (Pipeline.arrRef spec5 6) : S1x64.Idx → EReal) (((cfg5.win 6).blk t).view.emb (ix2 z k)) = _
  refine congrArg _ (funext fun a => Fin.ext ?_)
  match a with
  | ⟨0, _⟩ => show win5_6.index t (0 : Fin 2) * 1 + 1 * z.val = z.val; rw [e0]; omega
  | ⟨1, _⟩ => show win5_6.index t (1 : Fin 2) * 64 + 1 * k.val = k.val; rw [e1]; omega

/-- Place `(p, q)` of the output's block at point `t` is place `(8000 t + p, q)` of the output array. -/
theorem out_place (t : Fin cfg5.N) (p : Fin 8000) (q : Fin 64) (e : Fin 1000000) (he : e.val = t.val * 8000 + p.val) :
    (((cfg5.win 7).blk t).view.emb (ix2 p q) : S1000000x64.Idx) = ix2 e q := by
  obtain ⟨-, -, -, -, -, -, -, -, -, -, -, -, -, -, e0, e1⟩ := block_indices t
  refine funext fun a => Fin.ext ?_
  match a with
  | ⟨0, _⟩ => show win5_7.index t (0 : Fin 2) * 8000 + 1 * p.val = e.val; rw [e0, he]; omega
  | ⟨1, _⟩ => show win5_7.index t (1 : Fin 2) * 64 + 1 * q.val = q.val; rw [e1]; omega

/-! ## What a point writes back, and the array after the region -/

set_option maxHeartbeats 2000000 in
/-- What grid point `t` writes back is its block of `rowsEdge` of the arrays as the region finds them. -/
theorem written_back (c : Dev nD) (t : Fin cfg5.N) :
    (Gen.dat5 V c).flushed 7 t = ((cfg5.win 7).blk t).view.read (Elt Ideal)
      (rowsEdge (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))
        (V c (Pipeline.arrRef spec5 6))) := by
  show (cfg5.win 7).cut (grid5.coords t) ((Gen.dat5 V c).after 7 t) = _
  rw [Gen.after5_7]
  unfold Gen.out5_7
  rw [View.canon_unit_zero zero_offsets]
  simp only [View.ld_unit_zero (S := S8000x64) zero_offsets, View.ld_unit_zero (S := S192x64) zero_offsets,
    View.ld_unit_zero (S := S64x64) zero_offsets, View.ld_unit_zero (S := S1x64) zero_offsets]
  funext y
  obtain ⟨p, q, rfl⟩ : ∃ (p : Fin 8000) (q : Fin 64), y = ix2 p q := ⟨y 0, y 1, eq_ix2 y⟩
  have hN : cfg5.N = 125 := Gen.N_5
  have ht : t.val < 125 := hN ▸ t.isLt
  have he : (⟨t.val * 8000 + p.val, by omega⟩ : Fin 1000000).val = t.val * 8000 + p.val := rfl
  rw [View.read_apply]
  show Gen.k5_pay1 (F := Ideal) (Gen.iblk5 V c 0 t) (Gen.iblk5 V c 1 t) (Gen.iblk5 V c 2 t) (Gen.iblk5 V c 3 t)
      (Gen.iblk5 V c 4 t) (Gen.iblk5 V c 5 t) (Gen.iblk5 V c 6 t) (Gen.iblk5 V c 2 t) (ix2 p q)
    = rowsEdge (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))
        (V c (Pipeline.arrRef spec5 6)) (((cfg5.win 7).blk t).view.emb (ix2 p q))
  rw [out_place t p q ⟨t.val * 8000 + p.val, by omega⟩ he]
  exact tile_entry_of (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5)) (V c (Pipeline.arrRef spec5 6))
    (Gen.iblk5 V c 0 t) (Gen.iblk5 V c 1 t) (Gen.iblk5 V c 2 t) (Gen.iblk5 V c 3 t)
    (Gen.iblk5 V c 4 t) (Gen.iblk5 V c 5 t) (Gen.iblk5 V c 6 t) p q ⟨t.val * 8000 + p.val, by omega⟩
    (fun k => hs_tile V c t p k _ he) (fun k => hd_tile V c t p k _ he) (fun k => ea_tile V c t p k _ he)
    (fun j k => w1_tile V c t j k) (fun k => b1_tile V c t 0 k) (fun k => w2_tile V c t k q) (b2_tile V c t 0 q)

/-- An index of the output array lies in point `t`'s block iff each coordinate lies in the block's range. -/
theorem mem_block (t : Fin cfg5.N) (i : S1000000x64.Idx) :
    i ∈ ((cfg5.win 7).blk t).view.set ↔ ∀ a : Fin 2, win5_7.index t a * S8000x64.size a ≤ (i a).val
      ∧ (i a).val < win5_7.index t a * S8000x64.size a + S8000x64.size a := by
  show i ∈ ((View.whole main_v72).slice (win5_7.rect t)).set ↔ _
  rw [View.set_slice_whole, Rect.mem_set_unit]
  exact Iff.rfl

/-- Every index of the output array is written back by some point: row `e` by point `e / 8000`. -/
theorem covered (i : S1000000x64.Idx) : ∃ t : Fin cfg5.N, (cfg5.win 7).flush t = true ∧ i ∈ ((cfg5.win 7).blk t).view.set := by
  have hN : cfg5.N = 125 := Gen.N_5
  have h0 : (i 0).val < 1000000 := (i 0).isLt
  have h1 : (i 1).val < 64 := (i 1).isLt
  refine ⟨⟨(i 0).val / 8000, by omega⟩, Gen.flush5_7 _, ?_⟩
  obtain ⟨-, -, -, -, -, -, -, -, -, -, -, -, -, -, e0, e1⟩ := block_indices ⟨(i 0).val / 8000, by omega⟩
  rw [mem_block]
  intro a
  match a with
  | ⟨0, _⟩ =>
    show win5_7.index _ (0 : Fin 2) * 8000 ≤ (i 0).val ∧ (i 0).val < win5_7.index _ (0 : Fin 2) * 8000 + 8000
    rw [e0]; show (i 0).val / 8000 * 8000 ≤ (i 0).val ∧ (i 0).val < (i 0).val / 8000 * 8000 + 8000; omega
  | ⟨1, _⟩ =>
    show win5_7.index _ (1 : Fin 2) * 64 ≤ (i 1).val ∧ (i 1).val < win5_7.index _ (1 : Fin 2) * 64 + 64
    rw [e1]; omega

/-- The output array after the region is `rowsEdge` of the arrays as the region finds them. -/
theorem array_after (c : Dev nD) :
    (Gen.dat5 V c).arrAt 7 cfg5.N
      = rowsEdge (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5))
          (V c (Pipeline.arrRef spec5 6)) :=
  (Gen.dat5 V c).arrAt_eq_of_cover 7 _ (fun t _ => written_back V c t) covered

/-- Row by row: row `e` of the output array is the update of row `e` of `EA` from rows `e` of `Hs`, `Hd` and `EA`. -/
theorem rows (c : Dev nD) (e : Fin 1000000) (q : Fin 64) :
    ((Gen.dat5 V c).arrAt 7 cfg5.N : S1000000x64.Idx → EReal) (ix2 e q)
      = edgeUpd (rowsOf ((Gen.dat5 V c).A 3 : S192x64.Idx → EReal)) (rowAt ((Gen.dat5 V c).A 4 : S1x64.Idx → EReal) 0)
          (rowsOf ((Gen.dat5 V c).A 5 : S64x64.Idx → EReal)) (rowAt ((Gen.dat5 V c).A 6 : S1x64.Idx → EReal) 0)
          (rowsOf ((Gen.dat5 V c).A 0 : S1000000x64.Idx → EReal) e) (rowsOf ((Gen.dat5 V c).A 1 : S1000000x64.Idx → EReal) e)
          (rowsOf ((Gen.dat5 V c).A 2 : S1000000x64.Idx → EReal) e) q := by
  rw [array_after V c]
  rfl

end Cert.KernelIdeal.Reg5

end
-- ==== Proof.KReg6.lean ====
/-
  Region 6 of the kernel program, read as mathematics: the message of every edge.

  The region walks the 1000000 edges in 125 tiles of 8000. At a tile it takes the tile of gathered source rows `Hs`
  and the tile of edge rows `EA`, multiplies the edge tile by the whole 64 × 64 matrix `W` into a zero accumulator,
  adds the one-row bias `b` to every row, adds the source tile, and takes the positive part. Entry `(p, q)` of what
  a tile stores depends only on rows `p` of the two tiles, so row `e` of the output array — which lies in tile
  `e / 8000` — is `Cert.Gine.msg W b` of row `e` of `Hs` and row `e` of `EA`.

  Three steps: the stored tile entry by entry (`tile_entry`); what a grid point writes back is its block of one
  function of the whole arrays (`written_back`), because every block's place in its array is its block index times
  the block's extent; and the tiles cover the output array (`covered`), so the array ends as that function.
-/
import proofs.«133695_j30227979829590_2_alg».proof.Proof.Gen.KernelIdeal.Frame
import proofs.«133695_j30227979829590_2_alg».proof.Proof.Spec
import proofs.«133695_j30227979829590_2_alg».proof.Proof.Conv
import proofs.«133695_j30227979829590_2_alg».proof.Proof.LibTileRows
import Idealize.ShloMosaic.Lib.Pipeline.Value

noncomputable section

namespace Cert.KernelIdeal.Reg6

open Idealize.ShloMosaic Idealize.ShloMosaic.TcCoe Idealize.ShloMosaic.ValueIdx
open Idealize.ShloMosaic.Pipeline (Dat)
open Cert.KernelIdeal Cert.Gine

-- The contents of the TensorCore's buffers when the region is entered.
variable (V : (c : Dev nD) → (b : Ref sig .tc) → Buf (Elt Ideal) ((c : Thread nD τ).loc b))

theorem zero_offsets : (![0, 0] : Fin 2 → Nat) = fun _ => 0 := funext fun a => by fin_cases a <;> rfl

/-- The output array as one function of the four input arrays: row `e` is the message of rows `e` of `Hs` and `EA`. -/
def rowsMsg (Hs EA : S1000000x64.Idx → EReal) (W : S64x64.Idx → EReal) (b : S1x64.Idx → EReal) : S1000000x64.Idx → EReal :=
  fun i => msg (rowsOf W) (rowAt b 0) (rowsOf Hs (i 0)) (rowsOf EA (i 0)) (i 1)

/-- Entry `(p, q)` of the tile the body stores, from the loaded tiles of `EA`, `W`, `b` and `Hs` (in the order the
    body loads them): the positive part of the source entry plus row `p` of the edge tile against column `q` of
    `W` plus the bias. The re-layings to the same shape and the changes of float format are the identity at the
    extended reals, and the accumulator is zero. -/
theorem tile_entry (ea : FVec Ideal S8000x64 .f32) (w : FVec Ideal S64x64 .f32) (b : FVec Ideal S1x64 .f32)
    (hs : FVec Ideal S8000x64 .f32) (p : Fin 8000) (q : Fin 64) :
    Gen.k6_pay1 (F := Ideal) ea w b hs (ix2 p q)
      = max (hs (ix2 p q) + ((∑ k : Fin 64, ea (ix2 p k) * w (ix2 k q)) + b (ix2 (0 : Fin 1) q))) 0 := by
  unfold Gen.k6_pay1
  refine Cert.TileRows.relu_rows _
    (fun p q => hs (ix2 p q) + ((∑ k : Fin 64, ea (ix2 p k) * w (ix2 k q)) + b (ix2 (0 : Fin 1) q))) (fun p q => ?_) p q
  refine Cert.TileRows.add_rows _ _ (fun p q => hs (ix2 p q))
    (fun p q => (∑ k : Fin 64, ea (ix2 p k) * w (ix2 k q)) + b (ix2 (0 : Fin 1) q)) (fun p q => ?_) (fun p q => ?_) p q
  · rw [shapeCast_self]
  · refine Cert.TileRows.bias_rows _ b _ _ (fun p q => ∑ k : Fin 64, ea (ix2 p k) * w (ix2 k q)) (fun p q => ?_) p q
    refine (Ideal.matmul_constant_zero_apply dot_S8000x64_S64x64_S8000x64_1_0_0_1_n_n none _ _ (ix2 p q)).trans ?_
    refine (Cert.PlainDot.sum_contr dot_S8000x64_S64x64_S8000x64_1_0_0_1_n_n ⟨rfl, rfl, rfl, rfl, rfl, rfl⟩ _ _ p q).trans ?_
    refine Finset.sum_congr rfl fun k _ => ?_
    show shapeCast S8000x64 ea _ (ix2 p k) * shapeCast S64x64 w _ (ix2 k q) = _
    rw [shapeCast_self, shapeCast_self]

/-- The same entry when the loaded tiles are known to be rows `e` of `EA` and of `Hs`, all of `W` and all of `b`: it is
    entry `(e, q)` of `rowsMsg Hs EA W b`. -/
theorem tile_entry_of (Hs EA : S1000000x64.Idx → EReal) (W : S64x64.Idx → EReal) (B : S1x64.Idx → EReal)
    (ea : FVec Ideal S8000x64 .f32) (w : FVec Ideal S64x64 .f32) (b : FVec Ideal S1x64 .f32) (hs : FVec Ideal S8000x64 .f32)
    (p : Fin 8000) (q : Fin 64) (e : Fin 1000000)
    (hea : ∀ k : Fin 64, ea (ix2 p k) = EA (ix2 e k)) (hw : ∀ k : Fin 64, w (ix2 k q) = W (ix2 k q))
    (hb : b (ix2 (0 : Fin 1) q) = B (ix2 (0 : Fin 1) q)) (hhs : hs (ix2 p q) = Hs (ix2 e q)) :
    Gen.k6_pay1 (F := Ideal) ea w b hs (ix2 p q) = rowsMsg Hs EA W B (ix2 e q) := by
  rw [tile_entry, hb, hhs]
  show _ = max (Hs (ix2 e q) + ((∑ k : Fin 64, EA (ix2 e k) * W (ix2 k q)) + B (ix2 (0 : Fin 1) q))) 0
  exact congrArg (fun s => max (Hs (ix2 e q) + (s + B (ix2 (0 : Fin 1) q))) 0)
    (Finset.sum_congr rfl fun k _ => by rw [hea k, hw k])

/-! ## Where a block sits in its array -/

/-- The block indices of the five windows at grid point `t`, decided over the 125 points: `Hs`, `EA` and the output
    move down one tile of rows per point; `W` and `b` are always their one whole block. -/
theorem block_indices : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Entry `(p, k)` of the tile of `Hs` at point `t` is entry `(8000 t + p, k)` of `Hs`. -/
theorem hs_tile (c : Dev nD) (t : Fin cfg6.N) (p : Fin 8000) (k : Fin 64) (e : Fin 1000000) (he : e.val = t.val * 8000 + p.val) :
    (Gen.iblk6 V c 0 t : S8000x64.Idx → EReal) (ix2 p k) = (V c (Pipeline.arrRef spec6 0) : S1000000x64.Idx → EReal) (ix2 e k) := by
  obtain ⟨e0, e1, -⟩ := block_indices t
  unfold Gen.iblk6
  rw [View.read_apply]
  show (V c (Pipeline.arrRef spec6 0) : S1000000x64.Idx → EReal) (((cfg6.win 0).blk t).view.emb (ix2 p k)) = _
  refine congrArg _ (funext fun a => Fin.ext ?_)
  match a with
  | ⟨0, _⟩ => show win6_0.index t (0 : Fin 2) * 8000 + 1 * p.val = e.val; rw [e0, he]; omega
  | ⟨1, _⟩ => show win6_0.index t (1 : Fin 2) * 64 + 1 * k.val = k.val; rw [e1]; omega

/-- Entry `(p, k)` of the tile of `EA` at point `t` is entry `(8000 t + p, k)` of `EA`. -/
theorem ea_tile (c : Dev nD) (t : Fin cfg6.N) (p : Fin 8000) (k : Fin 64) (e : Fin 1000000) (he : e.val = t.val * 8000 + p.val) :
    (Gen.iblk6 V c 1 t : S8000x64.Idx → EReal) (ix2 p k) = (V c (Pipeline.arrRef spec6 1) : S1000000x64.Idx → EReal) (ix2 e k) := by
  obtain ⟨-, -, e0, e1, -⟩ := block_indices t
  unfold Gen.iblk6
  rw [View.read_apply]
  show (V c (Pipeline.arrRef spec6 1) : S1000000x64.Idx → EReal) (((cfg6.win 1).blk t).view.emb (ix2 p k)) = _
  refine congrArg _ (funext fun a => Fin.ext ?_)
  match a with
  | ⟨0, _⟩ => show win6_1.index t (0 : Fin 2) * 8000 + 1 * p.val = e.val; rw [e0, he]; omega
  | ⟨1, _⟩ => show win6_1.index t (1 : Fin 2) * 64 + 1 * k.val = k.val; rw [e1]; omega

/-- The block of `W` at any point is `W`. -/
theorem w_tile (c : Dev nD) (t : Fin cfg6.N) (k : Fin 64) (q : Fin 64) :
    (Gen.iblk6 V c 2 t : S64x64.Idx → EReal) (ix2 k q) = (V c (Pipeline.arrRef spec6 2) : S64x64.Idx → EReal) (ix2 k q) := by
  obtain ⟨-, -, -, -, e0, e1, -⟩ := block_indices t
  unfold Gen.iblk6
  rw [View.read_apply]
  show (V c (Pipeline.arrRef spec6 2) : S64x64.Idx → EReal) (((cfg6.win 2).blk t).view.emb (ix2 k q)) = _
  refine congrArg _ (funext fun a => Fin.ext ?_)
  match a with
  | ⟨0, _⟩ => show win6_2.index t (0 : Fin 2) * 64 + 1 * k.val = k.val; rw [e0]; omega
  | ⟨1, _⟩ => show win6_2.index t (1 : Fin 2) * 64 + 1 * q.val = q.val; rw [e1]; omega

/-- The block of `b` at any point is `b`. -/
theorem b_tile (c : Dev nD) (t : Fin cfg6.N) (z : Fin 1) (q : Fin 64) :
    (Gen.iblk6 V c 3 t : S1x64.Idx → EReal) (ix2 z q) = (V c (Pipeline.arrRef spec6 3) : S1x64.Idx → EReal) (ix2 z q) := by
  obtain ⟨-, -, -, -, -, -, e0, e1, -⟩ := block_indices t
  unfold Gen.iblk6
  rw [View.read_apply]
  show (V c (Pipeline.arrRef spec6 3) : S1x64.Idx → EReal) (((cfg6.win 3).blk t).view.emb (ix2 z q)) = _
  refine congrArg _ (funext fun a => Fin.ext ?_)
  match a with
  | ⟨0, _⟩ => show win6_3.index t (0 : Fin 2) * 1 + 1 * z.val = z.val; rw [e0]; omega
  | ⟨1, _⟩ => show win6_3.index t (1 : Fin 2) * 64 + 1 * q.val = q.val; rw [e1]; omega

/-- Place `(p, q)` of the output's block at point `t` is place `(8000 t + p, q)` of the output array. -/
theorem out_place (t : Fin cfg6.N) (p : Fin 8000) (q : Fin 64) (e : Fin 1000000) (he : e.val = t.val * 8000 + p.val) :
    (((cfg6.win 4).blk t).view.emb (ix2 p q) : S1000000x64.Idx) = ix2 e q := by
  obtain ⟨-, -, -, -, -, -, -, -, e0, e1⟩ := block_indices t
  refine funext fun a => Fin.ext ?_
  match a with
  | ⟨0, _⟩ => show win6_4.index t (0 : Fin 2) * 8000 + 1 * p.val = e.val; rw [e0, he]; omega
  | ⟨1, _⟩ => show win6_4.index t (1 : Fin 2) * 64 + 1 * q.val = q.val; rw [e1]; omega

/-! ## What a point writes back, and the array after the region -/

set_option maxHeartbeats 4000000 in
/-- What grid point `t` writes back is its block of `rowsMsg Hs EA W b`, the arrays as the region finds them. -/
theorem written_back (c : Dev nD) (t : Fin cfg6.N) :
    (Gen.dat6 V c).flushed 4 t = ((cfg6.win 4).blk t).view.read (Elt Ideal)
      (rowsMsg (V c (Pipeline.arrRef spec6 0)) (V c (Pipeline.arrRef spec6 1)) (V c (Pipeline.arrRef spec6 2))
        (V c (Pipeline.arrRef spec6 3))) := by
  show (cfg6.win 4).cut (grid6.coords t) ((Gen.dat6 V c).after 4 t) = _
  rw [Gen.after6_4]
  unfold Gen.out6_4
  rw [View.canon_unit_zero zero_offsets]
  simp only [View.ld_unit_zero (S := S8000x64) zero_offsets, View.ld_unit_zero (S := S64x64) zero_offsets,
    View.ld_unit_zero (S := S1x64) zero_offsets]
  funext y
  obtain ⟨p, q, rfl⟩ : ∃ (p : Fin 8000) (q : Fin 64), y = ix2 p q := ⟨y 0, y 1, eq_ix2 y⟩
  have hN : cfg6.N = 125 := Gen.N_6
  have ht : t.val < 125 := hN ▸ t.isLt
  have he : (⟨t.val * 8000 + p.val, by omega⟩ : Fin 1000000).val = t.val * 8000 + p.val := rfl
  rw [View.read_apply]
  show Gen.k6_pay1 (F := Ideal) (Gen.iblk6 V c 1 t) (Gen.iblk6 V c 2 t) (Gen.iblk6 V c 3 t) (Gen.iblk6 V c 0 t) (ix2 p q)
    = rowsMsg (V c (Pipeline.arrRef spec6 0)) (V c (Pipeline.arrRef spec6 1)) (V c (Pipeline.arrRef spec6 2))
        (V c (Pipeline.arrRef spec6 3)) (((cfg6.win 4).blk t).view.emb (ix2 p q))
  rw [out_place t p q _ he]
  exact tile_entry_of _ _ _ _ (Gen.iblk6 V c 1 t) (Gen.iblk6 V c 2 t) (Gen.iblk6 V c 3 t) (Gen.iblk6 V c 0 t) p q _
    (fun k => ea_tile V c t p k _ he) (fun k => w_tile V c t k q) (b_tile V c t 0 q) (hs_tile V c t p q _ he)

/-- An index of the output array lies in point `t`'s block iff each coordinate lies in the block's range. -/
theorem mem_block (t : Fin cfg6.N) (i : S1000000x64.Idx) :
    i ∈ ((cfg6.win 4).blk t).view.set ↔ ∀ a : Fin 2, win6_4.index t a * S8000x64.size a ≤ (i a).val
      ∧ (i a).val < win6_4.index t a * S8000x64.size a + S8000x64.size a := by
  show i ∈ ((View.whole main_v85).slice (win6_4.rect t)).set ↔ _
  rw [View.set_slice_whole, Rect.mem_set_unit]
  exact Iff.rfl

/-- Every index of the output array is written back by some point: row `e` by point `e / 8000`. -/
theorem covered (i : S1000000x64.Idx) : ∃ t : Fin cfg6.N, (cfg6.win 4).flush t = true ∧ i ∈ ((cfg6.win 4).blk t).view.set := by
  have hN : cfg6.N = 125 := Gen.N_6
  have h0 : (i 0).val < 1000000 := (i 0).isLt
  have h1 : (i 1).val < 64 := (i 1).isLt
  refine ⟨⟨(i 0).val / 8000, by omega⟩, Gen.flush6_4 _, ?_⟩
  obtain ⟨-, -, -, -, -, -, -, -, e0, e1⟩ := block_indices ⟨(i 0).val / 8000, by omega⟩
  rw [mem_block]
  intro a
  match a with
  | ⟨0, _⟩ =>
    show win6_4.index _ (0 : Fin 2) * 8000 ≤ (i 0).val ∧ (i 0).val < win6_4.index _ (0 : Fin 2) * 8000 + 8000
    rw [e0]; show (i 0).val / 8000 * 8000 ≤ (i 0).val ∧ (i 0).val < (i 0).val / 8000 * 8000 + 8000; omega
  | ⟨1, _⟩ =>
    show win6_4.index _ (1 : Fin 2) * 64 ≤ (i 1).val ∧ (i 1).val < win6_4.index _ (1 : Fin 2) * 64 + 64
    rw [e1]; omega

/-- The output array after the region is `rowsMsg Hs EA W b`. -/
theorem array_after (c : Dev nD) :
    (Gen.dat6 V c).arrAt 4 cfg6.N
      = rowsMsg (V c (Pipeline.arrRef spec6 0)) (V c (Pipeline.arrRef spec6 1)) (V c (Pipeline.arrRef spec6 2))
          (V c (Pipeline.arrRef spec6 3)) :=
  (Gen.dat6 V c).arrAt_eq_of_cover 4 _ (fun t _ => written_back V c t) covered

set_option maxHeartbeats 4000000 in
/-- Row by row: row `e` of the output array is the message of rows `e` of `Hs` and `EA`. -/
theorem rows (c : Dev nD) (e : Fin 1000000) (q : Fin 64) :
    ((Gen.dat6 V c).arrAt 4 cfg6.N : S1000000x64.Idx → EReal) (ix2 e q)
      = msg (rowsOf ((Gen.dat6 V c).A 2 : S64x64.Idx → EReal)) (rowAt ((Gen.dat6 V c).A 3 : S1x64.Idx → EReal) 0)
          (rowsOf ((Gen.dat6 V c).A 0 : S1000000x64.Idx → EReal) e) (rowsOf ((Gen.dat6 V c).A 1 : S1000000x64.Idx → EReal) e) q := by
  rw [array_after V c]
  rfl

end Cert.KernelIdeal.Reg6

end
-- ==== Proof.KReg7.lean ====
/-
  The first node pass of a layer (grid of ten tiles of 5000 node rows): the perceptron outputs, and their column
  sums and column sums of squares accumulated over the grid.

  At each grid point the body reads one tile of the node rows and the same tile of the aggregated messages, and the
  two weight matrices and two bias rows of the perceptron. It computes the tile of perceptron outputs — the node's
  row scaled by the literal one plus its messages, through two affine layers with a rectifier between — stores it as
  that tile of the first output, and adds the tile's column sums and column sums of squares onto two one-row outputs
  whose block never moves: they are zeroed at the first point and written back after the last. So the first output is
  the specification's `nodeOut` row by row, and the two accumulators end at the sums over all 50000 rows, the ten
  tiles' partial sums added in the grid's order (a sum of extended reals does not depend on the grouping).
-/
import proofs.«133695_j30227979829590_2_alg».proof.Proof.Gen.KernelIdeal.Frame
import proofs.«133695_j30227979829590_2_alg».proof.Proof.Spec
import proofs.«133695_j30227979829590_2_alg».proof.Proof.Conv
import proofs.«133695_j30227979829590_2_alg».proof.Proof.LibPlainDot
import proofs.«133695_j30227979829590_2_alg».proof.Proof.LibTileRows
import proofs.«133695_j30227979829590_2_alg».proof.Proof.LibBlockSum
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

noncomputable section

open scoped BigOperators

namespace Cert.KernelIdeal.Reg7

open Cert.KernelIdeal Cert.KernelIdeal.Gen Idealize.ShloMosaic Idealize.ShloMosaic.TcCoe Idealize.ShloMosaic.ValueIdx
open Idealize.ShloMosaic.Tactic
open Idealize.ShloMosaic.Pipeline (Dat)
open Cert.Gine Cert.TileRows

section Pieces
variable {F : FTy → Type} [FloatOps F]

/-! ## What each case of the body leaves in each output's staging buffer

The body's run finds, per output, the list of its stores (last first). In every case each output's last store covers
its whole buffer, so the buffer ends at that store's payload; the loads the payload reads are the input blocks, and
for the two accumulators the value loaded just before: the zero splat stored a moment earlier in the first case, the
buffer's running contents in the other. -/

theorem hz : (![0, 0] : Fin 2 → Nat) = fun _ => 0 := funext fun a => by fin_cases a <;> rfl

/-- First point: the tile of perceptron outputs. -/
theorem outA6 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : cond7_0 i) (x0 : Vec F S5000x64 .f32) (x1 : Vec F S5000x64 .f32) (x2 : Vec F S64x64 .f32) (x3 : Vec F S1x64 .f32) (x4 : Vec F S64x64 .f32) (x5 : Vec F S1x64 .f32) :
    out7_A_6 c i arg1 harg1 arg2 harg2 arg3 harg3 arg4 harg4 arg5 harg5 arg6 harg6 arg7 harg7 arg8 harg8 arg9 harg9 hc0 x0 x1 x2 x3 x4 x5 = k7_pay5 x0 x1 x2 x3 x4 x5 := by
  unfold out7_A_6
  rw [View.read_writes_eq_canon _ _ _ (cover7_A_6 c i arg1 harg1 arg2 harg2 arg3 harg3 arg4 harg4 arg5 harg5 arg6 harg6 arg7 harg7 arg8 harg8 arg9 harg9 hc0 x0 x1 x2 x3 x4 x5)]
  unfold kernelRun7_A
  dsimp only
  sl_unfold_words
  rw [View.canon_unit_zero hz]
  simp only [View.readAt_eq_ld, harg1.read_unread, harg2.read_unread, harg3.read_unread, harg4.read_unread, harg5.read_unread, harg6.read_unread, View.ld_unit_zero (S := S5000x64) hz, View.ld_unit_zero (S := S64x64) hz, View.ld_unit_zero (S := S1x64) hz]

/-- First point: the column sums' accumulator is the zero splat plus the tile's column sums. -/
theorem outA7 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : cond7_0 i) (x0 : Vec F S5000x64 .f32) (x1 : Vec F S5000x64 .f32) (x2 : Vec F S64x64 .f32) (x3 : Vec F S1x64 .f32) (x4 : Vec F S64x64 .f32) (x5 : Vec F S1x64 .f32) :
    out7_A_7 c i arg1 harg1 arg2 harg2 arg3 harg3 arg4 harg4 arg5 harg5 arg6 harg6 arg7 harg7 arg8 harg8 arg9 harg9 hc0 x0 x1 x2 x3 x4 x5 = k7_pay1 (k7_pay6 (k7_pay3 (F := F))) (k7_pay7 x0 x1 x2 x3 x4 x5) := by
  unfold out7_A_7
  rw [View.read_writes_eq_canon _ _ _ (cover7_A_7 c i arg1 harg1 arg2 harg2 arg3 harg3 arg4 harg4 arg5 harg5 arg6 harg6 arg7 harg7 arg8 harg8 arg9 harg9 hc0 x0 x1 x2 x3 x4 x5)]
  unfold kernelRun7_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread, harg6.read_unread, View.ld_unit_zero (S := S5000x64) hz, View.ld_unit_zero (S := S64x64) hz, View.ld_unit_zero (S := S1x64) hz]

/-- First point: the accumulator of the column sums of squares likewise. -/
theorem outA8 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : cond7_0 i) (x0 : Vec F S5000x64 .f32) (x1 : Vec F S5000x64 .f32) (x2 : Vec F S64x64 .f32) (x3 : Vec F S1x64 .f32) (x4 : Vec F S64x64 .f32) (x5 : Vec F S1x64 .f32) :
    out7_A_8 c i arg1 harg1 arg2 harg2 arg3 harg3 arg4 harg4 arg5 harg5 arg6 harg6 arg7 harg7 arg8 harg8 arg9 harg9 hc0 x0 x1 x2 x3 x4 x5 = k7_pay2 (k7_pay5 x0 x1 x2 x3 x4 x5) (k7_pay4 (F := F)) := by
  unfold out7_A_8
  rw [View.read_writes_eq_canon _ _ _ (cover7_A_8 c i arg1 harg1 arg2 harg2 arg3 harg3 arg4 harg4 arg5 harg5 arg6 harg6 arg7 harg7 arg8 harg8 arg9 harg9 hc0 x0 x1 x2 x3 x4 x5)]
  unfold kernelRun7_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread, harg6.read_unread, View.ld_unit_zero (S := S5000x64) hz, View.ld_unit_zero (S := S64x64) hz, View.ld_unit_zero (S := S1x64) hz]

/-- Later points: the tile of perceptron outputs. -/
theorem outB6 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (x0 : Vec F S5000x64 .f32) (x1 : Vec F S5000x64 .f32) (x2 : Vec F S64x64 .f32) (x3 : Vec F S1x64 .f32) (x4 : Vec F S64x64 .f32) (x5 : Vec F S1x64 .f32) (xo7 xo8 : Vec F S1x64 .f32) :
    out7_B_6 c i arg1 harg1 arg2 harg2 arg3 harg3 arg4 harg4 arg5 harg5 arg6 harg6 arg7 harg7 arg8 harg8 arg9 harg9 hc0 x0 x1 x2 x3 x4 x5 xo7 xo8 = k7_pay5 x0 x1 x2 x3 x4 x5 := by
  unfold out7_B_6
  rw [View.read_writes_eq_canon _ _ _ (cover7_B_6 c i arg1 harg1 arg2 harg2 arg3 harg3 arg4 harg4 arg5 harg5 arg6 harg6 arg7 harg7 arg8 harg8 arg9 harg9 hc0 x0 x1 x2 x3 x4 x5 xo7 xo8)]
  unfold kernelRun7_B
  dsimp only
  sl_unfold_words
  rw [View.canon_unit_zero hz]
  simp only [View.readAt_eq_ld, harg1.read_unread, harg2.read_unread, harg3.read_unread, harg4.read_unread, harg5.read_unread, harg6.read_unread, View.ld_unit_zero (S := S5000x64) hz, View.ld_unit_zero (S := S64x64) hz, View.ld_unit_zero (S := S1x64) hz]

/-- Later points: the running column sums plus the tile's. -/
theorem outB7 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (x0 : Vec F S5000x64 .f32) (x1 : Vec F S5000x64 .f32) (x2 : Vec F S64x64 .f32) (x3 : Vec F S1x64 .f32) (x4 : Vec F S64x64 .f32) (x5 : Vec F S1x64 .f32) (xo7 xo8 : Vec F S1x64 .f32) :
    out7_B_7 c i arg1 harg1 arg2 harg2 arg3 harg3 arg4 harg4 arg5 harg5 arg6 harg6 arg7 harg7 arg8 harg8 arg9 harg9 hc0 x0 x1 x2 x3 x4 x5 xo7 xo8 = k7_pay1 (k7_pay6 xo7) (k7_pay7 x0 x1 x2 x3 x4 x5) := by
  unfold out7_B_7
  rw [View.read_writes_eq_canon _ _ _ (cover7_B_7 c i arg1 harg1 arg2 harg2 arg3 harg3 arg4 harg4 arg5 harg5 arg6 harg6 arg7 harg7 arg8 harg8 arg9 harg9 hc0 x0 x1 x2 x3 x4 x5 xo7 xo8)]
  unfold kernelRun7_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S5000x64) hz, View.ld_unit_zero (S := S64x64) hz, View.ld_unit_zero (S := S1x64) hz]

/-- Later points: the running column sums of squares plus the tile's. -/
theorem outB8 (c : Dev nD) (i : grid7.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S1x64 .f32) (harg8 : arg8.IsWhole) (arg9 : Memref sig .tc .vmem S1x64 .f32) (harg9 : arg9.IsWhole) (hc0 : ¬cond7_0 i) (x0 : Vec F S5000x64 .f32) (x1 : Vec F S5000x64 .f32) (x2 : Vec F S64x64 .f32) (x3 : Vec F S1x64 .f32) (x4 : Vec F S64x64 .f32) (x5 : Vec F S1x64 .f32) (xo7 xo8 : Vec F S1x64 .f32) :
    out7_B_8 c i arg1 harg1 arg2 harg2 arg3 harg3 arg4 harg4 arg5 harg5 arg6 harg6 arg7 harg7 arg8 harg8 arg9 harg9 hc0 x0 x1 x2 x3 x4 x5 xo7 xo8 = k7_pay2 (k7_pay5 x0 x1 x2 x3 x4 x5) xo8 := by
  unfold out7_B_8
  rw [View.read_writes_eq_canon _ _ _ (cover7_B_8 c i arg1 harg1 arg2 harg2 arg3 harg3 arg4 harg4 arg5 harg5 arg6 harg6 arg7 harg7 arg8 harg8 arg9 harg9 hc0 x0 x1 x2 x3 x4 x5 xo7 xo8)]
  unfold kernelRun7_B
  dsimp only
  sl_unfold_words
  rw [View.canon_unit_zero hz]
  simp only [View.readAt_eq_ld, harg1.read_unread, harg2.read_unread, harg3.read_unread, harg4.read_unread, harg5.read_unread, harg6.read_unread, harg9.read_unread, View.ld_unit_zero (S := S5000x64) hz, View.ld_unit_zero (S := S64x64) hz, View.ld_unit_zero (S := S1x64) hz]

end Pieces

/-! ## The payloads at one entry, at the extended reals -/

/-- A splat of a float literal times a tile described by its rows. -/
theorem scale_rows {M N : Nat} (w : BitVec 32) (Y : FVec Ideal ⟨2, ![M, N]⟩ .f32) (yr : Fin M → Fin N → EReal)
    (hY : ∀ p q, Y (ix2 p q) = yr p q) :
    ∀ p q, mulf (broadcast ⟨2, ![M, N]⟩ (Scalar.ofBits (F := Ideal) .f32 w)) Y (ix2 p q) = Ideal.ofBits .f32 w * yr p q := fun p q => by
  rw [mulf_apply, broadcast_apply, hY p q]
  rfl

/-- A plain product of a tile with a matrix, both described by their rows, into the zero accumulator: entry `(p, q)` is
    row `p` of the tile against column `q` of the matrix. -/
theorem mm_rows2 {M K N : Nat} {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (W : FVec Ideal ⟨2, ![K, N]⟩ φ₂)
    (xr : Fin M → Fin K → EReal) (wr : Fin K → Fin N → EReal)
    (hX : ∀ p k, X (ix2 p k) = xr p k) (hW : ∀ k q, W (ix2 k q) = wr k q) :
    ∀ p q, matmul d prec X W (constant ⟨2, ![M, N]⟩ .f32 0x00000000#32) (ix2 p q) = ∑ k : Fin K, xr p k * wr k q := fun p q => by
  refine (Ideal.matmul_constant_zero_apply d prec X W (ix2 p q)).trans ?_
  refine (Cert.PlainDot.sum_contr d hd X W p q).trans ?_
  exact Finset.sum_congr rfl fun k _ => by rw [hX p k, hW k q]

/-- Column `q` with row `k` put back: the index a reduction over axis 0 of `[a, b]` reads. -/
theorem lift_col {a b : ℕ} (h : (⟨2, ![a, b]⟩ : Shape).Reduces [0] ⟨1, ![b]⟩) (q : Fin b) (k : Fin a) :
    h.lift (ix1 q) k = ix2 k q :=
  funext fun c => Fin.ext (by
    match c with
    | ⟨0, _⟩ => rfl
    | ⟨1, _⟩ => rfl)

/-- The sum down the columns of a tile, at column `q`. -/
theorem colSum_apply {a b : ℕ} (src : FVec Ideal ⟨2, ![a, b]⟩ .f32) (acc : BitVec (FTy.bits .f32))
    (h : (⟨2, ![a, b]⟩ : Shape).Reduces [0] ⟨1, ![b]⟩) (hφ : FKind.Formats .f32)
    (hacc : acc = FKind.add.neutral .f32 hφ) (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (lift_col h q k))

/-- THE TILE OF PERCEPTRON OUTPUTS at entry `(p, q)`: the specification's `nodeOut` of row `p` of the two tiles. Each
    operation is read off the rows of its operands; the changes of float format are the identity at the extended reals
    and both products go into a zero accumulator. -/
theorem pay5_apply (h agg : FVec Ideal S5000x64 .f32) (W1 : FVec Ideal S64x64 .f32) (b1 : FVec Ideal S1x64 .f32)
    (W2 : FVec Ideal S64x64 .f32) (b2 : FVec Ideal S1x64 .f32) (p : Fin 5000) (q : Fin 64) :
    k7_pay5 (F := Ideal) h agg W1 b1 W2 b2 (ix2 p q)
      = nodeOut (rowsOf W1) (rowAt b1 0) (rowsOf W2) (rowAt b2 0) (fun k => h (ix2 p k)) (fun k => agg (ix2 p k)) q := by
  unfold k7_pay5
  -- the first layer's input: the node's row scaled by the literal one, plus its aggregated messages
  have e6 := scale_rows (M := 5000) (N := 64) 0x3F800000#32 _ _
    (cast_rows (φ := .f32) h shapeCasts_S5000x64_S5000x64 (fun p k => h (ix2 p k)) fun _ _ => rfl)
  have e9 := add_rows _ _ _ _ e6
    (cast_rows (φ := .f32) agg shapeCasts_S5000x64_S5000x64 (fun p k => agg (ix2 p k)) fun _ _ => rfl)
  -- the first layer, rectified
  have e14 := mm_rows2 dot_S5000x64_S64x64_S5000x64_1_0_0_1_n_n ⟨rfl, rfl, rfl, rfl, rfl, rfl⟩ none _ _ _ _
    (trunc_rows (ψ := .bf16) _ bitsLt_bf16_f32 _ e9)
    (trunc_rows (ψ := .bf16) _ bitsLt_bf16_f32 _
      (cast_rows (φ := .f32) W1 shapeCasts_S64x64_S64x64 (fun k q => W1 (ix2 k q)) fun _ _ => rfl))
  have e20 := relu_rows _ _ (bias_rows _ b1 shapeCasts_S1x64_S1x64 broadcasts_S1x64_S5000x64 _ e14)
  -- the second layer
  have e25 := mm_rows2 dot_S5000x64_S64x64_S5000x64_1_0_0_1_n_n ⟨rfl, rfl, rfl, rfl, rfl, rfl⟩ none _ _ _ _
    (trunc_rows (ψ := .bf16) _ bitsLt_bf16_f32 _ e20)
    (trunc_rows (ψ := .bf16) _ bitsLt_bf16_f32 _
      (cast_rows (φ := .f32) W2 shapeCasts_S64x64_S64x64 (fun k q => W2 (ix2 k q)) fun _ _ => rfl))
  exact bias_rows _ b2 shapeCasts_S1x64_S1x64 broadcasts_S1x64_S5000x64 _ e25 p q

/-- The tile's column sums: at column `q`, the sum over the tile's 5000 rows. -/
theorem pay7_apply (h agg : FVec Ideal S5000x64 .f32) (W1 : FVec Ideal S64x64 .f32) (b1 : FVec Ideal S1x64 .f32)
    (W2 : FVec Ideal S64x64 .f32) (b2 : FVec Ideal S1x64 .f32) (q : Fin 64) :
    k7_pay7 (F := Ideal) h agg W1 b1 W2 b2 (ix1 q) = ∑ p : Fin 5000, k7_pay5 (F := Ideal) h agg W1 b1 W2 b2 (ix2 p q) := by
  unfold k7_pay7
  exact colSum_apply (k7_pay5 (F := Ideal) h agg W1 b1 W2 b2) _ _ _ _ q

/-- The sums' accumulator after a point: what it held plus the tile's column sums, re-laid as a row. -/
theorem pay1_apply (a : FVec Ideal S1x64 .f32) (s : FVec Ideal S64 .f32) (q : Fin 64) :
    k7_pay1 (F := Ideal) a s (ix2 (0 : Fin 1) q) = a (ix2 (0 : Fin 1) q) + s (ix1 q) := by
  unfold k7_pay1
  rw [addf_apply, shapeCast_a_1a_apply]

/-- What the body loads from the sums' accumulator, re-laid to its own shape, is what it holds. -/
theorem pay6_eq (a : FVec Ideal S1x64 .f32) : k7_pay6 (F := Ideal) a = a := by
  unfold k7_pay6
  exact shapeCast_self a _

/-- The squares' accumulator after a point: what it held plus the column sums of the tile's squares. -/
theorem pay2_apply (T : FVec Ideal S5000x64 .f32) (a : FVec Ideal S1x64 .f32) (q : Fin 64) :
    k7_pay2 (F := Ideal) T a (ix2 (0 : Fin 1) q) = a (ix2 (0 : Fin 1) q) + ∑ p : Fin 5000, T (ix2 p q) * T (ix2 p q) := by
  unfold k7_pay2
  rw [addf_apply, shapeCast_self, shapeCast_a_1a_apply]
  exact congrArg (a (ix2 (0 : Fin 1) q) + ·) (colSum_apply (mulf T T) _ _ _ _ q)

/-- The two splats of the zero word the first point stores are zero everywhere. -/
theorem pay3_apply (q : Fin 64) : k7_pay3 (F := Ideal) (ix2 (0 : Fin 1) q) = 0 := by
  unfold k7_pay3
  show Ideal.ofBits .f32 0x00000000#32 = 0
  exact Ideal.ofBits_zero_f32

theorem pay4_apply (q : Fin 64) : k7_pay4 (F := Ideal) (ix2 (0 : Fin 1) q) = 0 := by
  unfold k7_pay4
  show Ideal.ofBits .f32 0x00000000#32 = 0
  exact Ideal.ofBits_zero_f32

/-! ## The tiles inside the arrays -/

-- The contents of the TensorCore's buffers when the region is entered.
variable (V : (c : Dev nD) → (b : Ref sig .tc) → Buf (Elt Ideal) ((c : Thread nD τ).loc b))

/-- The printed index maps, decided over the ten grid points: the two tiled inputs and the tiled output are at tile
    `t`; the weights, the biases and the two accumulators are at their only block. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0
    ∧ win7_7.index t (0 : Fin 2) = 0 ∧ win7_7.index t (1 : Fin 2) = 0
    ∧ win7_8.index t (0 : Fin 2) = 0 ∧ win7_8.index t (1 : Fin 2) = 0 :=
  (by decide +kernel : ∀ t : Fin grid7.N, _)

/-- Row `p` of tile `t` is row `5000 t + p` of the array. -/
def tileRow (t : Fin cfg7.N) (p : Fin 5000) : Fin 50000 :=
  ⟨5000 * t.val + p.val, by have := t.isLt; have hN : cfg7.N = 10 := N_7; omega⟩

/-- The node rows' tile at point `t`, entry by entry: an element of a block sits, on each axis, at the block index times the block's size plus its own coordinate. -/
theorem h_tile (c : Dev nD) (t : Fin cfg7.N) (p : Fin 5000) (k : Fin 64) :
    (iblk7 V c 0 t : FVec Ideal S5000x64 .f32) (ix2 p k)
      = (V c (Pipeline.arrRef spec7 0) : S50000x64.Idx → EReal) (ix2 (tileRow t p) k) := by
  obtain ⟨e0, e1, -⟩ := idx_facts t
  show (V c (Pipeline.arrRef spec7 0) : S50000x64.Idx → EReal) (((cfg7.win 0).blk t).view.emb (ix2 p k)) = _
  refine congrArg (V c (Pipeline.arrRef spec7 0) : S50000x64.Idx → EReal) (funext fun a => Fin.ext ?_)
  match a with
  | ⟨0, _⟩ => show win7_0.index t (0 : Fin 2) * 5000 + 1 * p.val = 5000 * t.val + p.val; rw [e0]; omega
  | ⟨1, _⟩ => show win7_0.index t (1 : Fin 2) * 64 + 1 * k.val = k.val; rw [e1]; omega

/-- The aggregated messages' tile at point `t`, entry by entry. -/
theorem agg_tile (c : Dev nD) (t : Fin cfg7.N) (p : Fin 5000) (k : Fin 64) :
    (iblk7 V c 1 t : FVec Ideal S5000x64 .f32) (ix2 p k)
      = (V c (Pipeline.arrRef spec7 1) : S50000x64.Idx → EReal) (ix2 (tileRow t p) k) := by
  obtain ⟨-, -, e0, e1, -⟩ := idx_facts t
  show (V c (Pipeline.arrRef spec7 1) : S50000x64.Idx → EReal) (((cfg7.win 1).blk t).view.emb (ix2 p k)) = _
  refine congrArg (V c (Pipeline.arrRef spec7 1) : S50000x64.Idx → EReal) (funext fun a => Fin.ext ?_)
  match a with
  | ⟨0, _⟩ => show win7_1.index t (0 : Fin 2) * 5000 + 1 * p.val = 5000 * t.val + p.val; rw [e0]; omega
  | ⟨1, _⟩ => show win7_1.index t (1 : Fin 2) * 64 + 1 * k.val = k.val; rw [e1]; omega

/-- The first weight matrix's block is the whole matrix, at every point. -/
theorem w1_tile (c : Dev nD) (t : Fin cfg7.N) (k : Fin 64) (q : Fin 64) :
    (iblk7 V c 2 t : FVec Ideal S64x64 .f32) (ix2 k q)
      = (V c (Pipeline.arrRef spec7 2) : S64x64.Idx → EReal) (ix2 k q) := by
  obtain ⟨-, -, -, -, e0, e1, -⟩ := idx_facts t
  show (V c (Pipeline.arrRef spec7 2) : S64x64.Idx → EReal) (((cfg7.win 2).blk t).view.emb (ix2 k q)) = _
  refine congrArg (V c (Pipeline.arrRef spec7 2) : S64x64.Idx → EReal) (funext fun a => Fin.ext ?_)
  match a with
  | ⟨0, _⟩ => show win7_2.index t (0 : Fin 2) * 64 + 1 * k.val = k.val; rw [e0]; omega
  | ⟨1, _⟩ => show win7_2.index t (1 : Fin 2) * 64 + 1 * q.val = q.val; rw [e1]; omega

/-- The first bias row's block is the whole row. -/
theorem b1_tile (c : Dev nD) (t : Fin cfg7.N) (k : Fin 1) (q : Fin 64) :
    (iblk7 V c 3 t : FVec Ideal S1x64 .f32) (ix2 k q)
      = (V c (Pipeline.arrRef spec7 3) : S1x64.Idx → EReal) (ix2 k q) := by
  obtain ⟨-, -, -, -, -, -, e0, e1, -⟩ := idx_facts t
  show (V c (Pipeline.arrRef spec7 3) : S1x64.Idx → EReal) (((cfg7.win 3).blk t).view.emb (ix2 k q)) = _
  refine congrArg (V c (Pipeline.arrRef spec7 3) : S1x64.Idx → EReal) (funext fun a => Fin.ext ?_)
  match a with
  | ⟨0, _⟩ => show win7_3.index t (0 : Fin 2) * 1 + 1 * k.val = k.val; rw [e0]; omega
  | ⟨1, _⟩ => show win7_3.index t (1 : Fin 2) * 64 + 1 * q.val = q.val; rw [e1]; omega

/-- The second weight matrix's block is the whole matrix. -/
theorem w2_tile (c : Dev nD) (t : Fin cfg7.N) (k : Fin 64) (q : Fin 64) :
    (iblk7 V c 4 t : FVec Ideal S64x64 .f32) (ix2 k q)
      = (V c (Pipeline.arrRef spec7 4) : S64x64.Idx → EReal) (ix2 k q) := by
  obtain ⟨-, -, -, -, -, -, -, -, e0, e1, -⟩ := idx_facts t
  show (V c (Pipeline.arrRef spec7 4) : S64x64.Idx → EReal) (((cfg7.win 4).blk t).view.emb (ix2 k q)) = _
  refine congrArg (V c (Pipeline.arrRef spec7 4) : S64x64.Idx → EReal) (funext fun a => Fin.ext ?_)
  match a with
  | ⟨0, _⟩ => show win7_4.index t (0 : Fin 2) * 64 + 1 * k.val = k.val; rw [e0]; omega
  | ⟨1, _⟩ => show win7_4.index t (1 : Fin 2) * 64 + 1 * q.val = q.val; rw [e1]; omega

/-- The second bias row's block is the whole row. -/
theorem b2_tile (c : Dev nD) (t : Fin cfg7.N) (k : Fin 1) (q : Fin 64) :
    (iblk7 V c 5 t : FVec Ideal S1x64 .f32) (ix2 k q)
      = (V c (Pipeline.arrRef spec7 5) : S1x64.Idx → EReal) (ix2 k q) := by
  obtain ⟨-, -, -, -, -, -, -, -, -, -, e0, e1, -⟩ := idx_facts t
  show (V c (Pipeline.arrRef spec7 5) : S1x64.Idx → EReal) (((cfg7.win 5).blk t).view.emb (ix2 k q)) = _
  refine congrArg (V c (Pipeline.arrRef spec7 5) : S1x64.Idx → EReal) (funext fun a => Fin.ext ?_)
  match a with
  | ⟨0, _⟩ => show win7_5.index t (0 : Fin 2) * 1 + 1 * k.val = k.val; rw [e0]; omega
  | ⟨1, _⟩ => show win7_5.index t (1 : Fin 2) * 64 + 1 * q.val = q.val; rw [e1]; omega

/-- The perceptron outputs of all nodes as one function of the six input arrays, row by row. -/
def rowsNode (H AGG : S50000x64.Idx → EReal) (W1 : S64x64.Idx → EReal) (B1 : S1x64.Idx → EReal)
    (W2 : S64x64.Idx → EReal) (B2 : S1x64.Idx → EReal) : Mat 50000 64 :=
  fun r => nodeOut (rowsOf W1) (rowAt B1 0) (rowsOf W2) (rowAt B2 0) (rowsOf H r) (rowsOf AGG r)

/-- That function of the arrays as the region finds them. -/
abbrev outM (c : Dev nD) : Mat 50000 64 :=
  rowsNode (V c (Pipeline.arrRef spec7 0)) (V c (Pipeline.arrRef spec7 1)) (V c (Pipeline.arrRef spec7 2))
    (V c (Pipeline.arrRef spec7 3)) (V c (Pipeline.arrRef spec7 4)) (V c (Pipeline.arrRef spec7 5))

/-- The tile of perceptron outputs the body computes at point `t`, from the input blocks at `t`. -/
def tile (c : Dev nD) (t : Fin cfg7.N) : FVec Ideal S5000x64 .f32 :=
  k7_pay5 (F := Ideal) (iblk7 V c 0 t) (iblk7 V c 1 t) (iblk7 V c 2 t) (iblk7 V c 3 t) (iblk7 V c 4 t) (iblk7 V c 5 t)

/-- Entry `(p, q)` of that tile is the perceptron output of node `5000 t + p` at column `q`. -/
theorem tile_apply (c : Dev nD) (t : Fin cfg7.N) (p : Fin 5000) (q : Fin 64) :
    tile V c t (ix2 p q) = outM V c (tileRow t p) q := by
  unfold tile
  refine (pay5_apply (iblk7 V c 0 t) (iblk7 V c 1 t) (iblk7 V c 2 t) (iblk7 V c 3 t) (iblk7 V c 4 t) (iblk7 V c 5 t) p q).trans ?_
  have r0 : (fun k => (iblk7 V c 0 t : FVec Ideal S5000x64 .f32) (ix2 p k))
      = rowsOf (V c (Pipeline.arrRef spec7 0) : S50000x64.Idx → EReal) (tileRow t p) := funext fun k => h_tile V c t p k
  have r1 : (fun k => (iblk7 V c 1 t : FVec Ideal S5000x64 .f32) (ix2 p k))
      = rowsOf (V c (Pipeline.arrRef spec7 1) : S50000x64.Idx → EReal) (tileRow t p) := funext fun k => agg_tile V c t p k
  have r2 : rowsOf (iblk7 V c 2 t : FVec Ideal S64x64 .f32) = rowsOf (V c (Pipeline.arrRef spec7 2) : S64x64.Idx → EReal) :=
    funext fun k => funext fun j => w1_tile V c t k j
  have r3 : rowAt (iblk7 V c 3 t : FVec Ideal S1x64 .f32) 0 = rowAt (V c (Pipeline.arrRef spec7 3) : S1x64.Idx → EReal) 0 :=
    funext fun j => b1_tile V c t 0 j
  have r4 : rowsOf (iblk7 V c 4 t : FVec Ideal S64x64 .f32) = rowsOf (V c (Pipeline.arrRef spec7 4) : S64x64.Idx → EReal) :=
    funext fun k => funext fun j => w2_tile V c t k j
  have r5 : rowAt (iblk7 V c 5 t : FVec Ideal S1x64 .f32) 0 = rowAt (V c (Pipeline.arrRef spec7 5) : S1x64.Idx → EReal) 0 :=
    funext fun j => b2_tile V c t 0 j
  rw [r0, r1, r2, r3, r4, r5]
  rfl

/-! ## What the three outputs hold after each point

The frame states the outputs' staging buffers after point `n` by recursion on `n`: at the first point the first
case's contents, at a later point the second case's over what the point before left. With the pieces read above: the
first output holds the tile; each accumulator holds its zero splat plus the first tile's sums, then what it held plus
the next tile's. -/

/-- The first output's buffer after point `t` is the tile at `t`, in either case. -/
theorem outs6 (c : Dev nD) (t : Fin cfg7.N) : (outsAt7 V c t.val t.isLt).1 = tile V c t := by
  unfold tile
  by_cases h0 : t.val % 10 = 0
  · rw [outsAt7_A V c t h0]
    dsimp only
    exact outA6 (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) ((hcond7_0 t).mpr h0) (iblk7 V c 0 t) (iblk7 V c 1 t) (iblk7 V c 2 t) (iblk7 V c 3 t) (iblk7 V c 4 t) (iblk7 V c 5 t)
  · rw [outsAt7_B V c t h0]
    dsimp only
    exact outB6 (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (fun h => h0 ((hcond7_0 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2.1 (outsAt7 V c (t.val - 1) (Nat.lt_of_le_of_lt (Nat.sub_le _ _) t.isLt)).2.2

/-- The sums' accumulator after the first point. -/
theorem outs7_first (c : Dev nD) (t : Fin cfg7.N) (h0 : t.val % 10 = 0) :
    (outsAt7 V c t.val t.isLt).2.1
      = k7_pay1 (F := Ideal) (k7_pay6 (k7_pay3 (F := Ideal))) (k7_pay7 (F := Ideal) (iblk7 V c 0 t) (iblk7 V c 1 t) (iblk7 V c 2 t) (iblk7 V c 3 t) (iblk7 V c 4 t) (iblk7 V c 5 t)) := by
  rw [outsAt7_A V c t h0]
  dsimp only
  exact outA7 (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) ((hcond7_0 t).mpr h0) (iblk7 V c 0 t) (iblk7 V c 1 t) (iblk7 V c 2 t) (iblk7 V c 3 t) (iblk7 V c 4 t) (iblk7 V c 5 t)

/-- The sums' accumulator after a later point, over what the point before left. -/
theorem outs7_later (c : Dev nD) (t : Fin cfg7.N) (h0 : ¬t.val % 10 = 0) :
    (outsAt7 V c t.val t.isLt).2.1
      = k7_pay1 (F := Ideal) (k7_pay6 (outsAt7 V c (t.val - 1) (Nat.lt_of_le_of_lt (Nat.sub_le _ _) t.isLt)).2.1)
          (k7_pay7 (F := Ideal) (iblk7 V c 0 t) (iblk7 V c 1 t) (iblk7 V c 2 t) (iblk7 V c 3 t) (iblk7 V c 4 t) (iblk7 V c 5 t)) := by
  rw [outsAt7_B V c t h0]
  dsimp only
  exact outB7 (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (fun h => h0 ((hcond7_0 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2.1 (outsAt7 V c (t.val - 1) (Nat.lt_of_le_of_lt (Nat.sub_le _ _) t.isLt)).2.2

/-- The squares' accumulator after the first point. -/
theorem outs8_first (c : Dev nD) (t : Fin cfg7.N) (h0 : t.val % 10 = 0) :
    (outsAt7 V c t.val t.isLt).2.2 = k7_pay2 (F := Ideal) (tile V c t) (k7_pay4 (F := Ideal)) := by
  unfold tile
  rw [outsAt7_A V c t h0]
  dsimp only
  exact outA8 (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) ((hcond7_0 t).mpr h0) (iblk7 V c 0 t) (iblk7 V c 1 t) (iblk7 V c 2 t) (iblk7 V c 3 t) (iblk7 V c 4 t) (iblk7 V c 5 t)

/-- The squares' accumulator after a later point, over what the point before left. -/
theorem outs8_later (c : Dev nD) (t : Fin cfg7.N) (h0 : ¬t.val % 10 = 0) :
    (outsAt7 V c t.val t.isLt).2.2
      = k7_pay2 (F := Ideal) (tile V c t) (outsAt7 V c (t.val - 1) (Nat.lt_of_le_of_lt (Nat.sub_le _ _) t.isLt)).2.2 := by
  unfold tile
  rw [outsAt7_B V c t h0]
  dsimp only
  exact outB8 (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (fun h => h0 ((hcond7_0 t).mp h)) (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2.1 (outsAt7 V c (t.val - 1) (Nat.lt_of_le_of_lt (Nat.sub_le _ _) t.isLt)).2.2

/-- The sum of column `q` over the rows of tile `t`, and of its squares. -/
def tileSum (c : Dev nD) (t : Fin cfg7.N) (q : Fin 64) : EReal := ∑ p : Fin 5000, outM V c (tileRow t p) q
def tileSq (c : Dev nD) (t : Fin cfg7.N) (q : Fin 64) : EReal := ∑ p : Fin 5000, outM V c (tileRow t p) q * outM V c (tileRow t p) q

/-- THE RUNNING SUMS: after point `n` the sums' accumulator holds, at column `q`, the sum of the first `n + 1` tiles'
    column sums — by induction on the point. -/
theorem acc7 (c : Dev nD) : ∀ (n : ℕ) (hn : n < cfg7.N) (q : Fin 64),
    ((outsAt7 V c n hn).2.1 : FVec Ideal S1x64 .f32) (ix2 (0 : Fin 1) q)
      = ∑ s : Fin (n + 1), tileSum V c (Fin.castLE (Nat.succ_le_of_lt hn) s) q
  | 0, hn, q => by
    refine (congrFun (outs7_first V c ⟨0, hn⟩ rfl) (ix2 (0 : Fin 1) q)).trans ?_
    rw [pay1_apply, pay6_eq, pay3_apply, pay7_apply, zero_add, Fin.sum_univ_one]
    exact Finset.sum_congr rfl fun p _ => tile_apply V c ⟨0, hn⟩ p q
  | n + 1, hn, q => by
    have hN : cfg7.N = 10 := N_7
    have hB : ¬(⟨n + 1, hn⟩ : Fin cfg7.N).val % 10 = 0 := by dsimp only; omega
    refine (congrFun (outs7_later V c ⟨n + 1, hn⟩ hB) (ix2 (0 : Fin 1) q)).trans ?_
    rw [pay1_apply, pay6_eq, pay7_apply]
    -- the sum over the first n + 2 tiles is the sum over the first n + 1 plus the last one's
    refine Eq.trans ?_
      (Fin.sum_univ_castSucc fun s : Fin (n + 1 + 1) => tileSum V c (Fin.castLE (Nat.succ_le_of_lt hn) s) q).symm
    refine congrArg₂ (· + ·) (acc7 c n (Nat.lt_of_succ_lt hn) q) ?_
    exact Finset.sum_congr rfl fun p _ => tile_apply V c ⟨n + 1, hn⟩ p q

/-- The running sums of squares, likewise. -/
theorem acc8 (c : Dev nD) : ∀ (n : ℕ) (hn : n < cfg7.N) (q : Fin 64),
    ((outsAt7 V c n hn).2.2 : FVec Ideal S1x64 .f32) (ix2 (0 : Fin 1) q)
      = ∑ s : Fin (n + 1), tileSq V c (Fin.castLE (Nat.succ_le_of_lt hn) s) q
  | 0, hn, q => by
    refine (congrFun (outs8_first V c ⟨0, hn⟩ rfl) (ix2 (0 : Fin 1) q)).trans ?_
    rw [pay2_apply, pay4_apply, zero_add, Fin.sum_univ_one]
    exact Finset.sum_congr rfl fun p _ => by rw [tile_apply V c ⟨0, hn⟩ p q]; rfl
  | n + 1, hn, q => by
    have hN : cfg7.N = 10 := N_7
    have hB : ¬(⟨n + 1, hn⟩ : Fin cfg7.N).val % 10 = 0 := by dsimp only; omega
    refine (congrFun (outs8_later V c ⟨n + 1, hn⟩ hB) (ix2 (0 : Fin 1) q)).trans ?_
    rw [pay2_apply]
    refine Eq.trans ?_
      (Fin.sum_univ_castSucc fun s : Fin (n + 1 + 1) => tileSq V c (Fin.castLE (Nat.succ_le_of_lt hn) s) q).symm
    refine congrArg₂ (· + ·) (acc8 c n (Nat.lt_of_succ_lt hn) q) ?_
    exact Finset.sum_congr rfl fun p _ => by rw [tile_apply V c ⟨n + 1, hn⟩ p q]; rfl

/-- The ten tiles' sums are the sum over all rows: `Fin 50000` cut into ten consecutive blocks of 5000. -/
theorem sum_tiles (f : Fin 50000 → EReal) (h9 : 9 < cfg7.N) :
    ∑ s : Fin (9 + 1), ∑ p : Fin 5000, f (tileRow (Fin.castLE (Nat.succ_le_of_lt h9) s) p) = ∑ r : Fin 50000, f r := by
  refine ((BlockSum.sum_eq_sum_blocks (k := 10) (n := 5000) f).trans ?_).symm
  refine Finset.sum_congr rfl fun s _ => Finset.sum_congr rfl fun p _ => congrArg f (Fin.ext ?_)
  show p.val + 5000 * s.val = 5000 * s.val + p.val
  omega

/-- The same at the last point, named by its number `n = 9`. -/
theorem sum_tiles_last (f : Fin 50000 → EReal) (n : ℕ) (hn : n < cfg7.N) (h9 : n = 9) :
    ∑ s : Fin (n + 1), ∑ p : Fin 5000, f (tileRow (Fin.castLE (Nat.succ_le_of_lt hn) s) p) = ∑ r : Fin 50000, f r := by
  subst h9
  exact sum_tiles f hn

/-! ## The first output: the tiles cover the array -/

/-- Entry `(p, q)` of the first output's tile at point `t` sits at `(5000 t + p, q)` of the output array. -/
theorem emb6 (t : Fin cfg7.N) (p : Fin 5000) (q : Fin 64) :
    (((cfg7.win 6).blk t).view.emb (ix2 p q) : S50000x64.Idx) = ix2 (tileRow t p) q := by
  obtain ⟨-, -, -, -, -, -, -, -, -, -, -, -, e0, e1, -⟩ := idx_facts t
  refine funext fun a => Fin.ext ?_
  match a with
  | ⟨0, _⟩ => show win7_6.index t (0 : Fin 2) * 5000 + 1 * p.val = 5000 * t.val + p.val; rw [e0]; omega
  | ⟨1, _⟩ => show win7_6.index t (1 : Fin 2) * 64 + 1 * q.val = q.val; rw [e1]; omega

/-- Two tiles that agree entry by entry are equal. -/
theorem tile_ext {X Y : FVec Ideal S5000x64 .f32} (h : ∀ (p : Fin 5000) (q : Fin 64), X (ix2 p q) = Y (ix2 p q)) : X = Y :=
  funext fun j => by rw [eq_ix2 j]; exact h _ _

/-- What point `t` writes back to the first output is tile `t` of the perceptron outputs of all nodes. -/
theorem flushed6 (c : Dev nD) (t : Fin cfg7.N) :
    (dat7 V c).flushed 6 t = ((cfg7.win 6).blk t).view.read (Elt Ideal) (arrOf (outM V c)) := by
  show (cfg7.win 6).cut (grid7.coords t) ((dat7 V c).after 6 t) = _
  rw [after7_6, outs6]
  refine tile_ext fun p q => ?_
  show tile V c t (ix2 p q) = arrOf (outM V c) (((cfg7.win 6).blk t).view.emb (ix2 p q))
  rw [emb6 t p q]
  exact tile_apply V c t p q

/-- An index of the first output is in tile `t` iff each coordinate is in the tile's range on its axis. -/
theorem mem_blk6 (t : Fin cfg7.N) (i : S50000x64.Idx) :
    i ∈ ((cfg7.win 6).blk t).view.set ↔ ∀ a : Fin 2, win7_6.index t a * S5000x64.size a ≤ (i a).val ∧ (i a).val < win7_6.index t a * S5000x64.size a + S5000x64.size a := by
  show i ∈ ((View.whole (Pipeline.arrRef spec7 6)).slice (win7_6.rect t)).set ↔ _
  rw [View.set_slice_whole, Rect.mem_set_unit]
  exact Iff.rfl

/-- Row `r` lies in tile `r / 5000`: the ten tiles cover the first output. -/
theorem cover6 (i : S50000x64.Idx) : ∃ t : Fin cfg7.N, (cfg7.win 6).flush t = true ∧ i ∈ ((cfg7.win 6).blk t).view.set := by
  have hi0 : (i 0).val < 50000 := (i 0).isLt
  have hi1 : (i 1).val < 64 := (i 1).isLt
  have hN : cfg7.N = 10 := N_7
  let t : Fin cfg7.N := ⟨(i 0).val / 5000, by omega⟩
  have ht : t.val = (i 0).val / 5000 := rfl
  obtain ⟨-, -, -, -, -, -, -, -, -, -, -, -, e0, e1, -⟩ := idx_facts t
  refine ⟨t, flush7_6 t, ?_⟩
  rw [mem_blk6]
  intro a
  match a with
  | ⟨0, _⟩ => show win7_6.index t (0 : Fin 2) * 5000 ≤ (i 0).val ∧ (i 0).val < win7_6.index t (0 : Fin 2) * 5000 + 5000; rw [e0]; omega
  | ⟨1, _⟩ => show win7_6.index t (1 : Fin 2) * 64 ≤ (i 1).val ∧ (i 1).val < win7_6.index t (1 : Fin 2) * 64 + 64; rw [e1]; omega

/-- THE FIRST OUTPUT after the ten points: the perceptron outputs of all nodes. -/
theorem array_after6 (c : Dev nD) :
    (dat7 V c).arrAt 6 cfg7.N
      = arrOf (rowsNode (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5))) :=
  (dat7 V c).arrAt_eq_of_cover 6 (arrOf (outM V c)) (fun t _ => flushed6 V c t) cover6

/-! ## The two accumulators: written back once, after the last point -/

/-- Two one-row arrays that agree entry by entry are equal. -/
theorem row_ext {X Y : FVec Ideal S1x64 .f32} (h : ∀ q : Fin 64, X (ix2 (0 : Fin 1) q) = Y (ix2 (0 : Fin 1) q)) : X = Y :=
  funext fun j => by
    obtain ⟨u, q, rfl⟩ : ∃ (u : Fin 1) (q : Fin 64), j = ix2 u q := ⟨j 0, j 1, eq_ix2 j⟩
    obtain rfl : u = 0 := Subsingleton.elim _ _
    exact h q

/-- The column sums of a matrix, and of its squares, as one-row arrays. -/
def sumsRow (A : Mat 50000 64) : S1x64.Idx → EReal := fun i => ∑ r : Fin 50000, A r (i 1)
def sqsRow (A : Mat 50000 64) : S1x64.Idx → EReal := fun i => ∑ r : Fin 50000, A r (i 1) * A r (i 1)

theorem sumsRow_apply (A : Mat 50000 64) (q : Fin 64) : sumsRow A (ix2 (0 : Fin 1) q) = ∑ r : Fin 50000, A r q := rfl
theorem sqsRow_apply (A : Mat 50000 64) (q : Fin 64) : sqsRow A (ix2 (0 : Fin 1) q) = ∑ r : Fin 50000, A r q * A r q := rfl

/-- An accumulator's only block is its whole array. -/
theorem emb7 (t : Fin cfg7.N) (q : Fin 64) :
    (((cfg7.win 7).blk t).view.emb (ix2 (0 : Fin 1) q) : S1x64.Idx) = ix2 (0 : Fin 1) q := by
  obtain ⟨-, -, -, -, -, -, -, -, -, -, -, -, -, -, e0, e1, -⟩ := idx_facts t
  refine funext fun a => Fin.ext ?_
  match a with
  | ⟨0, _⟩ => show win7_7.index t (0 : Fin 2) * 1 + 1 * 0 = 0; rw [e0]
  | ⟨1, _⟩ => show win7_7.index t (1 : Fin 2) * 64 + 1 * q.val = q.val; rw [e1]; omega

theorem emb8 (t : Fin cfg7.N) (q : Fin 64) :
    (((cfg7.win 8).blk t).view.emb (ix2 (0 : Fin 1) q) : S1x64.Idx) = ix2 (0 : Fin 1) q := by
  obtain ⟨-, -, -, -, -, -, -, -, -, -, -, -, -, -, -, -, e0, e1⟩ := idx_facts t
  refine funext fun a => Fin.ext ?_
  match a with
  | ⟨0, _⟩ => show win7_8.index t (0 : Fin 2) * 1 + 1 * 0 = 0; rw [e0]
  | ⟨1, _⟩ => show win7_8.index t (1 : Fin 2) * 64 + 1 * q.val = q.val; rw [e1]; omega

/-- So a one-row array read through an accumulator's block is the array itself. -/
theorem read_blk7 (G : S1x64.Idx → EReal) (t : Fin cfg7.N) (q : Fin 64) :
    (((cfg7.win 7).blk t).view.read (Elt Ideal) G : FVec Ideal S1x64 .f32) (ix2 (0 : Fin 1) q) = G (ix2 (0 : Fin 1) q) := by
  show G (((cfg7.win 7).blk t).view.emb (ix2 (0 : Fin 1) q)) = _
  rw [emb7]

theorem read_blk8 (G : S1x64.Idx → EReal) (t : Fin cfg7.N) (q : Fin 64) :
    (((cfg7.win 8).blk t).view.read (Elt Ideal) G : FVec Ideal S1x64 .f32) (ix2 (0 : Fin 1) q) = G (ix2 (0 : Fin 1) q) := by
  show G (((cfg7.win 8).blk t).view.emb (ix2 (0 : Fin 1) q)) = _
  rw [emb8]

/-- The one write-back of the sums' accumulator, at the last point, writes the column sums over all rows. -/
theorem flushed7 (c : Dev nD) (t : Fin cfg7.N) (hf : (cfg7.win 7).flush t = true) :
    (dat7 V c).flushed 7 t = ((cfg7.win 7).blk t).view.read (Elt Ideal) (sumsRow (outM V c)) := by
  have hN : cfg7.N = 10 := N_7
  have h9 : t.val = 9 := by have := (flush7_7 t).mp hf; have := t.isLt; omega
  show (cfg7.win 7).cut (grid7.coords t) ((dat7 V c).after 7 t) = _
  rw [after7_7]
  refine row_ext fun q => Eq.trans ?_ (read_blk7 (sumsRow (outM V c)) t q).symm
  show ((outsAt7 V c t.val t.isLt).2.1 : FVec Ideal S1x64 .f32) (ix2 (0 : Fin 1) q) = _
  rw [acc7 V c t.val t.isLt q, sumsRow_apply]
  exact sum_tiles_last (fun r => outM V c r q) t.val t.isLt h9

/-- The one write-back of the squares' accumulator, at the last point, writes the column sums of squares over all rows. -/
theorem flushed8 (c : Dev nD) (t : Fin cfg7.N) (hf : (cfg7.win 8).flush t = true) :
    (dat7 V c).flushed 8 t = ((cfg7.win 8).blk t).view.read (Elt Ideal) (sqsRow (outM V c)) := by
  have hN : cfg7.N = 10 := N_7
  have h9 : t.val = 9 := by have := (flush7_8 t).mp hf; have := t.isLt; omega
  show (cfg7.win 8).cut (grid7.coords t) ((dat7 V c).after 8 t) = _
  rw [after7_8]
  refine row_ext fun q => Eq.trans ?_ (read_blk8 (sqsRow (outM V c)) t q).symm
  show ((outsAt7 V c t.val t.isLt).2.2 : FVec Ideal S1x64 .f32) (ix2 (0 : Fin 1) q) = _
  rw [acc8 V c t.val t.isLt q, sqsRow_apply]
  exact sum_tiles_last (fun r => outM V c r q * outM V c r q) t.val t.isLt h9

/-- An index of an accumulator's array is in its block at `t` iff each coordinate is in the block's range. -/
theorem mem_blk7 (t : Fin cfg7.N) (i : S1x64.Idx) :
    i ∈ ((cfg7.win 7).blk t).view.set ↔ ∀ a : Fin 2, win7_7.index t a * S1x64.size a ≤ (i a).val ∧ (i a).val < win7_7.index t a * S1x64.size a + S1x64.size a := by
  show i ∈ ((View.whole (Pipeline.arrRef spec7 7)).slice (win7_7.rect t)).set ↔ _
  rw [View.set_slice_whole, Rect.mem_set_unit]
  exact Iff.rfl

theorem mem_blk8 (t : Fin cfg7.N) (i : S1x64.Idx) :
    i ∈ ((cfg7.win 8).blk t).view.set ↔ ∀ a : Fin 2, win7_8.index t a * S1x64.size a ≤ (i a).val ∧ (i a).val < win7_8.index t a * S1x64.size a + S1x64.size a := by
  show i ∈ ((View.whole (Pipeline.arrRef spec7 8)).slice (win7_8.rect t)).set ↔ _
  rw [View.set_slice_whole, Rect.mem_set_unit]
  exact Iff.rfl

/-- The last point's write-back covers the sums' array. -/
theorem cover7 (i : S1x64.Idx) : ∃ t : Fin cfg7.N, (cfg7.win 7).flush t = true ∧ i ∈ ((cfg7.win 7).blk t).view.set := by
  have hi0 : (i 0).val < 1 := (i 0).isLt
  have hi1 : (i 1).val < 64 := (i 1).isLt
  have hN : cfg7.N = 10 := N_7
  let t : Fin cfg7.N := ⟨9, by omega⟩
  obtain ⟨-, -, -, -, -, -, -, -, -, -, -, -, -, -, e0, e1, -⟩ := idx_facts t
  refine ⟨t, (flush7_7 t).mpr rfl, ?_⟩
  rw [mem_blk7]
  intro a
  match a with
  | ⟨0, _⟩ => show win7_7.index t (0 : Fin 2) * 1 ≤ (i 0).val ∧ (i 0).val < win7_7.index t (0 : Fin 2) * 1 + 1; rw [e0]; omega
  | ⟨1, _⟩ => show win7_7.index t (1 : Fin 2) * 64 ≤ (i 1).val ∧ (i 1).val < win7_7.index t (1 : Fin 2) * 64 + 64; rw [e1]; omega

/-- The last point's write-back covers the squares' array. -/
theorem cover8 (i : S1x64.Idx) : ∃ t : Fin cfg7.N, (cfg7.win 8).flush t = true ∧ i ∈ ((cfg7.win 8).blk t).view.set := by
  have hi0 : (i 0).val < 1 := (i 0).isLt
  have hi1 : (i 1).val < 64 := (i 1).isLt
  have hN : cfg7.N = 10 := N_7
  let t : Fin cfg7.N := ⟨9, by omega⟩
  obtain ⟨-, -, -, -, -, -, -, -, -, -, -, -, -, -, -, -, e0, e1⟩ := idx_facts t
  refine ⟨t, (flush7_8 t).mpr rfl, ?_⟩
  rw [mem_blk8]
  intro a
  match a with
  | ⟨0, _⟩ => show win7_8.index t (0 : Fin 2) * 1 ≤ (i 0).val ∧ (i 0).val < win7_8.index t (0 : Fin 2) * 1 + 1; rw [e0]; omega
  | ⟨1, _⟩ => show win7_8.index t (1 : Fin 2) * 64 ≤ (i 1).val ∧ (i 1).val < win7_8.index t (1 : Fin 2) * 64 + 64; rw [e1]; omega

/-- THE SECOND OUTPUT after the ten points: the column sums of the perceptron outputs over all nodes. -/
theorem array_after7 (c : Dev nD) :
    (dat7 V c).arrAt 7 cfg7.N
      = sumsRow (rowsNode (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5))) :=
  (dat7 V c).arrAt_eq_of_cover 7 (sumsRow (outM V c)) (flushed7 V c) cover7

/-- THE THIRD OUTPUT after the ten points: the column sums of the squares of the perceptron outputs. -/
theorem array_after8 (c : Dev nD) :
    (dat7 V c).arrAt 8 cfg7.N
      = sqsRow (rowsNode (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5))) :=
  (dat7 V c).arrAt_eq_of_cover 8 (sqsRow (outM V c)) (flushed8 V c) cover8

/-! ## The three outputs, entry by entry, over the proof data's arrays -/

/-- Row by row: row `r` of the first output is the perceptron output of node `r`. -/
theorem rows (c : Dev nD) (r : Fin 50000) (q : Fin 64) :
    ((dat7 V c).arrAt 6 cfg7.N : S50000x64.Idx → EReal) (ix2 r q)
      = nodeOut (rowsOf ((dat7 V c).A 2 : S64x64.Idx → EReal)) (rowAt ((dat7 V c).A 3 : S1x64.Idx → EReal) 0)
          (rowsOf ((dat7 V c).A 4 : S64x64.Idx → EReal)) (rowAt ((dat7 V c).A 5 : S1x64.Idx → EReal) 0)
          (rowsOf ((dat7 V c).A 0 : S50000x64.Idx → EReal) r) (rowsOf ((dat7 V c).A 1 : S50000x64.Idx → EReal) r) q := by
  refine (congrFun (array_after6 V c) (ix2 r q)).trans ?_
  -- the proof data's arrays are the region-entry contents, by definition
  rfl

/-- Column by column: entry `q` of the second output is the sum over all nodes of their perceptron outputs' column `q`
    (the specification's `colSum`). -/
theorem sums_real (c : Dev nD) (q : Fin 64) :
    ((dat7 V c).arrAt 7 cfg7.N : S1x64.Idx → EReal) (ix2 (0 : Fin 1) q)
      = (∑ r : Fin 50000, nodeOut (rowsOf ((dat7 V c).A 2 : S64x64.Idx → EReal)) (rowAt ((dat7 V c).A 3 : S1x64.Idx → EReal) 0)
          (rowsOf ((dat7 V c).A 4 : S64x64.Idx → EReal)) (rowAt ((dat7 V c).A 5 : S1x64.Idx → EReal) 0)
          (rowsOf ((dat7 V c).A 0 : S50000x64.Idx → EReal) r) (rowsOf ((dat7 V c).A 1 : S50000x64.Idx → EReal) r) q : EReal) := by
  have h := congrFun (array_after7 V c) (ix2 (0 : Fin 1) q)
  rw [sumsRow_apply] at h
  refine h.trans ?_
  show (_ : EReal) = _
  -- term by term; the proof data's arrays are the region-entry contents, by definition
  exact Finset.sum_congr (M := EReal) rfl fun r _ => rfl

/-- Entry `q` of the third output is the sum over all nodes of the squares of their perceptron outputs' column `q`. -/
theorem sqs_real (c : Dev nD) (q : Fin 64) :
    ((dat7 V c).arrAt 8 cfg7.N : S1x64.Idx → EReal) (ix2 (0 : Fin 1) q)
      = (∑ r : Fin 50000, nodeOut (rowsOf ((dat7 V c).A 2 : S64x64.Idx → EReal)) (rowAt ((dat7 V c).A 3 : S1x64.Idx → EReal) 0)
          (rowsOf ((dat7 V c).A 4 : S64x64.Idx → EReal)) (rowAt ((dat7 V c).A 5 : S1x64.Idx → EReal) 0)
          (rowsOf ((dat7 V c).A 0 : S50000x64.Idx → EReal) r) (rowsOf ((dat7 V c).A 1 : S50000x64.Idx → EReal) r) q
          * nodeOut (rowsOf ((dat7 V c).A 2 : S64x64.Idx → EReal)) (rowAt ((dat7 V c).A 3 : S1x64.Idx → EReal) 0)
          (rowsOf ((dat7 V c).A 4 : S64x64.Idx → EReal)) (rowAt ((dat7 V c).A 5 : S1x64.Idx → EReal) 0)
          (rowsOf ((dat7 V c).A 0 : S50000x64.Idx → EReal) r) (rowsOf ((dat7 V c).A 1 : S50000x64.Idx → EReal) r) q : EReal) := by
  have h := congrFun (array_after8 V c) (ix2 (0 : Fin 1) q)
  rw [sqsRow_apply] at h
  refine h.trans ?_
  show (_ : EReal) = _
  exact Finset.sum_congr (M := EReal) rfl fun r _ => rfl

end Cert.KernelIdeal.Reg7

end
-- ==== Proof.KReg8.lean ====
/-
  The normalisation pass of the second layer (grid of ten tiles of 5000 node rows): what its output array holds, entry by
  entry.

  At each grid point the body reads one tile of the perceptron outputs and the same tile of the node rows, and the
  four one-row arrays (column mean, column variance, scale, shift). Entry by entry it subtracts the mean, multiplies by
  the reciprocal square root of the variance plus a small constant, scales, shifts, takes the positive part, adds the
  node's own entry and halves: the specification's `bnUpd` of the two rows. Tile `t` is rows `5000 t … 5000 t + 4999`
  of the arrays, and the ten tiles cover the 50000 rows, so the output array is `bnUpd` row by row.
-/
import proofs.«133695_j30227979829590_2_alg».proof.Proof.Gen.KernelIdeal.Frame
import proofs.«133695_j30227979829590_2_alg».proof.Proof.Spec
import proofs.«133695_j30227979829590_2_alg».proof.Proof.Conv
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Reg8

open Cert.KernelIdeal Cert.KernelIdeal.Gen Idealize.ShloMosaic Idealize.ShloMosaic.TcCoe Idealize.ShloMosaic.ValueIdx
open Idealize.ShloMosaic.Pipeline (Dat)
open Cert.Gine

variable (V : (c : Dev nD) → (b : Ref sig .tc) → Buf (Elt Ideal) ((c : Thread nD τ).loc b))

/-! ## The body's arithmetic at one entry -/

/-- A one-row array, re-laid to its own shape and spread over the rows of a tile, reads at `(p, q)` its entry of
    column `q`. -/
theorem spread_apply {M N : Nat} (b : FVec Ideal ⟨2, ![1, N]⟩ .f32) (hb : (⟨2, ![1, N]⟩ : Shape).ShapeCasts ⟨2, ![1, N]⟩)
    (hbc : (⟨2, ![1, N]⟩ : Shape).Broadcasts ⟨2, ![M, N]⟩) (p : Fin M) (q : Fin N) :
    broadcastTo ⟨2, ![M, N]⟩ (shapeCast ⟨2, ![1, N]⟩ b hb) hbc (ix2 p q) = b (ix2 (0 : Fin 1) q) := by
  rw [broadcastTo_1b_ab_apply, shapeCast_self]

/-- The one store's payload at entry `(p, q)` of the tile: every operation acts entry by entry, the four one-row
    operands are read at column `q`, and the splat of the zero word is `0`. -/
theorem pay_apply (out h : Vec Ideal S5000x64 .f32) (mu var g b : Vec Ideal S1x64 .f32) (p : Fin 5000) (q : Fin 64) :
    k8_pay1 out mu var g b h (ix2 p q)
      = bnUpd (rowAt mu 0) (rowAt var 0) (rowAt g 0) (rowAt b 0) (fun k => out (ix2 p k)) (fun k => h (ix2 p k)) q := by
  unfold k8_pay1
  simp only [mulf_apply, addf_apply, subf_apply, maximumf_apply, broadcast_apply, spread_apply, broadcastTo_1b_ab_apply,
    shapeCast_self]
  show (_ + max _ (Ideal.ofBits .f32 0x00000000#32)) * _ = _
  rw [Ideal.ofBits_zero_f32]
  rfl

/-! ## The tiles inside the arrays -/

theorem hz : (![0, 0] : Fin 2 → Nat) = fun _ => 0 := funext fun a => by fin_cases a <;> rfl

/-- The printed index maps, decided over the ten grid points: the two tiled inputs and the output are at tile `t`,
    the four one-row inputs at their only block. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

/-- Row `p` of tile `t` is row `5000 t + p` of the array. -/
def tileRow (t : Fin cfg8.N) (p : Fin 5000) : Fin 50000 :=
  ⟨5000 * t.val + p.val, by have := t.isLt; have hN : cfg8.N = 10 := N_8; omega⟩

/-- The perceptron outputs' tile at point `t`, entry by entry: an element of a block sits, on each axis, at the block index times the block's size plus its own coordinate. -/
theorem tile0_apply (c : Dev nD) (t : Fin cfg8.N) (p : Fin 5000) (k : Fin 64) :
    (iblk8 V c 0 t : Vec Ideal S5000x64 .f32) (ix2 p k)
      = (V c (Pipeline.arrRef spec8 0) : S50000x64.Idx → EReal) (ix2 (tileRow t p) k) := by
  obtain ⟨e0, e1, -⟩ := idx_facts t
  show (V c (Pipeline.arrRef spec8 0) : S50000x64.Idx → EReal) (((cfg8.win 0).blk t).view.emb (ix2 p k)) = _
  refine congrArg (V c (Pipeline.arrRef spec8 0) : S50000x64.Idx → EReal) (funext fun a => Fin.ext ?_)
  match a with
  | ⟨0, _⟩ => show win8_0.index t (0 : Fin 2) * 5000 + 1 * p.val = 5000 * t.val + p.val; rw [e0]; omega
  | ⟨1, _⟩ => show win8_0.index t (1 : Fin 2) * 64 + 1 * k.val = k.val; rw [e1]; omega

/-- The node rows' tile at point `t`, entry by entry. -/
theorem tile1_apply (c : Dev nD) (t : Fin cfg8.N) (p : Fin 5000) (k : Fin 64) :
    (iblk8 V c 1 t : Vec Ideal S5000x64 .f32) (ix2 p k)
      = (V c (Pipeline.arrRef spec8 1) : S50000x64.Idx → EReal) (ix2 (tileRow t p) k) := by
  obtain ⟨-, -, e0, e1, -⟩ := idx_facts t
  show (V c (Pipeline.arrRef spec8 1) : S50000x64.Idx → EReal) (((cfg8.win 1).blk t).view.emb (ix2 p k)) = _
  refine congrArg (V c (Pipeline.arrRef spec8 1) : S50000x64.Idx → EReal) (funext fun a => Fin.ext ?_)
  match a with
  | ⟨0, _⟩ => show win8_1.index t (0 : Fin 2) * 5000 + 1 * p.val = 5000 * t.val + p.val; rw [e0]; omega
  | ⟨1, _⟩ => show win8_1.index t (1 : Fin 2) * 64 + 1 * k.val = k.val; rw [e1]; omega

/-- Each one-row input's block is the whole one-row array, at every point. -/
theorem row2_apply (c : Dev nD) (t : Fin cfg8.N) (k : Fin 64) :
    (iblk8 V c 2 t : Vec Ideal S1x64 .f32) (ix2 (0 : Fin 1) k)
      = (V c (Pipeline.arrRef spec8 2) : S1x64.Idx → EReal) (ix2 (0 : Fin 1) k) := by
  obtain ⟨-, -, -, -, e0, e1, -⟩ := idx_facts t
  show (V c (Pipeline.arrRef spec8 2) : S1x64.Idx → EReal) (((cfg8.win 2).blk t).view.emb (ix2 (0 : Fin 1) k)) = _
  refine congrArg (V c (Pipeline.arrRef spec8 2) : S1x64.Idx → EReal) (funext fun a => Fin.ext ?_)
  match a with
  | ⟨0, _⟩ => show win8_2.index t (0 : Fin 2) * 1 + 1 * 0 = 0; rw [e0]
  | ⟨1, _⟩ => show win8_2.index t (1 : Fin 2) * 64 + 1 * k.val = k.val; rw [e1]; omega

theorem row3_apply (c : Dev nD) (t : Fin cfg8.N) (k : Fin 64) :
    (iblk8 V c 3 t : Vec Ideal S1x64 .f32) (ix2 (0 : Fin 1) k)
      = (V c (Pipeline.arrRef spec8 3) : S1x64.Idx → EReal) (ix2 (0 : Fin 1) k) := by
  obtain ⟨-, -, -, -, -, -, e0, e1, -⟩ := idx_facts t
  show (V c (Pipeline.arrRef spec8 3) : S1x64.Idx → EReal) (((cfg8.win 3).blk t).view.emb (ix2 (0 : Fin 1) k)) = _
  refine congrArg (V c (Pipeline.arrRef spec8 3) : S1x64.Idx → EReal) (funext fun a => Fin.ext ?_)
  match a with
  | ⟨0, _⟩ => show win8_3.index t (0 : Fin 2) * 1 + 1 * 0 = 0; rw [e0]
  | ⟨1, _⟩ => show win8_3.index t (1 : Fin 2) * 64 + 1 * k.val = k.val; rw [e1]; omega

theorem row4_apply (c : Dev nD) (t : Fin cfg8.N) (k : Fin 64) :
    (iblk8 V c 4 t : Vec Ideal S1x64 .f32) (ix2 (0 : Fin 1) k)
      = (V c (Pipeline.arrRef spec8 4) : S1x64.Idx → EReal) (ix2 (0 : Fin 1) k) := by
  obtain ⟨-, -, -, -, -, -, -, -, e0, e1, -⟩ := idx_facts t
  show (V c (Pipeline.arrRef spec8 4) : S1x64.Idx → EReal) (((cfg8.win 4).blk t).view.emb (ix2 (0 : Fin 1) k)) = _
  refine congrArg (V c (Pipeline.arrRef spec8 4) : S1x64.Idx → EReal) (funext fun a => Fin.ext ?_)
  match a with
  | ⟨0, _⟩ => show win8_4.index t (0 : Fin 2) * 1 + 1 * 0 = 0; rw [e0]
  | ⟨1, _⟩ => show win8_4.index t (1 : Fin 2) * 64 + 1 * k.val = k.val; rw [e1]; omega

theorem row5_apply (c : Dev nD) (t : Fin cfg8.N) (k : Fin 64) :
    (iblk8 V c 5 t : Vec Ideal S1x64 .f32) (ix2 (0 : Fin 1) k)
      = (V c (Pipeline.arrRef spec8 5) : S1x64.Idx → EReal) (ix2 (0 : Fin 1) k) := by
  obtain ⟨-, -, -, -, -, -, -, -, -, -, e0, e1, -⟩ := idx_facts t
  show (V c (Pipeline.arrRef spec8 5) : S1x64.Idx → EReal) (((cfg8.win 5).blk t).view.emb (ix2 (0 : Fin 1) k)) = _
  refine congrArg (V c (Pipeline.arrRef spec8 5) : S1x64.Idx → EReal) (funext fun a => Fin.ext ?_)
  match a with
  | ⟨0, _⟩ => show win8_5.index t (0 : Fin 2) * 1 + 1 * 0 = 0; rw [e0]
  | ⟨1, _⟩ => show win8_5.index t (1 : Fin 2) * 64 + 1 * k.val = k.val; rw [e1]; omega

/-- Entry `(p, q)` of the output's tile at point `t` sits at `(5000 t + p, q)` of the output array. -/
theorem emb6 (t : Fin cfg8.N) (p : Fin 5000) (q : Fin 64) :
    (((cfg8.win 6).blk t).view.emb (ix2 p q) : S50000x64.Idx) = ix2 (tileRow t p) q := by
  obtain ⟨-, -, -, -, -, -, -, -, -, -, -, -, e0, e1⟩ := idx_facts t
  refine funext fun a => Fin.ext ?_
  match a with
  | ⟨0, _⟩ => show win8_6.index t (0 : Fin 2) * 5000 + 1 * p.val = 5000 * t.val + p.val; rw [e0]; omega
  | ⟨1, _⟩ => show win8_6.index t (1 : Fin 2) * 64 + 1 * q.val = q.val; rw [e1]; omega

/-! ## From the tiles to the array -/

/-- The output array as one function of the six input arrays: row `r` is the normalisation-and-residual update of
    row `r` of the perceptron outputs and of the node rows, by the four one-row arrays (mean, variance, scale, shift). -/
def rowsBn (OUT H : S50000x64.Idx → EReal) (MU VAR G B : S1x64.Idx → EReal) : S50000x64.Idx → EReal :=
  fun i => bnUpd (rowAt MU 0) (rowAt VAR 0) (rowAt G 0) (rowAt B 0) (rowsOf OUT (i 0)) (rowsOf H (i 0)) (i 1)

/-- That function of the arrays as the region finds them. -/
abbrev result (c : Dev nD) : S50000x64.Idx → EReal :=
  rowsBn (V c (Pipeline.arrRef spec8 0)) (V c (Pipeline.arrRef spec8 1)) (V c (Pipeline.arrRef spec8 2))
    (V c (Pipeline.arrRef spec8 3)) (V c (Pipeline.arrRef spec8 4)) (V c (Pipeline.arrRef spec8 5))

/-- The output's staging buffer after the body at point `t` is the one store's payload of the input blocks. -/
theorem after_eq (c : Dev nD) (t : Fin cfg8.N) :
    (dat8 V c).after 6 t
      = k8_pay1 (iblk8 V c 0 t) (iblk8 V c 2 t) (iblk8 V c 3 t) (iblk8 V c 4 t) (iblk8 V c 5 t) (iblk8 V c 1 t) := by
  rw [after8_6]
  unfold out8_6
  rw [View.canon_unit_zero hz]
  simp only [View.ld_unit_zero (S := S5000x64) hz, View.ld_unit_zero (S := S1x64) hz]

/-- Entry `(p, q)` of that buffer is entry `(5000 t + p, q)` of `result`. -/
theorem after_apply (c : Dev nD) (t : Fin cfg8.N) (p : Fin 5000) (q : Fin 64) :
    ((dat8 V c).after 6 t : Vec Ideal S5000x64 .f32) (ix2 p q) = result V c (ix2 (tileRow t p) q) := by
  rw [after_eq]
  refine (pay_apply (iblk8 V c 0 t) (iblk8 V c 1 t) (iblk8 V c 2 t) (iblk8 V c 3 t) (iblk8 V c 4 t) (iblk8 V c 5 t) p q).trans ?_
  have r0 : (fun k => (iblk8 V c 0 t : Vec Ideal S5000x64 .f32) (ix2 p k))
      = rowsOf (V c (Pipeline.arrRef spec8 0) : S50000x64.Idx → EReal) (tileRow t p) := funext fun k => tile0_apply V c t p k
  have r1 : (fun k => (iblk8 V c 1 t : Vec Ideal S5000x64 .f32) (ix2 p k))
      = rowsOf (V c (Pipeline.arrRef spec8 1) : S50000x64.Idx → EReal) (tileRow t p) := funext fun k => tile1_apply V c t p k
  have r2 : rowAt (iblk8 V c 2 t : Vec Ideal S1x64 .f32) 0 = rowAt (V c (Pipeline.arrRef spec8 2) : S1x64.Idx → EReal) 0 :=
    funext fun k => row2_apply V c t k
  have r3 : rowAt (iblk8 V c 3 t : Vec Ideal S1x64 .f32) 0 = rowAt (V c (Pipeline.arrRef spec8 3) : S1x64.Idx → EReal) 0 :=
    funext fun k => row3_apply V c t k
  have r4 : rowAt (iblk8 V c 4 t : Vec Ideal S1x64 .f32) 0 = rowAt (V c (Pipeline.arrRef spec8 4) : S1x64.Idx → EReal) 0 :=
    funext fun k => row4_apply V c t k
  have r5 : rowAt (iblk8 V c 5 t : Vec Ideal S1x64 .f32) 0 = rowAt (V c (Pipeline.arrRef spec8 5) : S1x64.Idx → EReal) 0 :=
    funext fun k => row5_apply V c t k
  rw [r0, r1, r2, r3, r4, r5]
  rfl

/-- Two tiles that agree entry by entry are equal. -/
theorem tile_ext {X Y : Vec Ideal S5000x64 .f32} (h : ∀ (p : Fin 5000) (q : Fin 64), X (ix2 p q) = Y (ix2 p q)) : X = Y :=
  funext fun j => by rw [eq_ix2 j]; exact h _ _

/-- What point `t` writes back is tile `t` of `result`. -/
theorem flushed_eq (c : Dev nD) (t : Fin cfg8.N) :
    (dat8 V c).flushed 6 t = ((cfg8.win 6).blk t).view.read (Elt Ideal) (result V c) := by
  show (cfg8.win 6).cut (grid8.coords t) ((dat8 V c).after 6 t) = _
  refine tile_ext fun p q => ?_
  show ((dat8 V c).after 6 t : Vec Ideal S5000x64 .f32) (ix2 p q) = result V c (((cfg8.win 6).blk t).view.emb (ix2 p q))
  rw [emb6 t p q]
  exact after_apply V c t p q

/-- An index of the array is in tile `t` iff each coordinate is in the tile's range on its axis. -/
theorem mem_blk (t : Fin cfg8.N) (i : S50000x64.Idx) :
    i ∈ ((cfg8.win 6).blk t).view.set ↔ ∀ a : Fin 2, win8_6.index t a * S5000x64.size a ≤ (i a).val ∧ (i a).val < win8_6.index t a * S5000x64.size a + S5000x64.size a := by
  show i ∈ ((View.whole main_v112).slice (win8_6.rect t)).set ↔ _
  rw [View.set_slice_whole, Rect.mem_set_unit]
  exact Iff.rfl

/-- Row `r` lies in tile `r / 5000`: the ten tiles cover the array. -/
theorem cover (i : S50000x64.Idx) : ∃ t : Fin cfg8.N, (cfg8.win 6).flush t = true ∧ i ∈ ((cfg8.win 6).blk t).view.set := by
  have hi0 : (i 0).val < 50000 := (i 0).isLt
  have hi1 : (i 1).val < 64 := (i 1).isLt
  have hN : cfg8.N = 10 := N_8
  let t : Fin cfg8.N := ⟨(i 0).val / 5000, by omega⟩
  have ht : t.val = (i 0).val / 5000 := rfl
  obtain ⟨-, -, -, -, -, -, -, -, -, -, -, -, e0, e1⟩ := idx_facts t
  refine ⟨t, flush8_6 t, ?_⟩
  rw [mem_blk]
  intro a
  match a with
  | ⟨0, _⟩ => show win8_6.index t (0 : Fin 2) * 5000 ≤ (i 0).val ∧ (i 0).val < win8_6.index t (0 : Fin 2) * 5000 + 5000; rw [e0]; omega
  | ⟨1, _⟩ => show win8_6.index t (1 : Fin 2) * 64 ≤ (i 1).val ∧ (i 1).val < win8_6.index t (1 : Fin 2) * 64 + 64; rw [e1]; omega

/-- The output array after the ten points is `rowsBn` of the six input arrays. -/
theorem array_after (c : Dev nD) :
    (dat8 V c).arrAt 6 cfg8.N
      = rowsBn (V c (Pipeline.arrRef spec8 0)) (V c (Pipeline.arrRef spec8 1)) (V c (Pipeline.arrRef spec8 2))
          (V c (Pipeline.arrRef spec8 3)) (V c (Pipeline.arrRef spec8 4)) (V c (Pipeline.arrRef spec8 5)) :=
  (dat8 V c).arrAt_eq_of_cover 6 (result V c) (fun t _ => flushed_eq V c t) cover

/-- Row by row: row `p` of the output array is the normalisation-and-residual update of row `p` of the perceptron
    outputs and of the node rows. -/
theorem rows (c : Dev nD) (p : Fin 50000) (q : Fin 64) :
    ((dat8 V c).arrAt 6 cfg8.N : S50000x64.Idx → EReal) (ix2 p q)
      = bnUpd (rowAt ((dat8 V c).A 2 : S1x64.Idx → EReal) 0) (rowAt ((dat8 V c).A 3 : S1x64.Idx → EReal) 0)
          (rowAt ((dat8 V c).A 4 : S1x64.Idx → EReal) 0) (rowAt ((dat8 V c).A 5 : S1x64.Idx → EReal) 0)
          (rowsOf ((dat8 V c).A 0 : S50000x64.Idx → EReal) p) (rowsOf ((dat8 V c).A 1 : S50000x64.Idx → EReal) p) q := by
  refine (congrFun (array_after V c) (ix2 p q)).trans ?_
  -- the proof data's arrays are the region-entry contents, by definition
  rfl

end Cert.KernelIdeal.Reg8

end
-- ==== Proof.KReg9.lean ====
/-
  Region 9 of the kernel program, read as mathematics: the residual update of every edge.

  The region walks the 1000000 edges in 125 tiles of 8000. At a tile it sets the tiles of gathered source rows `Hs`,
  gathered target rows `Hd` and edge rows `EA` side by side into 192 columns, multiplies by the whole 192 × 64
  matrix `W1` into a zero accumulator, adds the bias `b1`, takes the positive part, multiplies by the 64 × 64 matrix
  `W2` into a zero accumulator, adds the bias `b2`, halves, and adds the edge tile. Entry `(p, q)` of what a tile
  stores depends only on rows `p` of the three tiles, so row `e` of the output array — which lies in tile
  `e / 8000` — is `Cert.Gine.edgeUpd W1 b1 W2 b2` of rows `e` of `Hs`, `Hd` and `EA`.

  Steps: three tiles side by side, row by row (`concat3_rows`); the stored tile entry by entry (`tile_entry`); what a
  grid point writes back is its block of one function of the whole arrays (`written_back`), because every block's
  place in its array is its block index times the block's extent; and the tiles cover the output array
  (`covered`), so the array ends as that function.
-/
import proofs.«133695_j30227979829590_2_alg».proof.Proof.Gen.KernelIdeal.Frame
import proofs.«133695_j30227979829590_2_alg».proof.Proof.Spec
import proofs.«133695_j30227979829590_2_alg».proof.Proof.Conv
import proofs.«133695_j30227979829590_2_alg».proof.Proof.LibTileRows
import Idealize.ShloMosaic.Lib.Pipeline.Value

noncomputable section

namespace Cert.KernelIdeal.Reg9

open Idealize.ShloMosaic Idealize.ShloMosaic.TcCoe Idealize.ShloMosaic.ValueIdx
open Idealize.ShloMosaic.Pipeline (Dat)
open Cert.KernelIdeal Cert.Gine

-- The contents of the TensorCore's buffers when the region is entered.
variable (V : (c : Dev nD) → (b : Ref sig .tc) → Buf (Elt Ideal) ((c : Thread nD τ).loc b))

theorem zero_offsets : (![0, 0] : Fin 2 → Nat) = fun _ => 0 := funext fun a => by fin_cases a <;> rfl

/-- The output array as one function of the seven input arrays: row `e` is the update of row `e` of `EA` from rows `e`
    of `Hs`, `Hd` and `EA`. -/
def rowsEdge (Hs Hd EA : S1000000x64.Idx → EReal) (W1 : S192x64.Idx → EReal) (B1 : S1x64.Idx → EReal)
    (W2 : S64x64.Idx → EReal) (B2 : S1x64.Idx → EReal) : S1000000x64.Idx → EReal :=
  fun i => edgeUpd (rowsOf W1) (rowAt B1 0) (rowsOf W2) (rowAt B2 0) (rowsOf Hs (i 0)) (rowsOf Hd (i 0)) (rowsOf EA (i 0)) (i 1)

/-! ## Three tiles side by side -/

/-- Three tiles of 64 columns set side by side along the columns: row `p` of the result is the three rows `p` one after
    the other. Column `j` falls in the first, second or third piece as `j < 64`, `64 ≤ j < 128` or `128 ≤ j`; the
    pieces before it take up 0, 64 or 128 columns. -/
theorem concat3_rows {M : Nat} (Y Z U : (⟨2, ![M, 64]⟩ : Shape).Idx → EReal)
    (h : Shape.Concatenates [(⟨2, ![M, 64]⟩ : Shape), ⟨2, ![M, 64]⟩, ⟨2, ![M, 64]⟩] ⟨2, ![M, 192]⟩ (1 : Fin 2))
    (yr zr ur : Fin M → Fin 64 → EReal)
    (hY : ∀ p k, Y (ix2 p k) = yr p k) (hZ : ∀ p k, Z (ix2 p k) = zr p k) (hU : ∀ p k, U (ix2 p k) = ur p k) :
    ∀ (p : Fin M) (j : Fin 192),
      concatenate ⟨2, ![M, 192]⟩ (1 : Fin 2) [⟨⟨2, ![M, 64]⟩, Y⟩, ⟨⟨2, ![M, 64]⟩, Z⟩, ⟨⟨2, ![M, 64]⟩, U⟩] h (ix2 p j)
        = cat3 (yr p) (zr p) (ur p) j := by
  intro p j
  unfold cat3
  by_cases h1 : j.val < 64
  · rw [dif_pos h1, ← hY]
    exact concatenate_apply_piece (t := ⟨2, ![M, 192]⟩) (1 : Fin 2)
      [⟨(⟨2, ![M, 64]⟩ : Shape), Y⟩, ⟨(⟨2, ![M, 64]⟩ : Shape), Z⟩, ⟨(⟨2, ![M, 64]⟩ : Shape), U⟩] h (ix2 p j)
      0 (by show (0 : Nat) < 3; omega) ⟨2, ![M, 64]⟩ Y rfl rfl 0 rfl (ix2 p ⟨j.val, h1⟩)
      (fun b hb => by match b with | ⟨0, _⟩ => rfl | ⟨1, _⟩ => exact absurd rfl hb)
      (by show 0 + j.val = j.val; omega)
  · by_cases h2 : j.val < 128
    · rw [dif_neg h1, dif_pos h2, ← hZ]
      exact concatenate_apply_piece (t := ⟨2, ![M, 192]⟩) (1 : Fin 2)
        [⟨(⟨2, ![M, 64]⟩ : Shape), Y⟩, ⟨(⟨2, ![M, 64]⟩ : Shape), Z⟩, ⟨(⟨2, ![M, 64]⟩ : Shape), U⟩] h (ix2 p j)
        1 (by show (1 : Nat) < 3; omega) ⟨2, ![M, 64]⟩ Z rfl rfl 64 rfl
        (ix2 p ⟨j.val - 64, by omega⟩)
        (fun b hb => by match b with | ⟨0, _⟩ => rfl | ⟨1, _⟩ => exact absurd rfl hb)
        (by show 64 + (j.val - 64) = j.val; omega)
    · have hj : j.val < 192 := j.isLt
      rw [dif_neg h1, dif_neg h2, ← hU]
      exact concatenate_apply_piece (t := ⟨2, ![M, 192]⟩) (1 : Fin 2)
        [⟨(⟨2, ![M, 64]⟩ : Shape), Y⟩, ⟨(⟨2, ![M, 64]⟩ : Shape), Z⟩, ⟨(⟨2, ![M, 64]⟩ : Shape), U⟩] h (ix2 p j)
        2 (by show (2 : Nat) < 3; omega) ⟨2, ![M, 64]⟩ U rfl rfl 128 rfl
        (ix2 p ⟨j.val - 128, by omega⟩)
        (fun b hb => by match b with | ⟨0, _⟩ => rfl | ⟨1, _⟩ => exact absurd rfl hb)
        (by show 128 + (j.val - 128) = j.val; omega)

/-! ## The stored tile, entry by entry -/

/-- Entry `(p, q)` of the tile the body stores, from the loaded tiles of `Hs`, `Hd`, `EA`, the blocks of `W1`, `b1`,
    `W2`, `b2`, and the tile of `EA` loaded a second time: the edge entry plus half of the two-layer image of the
    three rows `p` side by side. The re-layings to the same shape and the changes of float format are the identity at
    the extended reals, and both accumulators are zero. -/
theorem tile_entry (hs hd ea : FVec Ideal S8000x64 .f32) (w1 : FVec Ideal S192x64 .f32) (b1 : FVec Ideal S1x64 .f32)
    (w2 : FVec Ideal S64x64 .f32) (b2 : FVec Ideal S1x64 .f32) (ea' : FVec Ideal S8000x64 .f32) (p : Fin 8000) (q : Fin 64) :
    Gen.k9_pay1 (F := Ideal) hs hd ea w1 b1 w2 b2 ea' (ix2 p q)
      = ea' (ix2 p q) + ((∑ k : Fin 64,
            max ((∑ j : Fin 192, cat3 (fun k => hs (ix2 p k)) (fun k => hd (ix2 p k)) (fun k => ea (ix2 p k)) j * w1 (ix2 j k))
              + b1 (ix2 (0 : Fin 1) k)) 0 * w2 (ix2 k q)) + b2 (ix2 (0 : Fin 1) q)) * cHalf := by
  unfold Gen.k9_pay1
  refine Cert.TileRows.add_rows _ _ (fun p q => ea' (ix2 p q))
    (fun p q => ((∑ k : Fin 64,
            max ((∑ j : Fin 192, cat3 (fun k => hs (ix2 p k)) (fun k => hd (ix2 p k)) (fun k => ea (ix2 p k)) j * w1 (ix2 j k))
              + b1 (ix2 (0 : Fin 1) k)) 0 * w2 (ix2 k q)) + b2 (ix2 (0 : Fin 1) q)) * cHalf)
    (fun p q => ?_) (fun p q => ?_) p q
  · rw [shapeCast_self]
  · -- the halving: a product with a splat of the word of one half
    show addf _ _ (ix2 p q) * Ideal.ofBits .f32 0x3F000000#32 = _ * cHalf
    refine congrArg (· * cHalf) ?_
    refine Cert.TileRows.bias_rows _ b2 _ _ (fun p q => ∑ k : Fin 64,
            max ((∑ j : Fin 192, cat3 (fun k => hs (ix2 p k)) (fun k => hd (ix2 p k)) (fun k => ea (ix2 p k)) j * w1 (ix2 j k))
              + b1 (ix2 (0 : Fin 1) k)) 0 * w2 (ix2 k q)) (fun p q => ?_) p q
    -- the second product
    refine (Ideal.matmul_constant_zero_apply dot_S8000x64_S64x64_S8000x64_1_0_0_1_n_n none _ _ (ix2 p q)).trans ?_
    refine (Cert.PlainDot.sum_contr dot_S8000x64_S64x64_S8000x64_1_0_0_1_n_n ⟨rfl, rfl, rfl, rfl, rfl, rfl⟩ _ _ p q).trans ?_
    refine Finset.sum_congr rfl fun k _ => ?_
    refine congrArg₂ (· * ·) ?_ ?_
    · -- the hidden layer at (p, k)
      refine Cert.TileRows.relu_rows _ (fun p k =>
          (∑ j : Fin 192, cat3 (fun k => hs (ix2 p k)) (fun k => hd (ix2 p k)) (fun k => ea (ix2 p k)) j * w1 (ix2 j k))
            + b1 (ix2 (0 : Fin 1) k)) (fun p k => ?_) p k
      refine Cert.TileRows.bias_rows _ b1 _ _ (fun p k =>
          ∑ j : Fin 192, cat3 (fun k => hs (ix2 p k)) (fun k => hd (ix2 p k)) (fun k => ea (ix2 p k)) j * w1 (ix2 j k))
          (fun p k => ?_) p k
      -- the first product, against the three tiles side by side
      refine (Ideal.matmul_constant_zero_apply dot_S8000x192_S192x64_S8000x64_1_0_0_1_n_n none _ _ (ix2 p k)).trans ?_
      refine (Cert.PlainDot.sum_contr dot_S8000x192_S192x64_S8000x64_1_0_0_1_n_n ⟨rfl, rfl, rfl, rfl, rfl, rfl⟩ _ _ p k).trans ?_
      refine Finset.sum_congr rfl fun j _ => ?_
      refine congrArg₂ (· * ·) ?_ ?_
      · exact concat3_rows _ _ _ Gen.concatenates_S8000x64_S8000x64_S8000x64_S8000x192_d1 (fun p k => hs (ix2 p k)) (fun p k => hd (ix2 p k)) (fun p k => ea (ix2 p k))
          (fun p k => by rw [shapeCast_self]) (fun p k => by rw [shapeCast_self]) (fun p k => by rw [shapeCast_self]) p j
      · show shapeCast S192x64 w1 _ (ix2 j k) = _
        rw [shapeCast_self]
    · show shapeCast S64x64 w2 _ (ix2 k q) = _
      rw [shapeCast_self]

/-- The same entry when the loaded tiles are known to be rows `e` of `Hs`, `Hd`, `EA` and the four small blocks agree
    with the whole arrays `W1`, `b1`, `W2`, `b2` where the entry reads them: it is entry `(e, q)` of `rowsEdge`. -/
theorem tile_entry_of (Hs Hd EA : S1000000x64.Idx → EReal) (W1 : S192x64.Idx → EReal) (B1 : S1x64.Idx → EReal)
    (W2 : S64x64.Idx → EReal) (B2 : S1x64.Idx → EReal)
    (hs hd ea : FVec Ideal S8000x64 .f32) (w1 : FVec Ideal S192x64 .f32) (b1 : FVec Ideal S1x64 .f32)
    (w2 : FVec Ideal S64x64 .f32) (b2 : FVec Ideal S1x64 .f32)
    (p : Fin 8000) (q : Fin 64) (e : Fin 1000000)
    (hhs : ∀ k : Fin 64, hs (ix2 p k) = Hs (ix2 e k)) (hhd : ∀ k : Fin 64, hd (ix2 p k) = Hd (ix2 e k))
    (hea : ∀ k : Fin 64, ea (ix2 p k) = EA (ix2 e k))
    (hw1 : ∀ (j : Fin 192) (k : Fin 64), w1 (ix2 j k) = W1 (ix2 j k))
    (hb1 : ∀ k : Fin 64, b1 (ix2 (0 : Fin 1) k) = B1 (ix2 (0 : Fin 1) k))
    (hw2 : ∀ k : Fin 64, w2 (ix2 k q) = W2 (ix2 k q)) (hb2 : b2 (ix2 (0 : Fin 1) q) = B2 (ix2 (0 : Fin 1) q)) :
    Gen.k9_pay1 (F := Ideal) hs hd ea w1 b1 w2 b2 ea (ix2 p q) = rowsEdge Hs Hd EA W1 B1 W2 B2 (ix2 e q) := by
  rw [tile_entry, hea q, hb2, show (fun k => hs (ix2 p k)) = rowsOf Hs e from funext hhs,
    show (fun k => hd (ix2 p k)) = rowsOf Hd e from funext hhd, show (fun k => ea (ix2 p k)) = rowsOf EA e from funext hea]
  show _ = EA (ix2 e q) + ((∑ k : Fin 64,
      max ((∑ j : Fin 192, cat3 (rowsOf Hs e) (rowsOf Hd e) (rowsOf EA e) j * W1 (ix2 j k)) + B1 (ix2 (0 : Fin 1) k)) 0
        * W2 (ix2 k q)) + B2 (ix2 (0 : Fin 1) q)) * cHalf
  refine congrArg (fun s => EA (ix2 e q) + (s + B2 (ix2 (0 : Fin 1) q)) * cHalf) (Finset.sum_congr rfl fun k _ => ?_)
  rw [hw2 k, hb1 k]
  refine congrArg (fun s => max (s + B1 (ix2 (0 : Fin 1) k)) 0 * W2 (ix2 k q)) (Finset.sum_congr rfl fun j _ => ?_)
  rw [hw1 j k]

/-! ## Where a block sits in its array -/

/-- The block indices of the eight windows at grid point `t`, decided over the 125 points: `Hs`, `Hd`, `EA` and the
    output move down one tile of rows per point; the weights and biases are always their one whole block. -/
theorem block_indices : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = t.val ∧ win9_7.index t (1 : Fin 2) = 0 :=
  (by decide +kernel : ∀ t : Fin grid9.N, _)

/-- Entry `(p, k)` of the tile of `Hs` at point `t` is entry `(8000 t + p, k)` of `Hs`. -/
theorem hs_tile (c : Dev nD) (t : Fin cfg9.N) (p : Fin 8000) (k : Fin 64) (e : Fin 1000000) (he : e.val = t.val * 8000 + p.val) :
    (Gen.iblk9 V c 0 t : S8000x64.Idx → EReal) (ix2 p k) = (V c (Pipeline.arrRef spec9 0) : S1000000x64.Idx → EReal) (ix2 e k) := by
  obtain ⟨e0, e1, -⟩ := block_indices t
  unfold Gen.iblk9
  rw [View.read_apply]
  show (V c (Pipeline.arrRef spec9 0) : S1000000x64.Idx → EReal) (((cfg9.win 0).blk t).view.emb (ix2 p k)) = _
  refine congrArg _ (funext fun a => Fin.ext ?_)
  match a with
  | ⟨0, _⟩ => show win9_0.index t (0 : Fin 2) * 8000 + 1 * p.val = e.val; rw [e0, he]; omega
  | ⟨1, _⟩ => show win9_0.index t (1 : Fin 2) * 64 + 1 * k.val = k.val; rw [e1]; omega

/-- Entry `(p, k)` of the tile of `Hd` at point `t` is entry `(8000 t + p, k)` of `Hd`. -/
theorem hd_tile (c : Dev nD) (t : Fin cfg9.N) (p : Fin 8000) (k : Fin 64) (e : Fin 1000000) (he : e.val = t.val * 8000 + p.val) :
    (Gen.iblk9 V c 1 t : S8000x64.Idx → EReal) (ix2 p k) = (V c (Pipeline.arrRef spec9 1) : S1000000x64.Idx → EReal) (ix2 e k) := by
  obtain ⟨-, -, e0, e1, -⟩ := block_indices t
  unfold Gen.iblk9
  rw [View.read_apply]
  show (V c (Pipeline.arrRef spec9 1) : S1000000x64.Idx → EReal) (((cfg9.win 1).blk t).view.emb (ix2 p k)) = _
  refine congrArg _ (funext fun a => Fin.ext ?_)
  match a with
  | ⟨0, _⟩ => show win9_1.index t (0 : Fin 2) * 8000 + 1 * p.val = e.val; rw [e0, he]; omega
  | ⟨1, _⟩ => show win9_1.index t (1 : Fin 2) * 64 + 1 * k.val = k.val; rw [e1]; omega

/-- Entry `(p, k)` of the tile of `EA` at point `t` is entry `(8000 t + p, k)` of `EA`. -/
theorem ea_tile (c : Dev nD) (t : Fin cfg9.N) (p : Fin 8000) (k : Fin 64) (e : Fin 1000000) (he : e.val = t.val * 8000 + p.val) :
    (Gen.iblk9 V c 2 t : S8000x64.Idx → EReal) (ix2 p k) = (V c (Pipeline.arrRef spec9 2) : S1000000x64.Idx → EReal) (ix2 e k) := by
  obtain ⟨-, -, -, -, e0, e1, -⟩ := block_indices t
  unfold Gen.iblk9
  rw [View.read_apply]
  show (V c (Pipeline.arrRef spec9 2) : S1000000x64.Idx → EReal) (((cfg9.win 2).blk t).view.emb (ix2 p k)) = _
  refine congrArg _ (funext fun a => Fin.ext ?_)
  match a with
  | ⟨0, _⟩ => show win9_2.index t (0 : Fin 2) * 8000 + 1 * p.val = e.val; rw [e0, he]; omega
  | ⟨1, _⟩ => show win9_2.index t (1 : Fin 2) * 64 + 1 * k.val = k.val; rw [e1]; omega

/-- The block of `W1` at any point is `W1`. -/
theorem w1_tile (c : Dev nD) (t : Fin cfg9.N) (j : Fin 192) (k : Fin 64) :
    (Gen.iblk9 V c 3 t : S192x64.Idx → EReal) (ix2 j k) = (V c (Pipeline.arrRef spec9 3) : S192x64.Idx → EReal) (ix2 j k) := by
  obtain ⟨-, -, -, -, -, -, e0, e1, -⟩ := block_indices t
  unfold Gen.iblk9
  rw [View.read_apply]
  show (V c (Pipeline.arrRef spec9 3) : S192x64.Idx → EReal) (((cfg9.win 3).blk t).view.emb (ix2 j k)) = _
  refine congrArg _ (funext fun a => Fin.ext ?_)
  match a with
  | ⟨0, _⟩ => show win9_3.index t (0 : Fin 2) * 192 + 1 * j.val = j.val; rw [e0]; omega
  | ⟨1, _⟩ => show win9_3.index t (1 : Fin 2) * 64 + 1 * k.val = k.val; rw [e1]; omega

/-- The block of `b1` at any point is `b1`. -/
theorem b1_tile (c : Dev nD) (t : Fin cfg9.N) (z : Fin 1) (k : Fin 64) :
    (Gen.iblk9 V c 4 t : S1x64.Idx → EReal) (ix2 z k) = (V c (Pipeline.arrRef spec9 4) : S1x64.Idx → EReal) (ix2 z k) := by
  obtain ⟨-, -, -, -, -, -, -, -, e0, e1, -⟩ := block_indices t
  unfold Gen.iblk9
  rw [View.read_apply]
  show (V c (Pipeline.arrRef spec9 4) : S1x64.Idx → EReal) (((cfg9.win 4).blk t).view.emb (ix2 z k)) = _
  refine congrArg _ (funext fun a => Fin.ext ?_)
  match a with
  | ⟨0, _⟩ => show win9_4.index t (0 : Fin 2) * 1 + 1 * z.val = z.val; rw [e0]; omega
  | ⟨1, _⟩ => show win9_4.index t (1 : Fin 2) * 64 + 1 * k.val = k.val; rw [e1]; omega

/-- The block of `W2` at any point is `W2`. -/
theorem w2_tile (c : Dev nD) (t : Fin cfg9.N) (j : Fin 64) (k : Fin 64) :
    (Gen.iblk9 V c 5 t : S64x64.Idx → EReal) (ix2 j k) = (V c (Pipeline.arrRef spec9 5) : S64x64.Idx → EReal) (ix2 j k) := by
  obtain ⟨-, -, -, -, -, -, -, -, -, -, e0, e1, -⟩ := block_indices t
  unfold Gen.iblk9
  rw [View.read_apply]
  show (V c (Pipeline.arrRef spec9 5) : S64x64.Idx → EReal) (((cfg9.win 5).blk t).view.emb (ix2 j k)) = _
  refine congrArg _ (funext fun a => Fin.ext ?_)
  match a with
  | ⟨0, _⟩ => show win9_5.index t (0 : Fin 2) * 64 + 1 * j.val = j.val; rw [e0]; omega
  | ⟨1, _⟩ => show win9_5.index t (1 : Fin 2) * 64 + 1 * k.val = k.val; rw [e1]; omega

/-- The block of `b2` at any point is `b2`. -/
theorem b2_tile (c : Dev nD) (t : Fin cfg9.N) (z : Fin 1) (k : Fin 64) :
    (Gen.iblk9 V c 6 t : S1x64.Idx → EReal) (ix2 z k) = (V c (Pipeline.arrRef spec9 6) : S1x64.Idx → EReal) (ix2 z k) := by
  obtain ⟨-, -, -, -, -, -, -, -, -, -, -, -, e0, e1, -⟩ := block_indices t
  unfold Gen.iblk9
  rw [View.read_apply]
  show (V c (Pipeline.arrRef spec9 6) : S1x64.Idx → EReal) (((cfg9.win 6).blk t).view.emb (ix2 z k)) = _
  refine congrArg _ (funext fun a => Fin.ext ?_)
  match a with
  | ⟨0, _⟩ => show win9_6.index t (0 : Fin 2) * 1 + 1 * z.val = z.val; rw [e0]; omega
  | ⟨1, _⟩ => show win9_6.index t (1 : Fin 2) * 64 + 1 * k.val = k.val; rw [e1]; omega

/-- Place `(p, q)` of the output's block at point `t` is place `(8000 t + p, q)` of the output array. -/
theorem out_place (t : Fin cfg9.N) (p : Fin 8000) (q : Fin 64) (e : Fin 1000000) (he : e.val = t.val * 8000 + p.val) :
    (((cfg9.win 7).blk t).view.emb (ix2 p q) : S1000000x64.Idx) = ix2 e q := by
  obtain ⟨-, -, -, -, -, -, -, -, -, -, -, -, -, -, e0, e1⟩ := block_indices t
  refine funext fun a => Fin.ext ?_
  match a with
  | ⟨0, _⟩ => show win9_7.index t (0 : Fin 2) * 8000 + 1 * p.val = e.val; rw [e0, he]; omega
  | ⟨1, _⟩ => show win9_7.index t (1 : Fin 2) * 64 + 1 * q.val = q.val; rw [e1]; omega

/-! ## What a point writes back, and the array after the region -/

set_option maxHeartbeats 2000000 in
/-- What grid point `t` writes back is its block of `rowsEdge` of the arrays as the region finds them. -/
theorem written_back (c : Dev nD) (t : Fin cfg9.N) :
    (Gen.dat9 V c).flushed 7 t = ((cfg9.win 7).blk t).view.read (Elt Ideal)
      (rowsEdge (V c (Pipeline.arrRef spec9 0)) (V c (Pipeline.arrRef spec9 1)) (V c (Pipeline.arrRef spec9 2))
        (V c (Pipeline.arrRef spec9 3)) (V c (Pipeline.arrRef spec9 4)) (V c (Pipeline.arrRef spec9 5))
        (V c (Pipeline.arrRef spec9 6))) := by
  show (cfg9.win 7).cut (grid9.coords t) ((Gen.dat9 V c).after 7 t) = _
  rw [Gen.after9_7]
  unfold Gen.out9_7
  rw [View.canon_unit_zero zero_offsets]
  simp only [View.ld_unit_zero (S := S8000x64) zero_offsets, View.ld_unit_zero (S := S192x64) zero_offsets,
    View.ld_unit_zero (S := S64x64) zero_offsets, View.ld_unit_zero (S := S1x64) zero_offsets]
  funext y
  obtain ⟨p, q, rfl⟩ : ∃ (p : Fin 8000) (q : Fin 64), y = ix2 p q := ⟨y 0, y 1, eq_ix2 y⟩
  have hN : cfg9.N = 125 := Gen.N_9
  have ht : t.val < 125 := hN ▸ t.isLt
  have he : (⟨t.val * 8000 + p.val, by omega⟩ : Fin 1000000).val = t.val * 8000 + p.val := rfl
  rw [View.read_apply]
  show Gen.k9_pay1 (F := Ideal) (Gen.iblk9 V c 0 t) (Gen.iblk9 V c 1 t) (Gen.iblk9 V c 2 t) (Gen.iblk9 V c 3 t)
      (Gen.iblk9 V c 4 t) (Gen.iblk9 V c 5 t) (Gen.iblk9 V c 6 t) (Gen.iblk9 V c 2 t) (ix2 p q)
    = rowsEdge (V c (Pipeline.arrRef spec9 0)) (V c (Pipeline.arrRef spec9 1)) (V c (Pipeline.arrRef spec9 2))
        (V c (Pipeline.arrRef spec9 3)) (V c (Pipeline.arrRef spec9 4)) (V c (Pipeline.arrRef spec9 5))
        (V c (Pipeline.arrRef spec9 6)) (((cfg9.win 7).blk t).view.emb (ix2 p q))
  rw [out_place t p q ⟨t.val * 8000 + p.val, by omega⟩ he]
  exact tile_entry_of (V c (Pipeline.arrRef spec9 0)) (V c (Pipeline.arrRef spec9 1)) (V c (Pipeline.arrRef spec9 2))
    (V c (Pipeline.arrRef spec9 3)) (V c (Pipeline.arrRef spec9 4)) (V c (Pipeline.arrRef spec9 5)) (V c (Pipeline.arrRef spec9 6))
    (Gen.iblk9 V c 0 t) (Gen.iblk9 V c 1 t) (Gen.iblk9 V c 2 t) (Gen.iblk9 V c 3 t)
    (Gen.iblk9 V c 4 t) (Gen.iblk9 V c 5 t) (Gen.iblk9 V c 6 t) p q ⟨t.val * 8000 + p.val, by omega⟩
    (fun k => hs_tile V c t p k _ he) (fun k => hd_tile V c t p k _ he) (fun k => ea_tile V c t p k _ he)
    (fun j k => w1_tile V c t j k) (fun k => b1_tile V c t 0 k) (fun k => w2_tile V c t k q) (b2_tile V c t 0 q)

/-- An index of the output array lies in point `t`'s block iff each coordinate lies in the block's range. -/
theorem mem_block (t : Fin cfg9.N) (i : S1000000x64.Idx) :
    i ∈ ((cfg9.win 7).blk t).view.set ↔ ∀ a : Fin 2, win9_7.index t a * S8000x64.size a ≤ (i a).val
      ∧ (i a).val < win9_7.index t a * S8000x64.size a + S8000x64.size a := by
  show i ∈ ((View.whole main_v137).slice (win9_7.rect t)).set ↔ _
  rw [View.set_slice_whole, Rect.mem_set_unit]
  exact Iff.rfl

/-- Every index of the output array is written back by some point: row `e` by point `e / 8000`. -/
theorem covered (i : S1000000x64.Idx) : ∃ t : Fin cfg9.N, (cfg9.win 7).flush t = true ∧ i ∈ ((cfg9.win 7).blk t).view.set := by
  have hN : cfg9.N = 125 := Gen.N_9
  have h0 : (i 0).val < 1000000 := (i 0).isLt
  have h1 : (i 1).val < 64 := (i 1).isLt
  refine ⟨⟨(i 0).val / 8000, by omega⟩, Gen.flush9_7 _, ?_⟩
  obtain ⟨-, -, -, -, -, -, -, -, -, -, -, -, -, -, e0, e1⟩ := block_indices ⟨(i 0).val / 8000, by omega⟩
  rw [mem_block]
  intro a
  match a with
  | ⟨0, _⟩ =>
    show win9_7.index _ (0 : Fin 2) * 8000 ≤ (i 0).val ∧ (i 0).val < win9_7.index _ (0 : Fin 2) * 8000 + 8000
    rw [e0]; show (i 0).val / 8000 * 8000 ≤ (i 0).val ∧ (i 0).val < (i 0).val / 8000 * 8000 + 8000; omega
  | ⟨1, _⟩ =>
    show win9_7.index _ (1 : Fin 2) * 64 ≤ (i 1).val ∧ (i 1).val < win9_7.index _ (1 : Fin 2) * 64 + 64
    rw [e1]; omega

/-- The output array after the region is `rowsEdge` of the arrays as the region finds them. -/
theorem array_after (c : Dev nD) :
    (Gen.dat9 V c).arrAt 7 cfg9.N
      = rowsEdge (V c (Pipeline.arrRef spec9 0)) (V c (Pipeline.arrRef spec9 1)) (V c (Pipeline.arrRef spec9 2))
          (V c (Pipeline.arrRef spec9 3)) (V c (Pipeline.arrRef spec9 4)) (V c (Pipeline.arrRef spec9 5))
          (V c (Pipeline.arrRef spec9 6)) :=
  (Gen.dat9 V c).arrAt_eq_of_cover 7 _ (fun t _ => written_back V c t) covered

/-- Row by row: row `e` of the output array is the update of row `e` of `EA` from rows `e` of `Hs`, `Hd` and `EA`. -/
theorem rows (c : Dev nD) (e : Fin 1000000) (q : Fin 64) :
    ((Gen.dat9 V c).arrAt 7 cfg9.N : S1000000x64.Idx → EReal) (ix2 e q)
      = edgeUpd (rowsOf ((Gen.dat9 V c).A 3 : S192x64.Idx → EReal)) (rowAt ((Gen.dat9 V c).A 4 : S1x64.Idx → EReal) 0)
          (rowsOf ((Gen.dat9 V c).A 5 : S64x64.Idx → EReal)) (rowAt ((Gen.dat9 V c).A 6 : S1x64.Idx → EReal) 0)
          (rowsOf ((Gen.dat9 V c).A 0 : S1000000x64.Idx → EReal) e) (rowsOf ((Gen.dat9 V c).A 1 : S1000000x64.Idx → EReal) e)
          (rowsOf ((Gen.dat9 V c).A 2 : S1000000x64.Idx → EReal) e) q := by
  rw [array_after V c]
  rfl

end Cert.KernelIdeal.Reg9

end
-- ==== Proof.KFacts.lean ====
/-
  What the ten regions leave, collected.

  The value chain takes as its one hypothesis a record of fourteen facts: each region's output array after the
  region, row by row, as the specification's row function of its input arrays' rows, and the two accumulated outputs
  of each statistics region as column sums. Each fact is proved in its own module from that kernel's body (the
  payload read at an index, what a grid point writes back, the cover of the array by the blocks; for the statistics
  regions an induction over the grid points); here they are put together.
-/
import proofs.«133695_j30227979829590_2_alg».proof.Proof.KChain
import proofs.«133695_j30227979829590_2_alg».proof.Proof.KReg0
import proofs.«133695_j30227979829590_2_alg».proof.Proof.KReg1
import proofs.«133695_j30227979829590_2_alg».proof.Proof.KReg2
import proofs.«133695_j30227979829590_2_alg».proof.Proof.KReg3
import proofs.«133695_j30227979829590_2_alg».proof.Proof.KReg4
import proofs.«133695_j30227979829590_2_alg».proof.Proof.KReg5
import proofs.«133695_j30227979829590_2_alg».proof.Proof.KReg6
import proofs.«133695_j30227979829590_2_alg».proof.Proof.KReg7
import proofs.«133695_j30227979829590_2_alg».proof.Proof.KReg8
import proofs.«133695_j30227979829590_2_alg».proof.Proof.KReg9

set_option maxRecDepth 16384
set_option maxHeartbeats 4000000

noncomputable section

namespace Cert.KernelIdeal.Chain

open Cert.KernelIdeal

/-- All fourteen region facts. -/
theorem regionFacts : RegionFacts where
  r0 := fun V c p q => Cert.KernelIdeal.Reg0.rows V c p q
  r1 := fun V c p q => Cert.KernelIdeal.Reg1.rows V c p q
  r2 := fun V c e q => Cert.KernelIdeal.Reg2.rows V c e q
  r3a := fun V c r q => Cert.KernelIdeal.Reg3.rows V c r q
  r3b := fun V c q => Cert.KernelIdeal.Reg3.sums_real V c q
  r3c := fun V c q => Cert.KernelIdeal.Reg3.sqs_real V c q
  r4 := fun V c r q => Cert.KernelIdeal.Reg4.rows V c r q
  r5 := fun V c e q => Cert.KernelIdeal.Reg5.rows V c e q
  r6 := fun V c e q => Cert.KernelIdeal.Reg6.rows V c e q
  r7a := fun V c r q => Cert.KernelIdeal.Reg7.rows V c r q
  r7b := fun V c q => Cert.KernelIdeal.Reg7.sums_real V c q
  r7c := fun V c q => Cert.KernelIdeal.Reg7.sqs_real V c q
  r8 := fun V c r q => Cert.KernelIdeal.Reg8.rows V c r q
  r9 := fun V c e q => Cert.KernelIdeal.Reg9.rows V c e q

end Cert.KernelIdeal.Chain

end
-- ==== Proof.lean ====
/-
  The certificate's claim: the kernel program (ten Pallas regions among host operations: two input projections and,
  per layer, a gather, the edge messages, a scatter-add, the node perceptron with its column sums, the batch
  normalisation and residual, two gathers and the edge update) and the reference (the same network as plain host
  operations) compute the same two arrays over the extended reals.

  Both sides are shown to compute ONE function of the argument arrays — the network `Cert.Gine.H2` / `Cert.Gine.E2`
  (proof/Proof/Spec.lean, Net.lean): the kernel side region by region from the bodies' payloads and the host stretches
  between them (KReg0 … KReg9, KChain), the reference side stage by stage from its run (RefRun, RefStages, RefRows,
  RefChain). The two differ in one formula, the variance of a column: the kernel takes the mean of the squares minus
  the square of the mean, the reference the mean of the squared deviations; these agree when every entry of the column
  is a real number, which follows from the precondition (all float inputs finite) because every stage maps real
  entries to real entries (SpecLaws, NetLaws, PreReal). The gathers and the scatter-add are the same host operations
  on both sides and are never opened. The three frames are the generated ones (the reference's from its run), and the
  idealisation rewrote nothing, so `preserves` is trivial (Assemble).
-/
import proofs.«133695_j30227979829590_2_alg».proof.Defs
import proofs.«133695_j30227979829590_2_alg».proof.Proof.Gen.Kernel
import proofs.«133695_j30227979829590_2_alg».proof.Proof.Gen.Kernel.Skeleton
import proofs.«133695_j30227979829590_2_alg».proof.Proof.Gen.Kernel.Launch
import proofs.«133695_j30227979829590_2_alg».proof.Proof.Gen.Kernel.Points
import proofs.«133695_j30227979829590_2_alg».proof.Proof.Gen.Kernel.Frame
import proofs.«133695_j30227979829590_2_alg».proof.Proof.Gen.KernelIdeal
import proofs.«133695_j30227979829590_2_alg».proof.Proof.Gen.KernelIdeal.Skeleton
import proofs.«133695_j30227979829590_2_alg».proof.Proof.Gen.KernelIdeal.Launch
import proofs.«133695_j30227979829590_2_alg».proof.Proof.Gen.KernelIdeal.Points
import proofs.«133695_j30227979829590_2_alg».proof.Proof.Gen.KernelIdeal.Frame
import proofs.«133695_j30227979829590_2_alg».proof.Proof.Gen.ReferenceIdeal
import proofs.«133695_j30227979829590_2_alg».proof.Proof.Gen.Pre_finite_inputs
import proofs.«133695_j30227979829590_2_alg».proof.Proof.Assemble
import proofs.«133695_j30227979829590_2_alg».proof.Proof.KFacts
import Idealize.ShloMosaic.Adequacy
import Idealize.ShloMosaic.Init

noncomputable section

namespace Cert.Proof

open Idealize.ShloMosaic Idealize.SL.Sem Cert.Kernel

theorem claim : Cert.Claim :=
  Cert.Proof.Assemble.claim
    (fun m ρ c => Cert.KernelIdeal.Chain.h2_final m ρ c Cert.KernelIdeal.Chain.regionFacts)
    (fun m ρ c => Cert.KernelIdeal.Chain.e2_rows m ρ c Cert.KernelIdeal.Chain.regionFacts)

end Cert.Proof

end
